-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v82)) (v1 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_v94) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S250000x3 : Shape := ⟨2, ![250000, 3]⟩
abbrev S100000x128 : Shape := ⟨2, ![100000, 128]⟩
abbrev S500x128 : Shape := ⟨2, ![500, 128]⟩
abbrev S128x384 : Shape := ⟨2, ![128, 384]⟩
abbrev S128 : Shape := ⟨1, ![128]⟩
abbrev S1x128 : Shape := ⟨2, ![1, 128]⟩
abbrev S1 : Shape := ⟨1, ![1]⟩
abbrev S384 : Shape := ⟨1, ![384]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S500x128 : S_.BroadcastsInDim S500x128 (![] : Fin 0 → Fin S500x128.rank)
  reducesTo_S500x128_S_d0_1 : S500x128.ReducesTo [0, 1] S_
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S384 : S_.BroadcastsInDim S384 (![] : Fin 0 → Fin S384.rank)
  reducesTo_S384_S_d0 : S384.ReducesTo [0] S_

variable [Facts]

def fn_part2 {F : FTy → Type} [FloatOps F] (main_arg8 : FVec F S384 .f32) (main_arg9 : FVec F S128 .f32) (main_arg10 : FVec F S128 .f32) (main_v33 : IVec S_ 1) : IVec S_ 1 :=
  let main_v34 : FVec F S384 .f32 := Host.absf main_arg8
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S1x128 .f32) (main_arg6 : FVec F S1 .f32) (main_arg7 : FVec F S384 .f32) (main_arg8 : FVec F S384 .f32) (main_arg9 : FVec F S128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1x128 .f32 := Host.absf main_arg5
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S384 .f32 := Host.absf main_arg7
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg8 main_arg9 main_arg10 main_v33

def fn {F : FTy → Type} [FloatOps F] (main_arg0 : IVec S250000x3 32) (main_arg1 : FVec F S100000x128 .f32) (main_arg2 : FVec F S500x128 .f32) (main_arg3 : FVec F S128x384 .f32) (main_arg4 : FVec F S128 .f32) (main_arg5 : FVec F S1x128 .f32) (main_arg6 : FVec F S1 .f32) (main_arg7 : FVec F S384 .f32) (main_arg8 : FVec F S384 .f32) (main_arg9 : FVec F S128 .f32) (main_arg10 : FVec F S128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S500x128 .f32 := Host.absf main_arg2
  let main_cst_0 : FVec F S_ .f32 := constant S_ .f32 0x7F800000#32
  let main_v5 : FVec F S500x128 .f32 := broadcastInDim S500x128 ![] bcast_S_S500x128 main_cst_0
  let main_v6 : IVec S500x128 1 := cmpf .olt main_v4 main_v5
  let main_c_1 : IVec S_ 1 := constantI S_ 1 1#1
  let main_v7 : IVec S_ 1 := (fun x v => Host.reduce IntOp.andi x v reducesTo_S500x128_S_d0_1 h_S_) main_v6 main_c_1
  let main_v8 : IVec S_ 1 := andi main_v3 main_v7
  let main_v9 : FVec F S128x384 .f32 := Host.absf main_arg3
  let main_cst_2 : FVec F S_ .f32 := constant S_ .f32 0x7F800000#32
  let main_v10 : FVec F S128x384 .f32 := broadcastInDim S128x384 ![] bcast_S_S128x384 main_cst_2
  let main_v11 : IVec S128x384 1 := cmpf .olt main_v9 main_v10
  let main_c_3 : IVec S_ 1 := constantI S_ 1 1#1
  let main_v12 : IVec S_ 1 := (fun x v => Host.reduce IntOp.andi x v reducesTo_S128x384_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S250000x3 : Shape := ⟨2, ![250000, 3]⟩
abbrev S100000x128 : Shape := ⟨2, ![100000, 128]⟩
abbrev S500x128 : Shape := ⟨2, ![500, 128]⟩
abbrev S128x384 : Shape := ⟨2, ![128, 384]⟩
abbrev S128 : Shape := ⟨1, ![128]⟩
abbrev S1x128 : Shape := ⟨2, ![1, 128]⟩
abbrev S1 : Shape := ⟨1, ![1]⟩
abbrev S384 : Shape := ⟨1, ![384]⟩
abbrev S250000x1 : Shape := ⟨2, ![250000, 1]⟩
abbrev S250000 : Shape := ⟨1, ![250000]⟩
abbrev S_ : Shape := ⟨0, ![]⟩
abbrev S250000x128 : Shape := ⟨2, ![250000, 128]⟩
abbrev S250000x384 : Shape := ⟨2, ![250000, 384]⟩
abbrev S500000x384 : Shape := ⟨2, ![500000, 384]⟩
abbrev S384x128 : Shape := ⟨2, ![384, 128]⟩
abbrev S1x384 : Shape := ⟨2, ![1, 384]⟩
abbrev S500000x128 : Shape := ⟨2, ![500000, 128]⟩
abbrev S4000x384 : Shape := ⟨2, ![4000, 384]⟩
abbrev S4000x128 : Shape := ⟨2, ![4000, 128]⟩
abbrev S1x1 : Shape := ⟨2, ![1, 1]⟩
abbrev S500000x1 : Shape := ⟨2, ![500000, 1]⟩
abbrev S4000x1 : Shape := ⟨2, ![4000, 1]⟩
abbrev S4000 : Shape := ⟨1, ![4000]⟩
abbrev S500000 : Shape := ⟨1, ![500000]⟩
abbrev S100000x1 : Shape := ⟨2, ![100000, 1]⟩
abbrev S500x1 : Shape := ⟨2, ![500, 1]⟩

abbrev nBuf : Space → Nat
  | .hbm => 133
  | .vmem => 20
  | .smem => 0
  | _ => 0

abbrev hbmTy0_0 (i : Nat) : BufTy := match i % 128 with
  | 0 => ⟨S250000x3, .i32⟩
  | 1 => ⟨S100000x128, .f32⟩
  | 2 => ⟨S500x128, .f32⟩
  | 3 => ⟨S128x384, .f32⟩
  | 4 => ⟨S128, .f32⟩
  | 5 => ⟨S1x128, .f32⟩
  | 6 => ⟨S1, .f32⟩
  | 7 => ⟨S384, .f32⟩
  | 8 => ⟨S384, .f32⟩
  | 9 => ⟨S128, .f32⟩
  | 10 => ⟨S128, .f32⟩
  | 11 => ⟨S250000x1, .i32⟩
  | 12 => ⟨S250000, .i32⟩
  | 13 => ⟨S250000x1, .i32⟩
  | 14 => ⟨S250000, .i32⟩
  | 15 => ⟨S250000x1, .i32⟩
  | 16 => ⟨S250000, .i32⟩
  | 17 => ⟨S_, .i32⟩
  | 18 => ⟨S250000, .i32⟩
  | 19 => ⟨S250000, .i1⟩
  | 20 => ⟨S_, .i32⟩
  | 21 => ⟨S250000, .i32⟩
  | 22 => ⟨S250000, .i32⟩
  | 23 => ⟨S250000, .i32⟩
  | 24 => ⟨S250000x1, .i32⟩
  | 25 => ⟨S250000x128, .f32⟩
  | 26 => ⟨S_, .i32⟩
  | 27 => ⟨S250000, .i32⟩
  | 28 => ⟨S250000, .i1⟩
  | 29 => ⟨S_, .i32⟩
  | 30 => ⟨S250000, .i32⟩
  | 31 => ⟨S250000, .i32⟩
  | 32 => ⟨S250000, .i32⟩
  | 33 => ⟨S250000x1, .i32⟩
  | 34 => ⟨S250000x128, .f32⟩
  | 35 => ⟨S_, .i32⟩
  | 36 => ⟨S250000, .i32⟩
  | 37 => ⟨S250000, .i1⟩
  | 38 => ⟨S_, .i32⟩
  | 39 => ⟨S250000, .i32⟩
  | 40 => ⟨S250000, .i32⟩
  | 41 => ⟨S250000, .i32⟩
  | 42 => ⟨S250000x1, .i32⟩
  | 43 => ⟨S250000x128, .f32⟩
  | 44 => ⟨S250000x384, .f32⟩
  | 45 => ⟨S250000x128, .f32⟩
  | 46 => ⟨S250000x384, .f32⟩
  | 47 => ⟨S500000x384, .f32⟩
  | 48 => ⟨S_, .f32⟩
  | 49 => ⟨S384, .f32⟩
  | 50 => ⟨S_, .f32⟩
  | 51 => ⟨S384, .f32⟩
  | 52 => ⟨S384, .f32⟩
  | 53 => ⟨S500000x384, .f32⟩
  | 54 => ⟨S_, .f32⟩
  | 55 => ⟨S384, .f32⟩
  | 56 => ⟨S_, .f32⟩
  | 57 => ⟨S384, .f32⟩
  | 58 => ⟨S384, .f32⟩
  | 59 => ⟨S384, .f32⟩
  | 60 => ⟨S384, .f32⟩
  | 61 => ⟨S_, .f32⟩
  | 62 => ⟨S384, .f32⟩
  | 63 => ⟨S384, .f32⟩
  | 64 => ⟨S384, .f32⟩
  | 65 => ⟨S384, .f32⟩
  | 66 => ⟨S384, .f32⟩
  | 67 => ⟨S384, .f32⟩
  | 68 => ⟨S500000x384, .bf16⟩
  | 69 => ⟨S384x128, .f32⟩
  | 70 => ⟨S384x128, .bf16⟩
  | 71 => ⟨S1x128, .f32⟩
  | 72 => ⟨S1x384, .f32⟩
  | 73 => ⟨S1x384, .f32⟩
  | 74 => ⟨S500000x128, .f32⟩
  | 75 => ⟨S1x128, .f32⟩
  | 76 => ⟨S1x128, .f32⟩
  | 77 => ⟨S128, .f32⟩
  | 78 => ⟨S_, .f32⟩
  | 79 => ⟨S128, .f32⟩
  | 80 => ⟨S128, .f32⟩
  | 81 => ⟨S128, .f32⟩
  | 82 => ⟨S_, .f32⟩
  | 83 => ⟨S128, .f32⟩
  | 84 => ⟨S128, .f32⟩
  | 85 => ⟨S128, .f32⟩
  | 86 => ⟨S128, .f32⟩
  | 87 => ⟨S_, .f32⟩
  | 88 => ⟨S128, .f32⟩
  | 89 => ⟨S128, .f32⟩
  | 90 => ⟨S128, .f32⟩
  | 91 => ⟨S128, .f32⟩
  | 92 => ⟨S128, .f32⟩
  | 93 => ⟨S128, .f32⟩
  | 94 => ⟨S1x1, .f32⟩
  | 95 => ⟨S1x128, .f32⟩
  | 96 => ⟨S1x128, .f32⟩
  | 97 => ⟨S500000x128, .f32⟩
  | 98 => ⟨S500000x1, .f32⟩
  | 99 => ⟨S500000, .i32⟩
  | 100 => ⟨S_, .f32⟩
  | 101 => ⟨S100000x1, .f32⟩
  | 102 => ⟨S500000x1, .i32⟩
  | 103 => ⟨S100000x1, .f32⟩
  | 104 => ⟨S_, .f32⟩
  | 105 => ⟨S100000x128, .f32⟩
  | 106 => ⟨S500000x1, .i32⟩
  | 107 => ⟨S100000x128, .f32⟩
  | 108 => ⟨S_, .f32⟩
  | 109 => ⟨S100000x1, .f32⟩
  | 110 => ⟨S100000x1, .i1⟩
  | 111 => ⟨S_, .f32⟩
  | 112 => ⟨S_, .f32⟩
  | 113 => ⟨S100000x1, .f32⟩
  | 114 => ⟨S100000x1, .f32⟩
  | 115 => ⟨S100000x128, .f32⟩
  | 116 => ⟨S100000x128, .f32⟩
  | 117 => ⟨S250000x128, .f32⟩
  | 118 => ⟨S_, .f32⟩
  | 119 => ⟨S500x128, .f32⟩
  | 120 => ⟨S250000x1, .i32⟩
  | 121 => ⟨S500x128, .f32⟩
  | 122 => ⟨S_, .f32⟩
  | 123 => ⟨S250000x1, .f32⟩
  | 124 => ⟨S_, .f32⟩
  | 125 => ⟨S500x1, .f32⟩
  | 126 => ⟨S250000x1, .i32⟩
  | 127 => ⟨S500x1, .f32⟩
  | _ => ⟨S250000x3, .i32⟩

abbrev hbmTy0_1 (i : Nat) : BufTy := match i % 128 with
  | 0 => ⟨S_, .f32⟩
  | 1 => ⟨S500x1, .f32⟩
  | 2 => ⟨S500x1, .f32⟩
  | 3 => ⟨S500x128, .f32⟩
  | 4 => ⟨S500x128, .f32⟩
  | _ => ⟨S250000x3, .i32⟩

abbrev hbmTy (i : Nat) : BufTy := match i / 128 with
  | 0 => hbmTy0_0 i
  | 1 => hbmTy0_1 i
  | _ => ⟨S250000x3, .i32⟩

abbrev bufTy : (tb : Table) → Fin (tcTables nBuf tb) → BufTy
  | .hbm, ⟨i, _⟩ => hbmTy i
  | .local _ .vmem, ⟨0, _⟩ => ⟨S4000x384, .bf16⟩
  | .local _ .vmem, ⟨1, _⟩ => ⟨S4000x384, .bf16⟩
  | .local _ .vmem, ⟨2, _⟩ => ⟨S1x384, .f32⟩
  | .local _ .vmem, ⟨3, _⟩ => ⟨S1x384, .f32⟩
  | .local _ .vmem, ⟨4, _⟩ => ⟨S384x128, .bf16⟩
  | .local _ .vmem, ⟨5, _⟩ => ⟨S1x128, .f32⟩
  | .local _ .vmem, ⟨6, _⟩ => ⟨S4000x128, .f32⟩
  | .local _ .vmem, ⟨7, _⟩ => ⟨S4000x128, .f32⟩
  | .local _ .vmem, ⟨8, _⟩ => ⟨S1x128, .f32⟩
  | .local _ .vmem, ⟨9, _⟩ => ⟨S1x128, .f32⟩
  | .local _ .vmem, ⟨10, _⟩ => ⟨S4000x128, .f32⟩
  | .local _ .vmem, ⟨11, _⟩ => ⟨S4000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x1, .f32⟩
  | .local _ .vmem, ⟨16, _⟩ => ⟨S4000x128, .f32⟩
  | .local _ .vmem, ⟨17, _⟩ => ⟨S4000x128, .f32⟩
  | .local _ .vmem, ⟨18, _⟩ => ⟨S4000x1, .f32⟩
  | .local _ .vmem, ⟨19, _⟩ => ⟨S4000x1, .f32⟩
  | _, _ => ⟨S250000x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52_0 : Ref sig .tc := ⟨.hbm, 74, rfl⟩
abbrev main_v52_1 : Ref sig .tc := ⟨.hbm, 75, rfl⟩
abbrev main_v52_2 : Ref sig .tc := ⟨.hbm, 76, rfl⟩
abbrev main_v53 : Ref sig .tc := ⟨.hbm, 77, rfl⟩
abbrev main_cst_9 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_10 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70_0 : Ref sig .tc := ⟨.hbm, 97, rfl⟩
abbrev main_v70_1 : Ref sig .tc := ⟨.hbm, 98, rfl⟩
abbrev main_v71 : Ref sig .tc := ⟨.hbm, 99, rfl⟩
abbrev main_cst_12 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_13 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_14 : Ref sig .tc := ⟨.hbm, 108, rfl⟩
abbrev main_v78 : Ref sig .tc := ⟨.hbm, 109, rfl⟩
abbrev main_v79 : Ref sig .tc := ⟨.hbm, 110, rfl⟩
abbrev main_cst_15 : Ref sig .tc := ⟨.hbm, 111, rfl⟩
abbrev main_call0_v0 : Ref sig .tc := ⟨.hbm, 112, rfl⟩
abbrev main_call0_v1 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_16 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_17 : Ref sig .tc := ⟨.hbm, 122, rfl⟩
abbrev main_v87 : Ref sig .tc := ⟨.hbm, 123, rfl⟩
abbrev main_cst_18 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_19 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S250000x3_S250000x1_0_0 : S250000x3.Slices ![0, 0] S250000x1
  shapeCasts_S250000x1_S250000 : S250000x1.ShapeCasts S250000
  slices_S250000x3_S250000x1_0_1 : S250000x3.Slices ![0, 1] S250000x1
  slices_S250000x3_S250000x1_0_2 : S250000x3.Slices ![0, 2] S250000x1
  bcast_S_S250000 : S_.BroadcastsInDim S250000 (![] : Fin 0 → Fin S250000.rank)
  bcast_S250000_S250000x1_0 : S250000.BroadcastsInDim S250000x1 (![0] : Fin 1 → Fin S250000x1.rank)
  concatenates_S250000x128_S250000x128_S250000x128_S250000x384_d1 : Shape.Concatenates [S250000x128, S250000x128, S250000x128] S250000x384 1
  concatenates_S250000x384_S250000x384_S500000x384_d0 : Shape.Concatenates [S250000x384, S250000x384] S500000x384 0
  reducesTo_S500000x384_S384_d0 : S500000x384.ReducesTo [0] S384
  h_S_ : 0 < S_.numel
  bcast_S_S384 : S_.BroadcastsInDim S384 (![] : Fin 0 → Fin S384.rank)
  bitsLt_bf16_f32 : FTy.bits .bf16 < FTy.bits .f32
  transposes_S128x384_S384x128_1_0 : S128x384.Transposes [1, 0] S384x128
  shapeCasts_S128_S1x128 : S128.ShapeCasts S1x128
  shapeCasts_S384_S1x384 : S384.ShapeCasts S1x384
  inb_S1x128_S1x128_0_0 : ∀ a, (![0, 0] : Fin 2 → Nat) a + S1x128.size a ≤ S1x128.size a
  h_S1x128 : 0 < S1x128.numel
  inb_S4000x384_S4000x384_0_0 : ∀ a, (![0, 0] : Fin 2 → Nat) a + S4000x384.size a ≤ S4000x384.size a
  h_S4000x384 : 0 < S4000x384.numel
  shapeCasts_S4000x384_S4000x384 : S4000x384.ShapeCasts S4000x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S4000x384 : S1x384.Broadcasts S4000x384
  inb_S384x128_S384x128_0_0 : ∀ a, (![0, 0] : Fin 2 → Nat) a + S384x128.size a ≤ S384x128.size a
  h_S384x128 : 0 < S384x128.numel
  shapeCasts_S384x128_S384x128 : S384x128.ShapeCasts S384x128
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  reduces_S4000x128_S128 : S4000x128.Reduces [0] S128
  shapeCasts_S1x128_S128 : S1x128.ShapeCasts S128
  bcast_S_S128 : S_.BroadcastsInDim S128 (![] : Fin 0 → Fin S128.rank)
  shapeCasts_S1_S1x1 : S1.ShapeCasts S1x1
  shapeCasts_S4000x128_S4000x128 : S4000x128.ShapeCasts S4000x128
  reduces_S4000x128_S4000 : S4000x128.Reduces [1] S4000
  shapeCasts_S4000_S4000x1 : S4000.ShapeCasts S4000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  broadcasts_S4000x1_S4000x128 : S4000x1.Broadcasts S4000x128
  concatenates_S250000_S250000_S500000_d0 : Shape.Concatenates [S250000, S250000] S500000 0
  bcast_S_S100000x1 : S_.BroadcastsInDim S100000x1 (![] : Fin 0 → Fin S100000x1.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S500000x128_S250000x128_0_0 : S500000x128.Slices ![0, 0] S250000x128
  bcast_S_S500x128 : S_.BroadcastsInDim S500x128 (![] : Fin 0 → Fin S500x128.rank)
  bcast_S_S250000x1 : S_.BroadcastsInDim S250000x1 (![] : Fin 0 → Fin S250000x1.rank)
  bcast_S_S500x1 : S_.BroadcastsInDim S500x1 (![] : Fin 0 → Fin S500x1.rank)
  bcast_S500x1_S500x128_0_1 : S500x1.BroadcastsInDim S500x128 (![0, 1] : Fin 2 → Fin S500x128.rank)
  gather_S100000x128_S250000x1_S250000x128_1_0_n_n_0_1_1128_wf : GatherDims.WF S100000x128 S250000x1 S250000x128 [1] [0] [] [0] [] 1 ![1, 128]
  gather_S500x128_S250000x1_S250000x128_1_0_n_n_0_1_1128_wf : GatherDims.WF S500x128 S250000x1 S250000x128 [1] [0] [] [0] [] 1 ![1, 128]
  dot_S4000x384_S384x128_S4000x128_1_0_0_1_n_n_wf : DotDims.WF S4000x384 S384x128 S4000x128 [1] [0] [0] [1] [] []
  scatter_S100000x1_S500000x1_S500000x1_1_0_0_1_wf : ScatterDims.WF S100000x1 S500000x1 S500000x1 [1] [0] [0] 1
  scatter_S100000x128_S500000x1_S500000x128_1_0_0_1_wf : ScatterDims.WF S100000x128 S500000x1 S500000x128 [1] [0] [0] 1
  scatter_S500x128_S250000x1_S250000x128_1_0_0_1_wf : ScatterDims.WF S500x128 S250000x1 S250000x128 [1] [0] [0] 1
  scatter_S500x1_S250000x1_S250000x1_1_0_0_1_wf : ScatterDims.WF S500x1 S250000x1 S250000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x384.size a ≤ S500000x384.size a
  hwx0_0 : ∀ i : grid0.Coords, EltTy.bits .bf16 = 32 ∨ (Rect.block (s := S500000x384) S4000x384.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x384.size a ≤ S1x384.size a
  hwx0_1 : ∀ i : grid0.Coords, EltTy.bits .f32 = 32 ∨ (Rect.block (s := S1x384) S1x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .bf16 = 32 ∨ (Rect.block (s := S384x128) S384x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S500000x128.size a
  hwx0_5 : ∀ i : grid0.Coords, EltTy.bits .f32 = 32 ∨ (Rect.block (s := S500000x128) S4000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S500000x128.size a
  hwx1_0 : ∀ i : grid1.Coords, EltTy.bits .f32 = 32 ∨ (Rect.block (s := S500000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S500000x128.size a
  hwx1_5 : ∀ i : grid1.Coords, EltTy.bits .f32 = 32 ∨ (Rect.block (s := S500000x128) S4000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x1.size a ≤ S500000x1.size a
  hwx1_6 : ∀ i : grid1.Coords, EltTy.bits .f32 = 32 ∨ (Rect.block (s := S500000x1) S4000x1.size (cc1_transform_6 i) (hinb1_6 i)).WholeWords (EltTy.packing .f32)

variable [Facts₀]

def gather_S100000x128_S250000x1_S250000x128_1_0_n_n_0_1_1128 : GatherDims S100000x128 S250000x1 S250000x128 where
  offsetDims := [1]
  collapsedSliceDims := [0]
  operandBatchingDims := []
  startIndicesBatchingDims := []
  startIndexMap := [0]
  indexVectorDim := 1
  sliceSizes := ![1, 128]
  wf := gather_S100000x128_S250000x1_S250000x128_1_0_n_n_0_1_1128_wf
def gather_S500x128_S250000x1_S250000x128_1_0_n_n_0_1_1128 : GatherDims S500x128 S250000x1 S250000x128 where
  offsetDims := [1]
  collapsedSliceDims := [0]
  operandBatchingDims := []
  startIndicesBatchingDims := []
  startIndexMap := [0]
  indexVectorDim := 1
  sliceSizes := ![1, 128]
  wf := gather_S500x128_S250000x1_S250000x128_1_0_n_n_0_1_1128_wf
def dot_S4000x384_S384x128_S4000x128_1_0_0_1_n_n : DotDims S4000x384 S384x128 S4000x128 where
  lhsContracting := [1]
  rhsContracting := [0]
  lhsNonContracting := [0]
  rhsNonContracting := [1]
  lhsBatch := []
  rhsBatch := []
  wf := dot_S4000x384_S384x128_S4000x128_1_0_0_1_n_n_wf
def scatter_S100000x1_S500000x1_S500000x1_1_0_0_1 : ScatterDims S100000x1 S500000x1 S500000x1 where
  updateWindowDims := [1]
  insertedWindowDims := [0]
  scatterDimsToOperandDims := [0]
  indexVectorDim := 1
  wf := scatter_S100000x1_S500000x1_S500000x1_1_0_0_1_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S500x128_S250000x1_S250000x128_1_0_0_1 : ScatterDims S500x128 S250000x1 S250000x128 where
  updateWindowDims := [1]
  insertedWindowDims := [0]
  scatterDimsToOperandDims := [0]
  indexVectorDim := 1
  wf := scatter_S500x128_S250000x1_S250000x128_1_0_0_1_wf
def scatter_S500x1_S250000x1_S250000x1_1_0_0_1 : ScatterDims S500x1 S250000x1 S250000x1 where
  updateWindowDims := [1]
  insertedWindowDims := [0]
  scatterDimsToOperandDims := [0]
  indexVectorDim := 1
  wf := scatter_S500x1_S250000x1_S250000x1_1_0_0_1_wf

abbrev win0_0 : Pipeline.Window sig grid0 :=
  Pipeline.Window.ofSpec (Memref.whole main_v46) S4000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S1x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v51) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v48) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v49) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v52_0) S4000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v52_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v52_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v52_0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v68) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v69) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v67) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v70_0) S4000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v70_1) S4000x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S250000x3 : Shape := ⟨2, ![250000, 3]⟩
abbrev S100000x128 : Shape := ⟨2, ![100000, 128]⟩
abbrev S500x128 : Shape := ⟨2, ![500, 128]⟩
abbrev S128x384 : Shape := ⟨2, ![128, 384]⟩
abbrev S128 : Shape := ⟨1, ![128]⟩
abbrev S1x128 : Shape := ⟨2, ![1, 128]⟩
abbrev S1 : Shape := ⟨1, ![1]⟩
abbrev S384 : Shape := ⟨1, ![384]⟩
abbrev S250000x1 : Shape := ⟨2, ![250000, 1]⟩
abbrev S250000 : Shape := ⟨1, ![250000]⟩
abbrev S_ : Shape := ⟨0, ![]⟩
abbrev S250000x128 : Shape := ⟨2, ![250000, 128]⟩
abbrev S250000x384 : Shape := ⟨2, ![250000, 384]⟩
abbrev S500000x384 : Shape := ⟨2, ![500000, 384]⟩
abbrev S1x384 : Shape := ⟨2, ![1, 384]⟩
abbrev S384x128 : Shape := ⟨2, ![384, 128]⟩
abbrev S500000x128 : Shape := ⟨2, ![500000, 128]⟩
abbrev S128x1 : Shape := ⟨2, ![128, 1]⟩
abbrev S500000x1 : Shape := ⟨2, ![500000, 1]⟩
abbrev S1x1 : Shape := ⟨2, ![1, 1]⟩
abbrev S500000 : Shape := ⟨1, ![500000]⟩
abbrev S100000x1 : Shape := ⟨2, ![100000, 1]⟩
abbrev S500x1 : Shape := ⟨2, ![500, 1]⟩

abbrev nBuf : Space → Nat
  | .hbm => 163
  | .vmem => 0
  | .smem => 0
  | _ => 0

abbrev hbmTy0_0 (i : Nat) : BufTy := match i % 128 with
  | 0 => ⟨S250000x3, .i32⟩
  | 1 => ⟨S100000x128, .f32⟩
  | 2 => ⟨S500x128, .f32⟩
  | 3 => ⟨S128x384, .f32⟩
  | 4 => ⟨S128, .f32⟩
  | 5 => ⟨S1x128, .f32⟩
  | 6 => ⟨S1, .f32⟩
  | 7 => ⟨S384, .f32⟩
  | 8 => ⟨S384, .f32⟩
  | 9 => ⟨S128, .f32⟩
  | 10 => ⟨S128, .f32⟩
  | 11 => ⟨S250000x1, .i32⟩
  | 12 => ⟨S250000, .i32⟩
  | 13 => ⟨S250000x1, .i32⟩
  | 14 => ⟨S250000, .i32⟩
  | 15 => ⟨S250000x1, .i32⟩
  | 16 => ⟨S250000, .i32⟩
  | 17 => ⟨S_, .i32⟩
  | 18 => ⟨S250000, .i32⟩
  | 19 => ⟨S250000, .i1⟩
  | 20 => ⟨S_, .i32⟩
  | 21 => ⟨S250000, .i32⟩
  | 22 => ⟨S250000, .i32⟩
  | 23 => ⟨S250000, .i32⟩
  | 24 => ⟨S250000x1, .i32⟩
  | 25 => ⟨S250000x128, .f32⟩
  | 26 => ⟨S_, .i32⟩
  | 27 => ⟨S250000, .i32⟩
  | 28 => ⟨S250000, .i1⟩
  | 29 => ⟨S_, .i32⟩
  | 30 => ⟨S250000, .i32⟩
  | 31 => ⟨S250000, .i32⟩
  | 32 => ⟨S250000, .i32⟩
  | 33 => ⟨S250000x1, .i32⟩
  | 34 => ⟨S250000x128, .f32⟩
  | 35 => ⟨S_, .i32⟩
  | 36 => ⟨S250000, .i32⟩
  | 37 => ⟨S250000, .i1⟩
  | 38 => ⟨S_, .i32⟩
  | 39 => ⟨S250000, .i32⟩
  | 40 => ⟨S250000, .i32⟩
  | 41 => ⟨S250000, .i32⟩
  | 42 => ⟨S250000x1, .i32⟩
  | 43 => ⟨S250000x128, .f32⟩
  | 44 => ⟨S250000x384, .f32⟩
  | 45 => ⟨S250000x128, .f32⟩
  | 46 => ⟨S250000x384, .f32⟩
  | 47 => ⟨S500000x384, .f32⟩
  | 48 => ⟨S_, .f32⟩
  | 49 => ⟨S384, .f32⟩
  | 50 => ⟨S_, .f32⟩
  | 51 => ⟨S384, .f32⟩
  | 52 => ⟨S384, .f32⟩
  | 53 => ⟨S1x384, .f32⟩
  | 54 => ⟨S500000x384, .f32⟩
  | 55 => ⟨S500000x384, .f32⟩
  | 56 => ⟨S500000x384, .f32⟩
  | 57 => ⟨S_, .f32⟩
  | 58 => ⟨S384, .f32⟩
  | 59 => ⟨S_, .f32⟩
  | 60 => ⟨S384, .f32⟩
  | 61 => ⟨S384, .f32⟩
  | 62 => ⟨S1x384, .f32⟩
  | 63 => ⟨S500000x384, .f32⟩
  | 64 => ⟨S500000x384, .f32⟩
  | 65 => ⟨S_, .f32⟩
  | 66 => ⟨S384, .f32⟩
  | 67 => ⟨S384, .f32⟩
  | 68 => ⟨S384, .f32⟩
  | 69 => ⟨S1x384, .f32⟩
  | 70 => ⟨S500000x384, .f32⟩
  | 71 => ⟨S500000x384, .f32⟩
  | 72 => ⟨S1x384, .f32⟩
  | 73 => ⟨S500000x384, .f32⟩
  | 74 => ⟨S500000x384, .f32⟩
  | 75 => ⟨S1x384, .f32⟩
  | 76 => ⟨S500000x384, .f32⟩
  | 77 => ⟨S500000x384, .f32⟩
  | 78 => ⟨S384x128, .f32⟩
  | 79 => ⟨S500000x128, .f32⟩
  | 80 => ⟨S1x128, .f32⟩
  | 81 => ⟨S500000x128, .f32⟩
  | 82 => ⟨S500000x128, .f32⟩
  | 83 => ⟨S_, .f32⟩
  | 84 => ⟨S128, .f32⟩
  | 85 => ⟨S_, .f32⟩
  | 86 => ⟨S128, .f32⟩
  | 87 => ⟨S128, .f32⟩
  | 88 => ⟨S1x128, .f32⟩
  | 89 => ⟨S500000x128, .f32⟩
  | 90 => ⟨S500000x128, .f32⟩
  | 91 => ⟨S500000x128, .f32⟩
  | 92 => ⟨S_, .f32⟩
  | 93 => ⟨S128, .f32⟩
  | 94 => ⟨S_, .f32⟩
  | 95 => ⟨S128, .f32⟩
  | 96 => ⟨S128, .f32⟩
  | 97 => ⟨S1x128, .f32⟩
  | 98 => ⟨S500000x128, .f32⟩
  | 99 => ⟨S500000x128, .f32⟩
  | 100 => ⟨S_, .f32⟩
  | 101 => ⟨S128, .f32⟩
  | 102 => ⟨S128, .f32⟩
  | 103 => ⟨S128, .f32⟩
  | 104 => ⟨S1x128, .f32⟩
  | 105 => ⟨S500000x128, .f32⟩
  | 106 => ⟨S500000x128, .f32⟩
  | 107 => ⟨S1x128, .f32⟩
  | 108 => ⟨S500000x128, .f32⟩
  | 109 => ⟨S500000x128, .f32⟩
  | 110 => ⟨S1x128, .f32⟩
  | 111 => ⟨S500000x128, .f32⟩
  | 112 => ⟨S500000x128, .f32⟩
  | 113 => ⟨S128x1, .f32⟩
  | 114 => ⟨S500000x1, .f32⟩
  | 115 => ⟨S1x1, .f32⟩
  | 116 => ⟨S500000x1, .f32⟩
  | 117 => ⟨S500000x1, .f32⟩
  | 118 => ⟨S_, .f32⟩
  | 119 => ⟨S500000x1, .f32⟩
  | 120 => ⟨S500000x1, .i1⟩
  | 121 => ⟨S_, .f32⟩
  | 122 => ⟨S500000x1, .f32⟩
  | 123 => ⟨S500000x1, .f32⟩
  | 124 => ⟨S500000x1, .f32⟩
  | 125 => ⟨S500000x1, .f32⟩
  | 126 => ⟨S500000x1, .f32⟩
  | 127 => ⟨S500000, .i32⟩
  | _ => ⟨S250000x3, .i32⟩

abbrev hbmTy0_1 (i : Nat) : BufTy := match i % 128 with
  | 0 => ⟨S500000x128, .f32⟩
  | 1 => ⟨S500000x128, .f32⟩
  | 2 => ⟨S_, .f32⟩
  | 3 => ⟨S100000x1, .f32⟩
  | 4 => ⟨S500000x1, .i32⟩
  | 5 => ⟨S100000x1, .f32⟩
  | 6 => ⟨S_, .f32⟩
  | 7 => ⟨S100000x128, .f32⟩
  | 8 => ⟨S500000x1, .i32⟩
  | 9 => ⟨S100000x128, .f32⟩
  | 10 => ⟨S_, .f32⟩
  | 11 => ⟨S100000x1, .f32⟩
  | 12 => ⟨S100000x1, .i1⟩
  | 13 => ⟨S_, .f32⟩
  | 14 => ⟨S_, .f32⟩
  | 15 => ⟨S100000x1, .f32⟩
  | 16 => ⟨S100000x1, .f32⟩
  | 17 => ⟨S100000x128, .f32⟩
  | 18 => ⟨S100000x128, .f32⟩
  | 19 => ⟨S250000x128, .f32⟩
  | 20 => ⟨S_, .f32⟩
  | 21 => ⟨S500x128, .f32⟩
  | 22 => ⟨S250000x1, .i32⟩
  | 23 => ⟨S500x128, .f32⟩
  | 24 => ⟨S_, .f32⟩
  | 25 => ⟨S250000x1, .f32⟩
  | 26 => ⟨S_, .f32⟩
  | 27 => ⟨S500x1, .f32⟩
  | 28 => ⟨S250000x1, .i32⟩
  | 29 => ⟨S500x1, .f32⟩
  | 30 => ⟨S_, .f32⟩
  | 31 => ⟨S500x1, .f32⟩
  | 32 => ⟨S500x1, .f32⟩
  | 33 => ⟨S500x128, .f32⟩
  | 34 => ⟨S500x128, .f32⟩
  | _ => ⟨S250000x3, .i32⟩

abbrev hbmTy (i : Nat) : BufTy := match i / 128 with
  | 0 => hbmTy0_0 i
  | 1 => hbmTy0_1 i
  | _ => ⟨S250000x3, .i32⟩

abbrev bufTy : (tb : Table) → Fin (tcTables nBuf tb) → BufTy
  | .hbm, ⟨i, _⟩ => hbmTy i
  | _, _ => ⟨S250000x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_9 : Ref sig .tc := ⟨.hbm, 83, rfl⟩
abbrev main_v61 : Ref sig .tc := ⟨.hbm, 84, rfl⟩
abbrev main_cst_10 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_11 : Ref sig .tc := ⟨.hbm, 92, rfl⟩
abbrev main_v68 : Ref sig .tc := ⟨.hbm, 93, rfl⟩
abbrev main_cst_12 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_13 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_14 : Ref sig .tc := ⟨.hbm, 118, rfl⟩
abbrev main_v91 : Ref sig .tc := ⟨.hbm, 119, rfl⟩
abbrev main_v92 : Ref sig .tc := ⟨.hbm, 120, rfl⟩
abbrev main_cst_15 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_16 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_17 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_18 : Ref sig .tc := ⟨.hbm, 138, rfl⟩
abbrev main_v107 : Ref sig .tc := ⟨.hbm, 139, rfl⟩
abbrev main_v108 : Ref sig .tc := ⟨.hbm, 140, rfl⟩
abbrev main_cst_19 : Ref sig .tc := ⟨.hbm, 141, rfl⟩
abbrev main_call1_v0 : Ref sig .tc := ⟨.hbm, 142, rfl⟩
abbrev main_call1_v1 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_20 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_21 : Ref sig .tc := ⟨.hbm, 152, rfl⟩
abbrev main_v116 : Ref sig .tc := ⟨.hbm, 153, rfl⟩
abbrev main_cst_22 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_cst_23 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩

abbrev nD : Nat := 1
abbrev τ : Topo := Topo.v7x

variable {F : FTy → Type} [FloatOps F]

class Facts₀ : Prop where
  slices_S250000x3_S250000x1_0_0 : S250000x3.Slices ![0, 0] S250000x1
  shapeCasts_S250000x1_S250000 : S250000x1.ShapeCasts S250000
  slices_S250000x3_S250000x1_0_1 : S250000x3.Slices ![0, 1] S250000x1
  slices_S250000x3_S250000x1_0_2 : S250000x3.Slices ![0, 2] S250000x1
  bcast_S_S250000 : S_.BroadcastsInDim S250000 (![] : Fin 0 → Fin S250000.rank)
  bcast_S250000_S250000x1_0 : S250000.BroadcastsInDim S250000x1 (![0] : Fin 1 → Fin S250000x1.rank)
  concatenates_S250000x128_S250000x128_S250000x128_S250000x384_d1 : Shape.Concatenates [S250000x128, S250000x128, S250000x128] S250000x384 1
  concatenates_S250000x384_S250000x384_S500000x384_d0 : Shape.Concatenates [S250000x384, S250000x384] S500000x384 0
  reducesTo_S500000x384_S384_d0 : S500000x384.ReducesTo [0] S384
  h_S_ : 0 < S_.numel
  bcast_S_S384 : S_.BroadcastsInDim S384 (![] : Fin 0 → Fin S384.rank)
  bcast_S384_S1x384_1 : S384.BroadcastsInDim S1x384 (![1] : Fin 1 → Fin S1x384.rank)
  bcast_S1x384_S500000x384_0_1 : S1x384.BroadcastsInDim S500000x384 (![0, 1] : Fin 2 → Fin S500000x384.rank)
  transposes_S128x384_S384x128_1_0 : S128x384.Transposes [1, 0] S384x128
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  reducesTo_S500000x128_S128_d0 : S500000x128.ReducesTo [0] S128
  bcast_S_S128 : S_.BroadcastsInDim S128 (![] : Fin 0 → Fin S128.rank)
  transposes_S1x128_S128x1_1_0 : S1x128.Transposes [1, 0] S128x1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  concatenates_S250000_S250000_S500000_d0 : Shape.Concatenates [S250000, S250000] S500000 0
  bcast_S500000x1_S500000x128_0_1 : S500000x1.BroadcastsInDim S500000x128 (![0, 1] : Fin 2 → Fin S500000x128.rank)
  bcast_S_S100000x1 : S_.BroadcastsInDim S100000x1 (![] : Fin 0 → Fin S100000x1.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S500000x128_S250000x128_0_0 : S500000x128.Slices ![0, 0] S250000x128
  bcast_S_S500x128 : S_.BroadcastsInDim S500x128 (![] : Fin 0 → Fin S500x128.rank)
  bcast_S_S250000x1 : S_.BroadcastsInDim S250000x1 (![] : Fin 0 → Fin S250000x1.rank)
  bcast_S_S500x1 : S_.BroadcastsInDim S500x1 (![] : Fin 0 → Fin S500x1.rank)
  bcast_S500x1_S500x128_0_1 : S500x1.BroadcastsInDim S500x128 (![0, 1] : Fin 2 → Fin S500x128.rank)
  gather_S100000x128_S250000x1_S250000x128_1_0_n_n_0_1_1128_wf : GatherDims.WF S100000x128 S250000x1 S250000x128 [1] [0] [] [0] [] 1 ![1, 128]
  gather_S500x128_S250000x1_S250000x128_1_0_n_n_0_1_1128_wf : GatherDims.WF S500x128 S250000x1 S250000x128 [1] [0] [] [0] [] 1 ![1, 128]
  dot_S500000x384_S384x128_S500000x128_1_0_0_1_n_n_wf : DotDims.WF S500000x384 S384x128 S500000x128 [1] [0] [0] [1] [] []
  dot_S500000x128_S128x1_S500000x1_1_0_0_1_n_n_wf : DotDims.WF S500000x128 S128x1 S500000x1 [1] [0] [0] [1] [] []
  scatter_S100000x1_S500000x1_S500000x1_1_0_0_1_wf : ScatterDims.WF S100000x1 S500000x1 S500000x1 [1] [0] [0] 1
  scatter_S100000x128_S500000x1_S500000x128_1_0_0_1_wf : ScatterDims.WF S100000x128 S500000x1 S500000x128 [1] [0] [0] 1
  scatter_S500x128_S250000x1_S250000x128_1_0_0_1_wf : ScatterDims.WF S500x128 S250000x1 S250000x128 [1] [0] [0] 1
  scatter_S500x1_S250000x1_S250000x1_1_0_0_1_wf : ScatterDims.WF S500x1 S250000x1 S250000x1 [1] [0] [0] 1

variable [Facts₀]

def gather_S100000x128_S250000x1_S250000x128_1_0_n_n_0_1_1128 : GatherDims S100000x128 S250000x1 S250000x128 where
  offsetDims := [1]
  collapsedSliceDims := [0]
  operandBatchingDims := []
  startIndicesBatchingDims := []
  startIndexMap := [0]
  indexVectorDim := 1
  sliceSizes := ![1, 128]
  wf := gather_S100000x128_S250000x1_S250000x128_1_0_n_n_0_1_1128_wf
def gather_S500x128_S250000x1_S250000x128_1_0_n_n_0_1_1128 : GatherDims S500x128 S250000x1 S250000x128 where
  offsetDims := [1]
  collapsedSliceDims := [0]
  operandBatchingDims := []
  startIndicesBatchingDims := []
  startIndexMap := [0]
  indexVectorDim := 1
  sliceSizes := ![1, 128]
  wf := gather_S500x128_S250000x1_S250000x128_1_0_n_n_0_1_1128_wf
def dot_S500000x384_S384x128_S500000x128_1_0_0_1_n_n : DotDims S500000x384 S384x128 S500000x128 where
  lhsContracting := [1]
  rhsContracting := [0]
  lhsNonContracting := [0]
  rhsNonContracting := [1]
  lhsBatch := []
  rhsBatch := []
  wf := dot_S500000x384_S384x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf
def scatter_S100000x1_S500000x1_S500000x1_1_0_0_1 : ScatterDims S100000x1 S500000x1 S500000x1 where
  updateWindowDims := [1]
  insertedWindowDims := [0]
  scatterDimsToOperandDims := [0]
  indexVectorDim := 1
  wf := scatter_S100000x1_S500000x1_S500000x1_1_0_0_1_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S500x128_S250000x1_S250000x128_1_0_0_1 : ScatterDims S500x128 S250000x1 S250000x128 where
  updateWindowDims := [1]
  insertedWindowDims := [0]
  scatterDimsToOperandDims := [0]
  indexVectorDim := 1
  wf := scatter_S500x128_S250000x1_S250000x128_1_0_0_1_wf
def scatter_S500x1_S250000x1_S250000x1_1_0_0_1 : ScatterDims S500x1 S250000x1 S250000x1 where
  updateWindowDims := [1]
  insertedWindowDims := [0]
  scatterDimsToOperandDims := [0]
  indexVectorDim := 1
  wf := scatter_S500x1_S250000x1_S250000x1_1_0_0_1_wf

class Facts : Prop extends Facts₀ where

variable [Facts]
-- ==== Proof.K.Reg0.lean ====
/-
  The first Pallas call (normalise, project, and accumulate the column statistics): at grid point t the body reads
  rows 4000·t … 4000·t+3999 of the gathered features, the per-column scale and shift of the first batch
  normalisation, the transposed projection matrix and the projection bias; it writes the same rows of the projected
  array, and it keeps two running rows — the column sums of the projected array and of its square — which it sets
  to zero at the first point and adds the block's column sums to at every point. Those two rows live in one staging
  buffer each, never written back before the last point, so what the body finds there at a later point is what it
  left at the point before. The body's two cases (first point, later point) are run separately; what each leaves in
  the three output buffers is read off that case's run as a list of stores.
-/
import proofs.«114553_j89962384982591_1_alg».proof.Proof.Gen.Kernel.Launch
import proofs.«114553_j89962384982591_1_alg».proof.Proof.Gen.Kernel.Skeleton
import proofs.«114553_j89962384982591_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

section Inputs
variable {c : Dev nD} (dat : Dat τ (Elt F) Unit ℕ (UR sig nD τ) ℕ cfg0 c)
/- An input window's staging buffer holds the window's block at every point, fetched there or not. -/
theorem before0_0_of (hA : dat.A 0 = V c (Pipeline.arrRef spec0 0)) (hafter : ∀ t, dat.after 0 t = iblk0 V c 0 t) (t : Fin cfg0.N) (d) :
    dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of (hA : dat.A 1 = V c (Pipeline.arrRef spec0 1)) (hafter : ∀ t, dat.after 1 t = iblk0 V c 1 t) (t : Fin cfg0.N) (d) :
    dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of (hA : dat.A 2 = V c (Pipeline.arrRef spec0 2)) (hafter : ∀ t, dat.after 2 t = iblk0 V c 2 t) (t : Fin cfg0.N) (d) :
    dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of (hA : dat.A 3 = V c (Pipeline.arrRef spec0 3)) (hafter : ∀ t, dat.after 3 t = iblk0 V c 3 t) (t : Fin cfg0.N) (d) :
    dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of (hA : dat.A 4 = V c (Pipeline.arrRef spec0 4)) (hafter : ∀ t, dat.after 4 t = iblk0 V c 4 t) (t : Fin cfg0.N) (d) :
    dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
end Inputs

/-! ## The body's one branch: taken at the first grid point only -/

/-- The branch condition as the body computes it from the grid coordinate. -/
abbrev first0 (i : grid0.Coords) : Prop :=
  (Scalar.cmpi .ne (Scalar.extui (Scalar.cmpi .eq (BitVec.ofNat 32 (i 0).val) 0#32)) 0#32) = 1#1
/-- It holds at the first point and at no other (decided over the 125 points). -/
theorem first0_iff : ∀ t : Fin cfg0.N, first0 (grid0.coords t) ↔ t.val = 0 :=
  (by decide +kernel : ∀ t : Fin grid0.N, first0 (grid0.coords t) ↔ t.val = 0)

/-- Each window's staging buffer at point `t`, as the pipeline passes it to the body. -/
abbrev mem0_0 (t : Fin cfg0.N) : Memref sig .tc .vmem S4000x384 .bf16 := win0_0.stage (cfg0.slots t 0)
abbrev whole0_0 (t : Fin cfg0.N) : (mem0_0 t).IsWhole := hstage0_0 ((cfg0.slots t 0).cast nbuf0_0)
abbrev mem0_1 (t : Fin cfg0.N) : Memref sig .tc .vmem S1x384 .f32 := win0_1.stage (cfg0.slots t 1)
abbrev whole0_1 (t : Fin cfg0.N) : (mem0_1 t).IsWhole := hstage0_1 ((cfg0.slots t 1).cast nbuf0_1)
abbrev mem0_2 (t : Fin cfg0.N) : Memref sig .tc .vmem S1x384 .f32 := win0_2.stage (cfg0.slots t 2)
abbrev whole0_2 (t : Fin cfg0.N) : (mem0_2 t).IsWhole := hstage0_2 ((cfg0.slots t 2).cast nbuf0_2)
abbrev mem0_3 (t : Fin cfg0.N) : Memref sig .tc .vmem S384x128 .bf16 := win0_3.stage (cfg0.slots t 3)
abbrev whole0_3 (t : Fin cfg0.N) : (mem0_3 t).IsWhole := hstage0_3 ((cfg0.slots t 3).cast nbuf0_3)
abbrev mem0_4 (t : Fin cfg0.N) : Memref sig .tc .vmem S1x128 .f32 := win0_4.stage (cfg0.slots t 4)
abbrev whole0_4 (t : Fin cfg0.N) : (mem0_4 t).IsWhole := hstage0_4 ((cfg0.slots t 4).cast nbuf0_4)
abbrev mem0_5 (t : Fin cfg0.N) : Memref sig .tc .vmem S4000x128 .f32 := win0_5.stage (cfg0.slots t 5)
abbrev whole0_5 (t : Fin cfg0.N) : (mem0_5 t).IsWhole := hstage0_5 ((cfg0.slots t 5).cast nbuf0_5)
abbrev mem0_6 (t : Fin cfg0.N) : Memref sig .tc .vmem S1x128 .f32 := win0_6.stage (cfg0.slots t 6)
abbrev whole0_6 (t : Fin cfg0.N) : (mem0_6 t).IsWhole := hstage0_6 ((cfg0.slots t 6).cast nbuf0_6)
abbrev mem0_7 (t : Fin cfg0.N) : Memref sig .tc .vmem S1x128 .f32 := win0_7.stage (cfg0.slots t 7)
abbrev whole0_7 (t : Fin cfg0.N) : (mem0_7 t).IsWhole := hstage0_7 ((cfg0.slots t 7).cast nbuf0_7)

/-! ## The body's two runs -/

set_option maxHeartbeats 2000000 in
/-- FIRST POINT. On whole staging buffers — the inputs at known contents, the three outputs at anything — the body
    ends with the inputs as they were and each output buffer overwritten by a list of stores (last first), which the
    run finds. -/
noncomputable def run0_first (c : Dev nD) (i : grid0.Coords) (arg1 : Memref sig .tc .vmem S4000x384 .bf16) (harg1 : arg1.IsWhole) (arg2 : Memref sig .tc .vmem S1x384 .f32) (harg2 : arg2.IsWhole) (arg3 : Memref sig .tc .vmem S1x384 .f32) (harg3 : arg3.IsWhole) (arg4 : Memref sig .tc .vmem S384x128 .bf16) (harg4 : arg4.IsWhole) (arg5 : Memref sig .tc .vmem S1x128 .f32) (harg5 : arg5.IsWhole) (arg6 : Memref sig .tc .vmem S4000x128 .f32) (harg6 : arg6.IsWhole) (arg7 : Memref sig .tc .vmem S1x128 .f32) (harg7 : arg7.IsWhole) (arg8 : Memref sig .tc .vmem S1x128 .f32) (harg8 : arg8.IsWhole) (hc : first0 i)
    (x0 : Vec F S4000x384 .bf16) (x1 x2 : Vec F S1x384 .f32) (x3 : Vec F S384x128 .bf16) (x4 : Vec F S1x128 .f32) :
    (L5 : List (View.Piece (Elt F) S4000x128 .f32)) ×' (L6 : List (View.Piece (Elt F) S1x128 .f32)) ×' { L7 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc0__kernel1_body i arg1 harg1 arg2 harg2 arg3 harg3 arg4 harg4 arg5 harg5 arg6 harg6 arg7 harg7 arg8 harg8) K } := by
  refine ⟨?_, ?_, ?_, fun E K => ?run⟩
  case run =>
    simp only [cc0__kernel1_body_eq_skeleton]; unfold cc0__kernel1_body_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

set_option maxHeartbeats 2000000 in
/-- A LATER POINT. The two running rows are found at known contents `s`, `q`; the projected block's buffer at
    anything. -/
noncomputable def run0_later (c : Dev nD) (i : grid0.Coords) (arg1 : Memref sig .tc .vmem S4000x384 .bf16) (harg1 : arg1.IsWhole) (arg2 : Memref sig .tc .vmem S1x384 .f32) (harg2 : arg2.IsWhole) (arg3 : Memref sig .tc .vmem S1x384 .f32) (harg3 : arg3.IsWhole) (arg4 : Memref sig .tc .vmem S384x128 .bf16) (harg4 : arg4.IsWhole) (arg5 : Memref sig .tc .vmem S1x128 .f32) (harg5 : arg5.IsWhole) (arg6 : Memref sig .tc .vmem S4000x128 .f32) (harg6 : arg6.IsWhole) (arg7 : Memref sig .tc .vmem S1x128 .f32) (harg7 : arg7.IsWhole) (arg8 : Memref sig .tc .vmem S1x128 .f32) (harg8 : arg8.IsWhole) (hc : ¬first0 i)
    (x0 : Vec F S4000x384 .bf16) (x1 x2 : Vec F S1x384 .f32) (x3 : Vec F S384x128 .bf16) (x4 : Vec F S1x128 .f32) (s q : Vec F S1x128 .f32) :
    (L5 : List (View.Piece (Elt F) S4000x128 .f32)) ×' (L6 : List (View.Piece (Elt F) S1x128 .f32)) ×' { L7 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare s ∗ owns (c : Thread nD τ) arg8 fullShare q
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc0__kernel1_body i arg1 harg1 arg2 harg2 arg3 harg3 arg4 harg4 arg5 harg5 arg6 harg6 arg7 harg7 arg8 harg8) K } := by
  refine ⟨?_, ?_, ?_, fun E K => ?run⟩
  case run =>
    simp only [cc0__kernel1_body_eq_skeleton]; unfold cc0__kernel1_body_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hf6; obtain rfl := harg8.eq_unread hf7
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

end Cert.Kernel.Frame

end
-- ==== Proof.K.Reg0Data.lean ====
/-
  What the first Pallas call's three output buffers hold after each grid point, by recursion on the point (the two
  running rows at a later point are computed from what the point before left), the pipeline's proof data built on
  it, and the body's obligation at a generic point: the first point runs the branch that resets the running rows,
  every later point finds them as the point before left them, because neither is written back before the last point.
-/
import proofs.«114553_j89962384982591_1_alg».proof.Proof.K.Reg0

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each run's stores cover the buffer they go to -/

theorem cover0_first_5 (c : Dev nD) (i : grid0.Coords) (arg1 : Memref sig .tc .vmem S4000x384 .bf16) (harg1 : arg1.IsWhole) (arg2 : Memref sig .tc .vmem S1x384 .f32) (harg2 : arg2.IsWhole) (arg3 : Memref sig .tc .vmem S1x384 .f32) (harg3 : arg3.IsWhole) (arg4 : Memref sig .tc .vmem S384x128 .bf16) (harg4 : arg4.IsWhole) (arg5 : Memref sig .tc .vmem S1x128 .f32) (harg5 : arg5.IsWhole) (arg6 : Memref sig .tc .vmem S4000x128 .f32) (harg6 : arg6.IsWhole) (arg7 : Memref sig .tc .vmem S1x128 .f32) (harg7 : arg7.IsWhole) (arg8 : Memref sig .tc .vmem S1x128 .f32) (harg8 : arg8.IsWhole) (hc : first0 i)
    (x0 : Vec F S4000x384 .bf16) (x1 x2 : Vec F S1x384 .f32) (x3 : Vec F S384x128 .bf16) (x4 : Vec F S1x128 .f32)  (y : S4000x128.Idx) :
    ∃ pc ∈ (run0_first c i arg1 harg1 arg2 harg2 arg3 harg3 arg4 harg4 arg5 harg5 arg6 harg6 arg7 harg7 arg8 harg8 hc x0 x1 x2 x3 x4 ).1, y ∈ pc.1.set :=
  View.cover_of_tiledL (run0_first c i arg1 harg1 arg2 harg2 arg3 harg3 arg4 harg4 arg5 harg5 arg6 harg6 arg7 harg7 arg8 harg8 hc x0 x1 x2 x3 x4 ).1 S4000x128.size (by sl_kernel_rfl) y
theorem cover0_first_6 (c : Dev nD) (i : grid0.Coords) (arg1 : Memref sig .tc .vmem S4000x384 .bf16) (harg1 : arg1.IsWhole) (arg2 : Memref sig .tc .vmem S1x384 .f32) (harg2 : arg2.IsWhole) (arg3 : Memref sig .tc .vmem S1x384 .f32) (harg3 : arg3.IsWhole) (arg4 : Memref sig .tc .vmem S384x128 .bf16) (harg4 : arg4.IsWhole) (arg5 : Memref sig .tc .vmem S1x128 .f32) (harg5 : arg5.IsWhole) (arg6 : Memref sig .tc .vmem S4000x128 .f32) (harg6 : arg6.IsWhole) (arg7 : Memref sig .tc .vmem S1x128 .f32) (harg7 : arg7.IsWhole) (arg8 : Memref sig .tc .vmem S1x128 .f32) (harg8 : arg8.IsWhole) (hc : first0 i)
    (x0 : Vec F S4000x384 .bf16) (x1 x2 : Vec F S1x384 .f32) (x3 : Vec F S384x128 .bf16) (x4 : Vec F S1x128 .f32)  (y : S1x128.Idx) :
    ∃ pc ∈ (run0_first c i arg1 harg1 arg2 harg2 arg3 harg3 arg4 harg4 arg5 harg5 arg6 harg6 arg7 harg7 arg8 harg8 hc x0 x1 x2 x3 x4 ).2.1, y ∈ pc.1.set :=
  View.cover_of_tiledL (run0_first c i arg1 harg1 arg2 harg2 arg3 harg3 arg4 harg4 arg5 harg5 arg6 harg6 arg7 harg7 arg8 harg8 hc x0 x1 x2 x3 x4 ).2.1 S1x128.size (by sl_kernel_rfl) y
theorem cover0_first_7 (c : Dev nD) (i : grid0.Coords) (arg1 : Memref sig .tc .vmem S4000x384 .bf16) (harg1 : arg1.IsWhole) (arg2 : Memref sig .tc .vmem S1x384 .f32) (harg2 : arg2.IsWhole) (arg3 : Memref sig .tc .vmem S1x384 .f32) (harg3 : arg3.IsWhole) (arg4 : Memref sig .tc .vmem S384x128 .bf16) (harg4 : arg4.IsWhole) (arg5 : Memref sig .tc .vmem S1x128 .f32) (harg5 : arg5.IsWhole) (arg6 : Memref sig .tc .vmem S4000x128 .f32) (harg6 : arg6.IsWhole) (arg7 : Memref sig .tc .vmem S1x128 .f32) (harg7 : arg7.IsWhole) (arg8 : Memref sig .tc .vmem S1x128 .f32) (harg8 : arg8.IsWhole) (hc : first0 i)
    (x0 : Vec F S4000x384 .bf16) (x1 x2 : Vec F S1x384 .f32) (x3 : Vec F S384x128 .bf16) (x4 : Vec F S1x128 .f32)  (y : S1x128.Idx) :
    ∃ pc ∈ (run0_first c i arg1 harg1 arg2 harg2 arg3 harg3 arg4 harg4 arg5 harg5 arg6 harg6 arg7 harg7 arg8 harg8 hc x0 x1 x2 x3 x4 ).2.2.1, y ∈ pc.1.set :=
  View.cover_of_tiledL (run0_first c i arg1 harg1 arg2 harg2 arg3 harg3 arg4 harg4 arg5 harg5 arg6 harg6 arg7 harg7 arg8 harg8 hc x0 x1 x2 x3 x4 ).2.2.1 S1x128.size (by sl_kernel_rfl) y
theorem cover0_later_5 (c : Dev nD) (i : grid0.Coords) (arg1 : Memref sig .tc .vmem S4000x384 .bf16) (harg1 : arg1.IsWhole) (arg2 : Memref sig .tc .vmem S1x384 .f32) (harg2 : arg2.IsWhole) (arg3 : Memref sig .tc .vmem S1x384 .f32) (harg3 : arg3.IsWhole) (arg4 : Memref sig .tc .vmem S384x128 .bf16) (harg4 : arg4.IsWhole) (arg5 : Memref sig .tc .vmem S1x128 .f32) (harg5 : arg5.IsWhole) (arg6 : Memref sig .tc .vmem S4000x128 .f32) (harg6 : arg6.IsWhole) (arg7 : Memref sig .tc .vmem S1x128 .f32) (harg7 : arg7.IsWhole) (arg8 : Memref sig .tc .vmem S1x128 .f32) (harg8 : arg8.IsWhole) (hc : ¬first0 i)
    (x0 : Vec F S4000x384 .bf16) (x1 x2 : Vec F S1x384 .f32) (x3 : Vec F S384x128 .bf16) (x4 : Vec F S1x128 .f32) (s q : Vec F S1x128 .f32) (y : S4000x128.Idx) :
    ∃ pc ∈ (run0_later c i arg1 harg1 arg2 harg2 arg3 harg3 arg4 harg4 arg5 harg5 arg6 harg6 arg7 harg7 arg8 harg8 hc x0 x1 x2 x3 x4 s q).1, y ∈ pc.1.set :=
  View.cover_of_tiledL (run0_later c i arg1 harg1 arg2 harg2 arg3 harg3 arg4 harg4 arg5 harg5 arg6 harg6 arg7 harg7 arg8 harg8 hc x0 x1 x2 x3 x4 s q).1 S4000x128.size (by sl_kernel_rfl) y
theorem cover0_later_6 (c : Dev nD) (i : grid0.Coords) (arg1 : Memref sig .tc .vmem S4000x384 .bf16) (harg1 : arg1.IsWhole) (arg2 : Memref sig .tc .vmem S1x384 .f32) (harg2 : arg2.IsWhole) (arg3 : Memref sig .tc .vmem S1x384 .f32) (harg3 : arg3.IsWhole) (arg4 : Memref sig .tc .vmem S384x128 .bf16) (harg4 : arg4.IsWhole) (arg5 : Memref sig .tc .vmem S1x128 .f32) (harg5 : arg5.IsWhole) (arg6 : Memref sig .tc .vmem S4000x128 .f32) (harg6 : arg6.IsWhole) (arg7 : Memref sig .tc .vmem S1x128 .f32) (harg7 : arg7.IsWhole) (arg8 : Memref sig .tc .vmem S1x128 .f32) (harg8 : arg8.IsWhole) (hc : ¬first0 i)
    (x0 : Vec F S4000x384 .bf16) (x1 x2 : Vec F S1x384 .f32) (x3 : Vec F S384x128 .bf16) (x4 : Vec F S1x128 .f32) (s q : Vec F S1x128 .f32) (y : S1x128.Idx) :
    ∃ pc ∈ (run0_later c i arg1 harg1 arg2 harg2 arg3 harg3 arg4 harg4 arg5 harg5 arg6 harg6 arg7 harg7 arg8 harg8 hc x0 x1 x2 x3 x4 s q).2.1, y ∈ pc.1.set :=
  View.cover_of_tiledL (run0_later c i arg1 harg1 arg2 harg2 arg3 harg3 arg4 harg4 arg5 harg5 arg6 harg6 arg7 harg7 arg8 harg8 hc x0 x1 x2 x3 x4 s q).2.1 S1x128.size (by sl_kernel_rfl) y
theorem cover0_later_7 (c : Dev nD) (i : grid0.Coords) (arg1 : Memref sig .tc .vmem S4000x384 .bf16) (harg1 : arg1.IsWhole) (arg2 : Memref sig .tc .vmem S1x384 .f32) (harg2 : arg2.IsWhole) (arg3 : Memref sig .tc .vmem S1x384 .f32) (harg3 : arg3.IsWhole) (arg4 : Memref sig .tc .vmem S384x128 .bf16) (harg4 : arg4.IsWhole) (arg5 : Memref sig .tc .vmem S1x128 .f32) (harg5 : arg5.IsWhole) (arg6 : Memref sig .tc .vmem S4000x128 .f32) (harg6 : arg6.IsWhole) (arg7 : Memref sig .tc .vmem S1x128 .f32) (harg7 : arg7.IsWhole) (arg8 : Memref sig .tc .vmem S1x128 .f32) (harg8 : arg8.IsWhole) (hc : ¬first0 i)
    (x0 : Vec F S4000x384 .bf16) (x1 x2 : Vec F S1x384 .f32) (x3 : Vec F S384x128 .bf16) (x4 : Vec F S1x128 .f32) (s q : Vec F S1x128 .f32) (y : S1x128.Idx) :
    ∃ pc ∈ (run0_later c i arg1 harg1 arg2 harg2 arg3 harg3 arg4 harg4 arg5 harg5 arg6 harg6 arg7 harg7 arg8 harg8 hc x0 x1 x2 x3 x4 s q).2.2.1, y ∈ pc.1.set :=
  View.cover_of_tiledL (run0_later c i arg1 harg1 arg2 harg2 arg3 harg3 arg4 harg4 arg5 harg5 arg6 harg6 arg7 harg7 arg8 harg8 hc x0 x1 x2 x3 x4 s q).2.2.1 S1x128.size (by sl_kernel_rfl) y

/-! ## The output buffers point by point -/

/-- What the three output buffers (the projected block, the running column sums, the running column sums of
    squares) hold after the body at position `n`: at the first point what the resetting run stores; at a later
    point what the accumulating run stores, started from the two running rows the point before left. -/
def outs0 (c : Dev nD) : (n : ℕ) → n < cfg0.N → Vec F S4000x128 .f32 × Vec F S1x128 .f32 × Vec F S1x128 .f32
  | 0, hn =>
    (View.canon (run0_first c (grid0.coords ⟨0, hn⟩) (mem0_0 ⟨0, hn⟩) (whole0_0 ⟨0, hn⟩) (mem0_1 ⟨0, hn⟩) (whole0_1 ⟨0, hn⟩) (mem0_2 ⟨0, hn⟩) (whole0_2 ⟨0, hn⟩) (mem0_3 ⟨0, hn⟩) (whole0_3 ⟨0, hn⟩) (mem0_4 ⟨0, hn⟩) (whole0_4 ⟨0, hn⟩) (mem0_5 ⟨0, hn⟩) (whole0_5 ⟨0, hn⟩) (mem0_6 ⟨0, hn⟩) (whole0_6 ⟨0, hn⟩) (mem0_7 ⟨0, hn⟩) (whole0_7 ⟨0, hn⟩) ((first0_iff ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩)).1,
     View.canon (run0_first c (grid0.coords ⟨0, hn⟩) (mem0_0 ⟨0, hn⟩) (whole0_0 ⟨0, hn⟩) (mem0_1 ⟨0, hn⟩) (whole0_1 ⟨0, hn⟩) (mem0_2 ⟨0, hn⟩) (whole0_2 ⟨0, hn⟩) (mem0_3 ⟨0, hn⟩) (whole0_3 ⟨0, hn⟩) (mem0_4 ⟨0, hn⟩) (whole0_4 ⟨0, hn⟩) (mem0_5 ⟨0, hn⟩) (whole0_5 ⟨0, hn⟩) (mem0_6 ⟨0, hn⟩) (whole0_6 ⟨0, hn⟩) (mem0_7 ⟨0, hn⟩) (whole0_7 ⟨0, hn⟩) ((first0_iff ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩)).2.1,
     View.canon (run0_first c (grid0.coords ⟨0, hn⟩) (mem0_0 ⟨0, hn⟩) (whole0_0 ⟨0, hn⟩) (mem0_1 ⟨0, hn⟩) (whole0_1 ⟨0, hn⟩) (mem0_2 ⟨0, hn⟩) (whole0_2 ⟨0, hn⟩) (mem0_3 ⟨0, hn⟩) (whole0_3 ⟨0, hn⟩) (mem0_4 ⟨0, hn⟩) (whole0_4 ⟨0, hn⟩) (mem0_5 ⟨0, hn⟩) (whole0_5 ⟨0, hn⟩) (mem0_6 ⟨0, hn⟩) (whole0_6 ⟨0, hn⟩) (mem0_7 ⟨0, hn⟩) (whole0_7 ⟨0, hn⟩) ((first0_iff ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩)).2.2.1)
  | n + 1, hn =>
    (View.canon (run0_later c (grid0.coords ⟨n + 1, hn⟩) (mem0_0 ⟨n + 1, hn⟩) (whole0_0 ⟨n + 1, hn⟩) (mem0_1 ⟨n + 1, hn⟩) (whole0_1 ⟨n + 1, hn⟩) (mem0_2 ⟨n + 1, hn⟩) (whole0_2 ⟨n + 1, hn⟩) (mem0_3 ⟨n + 1, hn⟩) (whole0_3 ⟨n + 1, hn⟩) (mem0_4 ⟨n + 1, hn⟩) (whole0_4 ⟨n + 1, hn⟩) (mem0_5 ⟨n + 1, hn⟩) (whole0_5 ⟨n + 1, hn⟩) (mem0_6 ⟨n + 1, hn⟩) (whole0_6 ⟨n + 1, hn⟩) (mem0_7 ⟨n + 1, hn⟩) (whole0_7 ⟨n + 1, hn⟩) (fun h => Nat.succ_ne_zero n ((first0_iff ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outs0 c n (Nat.lt_of_succ_lt hn)).2.1 (outs0 c n (Nat.lt_of_succ_lt hn)).2.2).1,
     View.canon (run0_later c (grid0.coords ⟨n + 1, hn⟩) (mem0_0 ⟨n + 1, hn⟩) (whole0_0 ⟨n + 1, hn⟩) (mem0_1 ⟨n + 1, hn⟩) (whole0_1 ⟨n + 1, hn⟩) (mem0_2 ⟨n + 1, hn⟩) (whole0_2 ⟨n + 1, hn⟩) (mem0_3 ⟨n + 1, hn⟩) (whole0_3 ⟨n + 1, hn⟩) (mem0_4 ⟨n + 1, hn⟩) (whole0_4 ⟨n + 1, hn⟩) (mem0_5 ⟨n + 1, hn⟩) (whole0_5 ⟨n + 1, hn⟩) (mem0_6 ⟨n + 1, hn⟩) (whole0_6 ⟨n + 1, hn⟩) (mem0_7 ⟨n + 1, hn⟩) (whole0_7 ⟨n + 1, hn⟩) (fun h => Nat.succ_ne_zero n ((first0_iff ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outs0 c n (Nat.lt_of_succ_lt hn)).2.1 (outs0 c n (Nat.lt_of_succ_lt hn)).2.2).2.1,
     View.canon (run0_later c (grid0.coords ⟨n + 1, hn⟩) (mem0_0 ⟨n + 1, hn⟩) (whole0_0 ⟨n + 1, hn⟩) (mem0_1 ⟨n + 1, hn⟩) (whole0_1 ⟨n + 1, hn⟩) (mem0_2 ⟨n + 1, hn⟩) (whole0_2 ⟨n + 1, hn⟩) (mem0_3 ⟨n + 1, hn⟩) (whole0_3 ⟨n + 1, hn⟩) (mem0_4 ⟨n + 1, hn⟩) (whole0_4 ⟨n + 1, hn⟩) (mem0_5 ⟨n + 1, hn⟩) (whole0_5 ⟨n + 1, hn⟩) (mem0_6 ⟨n + 1, hn⟩) (whole0_6 ⟨n + 1, hn⟩) (mem0_7 ⟨n + 1, hn⟩) (whole0_7 ⟨n + 1, hn⟩) (fun h => Nat.succ_ne_zero n ((first0_iff ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outs0 c n (Nat.lt_of_succ_lt hn)).2.1 (outs0 c n (Nat.lt_of_succ_lt hn)).2.2).2.2.1)

theorem outs0_first (c : Dev nD) (t : Fin cfg0.N) (h : t.val = 0) :
    outs0 V c t.val t.isLt =
      (View.canon (run0_first c (grid0.coords t) (mem0_0 t) (whole0_0 t) (mem0_1 t) (whole0_1 t) (mem0_2 t) (whole0_2 t) (mem0_3 t) (whole0_3 t) (mem0_4 t) (whole0_4 t) (mem0_5 t) (whole0_5 t) (mem0_6 t) (whole0_6 t) (mem0_7 t) (whole0_7 t) ((first0_iff t).mpr h) (iblk0 V c 0 t) (iblk0 V c 1 t) (iblk0 V c 2 t) (iblk0 V c 3 t) (iblk0 V c 4 t)).1,
       View.canon (run0_first c (grid0.coords t) (mem0_0 t) (whole0_0 t) (mem0_1 t) (whole0_1 t) (mem0_2 t) (whole0_2 t) (mem0_3 t) (whole0_3 t) (mem0_4 t) (whole0_4 t) (mem0_5 t) (whole0_5 t) (mem0_6 t) (whole0_6 t) (mem0_7 t) (whole0_7 t) ((first0_iff t).mpr h) (iblk0 V c 0 t) (iblk0 V c 1 t) (iblk0 V c 2 t) (iblk0 V c 3 t) (iblk0 V c 4 t)).2.1,
       View.canon (run0_first c (grid0.coords t) (mem0_0 t) (whole0_0 t) (mem0_1 t) (whole0_1 t) (mem0_2 t) (whole0_2 t) (mem0_3 t) (whole0_3 t) (mem0_4 t) (whole0_4 t) (mem0_5 t) (whole0_5 t) (mem0_6 t) (whole0_6 t) (mem0_7 t) (whole0_7 t) ((first0_iff t).mpr h) (iblk0 V c 0 t) (iblk0 V c 1 t) (iblk0 V c 2 t) (iblk0 V c 3 t) (iblk0 V c 4 t)).2.2.1) := by
  obtain ⟨n, hn⟩ := t
  cases n with
  | zero => rfl
  | succ n => exact absurd h (Nat.succ_ne_zero n)

theorem outs0_later (c : Dev nD) (t : Fin cfg0.N) (h : t.val ≠ 0) :
    outs0 V c t.val t.isLt =
      (View.canon (run0_later c (grid0.coords t) (mem0_0 t) (whole0_0 t) (mem0_1 t) (whole0_1 t) (mem0_2 t) (whole0_2 t) (mem0_3 t) (whole0_3 t) (mem0_4 t) (whole0_4 t) (mem0_5 t) (whole0_5 t) (mem0_6 t) (whole0_6 t) (mem0_7 t) (whole0_7 t) (fun hh => h ((first0_iff t).mp hh)) (iblk0 V c 0 t) (iblk0 V c 1 t) (iblk0 V c 2 t) (iblk0 V c 3 t) (iblk0 V c 4 t) (outs0 V c (t.val - 1) (Nat.lt_of_le_of_lt (Nat.sub_le _ _) t.isLt)).2.1 (outs0 V c (t.val - 1) (Nat.lt_of_le_of_lt (Nat.sub_le _ _) t.isLt)).2.2).1,
       View.canon (run0_later c (grid0.coords t) (mem0_0 t) (whole0_0 t) (mem0_1 t) (whole0_1 t) (mem0_2 t) (whole0_2 t) (mem0_3 t) (whole0_3 t) (mem0_4 t) (whole0_4 t) (mem0_5 t) (whole0_5 t) (mem0_6 t) (whole0_6 t) (mem0_7 t) (whole0_7 t) (fun hh => h ((first0_iff t).mp hh)) (iblk0 V c 0 t) (iblk0 V c 1 t) (iblk0 V c 2 t) (iblk0 V c 3 t) (iblk0 V c 4 t) (outs0 V c (t.val - 1) (Nat.lt_of_le_of_lt (Nat.sub_le _ _) t.isLt)).2.1 (outs0 V c (t.val - 1) (Nat.lt_of_le_of_lt (Nat.sub_le _ _) t.isLt)).2.2).2.1,
       View.canon (run0_later c (grid0.coords t) (mem0_0 t) (whole0_0 t) (mem0_1 t) (whole0_1 t) (mem0_2 t) (whole0_2 t) (mem0_3 t) (whole0_3 t) (mem0_4 t) (whole0_4 t) (mem0_5 t) (whole0_5 t) (mem0_6 t) (whole0_6 t) (mem0_7 t) (whole0_7 t) (fun hh => h ((first0_iff t).mp hh)) (iblk0 V c 0 t) (iblk0 V c 1 t) (iblk0 V c 2 t) (iblk0 V c 3 t) (iblk0 V c 4 t) (outs0 V c (t.val - 1) (Nat.lt_of_le_of_lt (Nat.sub_le _ _) t.isLt)).2.1 (outs0 V c (t.val - 1) (Nat.lt_of_le_of_lt (Nat.sub_le _ _) t.isLt)).2.2).2.2.1) := by
  obtain ⟨n, hn⟩ := t
  cases n with
  | zero => exact absurd rfl h
  | succ n => rfl

/-! ## The proof data of this pipeline -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outs0 V c t.val t.isLt).1
    | ⟨6, _⟩ => (outs0 V c t.val t.isLt).2.1
    | ⟨7, _⟩ => (outs0 V c t.val t.isLt).2.2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outs0 V c t.val t.isLt).1 := by dsimp only [dat0]
theorem after0_6 (c : Dev nD) (t : Fin cfg0.N) : (dat0 V c).after 6 t = (outs0 V c t.val t.isLt).2.1 := by dsimp only [dat0]
theorem after0_7 (c : Dev nD) (t : Fin cfg0.N) : (dat0 V c).after 7 t = (outs0 V c t.val t.isLt).2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- At a later point a running row's buffer holds what the body left at the point before: it was not written back
    in between (only the last point writes it back) and its block index never moves. -/
theorem before0_6_later (c : Dev nD) (t : Fin cfg0.N) (h : t.val ≠ 0) (d) :
    (dat0 V c).before 6 t d = (outs0 V c (t.val - 1) (Nat.lt_of_le_of_lt (Nat.sub_le _ _) t.isLt)).2.1 := by
  have hN : t.val < 125 := lt_of_lt_of_eq t.isLt (show cfg0.N = 125 from N_0)
  rw [Dat.before_out_kept _ 6 rfl t h (Bool.eq_false_iff.mpr fun hh => by have := (flush0_6 _).mp hh; dsimp only at this; omega)
    (fun _ => rfl) (fun _ _ => rfl)]
  dsimp only [dat0]
theorem before0_7_later (c : Dev nD) (t : Fin cfg0.N) (h : t.val ≠ 0) (d) :
    (dat0 V c).before 7 t d = (outs0 V c (t.val - 1) (Nat.lt_of_le_of_lt (Nat.sub_le _ _) t.isLt)).2.2 := by
  have hN : t.val < 125 := lt_of_lt_of_eq t.isLt (show cfg0.N = 125 from N_0)
  rw [Dat.before_out_kept _ 7 rfl t h (Bool.eq_false_iff.mpr fun hh => by have := (flush0_7 _).mp hh; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (mem0_0 t) fullShare ((dat0 V c).before 0 t d))
    ∗ (∃ d, owns (c : Thread nD τ) (mem0_1 t) fullShare ((dat0 V c).before 1 t d))
    ∗ (∃ d, owns (c : Thread nD τ) (mem0_2 t) fullShare ((dat0 V c).before 2 t d))
    ∗ (∃ d, owns (c : Thread nD τ) (mem0_3 t) fullShare ((dat0 V c).before 3 t d))
    ∗ (∃ d, owns (c : Thread nD τ) (mem0_4 t) fullShare ((dat0 V c).before 4 t d))
    ∗ (∃ d, owns (c : Thread nD τ) (mem0_5 t) fullShare ((dat0 V c).before 5 t d))
    ∗ (∃ d, owns (c : Thread nD τ) (mem0_6 t) fullShare ((dat0 V c).before 6 t d))
    ∗ (∃ d, owns (c : Thread nD τ) (mem0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (mem0_0 t) fullShare ((dat0 V c).after 0 t)
    ∗ owns (c : Thread nD τ) (mem0_1 t) fullShare ((dat0 V c).after 1 t)
    ∗ owns (c : Thread nD τ) (mem0_2 t) fullShare ((dat0 V c).after 2 t)
    ∗ owns (c : Thread nD τ) (mem0_3 t) fullShare ((dat0 V c).after 3 t)
    ∗ owns (c : Thread nD τ) (mem0_4 t) fullShare ((dat0 V c).after 4 t)
    ∗ owns (c : Thread nD τ) (mem0_5 t) fullShare ((dat0 V c).after 5 t)
    ∗ owns (c : Thread nD τ) (mem0_6 t) fullShare ((dat0 V c).after 6 t)
    ∗ owns (c : Thread nD τ) (mem0_7 t) fullShare ((dat0 V c).after 7 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  by_cases h : t.val = 0
  · rw [outs0_first V c t h]
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run0_first c (grid0.coords t) (mem0_0 t) (whole0_0 t) (mem0_1 t) (whole0_1 t) (mem0_2 t) (whole0_2 t) (mem0_3 t) (whole0_3 t) (mem0_4 t) (whole0_4 t) (mem0_5 t) (whole0_5 t) (mem0_6 t) (whole0_6 t) (mem0_7 t) (whole0_7 t) ((first0_iff t).mpr h) (iblk0 V c 0 t) (iblk0 V c 1 t) (iblk0 V c 2 t) (iblk0 V c 3 t) (iblk0 V c 4 t)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (cover0_first_5 c _ _ _ _ _ _ _ _ _ _ _ _ _ _ _ _ _ _ _ _ _ _ _)
    isplitl [H6]
    · unfold owns; iexists _; isplitr
      swap; · iexact H6
      ipureintro; exact View.read_writes_eq_canon _ _ _ (cover0_first_6 c _ _ _ _ _ _ _ _ _ _ _ _ _ _ _ _ _ _ _ _ _ _ _)
    unfold owns; iexists _; isplitr
    swap; · iexact H7
    ipureintro; exact View.read_writes_eq_canon _ _ _ (cover0_first_7 c _ _ _ _ _ _ _ _ _ _ _ _ _ _ _ _ _ _ _ _ _ _ _)
  · rw [outs0_later V c t h]
    simp only [before0_6_later V c t h, before0_7_later V c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run0_later c (grid0.coords t) (mem0_0 t) (whole0_0 t) (mem0_1 t) (whole0_1 t) (mem0_2 t) (whole0_2 t) (mem0_3 t) (whole0_3 t) (mem0_4 t) (whole0_4 t) (mem0_5 t) (whole0_5 t) (mem0_6 t) (whole0_6 t) (mem0_7 t) (whole0_7 t) (fun hh => h ((first0_iff t).mp hh)) (iblk0 V c 0 t) (iblk0 V c 1 t) (iblk0 V c 2 t) (iblk0 V c 3 t) (iblk0 V c 4 t) (outs0 V c (t.val - 1) (Nat.lt_of_le_of_lt (Nat.sub_le _ _) t.isLt)).2.1 (outs0 V c (t.val - 1) (Nat.lt_of_le_of_lt (Nat.sub_le _ _) t.isLt)).2.2).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (cover0_later_5 c _ _ _ _ _ _ _ _ _ _ _ _ _ _ _ _ _ _ _ _ _ _ _ _ _)
    isplitl [H6]
    · unfold owns; iexists _; isplitr
      swap; · iexact H6
      ipureintro; exact View.read_writes_eq_canon _ _ _ (cover0_later_6 c _ _ _ _ _ _ _ _ _ _ _ _ _ _ _ _ _ _ _ _ _ _ _ _ _)
    unfold owns; iexists _; isplitr
    swap; · iexact H7
    ipureintro; exact View.read_writes_eq_canon _ _ _ (cover0_later_7 c _ _ _ _ _ _ _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.K.Reg1.lean ====
/-
  The second Pallas call (the attention logits): at grid point t the body reads rows 4000·t … 4000·t+3999 of the
  pre-activation array, the per-column scale and shift of the second batch normalisation, the logit weights and the
  logit bias, and writes the same rows of the two results: the weights exp(−leaky_relu(⟨c, a₂⟩ + b₂)) (one column) and
  the weighted rows. Every load and every store is of a whole staging buffer, so what each output buffer holds after
  the body is the stored value itself, a function of the five input blocks; the inputs are left as found. The body
  also loads each output buffer before storing into it; what it finds there is never used.
-/
import proofs.«114553_j89962384982591_1_alg».proof.Proof.Gen.Kernel.Launch
import proofs.«114553_j89962384982591_1_alg».proof.Proof.Gen.Kernel.Skeleton
import proofs.«114553_j89962384982591_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: a parameter here, fixed by the run
variable (V : (c : Dev nD) → (b : Ref sig .tc) → Buf (Elt F) ((c : Thread nD τ).loc b))

/-- The block of window `w` at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section Inputs
variable {c : Dev nD} (dat : Dat τ (Elt F) Unit ℕ (UR sig nD τ) ℕ cfg1 c)

/-- An input window's staging buffer holds the window's block at every point, whether the point fetches it or
    not (an unfetched window's block index has not moved), provided the body leaves it in place. -/
theorem before1_0_of (hA : dat.A 0 = V c (Pipeline.arrRef spec1 0)) (hafter : ∀ t, dat.after 0 t = iblk1 V c 0 t) (t : Fin cfg1.N) (d) :
    dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of (hA : dat.A 1 = V c (Pipeline.arrRef spec1 1)) (hafter : ∀ t, dat.after 1 t = iblk1 V c 1 t) (t : Fin cfg1.N) (d) :
    dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of (hA : dat.A 2 = V c (Pipeline.arrRef spec1 2)) (hafter : ∀ t, dat.after 2 t = iblk1 V c 2 t) (t : Fin cfg1.N) (d) :
    dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of (hA : dat.A 3 = V c (Pipeline.arrRef spec1 3)) (hafter : ∀ t, dat.after 3 t = iblk1 V c 3 t) (t : Fin cfg1.N) (d) :
    dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of (hA : dat.A 4 = V c (Pipeline.arrRef spec1 4)) (hafter : ∀ t, dat.after 4 t = iblk1 V c 4 t) (t : Fin cfg1.N) (d) :
    dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
end Inputs

/-! ## The rectangles the body reads and writes: each a whole buffer -/

abbrev rRows : Rect S4000x128 := Rect.unit (s := S4000x128) ![0, 0] S4000x128.size inb_S4000x128_S4000x128_0_0
abbrev rLane : Rect S1x128 := Rect.unit (s := S1x128) ![0, 0] S1x128.size inb_S1x128_S1x128_0_0
abbrev rOne : Rect S1x1 := Rect.unit (s := S1x1) ![0, 0] S1x1.size inb_S1x1_S1x1_0_0
abbrev rCol : Rect S4000x1 := Rect.unit (s := S4000x1) ![0, 0] S4000x1.size inb_S4000x1_S4000x1_0_0

/-- The weighted rows: what the body leaves in the first output's buffer, from the five input blocks. -/
def wrows1 (x0 : Vec F S4000x128 .f32) (x1 x2 x3 : Vec F S1x128 .f32) (x4 : Vec F S1x1 .f32) : Vec F S4000x128 .f32 :=
  View.canon [⟨rRows, k1_pay3 (View.ld x0 rRows) (View.ld x1 rLane) (View.ld x2 rLane) (View.ld x3 rLane) (View.ld x4 rOne)⟩]

/-- The weights: what the body leaves in the second output's buffer. -/
def wts1 (x0 : Vec F S4000x128 .f32) (x1 x2 x3 : Vec F S1x128 .f32) (x4 : Vec F S1x1 .f32) : Vec F S4000x1 .f32 :=
  View.canon [⟨rCol, k1_pay2 (View.ld x0 rRows) (View.ld x1 rLane) (View.ld x2 rLane) (View.ld x3 rLane) (View.ld x4 rOne)⟩]

/-- One store of the whole buffer covers it. -/
theorem cover_rows (p0 : Vec F S4000x128 .f32) (y : S4000x128.Idx) :
    ∃ pc ∈ ([⟨rRows, p0⟩] : List (View.Piece (Elt F) S4000x128 .f32)), y ∈ pc.1.set :=
  View.cover_of_tiled [⟨rRows, p0⟩] S4000x128.size (by rfl) y
theorem cover_col (p0 : Vec F S4000x1 .f32) (y : S4000x1.Idx) :
    ∃ pc ∈ ([⟨rCol, p0⟩] : List (View.Piece (Elt F) S4000x1 .f32)), y ∈ pc.1.set :=
  View.cover_of_tiled [⟨rCol, p0⟩] S4000x1.size (by rfl) y

set_option maxHeartbeats 1000000 in
/-- The body on whole staging buffers: the five inputs at known contents, the two outputs at anything; it ends with
    the inputs as they were and the outputs at the weighted rows and the weights. -/
theorem sound_kernel1 (c : Dev nD) (E : Set ℕ) (i : grid1.Coords)
    (arg1 : Memref sig .tc .vmem S4000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x1 .f32) (harg5 : arg5.IsWhole) (arg6 : Memref sig .tc .vmem S4000x128 .f32) (harg6 : arg6.IsWhole)
    (arg7 : Memref sig .tc .vmem S4000x1 .f32) (harg7 : arg7.IsWhole)
    (x0 : Vec F S4000x128 .f32) (x1 x2 x3 : Vec F S1x128 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (wrows1 x0 x1 x2 x3 x4) ∗ owns (c : Thread nD τ) arg7 fullShare (wts1 x0 x1 x2 x3 x4)) -∗ K ⟨⟩))
      ⊢ wp frame (wpE (defs₀ (F := F)) Variants.none c none) E (cc1__kernel2_body i arg1 harg1 arg2 harg2 arg3 harg3 arg4 harg4 arg5 harg5 arg6 harg6 arg7 harg7) K := by
  simp only [cc1__kernel2_body_eq_skeleton]; unfold cc1__kernel2_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_rows _)
  iexists _; isplitr
  swap; · iexact H6
  ipureintro
  exact View.read_writes_eq_canon _ _ _ (cover_col _)

/-! ## The proof data of this pipeline -/

/-- After the body at point `t`: each input's buffer at its block, the outputs' at the weighted rows and the weights
    of the point's blocks. The invariant is the scoped rest and the generator register, untouched; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => wrows1 (iblk1 V c 0 t) (iblk1 V c 1 t) (iblk1 V c 2 t) (iblk1 V c 3 t) (iblk1 V c 4 t)
    | ⟨6, _⟩ => wts1 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = wrows1 (iblk1 V c 0 t) (iblk1 V c 1 t) (iblk1 V c 2 t) (iblk1 V c 3 t) (iblk1 V c 4 t) := by dsimp only [dat1]
theorem after1_6 (c : Dev nD) (t : Fin cfg1.N) : (dat1 V c).after 6 t
    = wts1 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is handed at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.K.Bnd.lean ====
/-
  The contents of a core's unscoped buffers at the boundaries between the program's segments: the launch memory after
  the first stretch of host operations; then, after the first Pallas call, its arrays at what the pipeline's
  write-backs leave (every other buffer untouched); the second stretch of host operations applied; the second Pallas
  call's arrays likewise; the remaining host operations applied.
-/
import proofs.«114553_j89962384982591_1_alg».proof.Proof.K.Reg0Data
import proofs.«114553_j89962384982591_1_alg».proof.Proof.K.Reg1
import proofs.«114553_j89962384982591_1_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the segment boundaries -/

/-- When the first Pallas call is entered: the launch memory after the first stretch of host operations, read at
    the TensorCore's references. -/
abbrev E1 : (c : Dev nD) → (b : Ref sig .tc) → Buf (Elt F) ((c : Thread nD τ).loc b) := fun c b => Gen.V1 m c b
/-- When it is left: its arrays at what the pipeline leaves, every other buffer as entered. -/
def X2 (c : Dev nD) : Valuation τ sig (Elt F) :=
  Pipeline.withArrays spec0 c (Gen.V1 m c) fun w => (dat0 (E1 m) c).arrAt w cfg0.N
/-- After the second stretch of host operations: the second Pallas call's entry. -/
abbrev X3 (c : Dev nD) : Valuation τ sig (Elt F) := StableHlo.after hostOps1 (X2 m c)
abbrev E3 : (c : Dev nD) → (b : Ref sig .tc) → Buf (Elt F) ((c : Thread nD τ).loc b) := fun c b => X3 m c b
/-- When the second Pallas call is left. -/
def X4 (c : Dev nD) : Valuation τ sig (Elt F) :=
  Pipeline.withArrays spec1 c (X3 m c) fun w => (dat1 (E3 m) c).arrAt w cfg1.N
/-- At the end: the remaining host operations applied. -/
abbrev X7 (c : Dev nD) : Valuation τ sig (Elt F) :=
  StableHlo.after hostOps2_2 (StableHlo.after hostOps2_1 (StableHlo.after hostOps2 (X4 m c)))

theorem X2_arr (c : Dev nD) (w : Fin cfg0.W) :
    X2 m c (Proc.devRef .tc (Pipeline.arrRef spec0 w)) = (dat0 (E1 m) c).arrAt w cfg0.N := by
  unfold X2; exact Pipeline.withArrays_arr spec0 launch0.win.arr_inj c _ _ w
theorem X2_of_ne (c : Dev nD) (b : Ref sig .tc) (hb : ∀ w, Pipeline.arrRef spec0 w ≠ b) :
    X2 m c (Proc.devRef .tc b) = Gen.V1 m c (Proc.devRef .tc b) := by
  unfold X2; exact Pipeline.withArrays_of_ne spec0 c _ _ b hb
theorem hF0 (c : Dev nD) (w : Fin cfg0.W) : (dat0 (E1 m) c).arrAt w cfg0.N = X2 m c (Pipeline.arrRef spec0 w) :=
  (X2_arr m c w).symm
theorem hrest0 (c : Dev nD) : ∀ b : Ref sig .tc, b ∉ Finset.univ.image (Pipeline.arrRef spec0) → X2 m c b = E1 m c b :=
  fun b hb => X2_of_ne m c b fun w e => hb (Finset.mem_image.mpr ⟨w, Finset.mem_univ _, e⟩)

theorem X4_arr (c : Dev nD) (w : Fin cfg1.W) :
    X4 m c (Proc.devRef .tc (Pipeline.arrRef spec1 w)) = (dat1 (E3 m) c).arrAt w cfg1.N := by
  unfold X4; exact Pipeline.withArrays_arr spec1 launch1.win.arr_inj c _ _ w
theorem X4_of_ne (c : Dev nD) (b : Ref sig .tc) (hb : ∀ w, Pipeline.arrRef spec1 w ≠ b) :
    X4 m c (Proc.devRef .tc b) = X3 m c (Proc.devRef .tc b) := by
  unfold X4; exact Pipeline.withArrays_of_ne spec1 c _ _ b hb
theorem hF1 (c : Dev nD) (w : Fin cfg1.W) : (dat1 (E3 m) c).arrAt w cfg1.N = X4 m c (Pipeline.arrRef spec1 w) :=
  (X4_arr m c w).symm
theorem hrest1 (c : Dev nD) : ∀ b : Ref sig .tc, b ∉ Finset.univ.image (Pipeline.arrRef spec1) → X4 m c b = E3 m c b :=
  fun b hb => X4_of_ne m c b fun w e => hb (Finset.mem_image.mpr ⟨w, Finset.mem_univ _, e⟩)

end Cert.Kernel.Frame

end
-- ==== Proof.K.Run.lean ====
/-
  The whole program as a chain of segments: host operations, the first Pallas call, host operations, the second
  Pallas call, host operations to the end. Between two segments every unscoped buffer of the core is held at known
  contents: the launch memory, then each host stretch applied, then after a Pallas call its output arrays at what the
  pipeline's write-backs leave (every other buffer untouched). The run ends with every unscoped buffer — the two
  results and the eleven arguments among them — at the last of these contents.
-/
import proofs.«114553_j89962384982591_1_alg».proof.Proof.K.Bnd
import proofs.«114553_j89962384982591_1_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and what rides beside the buffers -/

def pdats : (p : Fin 2) → (c : Dev nD) → Dat τ (Elt F) Unit ℕ (UR sig nD τ) ℕ (cfgs p) c
  | ⟨0, _⟩ => fun c => dat0 (E1 m) c
  | ⟨1, _⟩ => fun c => dat1 (E3 m) c

/-- No core owes another anything: no pair has a level. -/
abbrev noPairs : GSem nD τ sig → Finset Unit := fun _ => ∅
abbrev noLevel : GSem nD τ sig → Unit → ℕ := fun _ _ => 0
/-- Beside the buffers through every segment: the core's generator register at some state, and the core owing nothing. -/
abbrev rest (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- Pallas call 0 as a segment of the program: entered with every unscoped buffer at the contents the host
    operations before it leave, left with its arrays at what its write-backs make of them and every other buffer as
    found; the generator register passes through the pipeline's invariant; nothing is owed; the kernel has no
    semaphore of its own. -/
def reg0 : Pipeline.RegionSeg (pcfgs (F := F)) Gen.adm (pdats m) () defs₀ Variants.none noPairs noLevel 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ noPairs noLevel 0 fun _ _ => rfl
  pre c := iprop(StableHlo.held (c : Thread nD τ) (Pipeline.ucRefs τ sig) (Gen.V1 m c) ∗ rest c)
  post c := iprop(StableHlo.held (c : Thread nD τ) (Pipeline.ucRefs τ sig) (X2 m c) ∗ rest c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (fun b => X2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pallas call 1 as a segment of the program: entered with every unscoped buffer at the contents the host
    operations before it leave, left with its arrays at what its write-backs make of them and every other buffer as
    found; the generator register passes through the pipeline's invariant; nothing is owed; the kernel has no
    semaphore of its own. -/
def reg1 : Pipeline.RegionSeg (pcfgs (F := F)) Gen.adm (pdats m) () defs₀ Variants.none noPairs noLevel 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ noPairs noLevel 1 fun _ _ => rfl
  pre c := iprop(StableHlo.held (c : Thread nD τ) (Pipeline.ucRefs τ sig) (X3 m c) ∗ rest c)
  post c := iprop(StableHlo.held (c : Thread nD τ) (Pipeline.ucRefs τ sig) (X4 m c) ∗ rest c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E3 m c) (fun b => X4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## What the two Pallas calls leave, as the unknowns of the generated segment chain -/

/-- The contents the regions leave in the buffers they may change, read off the boundary contents above. -/
def outs : Gen.Outs (F := F) := fun J r c => if J = 2 then X2 m c r else X4 m c r

theorem outs_two (r : Ref sig .tc) (c : Dev nD) : outs m 2 r c = X2 m c r := if_pos rfl
theorem outs_four (r : Ref sig .tc) (c : Dev nD) : outs m 4 r c = X4 m c r := if_neg (by decide)

/-- After the first Pallas call the generated chain's contents are the boundary contents: the three result arrays by
    definition, an operand array because an input window never changes its array, every other buffer untouched. -/
theorem V2_eq (c : Dev nD) : Gen.V2 m (outs m) c = X2 m c := by
  funext b
  unfold Gen.V2
  rw [outs_two, outs_two, outs_two]
  by_cases h2 : b = Proc.devRef .tc main_v52_2
  · subst h2; rw [Function.update_self]
  rw [Function.update_of_ne h2]
  by_cases h1 : b = Proc.devRef .tc main_v52_1
  · subst h1; rw [Function.update_self]
  rw [Function.update_of_ne h1]
  by_cases h0 : b = Proc.devRef .tc main_v52_0
  · subst h0; rw [Function.update_self]
  rw [Function.update_of_ne h0]
  by_cases hex : ∃ w, Proc.devRef .tc (Pipeline.arrRef spec0 w) = b
  · obtain ⟨w, rfl⟩ := hex
    rw [X2_arr]
    match w with
    | ⟨0, _⟩ => exact (((dat0 (E1 m) c).arrAt_in 0 rfl _).trans (A_eq0 (E1 m) c 0)).symm
    | ⟨1, _⟩ => exact (((dat0 (E1 m) c).arrAt_in 1 rfl _).trans (A_eq0 (E1 m) c 1)).symm
    | ⟨2, _⟩ => exact (((dat0 (E1 m) c).arrAt_in 2 rfl _).trans (A_eq0 (E1 m) c 2)).symm
    | ⟨3, _⟩ => exact (((dat0 (E1 m) c).arrAt_in 3 rfl _).trans (A_eq0 (E1 m) c 3)).symm
    | ⟨4, _⟩ => exact (((dat0 (E1 m) c).arrAt_in 4 rfl _).trans (A_eq0 (E1 m) c 4)).symm
    | ⟨5, _⟩ => exact absurd rfl h0
    | ⟨6, _⟩ => exact absurd rfl h1
    | ⟨7, _⟩ => exact absurd rfl h2
  · unfold X2 Pipeline.withArrays; rw [dif_neg hex]

theorem V3_eq (c : Dev nD) : Gen.V3 m (outs m) c = X3 m c := by
  unfold Gen.V3; rw [V2_eq]

theorem V4_eq (c : Dev nD) : Gen.V4 m (outs m) c = X4 m c := by
  funext b
  unfold Gen.V4
  rw [outs_four, outs_four, V3_eq]
  by_cases h1 : b = Proc.devRef .tc main_v70_1
  · subst h1; rw [Function.update_self]
  rw [Function.update_of_ne h1]
  by_cases h0 : b = Proc.devRef .tc main_v70_0
  · subst h0; rw [Function.update_self]
  rw [Function.update_of_ne h0]
  by_cases hex : ∃ w, Proc.devRef .tc (Pipeline.arrRef spec1 w) = b
  · obtain ⟨w, rfl⟩ := hex
    rw [X4_arr]
    match w with
    | ⟨0, _⟩ => exact (((dat1 (E3 m) c).arrAt_in 0 rfl _).trans (A_eq1 (E3 m) c 0)).symm
    | ⟨1, _⟩ => exact (((dat1 (E3 m) c).arrAt_in 1 rfl _).trans (A_eq1 (E3 m) c 1)).symm
    | ⟨2, _⟩ => exact (((dat1 (E3 m) c).arrAt_in 2 rfl _).trans (A_eq1 (E3 m) c 2)).symm
    | ⟨3, _⟩ => exact (((dat1 (E3 m) c).arrAt_in 3 rfl _).trans (A_eq1 (E3 m) c 3)).symm
    | ⟨4, _⟩ => exact (((dat1 (E3 m) c).arrAt_in 4 rfl _).trans (A_eq1 (E3 m) c 4)).symm
    | ⟨5, _⟩ => exact absurd rfl h0
    | ⟨6, _⟩ => exact absurd rfl h1
  · unfold X4 Pipeline.withArrays; rw [dif_neg hex]

theorem V7_eq (c : Dev nD) : Gen.V7 m (outs m) c = X7 m c := by
  unfold Gen.V7 Gen.V6 Gen.V5; rw [V4_eq]

/-! ## The run -/

/-- Equal contents, equal thread states. -/
theorem held_cong (c : Dev nD) {A B : Valuation τ sig (Elt F)} (h : A = B) :
    (iprop(StableHlo.held (c : Thread nD τ) (Pipeline.ucRefs τ sig) A ∗ rest c) : sProp 𝕄)
      ⊢ iprop(StableHlo.held (c : Thread nD τ) (Pipeline.ucRefs τ sig) B ∗ rest c) := by
  subst h; exact .rfl

-- the launch theorem's implicit arguments are found by unifying its conclusion with this one, which takes unfolding
-- plain definitions in a metavariable's type
set_option backward.isDefEq.respectTransparency.types false in
/-- From any launch memory with zero counters every weakly fair execution of the program terminates, nothing
    faulting, and in every final state each unscoped buffer of each core holds the last boundary contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = X7 m c b) := by
  refine Pipeline.θ_run_regions_kit_dev (pcfgs (F := F)) Gen.adm (pdats m) () cellOf_inj emb₁ defs₀ Variants.none noPairs noLevel m ρ main
    (Gen.segs m (outs m) Variants.none noPairs noLevel (fun _ c => rest c) () (pdats m) (reg0 m) (reg1 m))
    (fun c Q => by
      rewrite [main_chain c, Seg.run_eq_chain,
        show (Gen.segs m (outs m) Variants.none noPairs noLevel (fun _ c => rest c) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ rest c))
    (Tₙ := fun c => StableHlo.held (c : Thread nD τ) (Pipeline.ucRefs τ sig) (Gen.V7 m (outs m) c))
    (hch := fun c => ⟨.rfl, .rfl, held_cong c (V2_eq m c).symm, held_cong c (V3_eq m c), held_cong c (V4_eq m c).symm, .rfl, .rfl,
      sep_mono .rfl (by iintro ⟨-, H⟩; iexact H)⟩)
    (hinit := by
      refine Pipeline.initEach noPairs noLevel fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X7 m c b)
    (hfin := fun c s' => by
      rw [V7_eq]
      iintro ⟨Hh, HSI⟩
      unfold StableHlo.held
      imodintro
      iapply (pointsTo_read_all (Pipeline.ucRefs τ sig) (fun b => (((c : Thread nD τ)).1, b)) (X7 m c) s')
      isplitl [Hh] <;> iassumption)
    (hQ := fun s h c => h c)

/-- info: 'Cert.Kernel.Frame.run_all' depends on axioms: [propext, Classical.choice, Quot.sound] -/
#guard_msgs in #print axioms run_all

/-! ## The frame: every argument array ends as launched -/

/-- An unscoped TensorCore reference is among the buffers the run reads at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem X7_arg (c : Dev nD) (b : Ref sig .tc) (h : Gen.V7 m (outs m) c b = m ((c : Thread nD τ).loc b)) :
    X7 m c b = m ((c : Thread nD τ).loc b) :=
  (congrFun (V7_eq m c) _).symm.trans h

/-- No host operation writes an argument and no Pallas call may change one: each ends holding its launch contents. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (X7_arg m c main_arg0 (Gen.V7_main_arg0 m (outs m) c)),
      (h c _ (mem_uc main_arg1 (by decide))).trans (X7_arg m c main_arg1 (Gen.V7_main_arg1 m (outs m) c)),
      (h c _ (mem_uc main_arg2 (by decide))).trans (X7_arg m c main_arg2 (Gen.V7_main_arg2 m (outs m) c)),
      (h c _ (mem_uc main_arg3 (by decide))).trans (X7_arg m c main_arg3 (Gen.V7_main_arg3 m (outs m) c)),
      (h c _ (mem_uc main_arg4 (by decide))).trans (X7_arg m c main_arg4 (Gen.V7_main_arg4 m (outs m) c)),
      (h c _ (mem_uc main_arg5 (by decide))).trans (X7_arg m c main_arg5 (Gen.V7_main_arg5 m (outs m) c)),
      (h c _ (mem_uc main_arg6 (by decide))).trans (X7_arg m c main_arg6 (Gen.V7_main_arg6 m (outs m) c)),
      (h c _ (mem_uc main_arg7 (by decide))).trans (X7_arg m c main_arg7 (Gen.V7_main_arg7 m (outs m) c)),
      (h c _ (mem_uc main_arg8 (by decide))).trans (X7_arg m c main_arg8 (Gen.V7_main_arg8 m (outs m) c)),
      (h c _ (mem_uc main_arg9 (by decide))).trans (X7_arg m c main_arg9 (Gen.V7_main_arg9 m (outs m) c)),
      (h c _ (mem_uc main_arg10 (by decide))).trans (X7_arg m c main_arg10 (Gen.V7_main_arg10 m (outs m) c))⟩) (run_all m ρ)

end Cert.Kernel.Frame

end
-- ==== Proof.KI.Reg0.lean ====
/-
  The first Pallas call (normalise, project, and accumulate the column statistics): at grid point t the body reads
  rows 4000·t … 4000·t+3999 of the gathered features, the per-column scale and shift of the first batch
  normalisation, the transposed projection matrix and the projection bias; it writes the same rows of the projected
  array, and it keeps two running rows — the column sums of the projected array and of its square — which it sets
  to zero at the first point and adds the block's column sums to at every point. Those two rows live in one staging
  buffer each, never written back before the last point, so what the body finds there at a later point is what it
  left at the point before. The body's two cases (first point, later point) are run separately; what each leaves in
  the three output buffers is read off that case's run as a list of stores.
-/
import proofs.«114553_j89962384982591_1_alg».proof.Proof.Gen.KernelIdeal.Launch
import proofs.«114553_j89962384982591_1_alg».proof.Proof.Gen.KernelIdeal.Skeleton
import proofs.«114553_j89962384982591_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

section Inputs
variable {c : Dev nD} (dat : Dat τ (Elt F) Unit ℕ (UR sig nD τ) ℕ cfg0 c)
/- An input window's staging buffer holds the window's block at every point, fetched there or not. -/
theorem before0_0_of (hA : dat.A 0 = V c (Pipeline.arrRef spec0 0)) (hafter : ∀ t, dat.after 0 t = iblk0 V c 0 t) (t : Fin cfg0.N) (d) :
    dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of (hA : dat.A 1 = V c (Pipeline.arrRef spec0 1)) (hafter : ∀ t, dat.after 1 t = iblk0 V c 1 t) (t : Fin cfg0.N) (d) :
    dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of (hA : dat.A 2 = V c (Pipeline.arrRef spec0 2)) (hafter : ∀ t, dat.after 2 t = iblk0 V c 2 t) (t : Fin cfg0.N) (d) :
    dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of (hA : dat.A 3 = V c (Pipeline.arrRef spec0 3)) (hafter : ∀ t, dat.after 3 t = iblk0 V c 3 t) (t : Fin cfg0.N) (d) :
    dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of (hA : dat.A 4 = V c (Pipeline.arrRef spec0 4)) (hafter : ∀ t, dat.after 4 t = iblk0 V c 4 t) (t : Fin cfg0.N) (d) :
    dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
end Inputs

/-! ## The body's one branch: taken at the first grid point only -/

/-- The branch condition as the body computes it from the grid coordinate. -/
abbrev first0 (i : grid0.Coords) : Prop :=
  (Scalar.cmpi .ne (Scalar.extui (Scalar.cmpi .eq (BitVec.ofNat 32 (i 0).val) 0#32)) 0#32) = 1#1
/-- It holds at the first point and at no other (decided over the 125 points). -/
theorem first0_iff : ∀ t : Fin cfg0.N, first0 (grid0.coords t) ↔ t.val = 0 :=
  (by decide +kernel : ∀ t : Fin grid0.N, first0 (grid0.coords t) ↔ t.val = 0)

/-- Each window's staging buffer at point `t`, as the pipeline passes it to the body. -/
abbrev mem0_0 (t : Fin cfg0.N) : Memref sig .tc .vmem S4000x384 .bf16 := win0_0.stage (cfg0.slots t 0)
abbrev whole0_0 (t : Fin cfg0.N) : (mem0_0 t).IsWhole := hstage0_0 ((cfg0.slots t 0).cast nbuf0_0)
abbrev mem0_1 (t : Fin cfg0.N) : Memref sig .tc .vmem S1x384 .f32 := win0_1.stage (cfg0.slots t 1)
abbrev whole0_1 (t : Fin cfg0.N) : (mem0_1 t).IsWhole := hstage0_1 ((cfg0.slots t 1).cast nbuf0_1)
abbrev mem0_2 (t : Fin cfg0.N) : Memref sig .tc .vmem S1x384 .f32 := win0_2.stage (cfg0.slots t 2)
abbrev whole0_2 (t : Fin cfg0.N) : (mem0_2 t).IsWhole := hstage0_2 ((cfg0.slots t 2).cast nbuf0_2)
abbrev mem0_3 (t : Fin cfg0.N) : Memref sig .tc .vmem S384x128 .bf16 := win0_3.stage (cfg0.slots t 3)
abbrev whole0_3 (t : Fin cfg0.N) : (mem0_3 t).IsWhole := hstage0_3 ((cfg0.slots t 3).cast nbuf0_3)
abbrev mem0_4 (t : Fin cfg0.N) : Memref sig .tc .vmem S1x128 .f32 := win0_4.stage (cfg0.slots t 4)
abbrev whole0_4 (t : Fin cfg0.N) : (mem0_4 t).IsWhole := hstage0_4 ((cfg0.slots t 4).cast nbuf0_4)
abbrev mem0_5 (t : Fin cfg0.N) : Memref sig .tc .vmem S4000x128 .f32 := win0_5.stage (cfg0.slots t 5)
abbrev whole0_5 (t : Fin cfg0.N) : (mem0_5 t).IsWhole := hstage0_5 ((cfg0.slots t 5).cast nbuf0_5)
abbrev mem0_6 (t : Fin cfg0.N) : Memref sig .tc .vmem S1x128 .f32 := win0_6.stage (cfg0.slots t 6)
abbrev whole0_6 (t : Fin cfg0.N) : (mem0_6 t).IsWhole := hstage0_6 ((cfg0.slots t 6).cast nbuf0_6)
abbrev mem0_7 (t : Fin cfg0.N) : Memref sig .tc .vmem S1x128 .f32 := win0_7.stage (cfg0.slots t 7)
abbrev whole0_7 (t : Fin cfg0.N) : (mem0_7 t).IsWhole := hstage0_7 ((cfg0.slots t 7).cast nbuf0_7)

/-! ## The body's two runs -/

set_option maxHeartbeats 2000000 in
/-- FIRST POINT. On whole staging buffers — the inputs at known contents, the three outputs at anything — the body
    ends with the inputs as they were and each output buffer overwritten by a list of stores (last first), which the
    run finds. -/
noncomputable def run0_first (c : Dev nD) (i : grid0.Coords) (arg1 : Memref sig .tc .vmem S4000x384 .bf16) (harg1 : arg1.IsWhole) (arg2 : Memref sig .tc .vmem S1x384 .f32) (harg2 : arg2.IsWhole) (arg3 : Memref sig .tc .vmem S1x384 .f32) (harg3 : arg3.IsWhole) (arg4 : Memref sig .tc .vmem S384x128 .bf16) (harg4 : arg4.IsWhole) (arg5 : Memref sig .tc .vmem S1x128 .f32) (harg5 : arg5.IsWhole) (arg6 : Memref sig .tc .vmem S4000x128 .f32) (harg6 : arg6.IsWhole) (arg7 : Memref sig .tc .vmem S1x128 .f32) (harg7 : arg7.IsWhole) (arg8 : Memref sig .tc .vmem S1x128 .f32) (harg8 : arg8.IsWhole) (hc : first0 i)
    (x0 : Vec F S4000x384 .bf16) (x1 x2 : Vec F S1x384 .f32) (x3 : Vec F S384x128 .bf16) (x4 : Vec F S1x128 .f32) :
    (L5 : List (View.Piece (Elt F) S4000x128 .f32)) ×' (L6 : List (View.Piece (Elt F) S1x128 .f32)) ×' { L7 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc0__kernel1_body i arg1 harg1 arg2 harg2 arg3 harg3 arg4 harg4 arg5 harg5 arg6 harg6 arg7 harg7 arg8 harg8) K } := by
  refine ⟨?_, ?_, ?_, fun E K => ?run⟩
  case run =>
    simp only [cc0__kernel1_body_eq_skeleton]; unfold cc0__kernel1_body_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

set_option maxHeartbeats 2000000 in
/-- A LATER POINT. The two running rows are found at known contents `s`, `q`; the projected block's buffer at
    anything. -/
noncomputable def run0_later (c : Dev nD) (i : grid0.Coords) (arg1 : Memref sig .tc .vmem S4000x384 .bf16) (harg1 : arg1.IsWhole) (arg2 : Memref sig .tc .vmem S1x384 .f32) (harg2 : arg2.IsWhole) (arg3 : Memref sig .tc .vmem S1x384 .f32) (harg3 : arg3.IsWhole) (arg4 : Memref sig .tc .vmem S384x128 .bf16) (harg4 : arg4.IsWhole) (arg5 : Memref sig .tc .vmem S1x128 .f32) (harg5 : arg5.IsWhole) (arg6 : Memref sig .tc .vmem S4000x128 .f32) (harg6 : arg6.IsWhole) (arg7 : Memref sig .tc .vmem S1x128 .f32) (harg7 : arg7.IsWhole) (arg8 : Memref sig .tc .vmem S1x128 .f32) (harg8 : arg8.IsWhole) (hc : ¬first0 i)
    (x0 : Vec F S4000x384 .bf16) (x1 x2 : Vec F S1x384 .f32) (x3 : Vec F S384x128 .bf16) (x4 : Vec F S1x128 .f32) (s q : Vec F S1x128 .f32) :
    (L5 : List (View.Piece (Elt F) S4000x128 .f32)) ×' (L6 : List (View.Piece (Elt F) S1x128 .f32)) ×' { L7 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare s ∗ owns (c : Thread nD τ) arg8 fullShare q
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc0__kernel1_body i arg1 harg1 arg2 harg2 arg3 harg3 arg4 harg4 arg5 harg5 arg6 harg6 arg7 harg7 arg8 harg8) K } := by
  refine ⟨?_, ?_, ?_, fun E K => ?run⟩
  case run =>
    simp only [cc0__kernel1_body_eq_skeleton]; unfold cc0__kernel1_body_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hf6; obtain rfl := harg8.eq_unread hf7
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

end Cert.KernelIdeal.Frame

end
-- ==== Proof.KI.Reg0Data.lean ====
/-
  What the first Pallas call's three output buffers hold after each grid point, by recursion on the point (the two
  running rows at a later point are computed from what the point before left), the pipeline's proof data built on
  it, and the body's obligation at a generic point: the first point runs the branch that resets the running rows,
  every later point finds them as the point before left them, because neither is written back before the last point.
-/
import proofs.«114553_j89962384982591_1_alg».proof.Proof.KI.Reg0

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each run's stores cover the buffer they go to -/

theorem cover0_first_5 (c : Dev nD) (i : grid0.Coords) (arg1 : Memref sig .tc .vmem S4000x384 .bf16) (harg1 : arg1.IsWhole) (arg2 : Memref sig .tc .vmem S1x384 .f32) (harg2 : arg2.IsWhole) (arg3 : Memref sig .tc .vmem S1x384 .f32) (harg3 : arg3.IsWhole) (arg4 : Memref sig .tc .vmem S384x128 .bf16) (harg4 : arg4.IsWhole) (arg5 : Memref sig .tc .vmem S1x128 .f32) (harg5 : arg5.IsWhole) (arg6 : Memref sig .tc .vmem S4000x128 .f32) (harg6 : arg6.IsWhole) (arg7 : Memref sig .tc .vmem S1x128 .f32) (harg7 : arg7.IsWhole) (arg8 : Memref sig .tc .vmem S1x128 .f32) (harg8 : arg8.IsWhole) (hc : first0 i)
    (x0 : Vec F S4000x384 .bf16) (x1 x2 : Vec F S1x384 .f32) (x3 : Vec F S384x128 .bf16) (x4 : Vec F S1x128 .f32)  (y : S4000x128.Idx) :
    ∃ pc ∈ (run0_first c i arg1 harg1 arg2 harg2 arg3 harg3 arg4 harg4 arg5 harg5 arg6 harg6 arg7 harg7 arg8 harg8 hc x0 x1 x2 x3 x4 ).1, y ∈ pc.1.set :=
  View.cover_of_tiledL (run0_first c i arg1 harg1 arg2 harg2 arg3 harg3 arg4 harg4 arg5 harg5 arg6 harg6 arg7 harg7 arg8 harg8 hc x0 x1 x2 x3 x4 ).1 S4000x128.size (by sl_kernel_rfl) y
theorem cover0_first_6 (c : Dev nD) (i : grid0.Coords) (arg1 : Memref sig .tc .vmem S4000x384 .bf16) (harg1 : arg1.IsWhole) (arg2 : Memref sig .tc .vmem S1x384 .f32) (harg2 : arg2.IsWhole) (arg3 : Memref sig .tc .vmem S1x384 .f32) (harg3 : arg3.IsWhole) (arg4 : Memref sig .tc .vmem S384x128 .bf16) (harg4 : arg4.IsWhole) (arg5 : Memref sig .tc .vmem S1x128 .f32) (harg5 : arg5.IsWhole) (arg6 : Memref sig .tc .vmem S4000x128 .f32) (harg6 : arg6.IsWhole) (arg7 : Memref sig .tc .vmem S1x128 .f32) (harg7 : arg7.IsWhole) (arg8 : Memref sig .tc .vmem S1x128 .f32) (harg8 : arg8.IsWhole) (hc : first0 i)
    (x0 : Vec F S4000x384 .bf16) (x1 x2 : Vec F S1x384 .f32) (x3 : Vec F S384x128 .bf16) (x4 : Vec F S1x128 .f32)  (y : S1x128.Idx) :
    ∃ pc ∈ (run0_first c i arg1 harg1 arg2 harg2 arg3 harg3 arg4 harg4 arg5 harg5 arg6 harg6 arg7 harg7 arg8 harg8 hc x0 x1 x2 x3 x4 ).2.1, y ∈ pc.1.set :=
  View.cover_of_tiledL (run0_first c i arg1 harg1 arg2 harg2 arg3 harg3 arg4 harg4 arg5 harg5 arg6 harg6 arg7 harg7 arg8 harg8 hc x0 x1 x2 x3 x4 ).2.1 S1x128.size (by sl_kernel_rfl) y
theorem cover0_first_7 (c : Dev nD) (i : grid0.Coords) (arg1 : Memref sig .tc .vmem S4000x384 .bf16) (harg1 : arg1.IsWhole) (arg2 : Memref sig .tc .vmem S1x384 .f32) (harg2 : arg2.IsWhole) (arg3 : Memref sig .tc .vmem S1x384 .f32) (harg3 : arg3.IsWhole) (arg4 : Memref sig .tc .vmem S384x128 .bf16) (harg4 : arg4.IsWhole) (arg5 : Memref sig .tc .vmem S1x128 .f32) (harg5 : arg5.IsWhole) (arg6 : Memref sig .tc .vmem S4000x128 .f32) (harg6 : arg6.IsWhole) (arg7 : Memref sig .tc .vmem S1x128 .f32) (harg7 : arg7.IsWhole) (arg8 : Memref sig .tc .vmem S1x128 .f32) (harg8 : arg8.IsWhole) (hc : first0 i)
    (x0 : Vec F S4000x384 .bf16) (x1 x2 : Vec F S1x384 .f32) (x3 : Vec F S384x128 .bf16) (x4 : Vec F S1x128 .f32)  (y : S1x128.Idx) :
    ∃ pc ∈ (run0_first c i arg1 harg1 arg2 harg2 arg3 harg3 arg4 harg4 arg5 harg5 arg6 harg6 arg7 harg7 arg8 harg8 hc x0 x1 x2 x3 x4 ).2.2.1, y ∈ pc.1.set :=
  View.cover_of_tiledL (run0_first c i arg1 harg1 arg2 harg2 arg3 harg3 arg4 harg4 arg5 harg5 arg6 harg6 arg7 harg7 arg8 harg8 hc x0 x1 x2 x3 x4 ).2.2.1 S1x128.size (by sl_kernel_rfl) y
theorem cover0_later_5 (c : Dev nD) (i : grid0.Coords) (arg1 : Memref sig .tc .vmem S4000x384 .bf16) (harg1 : arg1.IsWhole) (arg2 : Memref sig .tc .vmem S1x384 .f32) (harg2 : arg2.IsWhole) (arg3 : Memref sig .tc .vmem S1x384 .f32) (harg3 : arg3.IsWhole) (arg4 : Memref sig .tc .vmem S384x128 .bf16) (harg4 : arg4.IsWhole) (arg5 : Memref sig .tc .vmem S1x128 .f32) (harg5 : arg5.IsWhole) (arg6 : Memref sig .tc .vmem S4000x128 .f32) (harg6 : arg6.IsWhole) (arg7 : Memref sig .tc .vmem S1x128 .f32) (harg7 : arg7.IsWhole) (arg8 : Memref sig .tc .vmem S1x128 .f32) (harg8 : arg8.IsWhole) (hc : ¬first0 i)
    (x0 : Vec F S4000x384 .bf16) (x1 x2 : Vec F S1x384 .f32) (x3 : Vec F S384x128 .bf16) (x4 : Vec F S1x128 .f32) (s q : Vec F S1x128 .f32) (y : S4000x128.Idx) :
    ∃ pc ∈ (run0_later c i arg1 harg1 arg2 harg2 arg3 harg3 arg4 harg4 arg5 harg5 arg6 harg6 arg7 harg7 arg8 harg8 hc x0 x1 x2 x3 x4 s q).1, y ∈ pc.1.set :=
  View.cover_of_tiledL (run0_later c i arg1 harg1 arg2 harg2 arg3 harg3 arg4 harg4 arg5 harg5 arg6 harg6 arg7 harg7 arg8 harg8 hc x0 x1 x2 x3 x4 s q).1 S4000x128.size (by sl_kernel_rfl) y
theorem cover0_later_6 (c : Dev nD) (i : grid0.Coords) (arg1 : Memref sig .tc .vmem S4000x384 .bf16) (harg1 : arg1.IsWhole) (arg2 : Memref sig .tc .vmem S1x384 .f32) (harg2 : arg2.IsWhole) (arg3 : Memref sig .tc .vmem S1x384 .f32) (harg3 : arg3.IsWhole) (arg4 : Memref sig .tc .vmem S384x128 .bf16) (harg4 : arg4.IsWhole) (arg5 : Memref sig .tc .vmem S1x128 .f32) (harg5 : arg5.IsWhole) (arg6 : Memref sig .tc .vmem S4000x128 .f32) (harg6 : arg6.IsWhole) (arg7 : Memref sig .tc .vmem S1x128 .f32) (harg7 : arg7.IsWhole) (arg8 : Memref sig .tc .vmem S1x128 .f32) (harg8 : arg8.IsWhole) (hc : ¬first0 i)
    (x0 : Vec F S4000x384 .bf16) (x1 x2 : Vec F S1x384 .f32) (x3 : Vec F S384x128 .bf16) (x4 : Vec F S1x128 .f32) (s q : Vec F S1x128 .f32) (y : S1x128.Idx) :
    ∃ pc ∈ (run0_later c i arg1 harg1 arg2 harg2 arg3 harg3 arg4 harg4 arg5 harg5 arg6 harg6 arg7 harg7 arg8 harg8 hc x0 x1 x2 x3 x4 s q).2.1, y ∈ pc.1.set :=
  View.cover_of_tiledL (run0_later c i arg1 harg1 arg2 harg2 arg3 harg3 arg4 harg4 arg5 harg5 arg6 harg6 arg7 harg7 arg8 harg8 hc x0 x1 x2 x3 x4 s q).2.1 S1x128.size (by sl_kernel_rfl) y
theorem cover0_later_7 (c : Dev nD) (i : grid0.Coords) (arg1 : Memref sig .tc .vmem S4000x384 .bf16) (harg1 : arg1.IsWhole) (arg2 : Memref sig .tc .vmem S1x384 .f32) (harg2 : arg2.IsWhole) (arg3 : Memref sig .tc .vmem S1x384 .f32) (harg3 : arg3.IsWhole) (arg4 : Memref sig .tc .vmem S384x128 .bf16) (harg4 : arg4.IsWhole) (arg5 : Memref sig .tc .vmem S1x128 .f32) (harg5 : arg5.IsWhole) (arg6 : Memref sig .tc .vmem S4000x128 .f32) (harg6 : arg6.IsWhole) (arg7 : Memref sig .tc .vmem S1x128 .f32) (harg7 : arg7.IsWhole) (arg8 : Memref sig .tc .vmem S1x128 .f32) (harg8 : arg8.IsWhole) (hc : ¬first0 i)
    (x0 : Vec F S4000x384 .bf16) (x1 x2 : Vec F S1x384 .f32) (x3 : Vec F S384x128 .bf16) (x4 : Vec F S1x128 .f32) (s q : Vec F S1x128 .f32) (y : S1x128.Idx) :
    ∃ pc ∈ (run0_later c i arg1 harg1 arg2 harg2 arg3 harg3 arg4 harg4 arg5 harg5 arg6 harg6 arg7 harg7 arg8 harg8 hc x0 x1 x2 x3 x4 s q).2.2.1, y ∈ pc.1.set :=
  View.cover_of_tiledL (run0_later c i arg1 harg1 arg2 harg2 arg3 harg3 arg4 harg4 arg5 harg5 arg6 harg6 arg7 harg7 arg8 harg8 hc x0 x1 x2 x3 x4 s q).2.2.1 S1x128.size (by sl_kernel_rfl) y

/-! ## The output buffers point by point -/

/-- What the three output buffers (the projected block, the running column sums, the running column sums of
    squares) hold after the body at position `n`: at the first point what the resetting run stores; at a later
    point what the accumulating run stores, started from the two running rows the point before left. -/
def outs0 (c : Dev nD) : (n : ℕ) → n < cfg0.N → Vec F S4000x128 .f32 × Vec F S1x128 .f32 × Vec F S1x128 .f32
  | 0, hn =>
    (View.canon (run0_first c (grid0.coords ⟨0, hn⟩) (mem0_0 ⟨0, hn⟩) (whole0_0 ⟨0, hn⟩) (mem0_1 ⟨0, hn⟩) (whole0_1 ⟨0, hn⟩) (mem0_2 ⟨0, hn⟩) (whole0_2 ⟨0, hn⟩) (mem0_3 ⟨0, hn⟩) (whole0_3 ⟨0, hn⟩) (mem0_4 ⟨0, hn⟩) (whole0_4 ⟨0, hn⟩) (mem0_5 ⟨0, hn⟩) (whole0_5 ⟨0, hn⟩) (mem0_6 ⟨0, hn⟩) (whole0_6 ⟨0, hn⟩) (mem0_7 ⟨0, hn⟩) (whole0_7 ⟨0, hn⟩) ((first0_iff ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩)).1,
     View.canon (run0_first c (grid0.coords ⟨0, hn⟩) (mem0_0 ⟨0, hn⟩) (whole0_0 ⟨0, hn⟩) (mem0_1 ⟨0, hn⟩) (whole0_1 ⟨0, hn⟩) (mem0_2 ⟨0, hn⟩) (whole0_2 ⟨0, hn⟩) (mem0_3 ⟨0, hn⟩) (whole0_3 ⟨0, hn⟩) (mem0_4 ⟨0, hn⟩) (whole0_4 ⟨0, hn⟩) (mem0_5 ⟨0, hn⟩) (whole0_5 ⟨0, hn⟩) (mem0_6 ⟨0, hn⟩) (whole0_6 ⟨0, hn⟩) (mem0_7 ⟨0, hn⟩) (whole0_7 ⟨0, hn⟩) ((first0_iff ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩)).2.1,
     View.canon (run0_first c (grid0.coords ⟨0, hn⟩) (mem0_0 ⟨0, hn⟩) (whole0_0 ⟨0, hn⟩) (mem0_1 ⟨0, hn⟩) (whole0_1 ⟨0, hn⟩) (mem0_2 ⟨0, hn⟩) (whole0_2 ⟨0, hn⟩) (mem0_3 ⟨0, hn⟩) (whole0_3 ⟨0, hn⟩) (mem0_4 ⟨0, hn⟩) (whole0_4 ⟨0, hn⟩) (mem0_5 ⟨0, hn⟩) (whole0_5 ⟨0, hn⟩) (mem0_6 ⟨0, hn⟩) (whole0_6 ⟨0, hn⟩) (mem0_7 ⟨0, hn⟩) (whole0_7 ⟨0, hn⟩) ((first0_iff ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩)).2.2.1)
  | n + 1, hn =>
    (View.canon (run0_later c (grid0.coords ⟨n + 1, hn⟩) (mem0_0 ⟨n + 1, hn⟩) (whole0_0 ⟨n + 1, hn⟩) (mem0_1 ⟨n + 1, hn⟩) (whole0_1 ⟨n + 1, hn⟩) (mem0_2 ⟨n + 1, hn⟩) (whole0_2 ⟨n + 1, hn⟩) (mem0_3 ⟨n + 1, hn⟩) (whole0_3 ⟨n + 1, hn⟩) (mem0_4 ⟨n + 1, hn⟩) (whole0_4 ⟨n + 1, hn⟩) (mem0_5 ⟨n + 1, hn⟩) (whole0_5 ⟨n + 1, hn⟩) (mem0_6 ⟨n + 1, hn⟩) (whole0_6 ⟨n + 1, hn⟩) (mem0_7 ⟨n + 1, hn⟩) (whole0_7 ⟨n + 1, hn⟩) (fun h => Nat.succ_ne_zero n ((first0_iff ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outs0 c n (Nat.lt_of_succ_lt hn)).2.1 (outs0 c n (Nat.lt_of_succ_lt hn)).2.2).1,
     View.canon (run0_later c (grid0.coords ⟨n + 1, hn⟩) (mem0_0 ⟨n + 1, hn⟩) (whole0_0 ⟨n + 1, hn⟩) (mem0_1 ⟨n + 1, hn⟩) (whole0_1 ⟨n + 1, hn⟩) (mem0_2 ⟨n + 1, hn⟩) (whole0_2 ⟨n + 1, hn⟩) (mem0_3 ⟨n + 1, hn⟩) (whole0_3 ⟨n + 1, hn⟩) (mem0_4 ⟨n + 1, hn⟩) (whole0_4 ⟨n + 1, hn⟩) (mem0_5 ⟨n + 1, hn⟩) (whole0_5 ⟨n + 1, hn⟩) (mem0_6 ⟨n + 1, hn⟩) (whole0_6 ⟨n + 1, hn⟩) (mem0_7 ⟨n + 1, hn⟩) (whole0_7 ⟨n + 1, hn⟩) (fun h => Nat.succ_ne_zero n ((first0_iff ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outs0 c n (Nat.lt_of_succ_lt hn)).2.1 (outs0 c n (Nat.lt_of_succ_lt hn)).2.2).2.1,
     View.canon (run0_later c (grid0.coords ⟨n + 1, hn⟩) (mem0_0 ⟨n + 1, hn⟩) (whole0_0 ⟨n + 1, hn⟩) (mem0_1 ⟨n + 1, hn⟩) (whole0_1 ⟨n + 1, hn⟩) (mem0_2 ⟨n + 1, hn⟩) (whole0_2 ⟨n + 1, hn⟩) (mem0_3 ⟨n + 1, hn⟩) (whole0_3 ⟨n + 1, hn⟩) (mem0_4 ⟨n + 1, hn⟩) (whole0_4 ⟨n + 1, hn⟩) (mem0_5 ⟨n + 1, hn⟩) (whole0_5 ⟨n + 1, hn⟩) (mem0_6 ⟨n + 1, hn⟩) (whole0_6 ⟨n + 1, hn⟩) (mem0_7 ⟨n + 1, hn⟩) (whole0_7 ⟨n + 1, hn⟩) (fun h => Nat.succ_ne_zero n ((first0_iff ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outs0 c n (Nat.lt_of_succ_lt hn)).2.1 (outs0 c n (Nat.lt_of_succ_lt hn)).2.2).2.2.1)

theorem outs0_first (c : Dev nD) (t : Fin cfg0.N) (h : t.val = 0) :
    outs0 V c t.val t.isLt =
      (View.canon (run0_first c (grid0.coords t) (mem0_0 t) (whole0_0 t) (mem0_1 t) (whole0_1 t) (mem0_2 t) (whole0_2 t) (mem0_3 t) (whole0_3 t) (mem0_4 t) (whole0_4 t) (mem0_5 t) (whole0_5 t) (mem0_6 t) (whole0_6 t) (mem0_7 t) (whole0_7 t) ((first0_iff t).mpr h) (iblk0 V c 0 t) (iblk0 V c 1 t) (iblk0 V c 2 t) (iblk0 V c 3 t) (iblk0 V c 4 t)).1,
       View.canon (run0_first c (grid0.coords t) (mem0_0 t) (whole0_0 t) (mem0_1 t) (whole0_1 t) (mem0_2 t) (whole0_2 t) (mem0_3 t) (whole0_3 t) (mem0_4 t) (whole0_4 t) (mem0_5 t) (whole0_5 t) (mem0_6 t) (whole0_6 t) (mem0_7 t) (whole0_7 t) ((first0_iff t).mpr h) (iblk0 V c 0 t) (iblk0 V c 1 t) (iblk0 V c 2 t) (iblk0 V c 3 t) (iblk0 V c 4 t)).2.1,
       View.canon (run0_first c (grid0.coords t) (mem0_0 t) (whole0_0 t) (mem0_1 t) (whole0_1 t) (mem0_2 t) (whole0_2 t) (mem0_3 t) (whole0_3 t) (mem0_4 t) (whole0_4 t) (mem0_5 t) (whole0_5 t) (mem0_6 t) (whole0_6 t) (mem0_7 t) (whole0_7 t) ((first0_iff t).mpr h) (iblk0 V c 0 t) (iblk0 V c 1 t) (iblk0 V c 2 t) (iblk0 V c 3 t) (iblk0 V c 4 t)).2.2.1) := by
  obtain ⟨n, hn⟩ := t
  cases n with
  | zero => rfl
  | succ n => exact absurd h (Nat.succ_ne_zero n)

theorem outs0_later (c : Dev nD) (t : Fin cfg0.N) (h : t.val ≠ 0) :
    outs0 V c t.val t.isLt =
      (View.canon (run0_later c (grid0.coords t) (mem0_0 t) (whole0_0 t) (mem0_1 t) (whole0_1 t) (mem0_2 t) (whole0_2 t) (mem0_3 t) (whole0_3 t) (mem0_4 t) (whole0_4 t) (mem0_5 t) (whole0_5 t) (mem0_6 t) (whole0_6 t) (mem0_7 t) (whole0_7 t) (fun hh => h ((first0_iff t).mp hh)) (iblk0 V c 0 t) (iblk0 V c 1 t) (iblk0 V c 2 t) (iblk0 V c 3 t) (iblk0 V c 4 t) (outs0 V c (t.val - 1) (Nat.lt_of_le_of_lt (Nat.sub_le _ _) t.isLt)).2.1 (outs0 V c (t.val - 1) (Nat.lt_of_le_of_lt (Nat.sub_le _ _) t.isLt)).2.2).1,
       View.canon (run0_later c (grid0.coords t) (mem0_0 t) (whole0_0 t) (mem0_1 t) (whole0_1 t) (mem0_2 t) (whole0_2 t) (mem0_3 t) (whole0_3 t) (mem0_4 t) (whole0_4 t) (mem0_5 t) (whole0_5 t) (mem0_6 t) (whole0_6 t) (mem0_7 t) (whole0_7 t) (fun hh => h ((first0_iff t).mp hh)) (iblk0 V c 0 t) (iblk0 V c 1 t) (iblk0 V c 2 t) (iblk0 V c 3 t) (iblk0 V c 4 t) (outs0 V c (t.val - 1) (Nat.lt_of_le_of_lt (Nat.sub_le _ _) t.isLt)).2.1 (outs0 V c (t.val - 1) (Nat.lt_of_le_of_lt (Nat.sub_le _ _) t.isLt)).2.2).2.1,
       View.canon (run0_later c (grid0.coords t) (mem0_0 t) (whole0_0 t) (mem0_1 t) (whole0_1 t) (mem0_2 t) (whole0_2 t) (mem0_3 t) (whole0_3 t) (mem0_4 t) (whole0_4 t) (mem0_5 t) (whole0_5 t) (mem0_6 t) (whole0_6 t) (mem0_7 t) (whole0_7 t) (fun hh => h ((first0_iff t).mp hh)) (iblk0 V c 0 t) (iblk0 V c 1 t) (iblk0 V c 2 t) (iblk0 V c 3 t) (iblk0 V c 4 t) (outs0 V c (t.val - 1) (Nat.lt_of_le_of_lt (Nat.sub_le _ _) t.isLt)).2.1 (outs0 V c (t.val - 1) (Nat.lt_of_le_of_lt (Nat.sub_le _ _) t.isLt)).2.2).2.2.1) := by
  obtain ⟨n, hn⟩ := t
  cases n with
  | zero => exact absurd rfl h
  | succ n => rfl

/-! ## The proof data of this pipeline -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outs0 V c t.val t.isLt).1
    | ⟨6, _⟩ => (outs0 V c t.val t.isLt).2.1
    | ⟨7, _⟩ => (outs0 V c t.val t.isLt).2.2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outs0 V c t.val t.isLt).1 := by dsimp only [dat0]
theorem after0_6 (c : Dev nD) (t : Fin cfg0.N) : (dat0 V c).after 6 t = (outs0 V c t.val t.isLt).2.1 := by dsimp only [dat0]
theorem after0_7 (c : Dev nD) (t : Fin cfg0.N) : (dat0 V c).after 7 t = (outs0 V c t.val t.isLt).2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- At a later point a running row's buffer holds what the body left at the point before: it was not written back
    in between (only the last point writes it back) and its block index never moves. -/
theorem before0_6_later (c : Dev nD) (t : Fin cfg0.N) (h : t.val ≠ 0) (d) :
    (dat0 V c).before 6 t d = (outs0 V c (t.val - 1) (Nat.lt_of_le_of_lt (Nat.sub_le _ _) t.isLt)).2.1 := by
  have hN : t.val < 125 := lt_of_lt_of_eq t.isLt (show cfg0.N = 125 from N_0)
  rw [Dat.before_out_kept _ 6 rfl t h (Bool.eq_false_iff.mpr fun hh => by have := (flush0_6 _).mp hh; dsimp only at this; omega)
    (fun _ => rfl) (fun _ _ => rfl)]
  dsimp only [dat0]
theorem before0_7_later (c : Dev nD) (t : Fin cfg0.N) (h : t.val ≠ 0) (d) :
    (dat0 V c).before 7 t d = (outs0 V c (t.val - 1) (Nat.lt_of_le_of_lt (Nat.sub_le _ _) t.isLt)).2.2 := by
  have hN : t.val < 125 := lt_of_lt_of_eq t.isLt (show cfg0.N = 125 from N_0)
  rw [Dat.before_out_kept _ 7 rfl t h (Bool.eq_false_iff.mpr fun hh => by have := (flush0_7 _).mp hh; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (mem0_0 t) fullShare ((dat0 V c).before 0 t d))
    ∗ (∃ d, owns (c : Thread nD τ) (mem0_1 t) fullShare ((dat0 V c).before 1 t d))
    ∗ (∃ d, owns (c : Thread nD τ) (mem0_2 t) fullShare ((dat0 V c).before 2 t d))
    ∗ (∃ d, owns (c : Thread nD τ) (mem0_3 t) fullShare ((dat0 V c).before 3 t d))
    ∗ (∃ d, owns (c : Thread nD τ) (mem0_4 t) fullShare ((dat0 V c).before 4 t d))
    ∗ (∃ d, owns (c : Thread nD τ) (mem0_5 t) fullShare ((dat0 V c).before 5 t d))
    ∗ (∃ d, owns (c : Thread nD τ) (mem0_6 t) fullShare ((dat0 V c).before 6 t d))
    ∗ (∃ d, owns (c : Thread nD τ) (mem0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (mem0_0 t) fullShare ((dat0 V c).after 0 t)
    ∗ owns (c : Thread nD τ) (mem0_1 t) fullShare ((dat0 V c).after 1 t)
    ∗ owns (c : Thread nD τ) (mem0_2 t) fullShare ((dat0 V c).after 2 t)
    ∗ owns (c : Thread nD τ) (mem0_3 t) fullShare ((dat0 V c).after 3 t)
    ∗ owns (c : Thread nD τ) (mem0_4 t) fullShare ((dat0 V c).after 4 t)
    ∗ owns (c : Thread nD τ) (mem0_5 t) fullShare ((dat0 V c).after 5 t)
    ∗ owns (c : Thread nD τ) (mem0_6 t) fullShare ((dat0 V c).after 6 t)
    ∗ owns (c : Thread nD τ) (mem0_7 t) fullShare ((dat0 V c).after 7 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  by_cases h : t.val = 0
  · rw [outs0_first V c t h]
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run0_first c (grid0.coords t) (mem0_0 t) (whole0_0 t) (mem0_1 t) (whole0_1 t) (mem0_2 t) (whole0_2 t) (mem0_3 t) (whole0_3 t) (mem0_4 t) (whole0_4 t) (mem0_5 t) (whole0_5 t) (mem0_6 t) (whole0_6 t) (mem0_7 t) (whole0_7 t) ((first0_iff t).mpr h) (iblk0 V c 0 t) (iblk0 V c 1 t) (iblk0 V c 2 t) (iblk0 V c 3 t) (iblk0 V c 4 t)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (cover0_first_5 c _ _ _ _ _ _ _ _ _ _ _ _ _ _ _ _ _ _ _ _ _ _ _)
    isplitl [H6]
    · unfold owns; iexists _; isplitr
      swap; · iexact H6
      ipureintro; exact View.read_writes_eq_canon _ _ _ (cover0_first_6 c _ _ _ _ _ _ _ _ _ _ _ _ _ _ _ _ _ _ _ _ _ _ _)
    unfold owns; iexists _; isplitr
    swap; · iexact H7
    ipureintro; exact View.read_writes_eq_canon _ _ _ (cover0_first_7 c _ _ _ _ _ _ _ _ _ _ _ _ _ _ _ _ _ _ _ _ _ _ _)
  · rw [outs0_later V c t h]
    simp only [before0_6_later V c t h, before0_7_later V c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run0_later c (grid0.coords t) (mem0_0 t) (whole0_0 t) (mem0_1 t) (whole0_1 t) (mem0_2 t) (whole0_2 t) (mem0_3 t) (whole0_3 t) (mem0_4 t) (whole0_4 t) (mem0_5 t) (whole0_5 t) (mem0_6 t) (whole0_6 t) (mem0_7 t) (whole0_7 t) (fun hh => h ((first0_iff t).mp hh)) (iblk0 V c 0 t) (iblk0 V c 1 t) (iblk0 V c 2 t) (iblk0 V c 3 t) (iblk0 V c 4 t) (outs0 V c (t.val - 1) (Nat.lt_of_le_of_lt (Nat.sub_le _ _) t.isLt)).2.1 (outs0 V c (t.val - 1) (Nat.lt_of_le_of_lt (Nat.sub_le _ _) t.isLt)).2.2).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (cover0_later_5 c _ _ _ _ _ _ _ _ _ _ _ _ _ _ _ _ _ _ _ _ _ _ _ _ _)
    isplitl [H6]
    · unfold owns; iexists _; isplitr
      swap; · iexact H6
      ipureintro; exact View.read_writes_eq_canon _ _ _ (cover0_later_6 c _ _ _ _ _ _ _ _ _ _ _ _ _ _ _ _ _ _ _ _ _ _ _ _ _)
    unfold owns; iexists _; isplitr
    swap; · iexact H7
    ipureintro; exact View.read_writes_eq_canon _ _ _ (cover0_later_7 c _ _ _ _ _ _ _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KI.Reg1.lean ====
/-
  The second Pallas call (the attention logits): at grid point t the body reads rows 4000·t … 4000·t+3999 of the
  pre-activation array, the per-column scale and shift of the second batch normalisation, the logit weights and the
  logit bias, and writes the same rows of the two results: the weights exp(−leaky_relu(⟨c, a₂⟩ + b₂)) (one column) and
  the weighted rows. Every load and every store is of a whole staging buffer, so what each output buffer holds after
  the body is the stored value itself, a function of the five input blocks; the inputs are left as found. The body
  also loads each output buffer before storing into it; what it finds there is never used.
-/
import proofs.«114553_j89962384982591_1_alg».proof.Proof.Gen.KernelIdeal.Launch
import proofs.«114553_j89962384982591_1_alg».proof.Proof.Gen.KernelIdeal.Skeleton
import proofs.«114553_j89962384982591_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: a parameter here, fixed by the run
variable (V : (c : Dev nD) → (b : Ref sig .tc) → Buf (Elt F) ((c : Thread nD τ).loc b))

/-- The block of window `w` at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section Inputs
variable {c : Dev nD} (dat : Dat τ (Elt F) Unit ℕ (UR sig nD τ) ℕ cfg1 c)

/-- An input window's staging buffer holds the window's block at every point, whether the point fetches it or
    not (an unfetched window's block index has not moved), provided the body leaves it in place. -/
theorem before1_0_of (hA : dat.A 0 = V c (Pipeline.arrRef spec1 0)) (hafter : ∀ t, dat.after 0 t = iblk1 V c 0 t) (t : Fin cfg1.N) (d) :
    dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of (hA : dat.A 1 = V c (Pipeline.arrRef spec1 1)) (hafter : ∀ t, dat.after 1 t = iblk1 V c 1 t) (t : Fin cfg1.N) (d) :
    dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of (hA : dat.A 2 = V c (Pipeline.arrRef spec1 2)) (hafter : ∀ t, dat.after 2 t = iblk1 V c 2 t) (t : Fin cfg1.N) (d) :
    dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of (hA : dat.A 3 = V c (Pipeline.arrRef spec1 3)) (hafter : ∀ t, dat.after 3 t = iblk1 V c 3 t) (t : Fin cfg1.N) (d) :
    dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of (hA : dat.A 4 = V c (Pipeline.arrRef spec1 4)) (hafter : ∀ t, dat.after 4 t = iblk1 V c 4 t) (t : Fin cfg1.N) (d) :
    dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
end Inputs

/-! ## The rectangles the body reads and writes: each a whole buffer -/

abbrev rRows : Rect S4000x128 := Rect.unit (s := S4000x128) ![0, 0] S4000x128.size inb_S4000x128_S4000x128_0_0
abbrev rLane : Rect S1x128 := Rect.unit (s := S1x128) ![0, 0] S1x128.size inb_S1x128_S1x128_0_0
abbrev rOne : Rect S1x1 := Rect.unit (s := S1x1) ![0, 0] S1x1.size inb_S1x1_S1x1_0_0
abbrev rCol : Rect S4000x1 := Rect.unit (s := S4000x1) ![0, 0] S4000x1.size inb_S4000x1_S4000x1_0_0

/-- The weighted rows: what the body leaves in the first output's buffer, from the five input blocks. -/
def wrows1 (x0 : Vec F S4000x128 .f32) (x1 x2 x3 : Vec F S1x128 .f32) (x4 : Vec F S1x1 .f32) : Vec F S4000x128 .f32 :=
  View.canon [⟨rRows, k1_pay3 (View.ld x0 rRows) (View.ld x1 rLane) (View.ld x2 rLane) (View.ld x3 rLane) (View.ld x4 rOne)⟩]

/-- The weights: what the body leaves in the second output's buffer. -/
def wts1 (x0 : Vec F S4000x128 .f32) (x1 x2 x3 : Vec F S1x128 .f32) (x4 : Vec F S1x1 .f32) : Vec F S4000x1 .f32 :=
  View.canon [⟨rCol, k1_pay2 (View.ld x0 rRows) (View.ld x1 rLane) (View.ld x2 rLane) (View.ld x3 rLane) (View.ld x4 rOne)⟩]

/-- One store of the whole buffer covers it. -/
theorem cover_rows (p0 : Vec F S4000x128 .f32) (y : S4000x128.Idx) :
    ∃ pc ∈ ([⟨rRows, p0⟩] : List (View.Piece (Elt F) S4000x128 .f32)), y ∈ pc.1.set :=
  View.cover_of_tiled [⟨rRows, p0⟩] S4000x128.size (by rfl) y
theorem cover_col (p0 : Vec F S4000x1 .f32) (y : S4000x1.Idx) :
    ∃ pc ∈ ([⟨rCol, p0⟩] : List (View.Piece (Elt F) S4000x1 .f32)), y ∈ pc.1.set :=
  View.cover_of_tiled [⟨rCol, p0⟩] S4000x1.size (by rfl) y

set_option maxHeartbeats 1000000 in
/-- The body on whole staging buffers: the five inputs at known contents, the two outputs at anything; it ends with
    the inputs as they were and the outputs at the weighted rows and the weights. -/
theorem sound_kernel1 (c : Dev nD) (E : Set ℕ) (i : grid1.Coords)
    (arg1 : Memref sig .tc .vmem S4000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x1 .f32) (harg5 : arg5.IsWhole) (arg6 : Memref sig .tc .vmem S4000x128 .f32) (harg6 : arg6.IsWhole)
    (arg7 : Memref sig .tc .vmem S4000x1 .f32) (harg7 : arg7.IsWhole)
    (x0 : Vec F S4000x128 .f32) (x1 x2 x3 : Vec F S1x128 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (wrows1 x0 x1 x2 x3 x4) ∗ owns (c : Thread nD τ) arg7 fullShare (wts1 x0 x1 x2 x3 x4)) -∗ K ⟨⟩))
      ⊢ wp frame (wpE (defs₀ (F := F)) Variants.none c none) E (cc1__kernel2_body i arg1 harg1 arg2 harg2 arg3 harg3 arg4 harg4 arg5 harg5 arg6 harg6 arg7 harg7) K := by
  simp only [cc1__kernel2_body_eq_skeleton]; unfold cc1__kernel2_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_rows _)
  iexists _; isplitr
  swap; · iexact H6
  ipureintro
  exact View.read_writes_eq_canon _ _ _ (cover_col _)

/-! ## The proof data of this pipeline -/

/-- After the body at point `t`: each input's buffer at its block, the outputs' at the weighted rows and the weights
    of the point's blocks. The invariant is the scoped rest and the generator register, untouched; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => wrows1 (iblk1 V c 0 t) (iblk1 V c 1 t) (iblk1 V c 2 t) (iblk1 V c 3 t) (iblk1 V c 4 t)
    | ⟨6, _⟩ => wts1 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = wrows1 (iblk1 V c 0 t) (iblk1 V c 1 t) (iblk1 V c 2 t) (iblk1 V c 3 t) (iblk1 V c 4 t) := by dsimp only [dat1]
theorem after1_6 (c : Dev nD) (t : Fin cfg1.N) : (dat1 V c).after 6 t
    = wts1 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is handed at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KI.Bnd.lean ====
/-
  The contents of a core's unscoped buffers at the boundaries between the program's segments: the launch memory after
  the first stretch of host operations; then, after the first Pallas call, its arrays at what the pipeline's
  write-backs leave (every other buffer untouched); the second stretch of host operations applied; the second Pallas
  call's arrays likewise; the remaining host operations applied.
-/
import proofs.«114553_j89962384982591_1_alg».proof.Proof.KI.Reg0Data
import proofs.«114553_j89962384982591_1_alg».proof.Proof.KI.Reg1
import proofs.«114553_j89962384982591_1_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the segment boundaries -/

/-- When the first Pallas call is entered: the launch memory after the first stretch of host operations, read at
    the TensorCore's references. -/
abbrev E1 : (c : Dev nD) → (b : Ref sig .tc) → Buf (Elt F) ((c : Thread nD τ).loc b) := fun c b => Gen.V1 m c b
/-- When it is left: its arrays at what the pipeline leaves, every other buffer as entered. -/
def X2 (c : Dev nD) : Valuation τ sig (Elt F) :=
  Pipeline.withArrays spec0 c (Gen.V1 m c) fun w => (dat0 (E1 m) c).arrAt w cfg0.N
/-- After the second stretch of host operations: the second Pallas call's entry. -/
abbrev X3 (c : Dev nD) : Valuation τ sig (Elt F) := StableHlo.after hostOps1 (X2 m c)
abbrev E3 : (c : Dev nD) → (b : Ref sig .tc) → Buf (Elt F) ((c : Thread nD τ).loc b) := fun c b => X3 m c b
/-- When the second Pallas call is left. -/
def X4 (c : Dev nD) : Valuation τ sig (Elt F) :=
  Pipeline.withArrays spec1 c (X3 m c) fun w => (dat1 (E3 m) c).arrAt w cfg1.N
/-- At the end: the remaining host operations applied. -/
abbrev X7 (c : Dev nD) : Valuation τ sig (Elt F) :=
  StableHlo.after hostOps2_2 (StableHlo.after hostOps2_1 (StableHlo.after hostOps2 (X4 m c)))

theorem X2_arr (c : Dev nD) (w : Fin cfg0.W) :
    X2 m c (Proc.devRef .tc (Pipeline.arrRef spec0 w)) = (dat0 (E1 m) c).arrAt w cfg0.N := by
  unfold X2; exact Pipeline.withArrays_arr spec0 launch0.win.arr_inj c _ _ w
theorem X2_of_ne (c : Dev nD) (b : Ref sig .tc) (hb : ∀ w, Pipeline.arrRef spec0 w ≠ b) :
    X2 m c (Proc.devRef .tc b) = Gen.V1 m c (Proc.devRef .tc b) := by
  unfold X2; exact Pipeline.withArrays_of_ne spec0 c _ _ b hb
theorem hF0 (c : Dev nD) (w : Fin cfg0.W) : (dat0 (E1 m) c).arrAt w cfg0.N = X2 m c (Pipeline.arrRef spec0 w) :=
  (X2_arr m c w).symm
theorem hrest0 (c : Dev nD) : ∀ b : Ref sig .tc, b ∉ Finset.univ.image (Pipeline.arrRef spec0) → X2 m c b = E1 m c b :=
  fun b hb => X2_of_ne m c b fun w e => hb (Finset.mem_image.mpr ⟨w, Finset.mem_univ _, e⟩)

theorem X4_arr (c : Dev nD) (w : Fin cfg1.W) :
    X4 m c (Proc.devRef .tc (Pipeline.arrRef spec1 w)) = (dat1 (E3 m) c).arrAt w cfg1.N := by
  unfold X4; exact Pipeline.withArrays_arr spec1 launch1.win.arr_inj c _ _ w
theorem X4_of_ne (c : Dev nD) (b : Ref sig .tc) (hb : ∀ w, Pipeline.arrRef spec1 w ≠ b) :
    X4 m c (Proc.devRef .tc b) = X3 m c (Proc.devRef .tc b) := by
  unfold X4; exact Pipeline.withArrays_of_ne spec1 c _ _ b hb
theorem hF1 (c : Dev nD) (w : Fin cfg1.W) : (dat1 (E3 m) c).arrAt w cfg1.N = X4 m c (Pipeline.arrRef spec1 w) :=
  (X4_arr m c w).symm
theorem hrest1 (c : Dev nD) : ∀ b : Ref sig .tc, b ∉ Finset.univ.image (Pipeline.arrRef spec1) → X4 m c b = E3 m c b :=
  fun b hb => X4_of_ne m c b fun w e => hb (Finset.mem_image.mpr ⟨w, Finset.mem_univ _, e⟩)

end Cert.KernelIdeal.Frame

end
-- ==== Proof.KI.Run.lean ====
/-
  The whole program as a chain of segments: host operations, the first Pallas call, host operations, the second
  Pallas call, host operations to the end. Between two segments every unscoped buffer of the core is held at known
  contents: the launch memory, then each host stretch applied, then after a Pallas call its output arrays at what the
  pipeline's write-backs leave (every other buffer untouched). The run ends with every unscoped buffer — the two
  results and the eleven arguments among them — at the last of these contents.
-/
import proofs.«114553_j89962384982591_1_alg».proof.Proof.KI.Bnd
import proofs.«114553_j89962384982591_1_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and what rides beside the buffers -/

def pdats : (p : Fin 2) → (c : Dev nD) → Dat τ (Elt F) Unit ℕ (UR sig nD τ) ℕ (cfgs p) c
  | ⟨0, _⟩ => fun c => dat0 (E1 m) c
  | ⟨1, _⟩ => fun c => dat1 (E3 m) c

/-- No core owes another anything: no pair has a level. -/
abbrev noPairs : GSem nD τ sig → Finset Unit := fun _ => ∅
abbrev noLevel : GSem nD τ sig → Unit → ℕ := fun _ _ => 0
/-- Beside the buffers through every segment: the core's generator register at some state, and the core owing nothing. -/
abbrev rest (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- Pallas call 0 as a segment of the program: entered with every unscoped buffer at the contents the host
    operations before it leave, left with its arrays at what its write-backs make of them and every other buffer as
    found; the generator register passes through the pipeline's invariant; nothing is owed; the kernel has no
    semaphore of its own. -/
def reg0 : Pipeline.RegionSeg (pcfgs (F := F)) Gen.adm (pdats m) () defs₀ Variants.none noPairs noLevel 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ noPairs noLevel 0 fun _ _ => rfl
  pre c := iprop(StableHlo.held (c : Thread nD τ) (Pipeline.ucRefs τ sig) (Gen.V1 m c) ∗ rest c)
  post c := iprop(StableHlo.held (c : Thread nD τ) (Pipeline.ucRefs τ sig) (X2 m c) ∗ rest c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (fun b => X2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pallas call 1 as a segment of the program: entered with every unscoped buffer at the contents the host
    operations before it leave, left with its arrays at what its write-backs make of them and every other buffer as
    found; the generator register passes through the pipeline's invariant; nothing is owed; the kernel has no
    semaphore of its own. -/
def reg1 : Pipeline.RegionSeg (pcfgs (F := F)) Gen.adm (pdats m) () defs₀ Variants.none noPairs noLevel 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ noPairs noLevel 1 fun _ _ => rfl
  pre c := iprop(StableHlo.held (c : Thread nD τ) (Pipeline.ucRefs τ sig) (X3 m c) ∗ rest c)
  post c := iprop(StableHlo.held (c : Thread nD τ) (Pipeline.ucRefs τ sig) (X4 m c) ∗ rest c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E3 m c) (fun b => X4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## What the two Pallas calls leave, as the unknowns of the generated segment chain -/

/-- The contents the regions leave in the buffers they may change, read off the boundary contents above. -/
def outs : Gen.Outs (F := F) := fun J r c => if J = 2 then X2 m c r else X4 m c r

theorem outs_two (r : Ref sig .tc) (c : Dev nD) : outs m 2 r c = X2 m c r := if_pos rfl
theorem outs_four (r : Ref sig .tc) (c : Dev nD) : outs m 4 r c = X4 m c r := if_neg (by decide)

/-- After the first Pallas call the generated chain's contents are the boundary contents: the three result arrays by
    definition, an operand array because an input window never changes its array, every other buffer untouched. -/
theorem V2_eq (c : Dev nD) : Gen.V2 m (outs m) c = X2 m c := by
  funext b
  unfold Gen.V2
  rw [outs_two, outs_two, outs_two]
  by_cases h2 : b = Proc.devRef .tc main_v52_2
  · subst h2; rw [Function.update_self]
  rw [Function.update_of_ne h2]
  by_cases h1 : b = Proc.devRef .tc main_v52_1
  · subst h1; rw [Function.update_self]
  rw [Function.update_of_ne h1]
  by_cases h0 : b = Proc.devRef .tc main_v52_0
  · subst h0; rw [Function.update_self]
  rw [Function.update_of_ne h0]
  by_cases hex : ∃ w, Proc.devRef .tc (Pipeline.arrRef spec0 w) = b
  · obtain ⟨w, rfl⟩ := hex
    rw [X2_arr]
    match w with
    | ⟨0, _⟩ => exact (((dat0 (E1 m) c).arrAt_in 0 rfl _).trans (A_eq0 (E1 m) c 0)).symm
    | ⟨1, _⟩ => exact (((dat0 (E1 m) c).arrAt_in 1 rfl _).trans (A_eq0 (E1 m) c 1)).symm
    | ⟨2, _⟩ => exact (((dat0 (E1 m) c).arrAt_in 2 rfl _).trans (A_eq0 (E1 m) c 2)).symm
    | ⟨3, _⟩ => exact (((dat0 (E1 m) c).arrAt_in 3 rfl _).trans (A_eq0 (E1 m) c 3)).symm
    | ⟨4, _⟩ => exact (((dat0 (E1 m) c).arrAt_in 4 rfl _).trans (A_eq0 (E1 m) c 4)).symm
    | ⟨5, _⟩ => exact absurd rfl h0
    | ⟨6, _⟩ => exact absurd rfl h1
    | ⟨7, _⟩ => exact absurd rfl h2
  · unfold X2 Pipeline.withArrays; rw [dif_neg hex]

theorem V3_eq (c : Dev nD) : Gen.V3 m (outs m) c = X3 m c := by
  unfold Gen.V3; rw [V2_eq]

theorem V4_eq (c : Dev nD) : Gen.V4 m (outs m) c = X4 m c := by
  funext b
  unfold Gen.V4
  rw [outs_four, outs_four, V3_eq]
  by_cases h1 : b = Proc.devRef .tc main_v70_1
  · subst h1; rw [Function.update_self]
  rw [Function.update_of_ne h1]
  by_cases h0 : b = Proc.devRef .tc main_v70_0
  · subst h0; rw [Function.update_self]
  rw [Function.update_of_ne h0]
  by_cases hex : ∃ w, Proc.devRef .tc (Pipeline.arrRef spec1 w) = b
  · obtain ⟨w, rfl⟩ := hex
    rw [X4_arr]
    match w with
    | ⟨0, _⟩ => exact (((dat1 (E3 m) c).arrAt_in 0 rfl _).trans (A_eq1 (E3 m) c 0)).symm
    | ⟨1, _⟩ => exact (((dat1 (E3 m) c).arrAt_in 1 rfl _).trans (A_eq1 (E3 m) c 1)).symm
    | ⟨2, _⟩ => exact (((dat1 (E3 m) c).arrAt_in 2 rfl _).trans (A_eq1 (E3 m) c 2)).symm
    | ⟨3, _⟩ => exact (((dat1 (E3 m) c).arrAt_in 3 rfl _).trans (A_eq1 (E3 m) c 3)).symm
    | ⟨4, _⟩ => exact (((dat1 (E3 m) c).arrAt_in 4 rfl _).trans (A_eq1 (E3 m) c 4)).symm
    | ⟨5, _⟩ => exact absurd rfl h0
    | ⟨6, _⟩ => exact absurd rfl h1
  · unfold X4 Pipeline.withArrays; rw [dif_neg hex]

theorem V7_eq (c : Dev nD) : Gen.V7 m (outs m) c = X7 m c := by
  unfold Gen.V7 Gen.V6 Gen.V5; rw [V4_eq]

/-! ## The run -/

/-- Equal contents, equal thread states. -/
theorem held_cong (c : Dev nD) {A B : Valuation τ sig (Elt F)} (h : A = B) :
    (iprop(StableHlo.held (c : Thread nD τ) (Pipeline.ucRefs τ sig) A ∗ rest c) : sProp 𝕄)
      ⊢ iprop(StableHlo.held (c : Thread nD τ) (Pipeline.ucRefs τ sig) B ∗ rest c) := by
  subst h; exact .rfl

-- the launch theorem's implicit arguments are found by unifying its conclusion with this one, which takes unfolding
-- plain definitions in a metavariable's type
set_option backward.isDefEq.respectTransparency.types false in
/-- From any launch memory with zero counters every weakly fair execution of the program terminates, nothing
    faulting, and in every final state each unscoped buffer of each core holds the last boundary contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = X7 m c b) := by
  refine Pipeline.θ_run_regions_kit_dev (pcfgs (F := F)) Gen.adm (pdats m) () cellOf_inj emb₁ defs₀ Variants.none noPairs noLevel m ρ main
    (Gen.segs m (outs m) Variants.none noPairs noLevel (fun _ c => rest c) () (pdats m) (reg0 m) (reg1 m))
    (fun c Q => by
      rewrite [main_chain c, Seg.run_eq_chain,
        show (Gen.segs m (outs m) Variants.none noPairs noLevel (fun _ c => rest c) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ rest c))
    (Tₙ := fun c => StableHlo.held (c : Thread nD τ) (Pipeline.ucRefs τ sig) (Gen.V7 m (outs m) c))
    (hch := fun c => ⟨.rfl, .rfl, held_cong c (V2_eq m c).symm, held_cong c (V3_eq m c), held_cong c (V4_eq m c).symm, .rfl, .rfl,
      sep_mono .rfl (by iintro ⟨-, H⟩; iexact H)⟩)
    (hinit := by
      refine Pipeline.initEach noPairs noLevel fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X7 m c b)
    (hfin := fun c s' => by
      rw [V7_eq]
      iintro ⟨Hh, HSI⟩
      unfold StableHlo.held
      imodintro
      iapply (pointsTo_read_all (Pipeline.ucRefs τ sig) (fun b => (((c : Thread nD τ)).1, b)) (X7 m c) s')
      isplitl [Hh] <;> iassumption)
    (hQ := fun s h c => h c)

/-- info: 'Cert.KernelIdeal.Frame.run_all' depends on axioms: [propext, Classical.choice, Quot.sound] -/
#guard_msgs in #print axioms run_all

/-! ## The frame: every argument array ends as launched -/

/-- An unscoped TensorCore reference is among the buffers the run reads at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem X7_arg (c : Dev nD) (b : Ref sig .tc) (h : Gen.V7 m (outs m) c b = m ((c : Thread nD τ).loc b)) :
    X7 m c b = m ((c : Thread nD τ).loc b) :=
  (congrFun (V7_eq m c) _).symm.trans h

/-- No host operation writes an argument and no Pallas call may change one: each ends holding its launch contents. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (X7_arg m c main_arg0 (Gen.V7_main_arg0 m (outs m) c)),
      (h c _ (mem_uc main_arg1 (by decide))).trans (X7_arg m c main_arg1 (Gen.V7_main_arg1 m (outs m) c)),
      (h c _ (mem_uc main_arg2 (by decide))).trans (X7_arg m c main_arg2 (Gen.V7_main_arg2 m (outs m) c)),
      (h c _ (mem_uc main_arg3 (by decide))).trans (X7_arg m c main_arg3 (Gen.V7_main_arg3 m (outs m) c)),
      (h c _ (mem_uc main_arg4 (by decide))).trans (X7_arg m c main_arg4 (Gen.V7_main_arg4 m (outs m) c)),
      (h c _ (mem_uc main_arg5 (by decide))).trans (X7_arg m c main_arg5 (Gen.V7_main_arg5 m (outs m) c)),
      (h c _ (mem_uc main_arg6 (by decide))).trans (X7_arg m c main_arg6 (Gen.V7_main_arg6 m (outs m) c)),
      (h c _ (mem_uc main_arg7 (by decide))).trans (X7_arg m c main_arg7 (Gen.V7_main_arg7 m (outs m) c)),
      (h c _ (mem_uc main_arg8 (by decide))).trans (X7_arg m c main_arg8 (Gen.V7_main_arg8 m (outs m) c)),
      (h c _ (mem_uc main_arg9 (by decide))).trans (X7_arg m c main_arg9 (Gen.V7_main_arg9 m (outs m) c)),
      (h c _ (mem_uc main_arg10 (by decide))).trans (X7_arg m c main_arg10 (Gen.V7_main_arg10 m (outs m) c))⟩) (run_all m ρ)

end Cert.KernelIdeal.Frame

end
-- ==== Proof.Bridge.RefSeg.lean ====
import proofs.«114553_j89962384982591_1_alg».proof.Proof.RefRunP
import proofs.«114553_j89962384982591_1_alg».proof.Proof.RefReadP

/-!
# The reference's operations, cut where few values are live

The reference's 152 operations form a chain in which a few values feed everything after them: the
gathered row matrix (after operation 37), the normalised rows and the transposed weight (after 68),
the linear layer (after 72), the second normalisation and the transposed logit weight (after 103),
the attention factors and scaled messages (after 119). The list is cut there into six segments.
Folding all 152 operations at once expands every shared value once per use, and the sizes
multiply; folding one segment at a time, with the values entering it named, keeps each fold small.
This module holds the segments and the two facts that join them.
-/

noncomputable section

namespace Cert.Bridge

open Cert.ReferenceIdeal Cert.ReferenceIdeal.Gen Idealize.ShloMosaic Idealize.ShloMosaic.TcCoe Idealize.SL.Sem Idealize.ShloMosaic.StableHlo

variable {F : FTy → Type} [FloatOps F]

/-- Folding a concatenation of operation lists is folding the first, then the second. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- Operations 1–37 of the reference. -/
def seg1 : List (HloOp τ sig (Elt F)) :=
  [ unary main_arg0 main_v0 ((extractStridedSlice S250000x1 ![0, 0] · slices_S250000x3_S250000x1_0_0) : (⟨S250000x3, .i32⟩ : BufTy).Contents (Elt F) → (⟨S250000x1, .i32⟩ : BufTy).Contents (Elt F)),
    reshape main_v0 main_v1 rfl shapeCasts_S250000x1_S250000,
    unary main_arg0 main_v2 ((extractStridedSlice S250000x1 ![0, 1] · slices_S250000x3_S250000x1_0_1) : (⟨S250000x3, .i32⟩ : BufTy).Contents (Elt F) → (⟨S250000x1, .i32⟩ : BufTy).Contents (Elt F)),
    reshape main_v2 main_v3 rfl shapeCasts_S250000x1_S250000,
    unary main_arg0 main_v4 ((extractStridedSlice S250000x1 ![0, 2] · slices_S250000x3_S250000x1_0_2) : (⟨S250000x3, .i32⟩ : BufTy).Contents (Elt F) → (⟨S250000x1, .i32⟩ : BufTy).Contents (Elt F)),
    reshape main_v4 main_v5 rfl shapeCasts_S250000x1_S250000,
    nullary main_c (constantI S_ 32 0#32),
    unary main_c main_v6 (broadcastInDim S250000 ![] bcast_S_S250000 : (⟨S_, .i32⟩ : BufTy).Contents (Elt F) → (⟨S250000, .i32⟩ : BufTy).Contents (Elt F)),
    binary main_v1 main_v6 main_v7 (cmpi .slt : (⟨S250000, .i32⟩ : BufTy).Contents (Elt F) → (⟨S250000, .i32⟩ : BufTy).Contents (Elt F) → (⟨S250000, .i1⟩ : BufTy).Contents (Elt F)),
    nullary main_c_0 (constantI S_ 32 100000#32),
    unary main_c_0 main_v8 (broadcastInDim S250000 ![] bcast_S_S250000 : (⟨S_, .i32⟩ : BufTy).Contents (Elt F) → (⟨S250000, .i32⟩ : BufTy).Contents (Elt F)),
    binary main_v1 main_v8 main_v9 (addi : (⟨S250000, .i32⟩ : BufTy).Contents (Elt F) → (⟨S250000, .i32⟩ : BufTy).Contents (Elt F) → (⟨S250000, .i32⟩ : BufTy).Contents (Elt F)),
    ternary main_v7 main_v9 main_v1 main_v10 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v10 main_v11 (broadcastInDim S250000x1 ![0] bcast_S250000_S250000x1_0 : (⟨S250000, .i32⟩ : BufTy).Contents (Elt F) → (⟨S250000x1, .i32⟩ : BufTy).Contents (Elt F)),
    binary main_arg1 main_v11 main_v12 ((fun x i => Host.gather gather_S100000x128_S250000x1_S250000x128_1_0_n_n_0_1_1128 x i) : (⟨S100000x128, .f32⟩ : BufTy).Contents (Elt F) → (⟨S250000x1, .i32⟩ : BufTy).Contents (Elt F) → (⟨S250000x128, .f32⟩ : BufTy).Contents (Elt F)),
    nullary main_c_1 (constantI S_ 32 0#32),
    unary main_c_1 main_v13 (broadcastInDim S250000 ![] bcast_S_S250000 : (⟨S_, .i32⟩ : BufTy).Contents (Elt F) → (⟨S250000, .i32⟩ : BufTy).Contents (Elt F)),
    binary main_v3 main_v13 main_v14 (cmpi .slt : (⟨S250000, .i32⟩ : BufTy).Contents (Elt F) → (⟨S250000, .i32⟩ : BufTy).Contents (Elt F) → (⟨S250000, .i1⟩ : BufTy).Contents (Elt F)),
    nullary main_c_2 (constantI S_ 32 100000#32),
    unary main_c_2 main_v15 (broadcastInDim S250000 ![] bcast_S_S250000 : (⟨S_, .i32⟩ : BufTy).Contents (Elt F) → (⟨S250000, .i32⟩ : BufTy).Contents (Elt F)),
    binary main_v3 main_v15 main_v16 (addi : (⟨S250000, .i32⟩ : BufTy).Contents (Elt F) → (⟨S250000, .i32⟩ : BufTy).Contents (Elt F) → (⟨S250000, .i32⟩ : BufTy).Contents (Elt F)),
    ternary main_v14 main_v16 main_v3 main_v17 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v17 main_v18 (broadcastInDim S250000x1 ![0] bcast_S250000_S250000x1_0 : (⟨S250000, .i32⟩ : BufTy).Contents (Elt F) → (⟨S250000x1, .i32⟩ : BufTy).Contents (Elt F)),
    binary main_arg1 main_v18 main_v19 ((fun x i => Host.gather gather_S100000x128_S250000x1_S250000x128_1_0_n_n_0_1_1128 x i) : (⟨S100000x128, .f32⟩ : BufTy).Contents (Elt F) → (⟨S250000x1, .i32⟩ : BufTy).Contents (Elt F) → (⟨S250000x128, .f32⟩ : BufTy).Contents (Elt F)),
    nullary main_c_3 (constantI S_ 32 0#32),
    unary main_c_3 main_v20 (broadcastInDim S250000 ![] bcast_S_S250000 : (⟨S_, .i32⟩ : BufTy).Contents (Elt F) → (⟨S250000, .i32⟩ : BufTy).Contents (Elt F)),
    binary main_v5 main_v20 main_v21 (cmpi .slt : (⟨S250000, .i32⟩ : BufTy).Contents (Elt F) → (⟨S250000, .i32⟩ : BufTy).Contents (Elt F) → (⟨S250000, .i1⟩ : BufTy).Contents (Elt F)),
    nullary main_c_4 (constantI S_ 32 500#32),
    unary main_c_4 main_v22 (broadcastInDim S250000 ![] bcast_S_S250000 : (⟨S_, .i32⟩ : BufTy).Contents (Elt F) → (⟨S250000, .i32⟩ : BufTy).Contents (Elt F)),
    binary main_v5 main_v22 main_v23 (addi : (⟨S250000, .i32⟩ : BufTy).Contents (Elt F) → (⟨S250000, .i32⟩ : BufTy).Contents (Elt F) → (⟨S250000, .i32⟩ : BufTy).Contents (Elt F)),
    ternary main_v21 main_v23 main_v5 main_v24 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v24 main_v25 (broadcastInDim S250000x1 ![0] bcast_S250000_S250000x1_0 : (⟨S250000, .i32⟩ : BufTy).Contents (Elt F) → (⟨S250000x1, .i32⟩ : BufTy).Contents (Elt F)),
    binary main_arg2 main_v25 main_v26 ((fun x i => Host.gather gather_S500x128_S250000x1_S250000x128_1_0_n_n_0_1_1128 x i) : (⟨S500x128, .f32⟩ : BufTy).Contents (Elt F) → (⟨S250000x1, .i32⟩ : BufTy).Contents (Elt F) → (⟨S250000x128, .f32⟩ : BufTy).Contents (Elt F)),
    nary ![main_v12, main_v19, main_v26] main_v27 (fun u => concatenate S250000x384 1 [⟨S250000x128, u 0⟩, ⟨S250000x128, u 1⟩, ⟨S250000x128, u 2⟩] concatenates_S250000x128_S250000x128_S250000x128_S250000x384_d1),
    unary main_v26 main_v28 (Host.negf : (⟨S250000x128, .f32⟩ : BufTy).Contents (Elt F) → (⟨S250000x128, .f32⟩ : BufTy).Contents (Elt F)),
    nary ![main_v19, main_v12, main_v28] main_v29 (fun u => concatenate S250000x384 1 [⟨S250000x128, u 0⟩, ⟨S250000x128, u 1⟩, ⟨S250000x128, u 2⟩] concatenates_S250000x128_S250000x128_S250000x128_S250000x384_d1),
    binary main_v27 main_v29 main_v30 ((fun a b => concatenate S500000x384 0 [⟨S250000x384, a⟩, ⟨S250000x384, b⟩] concatenates_S250000x384_S250000x384_S500000x384_d0) : (⟨S250000x384, .f32⟩ : BufTy).Contents (Elt F) → (⟨S250000x384, .f32⟩ : BufTy).Contents (Elt F) → (⟨S500000x384, .f32⟩ : BufTy).Contents (Elt F)) ]

/-- Operations 38–68 of the reference. -/
def seg2 : List (HloOp τ sig (Elt F)) :=
  [ nullary main_cst (constant S_ .f32 0x00000000#32),
    binary main_v30 main_cst main_v31 ((fun x v => Host.reduceAdd x v reducesTo_S500000x384_S384_d0 h_S_) : (⟨S500000x384, .f32⟩ : BufTy).Contents (Elt F) → (⟨S_, .f32⟩ : BufTy).Contents (Elt F) → (⟨S384, .f32⟩ : BufTy).Contents (Elt F)),
    nullary main_cst_5 (constant S_ .f32 0x48F42400#32),
    unary main_cst_5 main_v32 (broadcastInDim S384 ![] bcast_S_S384 : (⟨S_, .f32⟩ : BufTy).Contents (Elt F) → (⟨S384, .f32⟩ : BufTy).Contents (Elt F)),
    binary main_v31 main_v32 main_v33 (Host.divf : (⟨S384, .f32⟩ : BufTy).Contents (Elt F) → (⟨S384, .f32⟩ : BufTy).Contents (Elt F) → (⟨S384, .f32⟩ : BufTy).Contents (Elt F)),
    unary main_v33 main_v34 (broadcastInDim S1x384 ![1] bcast_S384_S1x384_1 : (⟨S384, .f32⟩ : BufTy).Contents (Elt F) → (⟨S1x384, .f32⟩ : BufTy).Contents (Elt F)),
    unary main_v34 main_v35 (broadcastInDim S500000x384 ![0, 1] bcast_S1x384_S500000x384_0_1 : (⟨S1x384, .f32⟩ : BufTy).Contents (Elt F) → (⟨S500000x384, .f32⟩ : BufTy).Contents (Elt F)),
    binary main_v30 main_v35 main_v36 (subf : (⟨S500000x384, .f32⟩ : BufTy).Contents (Elt F) → (⟨S500000x384, .f32⟩ : BufTy).Contents (Elt F) → (⟨S500000x384, .f32⟩ : BufTy).Contents (Elt F)),
    binary main_v36 main_v36 main_v37 (mulf : (⟨S500000x384, .f32⟩ : BufTy).Contents (Elt F) → (⟨S500000x384, .f32⟩ : BufTy).Contents (Elt F) → (⟨S500000x384, .f32⟩ : BufTy).Contents (Elt F)),
    nullary main_cst_6 (constant S_ .f32 0x00000000#32),
    binary main_v37 main_cst_6 main_v38 ((fun x v => Host.reduceAdd x v reducesTo_S500000x384_S384_d0 h_S_) : (⟨S500000x384, .f32⟩ : BufTy).Contents (Elt F) → (⟨S_, .f32⟩ : BufTy).Contents (Elt F) → (⟨S384, .f32⟩ : BufTy).Contents (Elt F)),
    nullary main_cst_7 (constant S_ .f32 0x48F42400#32),
    unary main_cst_7 main_v39 (broadcastInDim S384 ![] bcast_S_S384 : (⟨S_, .f32⟩ : BufTy).Contents (Elt F) → (⟨S384, .f32⟩ : BufTy).Contents (Elt F)),
    binary main_v38 main_v39 main_v40 (Host.divf : (⟨S384, .f32⟩ : BufTy).Contents (Elt F) → (⟨S384, .f32⟩ : BufTy).Contents (Elt F) → (⟨S384, .f32⟩ : BufTy).Contents (Elt F)),
    unary main_v33 main_v41 (broadcastInDim S1x384 ![1] bcast_S384_S1x384_1 : (⟨S384, .f32⟩ : BufTy).Contents (Elt F) → (⟨S1x384, .f32⟩ : BufTy).Contents (Elt F)),
    unary main_v41 main_v42 (broadcastInDim S500000x384 ![0, 1] bcast_S1x384_S500000x384_0_1 : (⟨S1x384, .f32⟩ : BufTy).Contents (Elt F) → (⟨S500000x384, .f32⟩ : BufTy).Contents (Elt F)),
    binary main_v30 main_v42 main_v43 (subf : (⟨S500000x384, .f32⟩ : BufTy).Contents (Elt F) → (⟨S500000x384, .f32⟩ : BufTy).Contents (Elt F) → (⟨S500000x384, .f32⟩ : BufTy).Contents (Elt F)),
    nullary main_cst_8 (constant S_ .f32 0x3727C5AC#32),
    unary main_cst_8 main_v44 (broadcastInDim S384 ![] bcast_S_S384 : (⟨S_, .f32⟩ : BufTy).Contents (Elt F) → (⟨S384, .f32⟩ : BufTy).Contents (Elt F)),
    binary main_v40 main_v44 main_v45 (addf : (⟨S384, .f32⟩ : BufTy).Contents (Elt F) → (⟨S384, .f32⟩ : BufTy).Contents (Elt F) → (⟨S384, .f32⟩ : BufTy).Contents (Elt F)),
    unary main_v45 main_v46 (Host.rsqrt : (⟨S384, .f32⟩ : BufTy).Contents (Elt F) → (⟨S384, .f32⟩ : BufTy).Contents (Elt F)),
    unary main_v46 main_v47 (broadcastInDim S1x384 ![1] bcast_S384_S1x384_1 : (⟨S384, .f32⟩ : BufTy).Contents (Elt F) → (⟨S1x384, .f32⟩ : BufTy).Contents (Elt F)),
    unary main_v47 main_v48 (broadcastInDim S500000x384 ![0, 1] bcast_S1x384_S500000x384_0_1 : (⟨S1x384, .f32⟩ : BufTy).Contents (Elt F) → (⟨S500000x384, .f32⟩ : BufTy).Contents (Elt F)),
    binary main_v43 main_v48 main_v49 (mulf : (⟨S500000x384, .f32⟩ : BufTy).Contents (Elt F) → (⟨S500000x384, .f32⟩ : BufTy).Contents (Elt F) → (⟨S500000x384, .f32⟩ : BufTy).Contents (Elt F)),
    unary main_arg7 main_v50 (broadcastInDim S1x384 ![1] bcast_S384_S1x384_1 : (⟨S384, .f32⟩ : BufTy).Contents (Elt F) → (⟨S1x384, .f32⟩ : BufTy).Contents (Elt F)),
    unary main_v50 main_v51 (broadcastInDim S500000x384 ![0, 1] bcast_S1x384_S500000x384_0_1 : (⟨S1x384, .f32⟩ : BufTy).Contents (Elt F) → (⟨S500000x384, .f32⟩ : BufTy).Contents (Elt F)),
    binary main_v49 main_v51 main_v52 (mulf : (⟨S500000x384, .f32⟩ : BufTy).Contents (Elt F) → (⟨S500000x384, .f32⟩ : BufTy).Contents (Elt F) → (⟨S500000x384, .f32⟩ : BufTy).Contents (Elt F)),
    unary main_arg8 main_v53 (broadcastInDim S1x384 ![1] bcast_S384_S1x384_1 : (⟨S384, .f32⟩ : BufTy).Contents (Elt F) → (⟨S1x384, .f32⟩ : BufTy).Contents (Elt F)),
    unary main_v53 main_v54 (broadcastInDim S500000x384 ![0, 1] bcast_S1x384_S500000x384_0_1 : (⟨S1x384, .f32⟩ : BufTy).Contents (Elt F) → (⟨S500000x384, .f32⟩ : BufTy).Contents (Elt F)),
    binary main_v52 main_v54 main_v55 (addf : (⟨S500000x384, .f32⟩ : BufTy).Contents (Elt F) → (⟨S500000x384, .f32⟩ : BufTy).Contents (Elt F) → (⟨S500000x384, .f32⟩ : BufTy).Contents (Elt F)),
    unary main_arg3 main_v56 ((transpose S384x128 [1, 0] · transposes_S128x384_S384x128_1_0) : (⟨S128x384, .f32⟩ : BufTy).Contents (Elt F) → (⟨S384x128, .f32⟩ : BufTy).Contents (Elt F)) ]

/-- Operations 69–72 of the reference. -/
def seg3 : List (HloOp τ sig (Elt F)) :=
  [ binary main_v55 main_v56 main_v57 ((fun l r => Host.dotGeneral dot_S500000x384_S384x128_S500000x128_1_0_0_1_n_n none l r) : (⟨S500000x384, .f32⟩ : BufTy).Contents (Elt F) → (⟨S384x128, .f32⟩ : BufTy).Contents (Elt F) → (⟨S500000x128, .f32⟩ : BufTy).Contents (Elt F)),
    unary main_arg4 main_v58 (broadcastInDim S1x128 ![1] bcast_S128_S1x128_1 : (⟨S128, .f32⟩ : BufTy).Contents (Elt F) → (⟨S1x128, .f32⟩ : BufTy).Contents (Elt F)),
    unary main_v58 main_v59 (broadcastInDim S500000x128 ![0, 1] bcast_S1x128_S500000x128_0_1 : (⟨S1x128, .f32⟩ : BufTy).Contents (Elt F) → (⟨S500000x128, .f32⟩ : BufTy).Contents (Elt F)),
    binary main_v57 main_v59 main_v60 (addf : (⟨S500000x128, .f32⟩ : BufTy).Contents (Elt F) → (⟨S500000x128, .f32⟩ : BufTy).Contents (Elt F) → (⟨S500000x128, .f32⟩ : BufTy).Contents (Elt F)) ]

/-- Operations 73–103 of the reference. -/
def seg4 : List (HloOp τ sig (Elt F)) :=
  [ nullary main_cst_9 (constant S_ .f32 0x00000000#32),
    binary main_v60 main_cst_9 main_v61 ((fun x v => Host.reduceAdd x v reducesTo_S500000x128_S128_d0 h_S_) : (⟨S500000x128, .f32⟩ : BufTy).Contents (Elt F) → (⟨S_, .f32⟩ : BufTy).Contents (Elt F) → (⟨S128, .f32⟩ : BufTy).Contents (Elt F)),
    nullary main_cst_10 (constant S_ .f32 0x48F42400#32),
    unary main_cst_10 main_v62 (broadcastInDim S128 ![] bcast_S_S128 : (⟨S_, .f32⟩ : BufTy).Contents (Elt F) → (⟨S128, .f32⟩ : BufTy).Contents (Elt F)),
    binary main_v61 main_v62 main_v63 (Host.divf : (⟨S128, .f32⟩ : BufTy).Contents (Elt F) → (⟨S128, .f32⟩ : BufTy).Contents (Elt F) → (⟨S128, .f32⟩ : BufTy).Contents (Elt F)),
    unary main_v63 main_v64 (broadcastInDim S1x128 ![1] bcast_S128_S1x128_1 : (⟨S128, .f32⟩ : BufTy).Contents (Elt F) → (⟨S1x128, .f32⟩ : BufTy).Contents (Elt F)),
    unary main_v64 main_v65 (broadcastInDim S500000x128 ![0, 1] bcast_S1x128_S500000x128_0_1 : (⟨S1x128, .f32⟩ : BufTy).Contents (Elt F) → (⟨S500000x128, .f32⟩ : BufTy).Contents (Elt F)),
    binary main_v60 main_v65 main_v66 (subf : (⟨S500000x128, .f32⟩ : BufTy).Contents (Elt F) → (⟨S500000x128, .f32⟩ : BufTy).Contents (Elt F) → (⟨S500000x128, .f32⟩ : BufTy).Contents (Elt F)),
    binary main_v66 main_v66 main_v67 (mulf : (⟨S500000x128, .f32⟩ : BufTy).Contents (Elt F) → (⟨S500000x128, .f32⟩ : BufTy).Contents (Elt F) → (⟨S500000x128, .f32⟩ : BufTy).Contents (Elt F)),
    nullary main_cst_11 (constant S_ .f32 0x00000000#32),
    binary main_v67 main_cst_11 main_v68 ((fun x v => Host.reduceAdd x v reducesTo_S500000x128_S128_d0 h_S_) : (⟨S500000x128, .f32⟩ : BufTy).Contents (Elt F) → (⟨S_, .f32⟩ : BufTy).Contents (Elt F) → (⟨S128, .f32⟩ : BufTy).Contents (Elt F)),
    nullary main_cst_12 (constant S_ .f32 0x48F42400#32),
    unary main_cst_12 main_v69 (broadcastInDim S128 ![] bcast_S_S128 : (⟨S_, .f32⟩ : BufTy).Contents (Elt F) → (⟨S128, .f32⟩ : BufTy).Contents (Elt F)),
    binary main_v68 main_v69 main_v70 (Host.divf : (⟨S128, .f32⟩ : BufTy).Contents (Elt F) → (⟨S128, .f32⟩ : BufTy).Contents (Elt F) → (⟨S128, .f32⟩ : BufTy).Contents (Elt F)),
    unary main_v63 main_v71 (broadcastInDim S1x128 ![1] bcast_S128_S1x128_1 : (⟨S128, .f32⟩ : BufTy).Contents (Elt F) → (⟨S1x128, .f32⟩ : BufTy).Contents (Elt F)),
    unary main_v71 main_v72 (broadcastInDim S500000x128 ![0, 1] bcast_S1x128_S500000x128_0_1 : (⟨S1x128, .f32⟩ : BufTy).Contents (Elt F) → (⟨S500000x128, .f32⟩ : BufTy).Contents (Elt F)),
    binary main_v60 main_v72 main_v73 (subf : (⟨S500000x128, .f32⟩ : BufTy).Contents (Elt F) → (⟨S500000x128, .f32⟩ : BufTy).Contents (Elt F) → (⟨S500000x128, .f32⟩ : BufTy).Contents (Elt F)),
    nullary main_cst_13 (constant S_ .f32 0x3727C5AC#32),
    unary main_cst_13 main_v74 (broadcastInDim S128 ![] bcast_S_S128 : (⟨S_, .f32⟩ : BufTy).Contents (Elt F) → (⟨S128, .f32⟩ : BufTy).Contents (Elt F)),
    binary main_v70 main_v74 main_v75 (addf : (⟨S128, .f32⟩ : BufTy).Contents (Elt F) → (⟨S128, .f32⟩ : BufTy).Contents (Elt F) → (⟨S128, .f32⟩ : BufTy).Contents (Elt F)),
    unary main_v75 main_v76 (Host.rsqrt : (⟨S128, .f32⟩ : BufTy).Contents (Elt F) → (⟨S128, .f32⟩ : BufTy).Contents (Elt F)),
    unary main_v76 main_v77 (broadcastInDim S1x128 ![1] bcast_S128_S1x128_1 : (⟨S128, .f32⟩ : BufTy).Contents (Elt F) → (⟨S1x128, .f32⟩ : BufTy).Contents (Elt F)),
    unary main_v77 main_v78 (broadcastInDim S500000x128 ![0, 1] bcast_S1x128_S500000x128_0_1 : (⟨S1x128, .f32⟩ : BufTy).Contents (Elt F) → (⟨S500000x128, .f32⟩ : BufTy).Contents (Elt F)),
    binary main_v73 main_v78 main_v79 (mulf : (⟨S500000x128, .f32⟩ : BufTy).Contents (Elt F) → (⟨S500000x128, .f32⟩ : BufTy).Contents (Elt F) → (⟨S500000x128, .f32⟩ : BufTy).Contents (Elt F)),
    unary main_arg9 main_v80 (broadcastInDim S1x128 ![1] bcast_S128_S1x128_1 : (⟨S128, .f32⟩ : BufTy).Contents (Elt F) → (⟨S1x128, .f32⟩ : BufTy).Contents (Elt F)),
    unary main_v80 main_v81 (broadcastInDim S500000x128 ![0, 1] bcast_S1x128_S500000x128_0_1 : (⟨S1x128, .f32⟩ : BufTy).Contents (Elt F) → (⟨S500000x128, .f32⟩ : BufTy).Contents (Elt F)),
    binary main_v79 main_v81 main_v82 (mulf : (⟨S500000x128, .f32⟩ : BufTy).Contents (Elt F) → (⟨S500000x128, .f32⟩ : BufTy).Contents (Elt F) → (⟨S500000x128, .f32⟩ : BufTy).Contents (Elt F)),
    unary main_arg10 main_v83 (broadcastInDim S1x128 ![1] bcast_S128_S1x128_1 : (⟨S128, .f32⟩ : BufTy).Contents (Elt F) → (⟨S1x128, .f32⟩ : BufTy).Contents (Elt F)),
    unary main_v83 main_v84 (broadcastInDim S500000x128 ![0, 1] bcast_S1x128_S500000x128_0_1 : (⟨S1x128, .f32⟩ : BufTy).Contents (Elt F) → (⟨S500000x128, .f32⟩ : BufTy).Contents (Elt F)),
    binary main_v82 main_v84 main_v85 (addf : (⟨S500000x128, .f32⟩ : BufTy).Contents (Elt F) → (⟨S500000x128, .f32⟩ : BufTy).Contents (Elt F) → (⟨S500000x128, .f32⟩ : BufTy).Contents (Elt F)),
    unary main_arg5 main_v86 ((transpose S128x1 [1, 0] · transposes_S1x128_S128x1_1_0) : (⟨S1x128, .f32⟩ : BufTy).Contents (Elt F) → (⟨S128x1, .f32⟩ : BufTy).Contents (Elt F)) ]

/-- Operations 104–119 of the reference. -/
def seg5 : List (HloOp τ sig (Elt F)) :=
  [ binary main_v85 main_v86 main_v87 ((fun l r => Host.dotGeneral dot_S500000x128_S128x1_S500000x1_1_0_0_1_n_n none l r) : (⟨S500000x128, .f32⟩ : BufTy).Contents (Elt F) → (⟨S128x1, .f32⟩ : BufTy).Contents (Elt F) → (⟨S500000x1, .f32⟩ : BufTy).Contents (Elt F)),
    unary main_arg6 main_v88 (broadcastInDim S1x1 ![1] bcast_S1_S1x1_1 : (⟨S1, .f32⟩ : BufTy).Contents (Elt F) → (⟨S1x1, .f32⟩ : BufTy).Contents (Elt F)),
    unary main_v88 main_v89 (broadcastInDim S500000x1 ![0, 1] bcast_S1x1_S500000x1_0_1 : (⟨S1x1, .f32⟩ : BufTy).Contents (Elt F) → (⟨S500000x1, .f32⟩ : BufTy).Contents (Elt F)),
    binary main_v87 main_v89 main_v90 (addf : (⟨S500000x1, .f32⟩ : BufTy).Contents (Elt F) → (⟨S500000x1, .f32⟩ : BufTy).Contents (Elt F) → (⟨S500000x1, .f32⟩ : BufTy).Contents (Elt F)),
    nullary main_cst_14 (constant S_ .f32 0x00000000#32),
    unary main_cst_14 main_v91 (broadcastInDim S500000x1 ![] bcast_S_S500000x1 : (⟨S_, .f32⟩ : BufTy).Contents (Elt F) → (⟨S500000x1, .f32⟩ : BufTy).Contents (Elt F)),
    binary main_v90 main_v91 main_v92 (cmpf .oge : (⟨S500000x1, .f32⟩ : BufTy).Contents (Elt F) → (⟨S500000x1, .f32⟩ : BufTy).Contents (Elt F) → (⟨S500000x1, .i1⟩ : BufTy).Contents (Elt F)),
    nullary main_cst_15 (constant S_ .f32 0x3C23D70A#32),
    unary main_cst_15 main_v93 (broadcastInDim S500000x1 ![] bcast_S_S500000x1 : (⟨S_, .f32⟩ : BufTy).Contents (Elt F) → (⟨S500000x1, .f32⟩ : BufTy).Contents (Elt F)),
    binary main_v93 main_v90 main_v94 (mulf : (⟨S500000x1, .f32⟩ : BufTy).Contents (Elt F) → (⟨S500000x1, .f32⟩ : BufTy).Contents (Elt F) → (⟨S500000x1, .f32⟩ : BufTy).Contents (Elt F)),
    TRef.ternary (TRef.of (T := ⟨S500000x1, .i1⟩) main_v92) (TRef.of (T := ⟨S500000x1, .f32⟩) main_v90) (TRef.of (T := ⟨S500000x1, .f32⟩) main_v94) (TRef.of (T := ⟨S500000x1, .f32⟩) main_v95) select,
    unary main_v95 main_v96 (Host.negf : (⟨S500000x1, .f32⟩ : BufTy).Contents (Elt F) → (⟨S500000x1, .f32⟩ : BufTy).Contents (Elt F)),
    unary main_v96 main_v97 (Host.exp : (⟨S500000x1, .f32⟩ : BufTy).Contents (Elt F) → (⟨S500000x1, .f32⟩ : BufTy).Contents (Elt F)),
    binary main_v1 main_v3 main_v98 ((fun a b => concatenate S500000 0 [⟨S250000, a⟩, ⟨S250000, b⟩] concatenates_S250000_S250000_S500000_d0) : (⟨S250000, .i32⟩ : BufTy).Contents (Elt F) → (⟨S250000, .i32⟩ : BufTy).Contents (Elt F) → (⟨S500000, .i32⟩ : BufTy).Contents (Elt F)),
    unary main_v97 main_v99 (broadcastInDim S500000x128 ![0, 1] bcast_S500000x1_S500000x128_0_1 : (⟨S500000x1, .f32⟩ : BufTy).Contents (Elt F) → (⟨S500000x128, .f32⟩ : BufTy).Contents (Elt F)),
    binary main_v99 main_v85 main_v100 (mulf : (⟨S500000x128, .f32⟩ : BufTy).Contents (Elt F) → (⟨S500000x128, .f32⟩ : BufTy).Contents (Elt F) → (⟨S500000x128, .f32⟩ : BufTy).Contents (Elt F)) ]

/-- Operations 120–152 of the reference. -/
def seg6 : List (HloOp τ sig (Elt F)) :=
  [ nullary main_cst_16 (constant S_ .f32 0x00000000#32),
    unary main_cst_16 main_v101 (broadcastInDim S100000x1 ![] bcast_S_S100000x1 : (⟨S_, .f32⟩ : BufTy).Contents (Elt F) → (⟨S100000x1, .f32⟩ : BufTy).Contents (Elt F)),
    unary main_v98 main_v102 (broadcastInDim S500000x1 ![0] bcast_S500000_S500000x1_0 : (⟨S500000, .i32⟩ : BufTy).Contents (Elt F) → (⟨S500000x1, .i32⟩ : BufTy).Contents (Elt F)),
    ternary main_v101 main_v102 main_v97 main_v103 ((fun x i u => Host.scatterAdd scatter_S100000x1_S500000x1_S500000x1_1_0_0_1 x i u) : (⟨S100000x1, .f32⟩ : BufTy).Contents (Elt F) → (⟨S500000x1, .i32⟩ : BufTy).Contents (Elt F) → (⟨S500000x1, .f32⟩ : BufTy).Contents (Elt F) → (⟨S100000x1, .f32⟩ : BufTy).Contents (Elt F)),
    nullary main_cst_17 (constant S_ .f32 0x00000000#32),
    unary main_cst_17 main_v104 (broadcastInDim S100000x128 ![] bcast_S_S100000x128 : (⟨S_, .f32⟩ : BufTy).Contents (Elt F) → (⟨S100000x128, .f32⟩ : BufTy).Contents (Elt F)),
    unary main_v98 main_v105 (broadcastInDim S500000x1 ![0] bcast_S500000_S500000x1_0 : (⟨S500000, .i32⟩ : BufTy).Contents (Elt F) → (⟨S500000x1, .i32⟩ : BufTy).Contents (Elt F)),
    ternary main_v104 main_v105 main_v100 main_v106 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    nullary main_cst_18 (constant S_ .f32 0x00000000#32),
    unary main_cst_18 main_v107 (broadcastInDim S100000x1 ![] bcast_S_S100000x1 : (⟨S_, .f32⟩ : BufTy).Contents (Elt F) → (⟨S100000x1, .f32⟩ : BufTy).Contents (Elt F)),
    binary main_v103 main_v107 main_v108 (cmpf .oeq : (⟨S100000x1, .f32⟩ : BufTy).Contents (Elt F) → (⟨S100000x1, .f32⟩ : BufTy).Contents (Elt F) → (⟨S100000x1, .i1⟩ : BufTy).Contents (Elt F)),
    nullary main_cst_19 (constant S_ .f32 0x2B8CBCCC#32),
    TRef.unary (TRef.of (T := ⟨S_, .f32⟩) main_cst_19) (TRef.of (T := ⟨S_, .f32⟩) main_call1_v0) id,
    TRef.unary (TRef.of (T := ⟨S_, .f32⟩) main_call1_v0) (TRef.of (T := ⟨S100000x1, .f32⟩) main_call1_v1) (broadcastInDim S100000x1 ![] bcast_S_S100000x1),
    TRef.ternary (TRef.of (T := ⟨S100000x1, .i1⟩) main_v108) (TRef.of (T := ⟨S100000x1, .f32⟩) main_call1_v1) (TRef.of (T := ⟨S100000x1, .f32⟩) main_v103) (TRef.of (T := ⟨S100000x1, .f32⟩) main_v109) select,
    unary main_v109 main_v110 (broadcastInDim S100000x128 ![0, 1] bcast_S100000x1_S100000x128_0_1 : (⟨S100000x1, .f32⟩ : BufTy).Contents (Elt F) → (⟨S100000x128, .f32⟩ : BufTy).Contents (Elt F)),
    binary main_v106 main_v110 main_v111 (Host.divf : (⟨S100000x128, .f32⟩ : BufTy).Contents (Elt F) → (⟨S100000x128, .f32⟩ : BufTy).Contents (Elt F) → (⟨S100000x128, .f32⟩ : BufTy).Contents (Elt F)),
    unary main_v100 main_v112 ((extractStridedSlice S250000x128 ![0, 0] · slices_S500000x128_S250000x128_0_0) : (⟨S500000x128, .f32⟩ : BufTy).Contents (Elt F) → (⟨S250000x128, .f32⟩ : BufTy).Contents (Elt F)),
    nullary main_cst_20 (constant S_ .f32 0x00000000#32),
    unary main_cst_20 main_v113 (broadcastInDim S500x128 ![] bcast_S_S500x128 : (⟨S_, .f32⟩ : BufTy).Contents (Elt F) → (⟨S500x128, .f32⟩ : BufTy).Contents (Elt F)),
    unary main_v5 main_v114 (broadcastInDim S250000x1 ![0] bcast_S250000_S250000x1_0 : (⟨S250000, .i32⟩ : BufTy).Contents (Elt F) → (⟨S250000x1, .i32⟩ : BufTy).Contents (Elt F)),
    ternary main_v113 main_v114 main_v112 main_v115 ((fun x i u => Host.scatterAdd scatter_S500x128_S250000x1_S250000x128_1_0_0_1 x i u) : (⟨S500x128, .f32⟩ : BufTy).Contents (Elt F) → (⟨S250000x1, .i32⟩ : BufTy).Contents (Elt F) → (⟨S250000x128, .f32⟩ : BufTy).Contents (Elt F) → (⟨S500x128, .f32⟩ : BufTy).Contents (Elt F)),
    nullary main_cst_21 (constant S_ .f32 0x3F800000#32),
    unary main_cst_21 main_v116 (broadcastInDim S250000x1 ![] bcast_S_S250000x1 : (⟨S_, .f32⟩ : BufTy).Contents (Elt F) → (⟨S250000x1, .f32⟩ : BufTy).Contents (Elt F)),
    nullary main_cst_22 (constant S_ .f32 0x00000000#32),
    unary main_cst_22 main_v117 (broadcastInDim S500x1 ![] bcast_S_S500x1 : (⟨S_, .f32⟩ : BufTy).Contents (Elt F) → (⟨S500x1, .f32⟩ : BufTy).Contents (Elt F)),
    unary main_v5 main_v118 (broadcastInDim S250000x1 ![0] bcast_S250000_S250000x1_0 : (⟨S250000, .i32⟩ : BufTy).Contents (Elt F) → (⟨S250000x1, .i32⟩ : BufTy).Contents (Elt F)),
    ternary main_v117 main_v118 main_v116 main_v119 ((fun x i u => Host.scatterAdd scatter_S500x1_S250000x1_S250000x1_1_0_0_1 x i u) : (⟨S500x1, .f32⟩ : BufTy).Contents (Elt F) → (⟨S250000x1, .i32⟩ : BufTy).Contents (Elt F) → (⟨S250000x1, .f32⟩ : BufTy).Contents (Elt F) → (⟨S500x1, .f32⟩ : BufTy).Contents (Elt F)),
    nullary main_cst_23 (constant S_ .f32 0x3F800000#32),
    unary main_cst_23 main_v120 (broadcastInDim S500x1 ![] bcast_S_S500x1 : (⟨S_, .f32⟩ : BufTy).Contents (Elt F) → (⟨S500x1, .f32⟩ : BufTy).Contents (Elt F)),
    binary main_v119 main_v120 main_v121 (maximumf : (⟨S500x1, .f32⟩ : BufTy).Contents (Elt F) → (⟨S500x1, .f32⟩ : BufTy).Contents (Elt F) → (⟨S500x1, .f32⟩ : BufTy).Contents (Elt F)),
    unary main_v121 main_v122 (broadcastInDim S500x128 ![0, 1] bcast_S500x1_S500x128_0_1 : (⟨S500x1, .f32⟩ : BufTy).Contents (Elt F) → (⟨S500x128, .f32⟩ : BufTy).Contents (Elt F)),
    binary main_v115 main_v122 main_v123 (Host.divf : (⟨S500x128, .f32⟩ : BufTy).Contents (Elt F) → (⟨S500x128, .f32⟩ : BufTy).Contents (Elt F) → (⟨S500x128, .f32⟩ : BufTy).Contents (Elt F)) ]

set_option maxRecDepth 16384 in
set_option maxHeartbeats 8000000 in
/-- The six segments, in order, are the reference's operations. -/
theorem ops_split : (ValueP.ops (F := F)) = seg1 ++ (seg2 ++ (seg3 ++ (seg4 ++ (seg5 ++ seg6)))) := rfl

/-- Folding all operations is folding the six segments in turn. -/
theorem after_ops (V : Valuation τ sig (Elt F)) :
    after (ValueP.ops (F := F)) V
      = after seg6 (after seg5 (after seg4 (after seg3 (after seg2 (after seg1 V))))) := by
  rw [ops_split, after_append, after_append, after_append, after_append, after_append]

end Cert.Bridge

end
-- ==== Proof.Bridge.RefSeg1.lean ====
import proofs.«114553_j89962384982591_1_alg».proof.Proof.Bridge.RefSeg

/-!
# Segment 1 of the reference, folded

For each value that a later segment reads: what folding segment 1 over an incoming memory `W`
leaves in its buffer, given the values `W` holds in the buffers the segment reads; and that the
buffers the segment does not write keep what `W` held.
-/

noncomputable section

namespace Cert.Bridge

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
theorem s1_v30 (W : Valuation τ sig (Elt F)) :
    after (seg1 (F := F)) W (Proc.devRef .tc main_v30) = ReadP.val_main_v30 (F := F) (W (Proc.devRef .tc main_arg0)) (W (Proc.devRef .tc main_arg1)) (W (Proc.devRef .tc main_arg2)) := by
  unfold seg1
  after_results_simp <;> rfl

set_option maxRecDepth 8192 in
set_option maxHeartbeats 8000000 in
theorem s1_v1 (W : Valuation τ sig (Elt F)) :
    after (seg1 (F := F)) W (Proc.devRef .tc main_v1) = ReadP.val_main_v1 (F := F) (W (Proc.devRef .tc main_arg0)) := by
  unfold seg1
  after_results_simp <;> rfl

set_option maxRecDepth 8192 in
set_option maxHeartbeats 8000000 in
theorem s1_v3 (W : Valuation τ sig (Elt F)) :
    after (seg1 (F := F)) W (Proc.devRef .tc main_v3) = ReadP.val_main_v3 (F := F) (W (Proc.devRef .tc main_arg0)) := by
  unfold seg1
  after_results_simp <;> rfl

set_option maxRecDepth 8192 in
set_option maxHeartbeats 8000000 in
theorem s1_v5 (W : Valuation τ sig (Elt F)) :
    after (seg1 (F := F)) W (Proc.devRef .tc main_v5) = ReadP.val_main_v5 (F := F) (W (Proc.devRef .tc main_arg0)) := by
  unfold seg1
  after_results_simp <;> rfl

set_option maxRecDepth 8192 in
set_option maxHeartbeats 8000000 in
theorem s1_keep_arg3 (W : Valuation τ sig (Elt F)) :
    after (seg1 (F := F)) W (Proc.devRef .tc main_arg3) = W (Proc.devRef .tc main_arg3) := by
  unfold seg1
  after_results_simp <;> rfl

set_option maxRecDepth 8192 in
set_option maxHeartbeats 8000000 in
theorem s1_keep_arg4 (W : Valuation τ sig (Elt F)) :
    after (seg1 (F := F)) W (Proc.devRef .tc main_arg4) = W (Proc.devRef .tc main_arg4) := by
  unfold seg1
  after_results_simp <;> rfl

set_option maxRecDepth 8192 in
set_option maxHeartbeats 8000000 in
theorem s1_keep_arg5 (W : Valuation τ sig (Elt F)) :
    after (seg1 (F := F)) W (Proc.devRef .tc main_arg5) = W (Proc.devRef .tc main_arg5) := by
  unfold seg1
  after_results_simp <;> rfl

set_option maxRecDepth 8192 in
set_option maxHeartbeats 8000000 in
theorem s1_keep_arg6 (W : Valuation τ sig (Elt F)) :
    after (seg1 (F := F)) W (Proc.devRef .tc main_arg6) = W (Proc.devRef .tc main_arg6) := by
  unfold seg1
  after_results_simp <;> rfl

set_option maxRecDepth 8192 in
set_option maxHeartbeats 8000000 in
theorem s1_keep_arg7 (W : Valuation τ sig (Elt F)) :
    after (seg1 (F := F)) W (Proc.devRef .tc main_arg7) = W (Proc.devRef .tc main_arg7) := by
  unfold seg1
  after_results_simp <;> rfl

set_option maxRecDepth 8192 in
set_option maxHeartbeats 8000000 in
theorem s1_keep_arg8 (W : Valuation τ sig (Elt F)) :
    after (seg1 (F := F)) W (Proc.devRef .tc main_arg8) = W (Proc.devRef .tc main_arg8) := by
  unfold seg1
  after_results_simp <;> rfl

set_option maxRecDepth 8192 in
set_option maxHeartbeats 8000000 in
theorem s1_keep_arg9 (W : Valuation τ sig (Elt F)) :
    after (seg1 (F := F)) W (Proc.devRef .tc main_arg9) = W (Proc.devRef .tc main_arg9) := by
  unfold seg1
  after_results_simp <;> rfl

set_option maxRecDepth 8192 in
set_option maxHeartbeats 8000000 in
theorem s1_keep_arg10 (W : Valuation τ sig (Elt F)) :
    after (seg1 (F := F)) W (Proc.devRef .tc main_arg10) = W (Proc.devRef .tc main_arg10) := by
  unfold seg1
  after_results_simp <;> rfl

end Cert.Bridge

end
-- ==== Proof.Bridge.RefSeg2.lean ====
import proofs.«114553_j89962384982591_1_alg».proof.Proof.Bridge.RefSeg

/-!
# Segment 2 of the reference, folded

For each value that a later segment reads: what folding segment 2 over an incoming memory `W`
leaves in its buffer, given the values `W` holds in the buffers the segment reads; and that the
buffers the segment does not write keep what `W` held.
-/

noncomputable section

namespace Cert.Bridge

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
theorem s2_v55 (W : Valuation τ sig (Elt F)) (x0 : (⟨S250000x3, .i32⟩ : BufTy).Contents (Elt F)) (x1 : (⟨S100000x128, .f32⟩ : BufTy).Contents (Elt F)) (x2 : (⟨S500x128, .f32⟩ : BufTy).Contents (Elt F)) (x7 : (⟨S384, .f32⟩ : BufTy).Contents (Elt F)) (x8 : (⟨S384, .f32⟩ : BufTy).Contents (Elt F))
    (h0 : W (Proc.devRef .tc main_v30) = ReadP.val_main_v30 (F := F) x0 x1 x2)
    (h1 : W (Proc.devRef .tc main_arg7) = x7)
    (h2 : W (Proc.devRef .tc main_arg8) = x8) :
    after (seg2 (F := F)) W (Proc.devRef .tc main_v55) = ReadP.val_main_v55 (F := F) x0 x1 x2 x7 x8 := by
  unfold seg2
  after_results_simp
  rw [h0, h1, h2]
  rfl

set_option maxRecDepth 8192 in
set_option maxHeartbeats 8000000 in
theorem s2_v56 (W : Valuation τ sig (Elt F)) (x3 : (⟨S128x384, .f32⟩ : BufTy).Contents (Elt F))
    (h0 : W (Proc.devRef .tc main_arg3) = x3) :
    after (seg2 (F := F)) W (Proc.devRef .tc main_v56) = ReadP.val_main_v56 (F := F) x3 := by
  unfold seg2
  after_results_simp
  rw [h0]
  rfl

set_option maxRecDepth 8192 in
set_option maxHeartbeats 8000000 in
theorem s2_keep_v1 (W : Valuation τ sig (Elt F)) :
    after (seg2 (F := F)) W (Proc.devRef .tc main_v1) = W (Proc.devRef .tc main_v1) := by
  unfold seg2
  after_results_simp <;> rfl

set_option maxRecDepth 8192 in
set_option maxHeartbeats 8000000 in
theorem s2_keep_v3 (W : Valuation τ sig (Elt F)) :
    after (seg2 (F := F)) W (Proc.devRef .tc main_v3) = W (Proc.devRef .tc main_v3) := by
  unfold seg2
  after_results_simp <;> rfl

set_option maxRecDepth 8192 in
set_option maxHeartbeats 8000000 in
theorem s2_keep_v5 (W : Valuation τ sig (Elt F)) :
    after (seg2 (F := F)) W (Proc.devRef .tc main_v5) = W (Proc.devRef .tc main_v5) := by
  unfold seg2
  after_results_simp <;> rfl

set_option maxRecDepth 8192 in
set_option maxHeartbeats 8000000 in
theorem s2_keep_arg4 (W : Valuation τ sig (Elt F)) :
    after (seg2 (F := F)) W (Proc.devRef .tc main_arg4) = W (Proc.devRef .tc main_arg4) := by
  unfold seg2
  after_results_simp <;> rfl

set_option maxRecDepth 8192 in
set_option maxHeartbeats 8000000 in
theorem s2_keep_arg5 (W : Valuation τ sig (Elt F)) :
    after (seg2 (F := F)) W (Proc.devRef .tc main_arg5) = W (Proc.devRef .tc main_arg5) := by
  unfold seg2
  after_results_simp <;> rfl

set_option maxRecDepth 8192 in
set_option maxHeartbeats 8000000 in
theorem s2_keep_arg6 (W : Valuation τ sig (Elt F)) :
    after (seg2 (F := F)) W (Proc.devRef .tc main_arg6) = W (Proc.devRef .tc main_arg6) := by
  unfold seg2
  after_results_simp <;> rfl

set_option maxRecDepth 8192 in
set_option maxHeartbeats 8000000 in
theorem s2_keep_arg9 (W : Valuation τ sig (Elt F)) :
    after (seg2 (F := F)) W (Proc.devRef .tc main_arg9) = W (Proc.devRef .tc main_arg9) := by
  unfold seg2
  after_results_simp <;> rfl

set_option maxRecDepth 8192 in
set_option maxHeartbeats 8000000 in
theorem s2_keep_arg10 (W : Valuation τ sig (Elt F)) :
    after (seg2 (F := F)) W (Proc.devRef .tc main_arg10) = W (Proc.devRef .tc main_arg10) := by
  unfold seg2
  after_results_simp <;> rfl

end Cert.Bridge

end
-- ==== Proof.Bridge.RefSeg3.lean ====
import proofs.«114553_j89962384982591_1_alg».proof.Proof.Bridge.RefSeg

/-!
# Segment 3 of the reference, folded

For each value that a later segment reads: what folding segment 3 over an incoming memory `W`
leaves in its buffer, given the values `W` holds in the buffers the segment reads; and that the
buffers the segment does not write keep what `W` held.
-/

noncomputable section

namespace Cert.Bridge

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
theorem s3_v60 (W : Valuation τ sig (Elt F)) (x0 : (⟨S250000x3, .i32⟩ : BufTy).Contents (Elt F)) (x1 : (⟨S100000x128, .f32⟩ : BufTy).Contents (Elt F)) (x2 : (⟨S500x128, .f32⟩ : BufTy).Contents (Elt F)) (x3 : (⟨S128x384, .f32⟩ : BufTy).Contents (Elt F)) (x4 : (⟨S128, .f32⟩ : BufTy).Contents (Elt F)) (x7 : (⟨S384, .f32⟩ : BufTy).Contents (Elt F)) (x8 : (⟨S384, .f32⟩ : BufTy).Contents (Elt F))
    (h0 : W (Proc.devRef .tc main_v55) = ReadP.val_main_v55 (F := F) x0 x1 x2 x7 x8)
    (h1 : W (Proc.devRef .tc main_v56) = ReadP.val_main_v56 (F := F) x3)
    (h2 : W (Proc.devRef .tc main_arg4) = x4) :
    after (seg3 (F := F)) W (Proc.devRef .tc main_v60) = ReadP.val_main_v60 (F := F) x0 x1 x2 x3 x4 x7 x8 := by
  unfold seg3
  after_results_simp
  rw [h0, h1, h2]
  rfl

set_option maxRecDepth 8192 in
set_option maxHeartbeats 8000000 in
theorem s3_keep_v1 (W : Valuation τ sig (Elt F)) :
    after (seg3 (F := F)) W (Proc.devRef .tc main_v1) = W (Proc.devRef .tc main_v1) := by
  unfold seg3
  after_results_simp <;> rfl

set_option maxRecDepth 8192 in
set_option maxHeartbeats 8000000 in
theorem s3_keep_v3 (W : Valuation τ sig (Elt F)) :
    after (seg3 (F := F)) W (Proc.devRef .tc main_v3) = W (Proc.devRef .tc main_v3) := by
  unfold seg3
  after_results_simp <;> rfl

set_option maxRecDepth 8192 in
set_option maxHeartbeats 8000000 in
theorem s3_keep_v5 (W : Valuation τ sig (Elt F)) :
    after (seg3 (F := F)) W (Proc.devRef .tc main_v5) = W (Proc.devRef .tc main_v5) := by
  unfold seg3
  after_results_simp <;> rfl

set_option maxRecDepth 8192 in
set_option maxHeartbeats 8000000 in
theorem s3_keep_arg5 (W : Valuation τ sig (Elt F)) :
    after (seg3 (F := F)) W (Proc.devRef .tc main_arg5) = W (Proc.devRef .tc main_arg5) := by
  unfold seg3
  after_results_simp <;> rfl

set_option maxRecDepth 8192 in
set_option maxHeartbeats 8000000 in
theorem s3_keep_arg6 (W : Valuation τ sig (Elt F)) :
    after (seg3 (F := F)) W (Proc.devRef .tc main_arg6) = W (Proc.devRef .tc main_arg6) := by
  unfold seg3
  after_results_simp <;> rfl

set_option maxRecDepth 8192 in
set_option maxHeartbeats 8000000 in
theorem s3_keep_arg9 (W : Valuation τ sig (Elt F)) :
    after (seg3 (F := F)) W (Proc.devRef .tc main_arg9) = W (Proc.devRef .tc main_arg9) := by
  unfold seg3
  after_results_simp <;> rfl

set_option maxRecDepth 8192 in
set_option maxHeartbeats 8000000 in
theorem s3_keep_arg10 (W : Valuation τ sig (Elt F)) :
    after (seg3 (F := F)) W (Proc.devRef .tc main_arg10) = W (Proc.devRef .tc main_arg10) := by
  unfold seg3
  after_results_simp <;> rfl

end Cert.Bridge

end
-- ==== Proof.Bridge.RefSeg4.lean ====
import proofs.«114553_j89962384982591_1_alg».proof.Proof.Bridge.RefSeg

/-!
# Segment 4 of the reference, folded

For each value that a later segment reads: what folding segment 4 over an incoming memory `W`
leaves in its buffer, given the values `W` holds in the buffers the segment reads; and that the
buffers the segment does not write keep what `W` held.
-/

noncomputable section

namespace Cert.Bridge

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
theorem s4_v85 (W : Valuation τ sig (Elt F)) (x0 : (⟨S250000x3, .i32⟩ : BufTy).Contents (Elt F)) (x1 : (⟨S100000x128, .f32⟩ : BufTy).Contents (Elt F)) (x2 : (⟨S500x128, .f32⟩ : BufTy).Contents (Elt F)) (x3 : (⟨S128x384, .f32⟩ : BufTy).Contents (Elt F)) (x4 : (⟨S128, .f32⟩ : BufTy).Contents (Elt F)) (x7 : (⟨S384, .f32⟩ : BufTy).Contents (Elt F)) (x8 : (⟨S384, .f32⟩ : BufTy).Contents (Elt F)) (x9 : (⟨S128, .f32⟩ : BufTy).Contents (Elt F)) (x10 : (⟨S128, .f32⟩ : BufTy).Contents (Elt F))
    (h0 : W (Proc.devRef .tc main_v60) = ReadP.val_main_v60 (F := F) x0 x1 x2 x3 x4 x7 x8)
    (h1 : W (Proc.devRef .tc main_arg9) = x9)
    (h2 : W (Proc.devRef .tc main_arg10) = x10) :
    after (seg4 (F := F)) W (Proc.devRef .tc main_v85) = ReadP.val_main_v85 (F := F) x0 x1 x2 x3 x4 x7 x8 x9 x10 := by
  unfold seg4
  after_results_simp
  rw [h0, h1, h2]
  rfl

set_option maxRecDepth 8192 in
set_option maxHeartbeats 8000000 in
theorem s4_v86 (W : Valuation τ sig (Elt F)) (x5 : (⟨S1x128, .f32⟩ : BufTy).Contents (Elt F))
    (h0 : W (Proc.devRef .tc main_arg5) = x5) :
    after (seg4 (F := F)) W (Proc.devRef .tc main_v86) = ReadP.val_main_v86 (F := F) x5 := by
  unfold seg4
  after_results_simp
  rw [h0]
  rfl

set_option maxRecDepth 8192 in
set_option maxHeartbeats 8000000 in
theorem s4_keep_v1 (W : Valuation τ sig (Elt F)) :
    after (seg4 (F := F)) W (Proc.devRef .tc main_v1) = W (Proc.devRef .tc main_v1) := by
  unfold seg4
  after_results_simp <;> rfl

set_option maxRecDepth 8192 in
set_option maxHeartbeats 8000000 in
theorem s4_keep_v3 (W : Valuation τ sig (Elt F)) :
    after (seg4 (F := F)) W (Proc.devRef .tc main_v3) = W (Proc.devRef .tc main_v3) := by
  unfold seg4
  after_results_simp <;> rfl

set_option maxRecDepth 8192 in
set_option maxHeartbeats 8000000 in
theorem s4_keep_v5 (W : Valuation τ sig (Elt F)) :
    after (seg4 (F := F)) W (Proc.devRef .tc main_v5) = W (Proc.devRef .tc main_v5) := by
  unfold seg4
  after_results_simp <;> rfl

set_option maxRecDepth 8192 in
set_option maxHeartbeats 8000000 in
theorem s4_keep_arg6 (W : Valuation τ sig (Elt F)) :
    after (seg4 (F := F)) W (Proc.devRef .tc main_arg6) = W (Proc.devRef .tc main_arg6) := by
  unfold seg4
  after_results_simp <;> rfl

end Cert.Bridge

end
-- ==== Proof.Bridge.RefSeg5.lean ====
import proofs.«114553_j89962384982591_1_alg».proof.Proof.Bridge.RefSeg

/-!
# Segment 5 of the reference, folded

For each value that a later segment reads: what folding segment 5 over an incoming memory `W`
leaves in its buffer, given the values `W` holds in the buffers the segment reads; and that the
buffers the segment does not write keep what `W` held.
-/

noncomputable section

namespace Cert.Bridge

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
theorem s5_v97 (W : Valuation τ sig (Elt F)) (x0 : (⟨S250000x3, .i32⟩ : BufTy).Contents (Elt F)) (x1 : (⟨S100000x128, .f32⟩ : BufTy).Contents (Elt F)) (x2 : (⟨S500x128, .f32⟩ : BufTy).Contents (Elt F)) (x3 : (⟨S128x384, .f32⟩ : BufTy).Contents (Elt F)) (x4 : (⟨S128, .f32⟩ : BufTy).Contents (Elt F)) (x5 : (⟨S1x128, .f32⟩ : BufTy).Contents (Elt F)) (x6 : (⟨S1, .f32⟩ : BufTy).Contents (Elt F)) (x7 : (⟨S384, .f32⟩ : BufTy).Contents (Elt F)) (x8 : (⟨S384, .f32⟩ : BufTy).Contents (Elt F)) (x9 : (⟨S128, .f32⟩ : BufTy).Contents (Elt F)) (x10 : (⟨S128, .f32⟩ : BufTy).Contents (Elt F))
    (h0 : W (Proc.devRef .tc main_v85) = ReadP.val_main_v85 (F := F) x0 x1 x2 x3 x4 x7 x8 x9 x10)
    (h1 : W (Proc.devRef .tc main_v86) = ReadP.val_main_v86 (F := F) x5)
    (h2 : W (Proc.devRef .tc main_arg6) = x6) :
    after (seg5 (F := F)) W (Proc.devRef .tc main_v97) = ReadP.val_main_v97 (F := F) x0 x1 x2 x3 x4 x5 x6 x7 x8 x9 x10 := by
  unfold seg5
  after_results_simp
  rw [h0, h1, h2]
  rfl

set_option maxRecDepth 8192 in
set_option maxHeartbeats 8000000 in
theorem s5_v100 (W : Valuation τ sig (Elt F)) (x0 : (⟨S250000x3, .i32⟩ : BufTy).Contents (Elt F)) (x1 : (⟨S100000x128, .f32⟩ : BufTy).Contents (Elt F)) (x2 : (⟨S500x128, .f32⟩ : BufTy).Contents (Elt F)) (x3 : (⟨S128x384, .f32⟩ : BufTy).Contents (Elt F)) (x4 : (⟨S128, .f32⟩ : BufTy).Contents (Elt F)) (x5 : (⟨S1x128, .f32⟩ : BufTy).Contents (Elt F)) (x6 : (⟨S1, .f32⟩ : BufTy).Contents (Elt F)) (x7 : (⟨S384, .f32⟩ : BufTy).Contents (Elt F)) (x8 : (⟨S384, .f32⟩ : BufTy).Contents (Elt F)) (x9 : (⟨S128, .f32⟩ : BufTy).Contents (Elt F)) (x10 : (⟨S128, .f32⟩ : BufTy).Contents (Elt F))
    (h0 : W (Proc.devRef .tc main_v85) = ReadP.val_main_v85 (F := F) x0 x1 x2 x3 x4 x7 x8 x9 x10)
    (h1 : W (Proc.devRef .tc main_v86) = ReadP.val_main_v86 (F := F) x5)
    (h2 : W (Proc.devRef .tc main_arg6) = x6) :
    after (seg5 (F := F)) W (Proc.devRef .tc main_v100) = ReadP.val_main_v100 (F := F) x0 x1 x2 x3 x4 x5 x6 x7 x8 x9 x10 := by
  unfold seg5
  after_results_simp
  rw [h0, h1, h2]
  rfl

set_option maxRecDepth 8192 in
set_option maxHeartbeats 8000000 in
/-- The joined segment ids: the two index columns entering the segment, one after the other. -/
theorem s5_v98 (W : Valuation τ sig (Elt F)) (a b : (⟨S250000, .i32⟩ : BufTy).Contents (Elt F))
    (h0 : W (Proc.devRef .tc main_v1) = a) (h1 : W (Proc.devRef .tc main_v3) = b) :
    after (seg5 (F := F)) W (Proc.devRef .tc main_v98)
      = concatenate S500000 0 [⟨S250000, a⟩, ⟨S250000, b⟩] concatenates_S250000_S250000_S500000_d0 := by
  subst h0 h1
  unfold seg5
  after_results_simp <;> rfl

set_option maxRecDepth 8192 in
set_option maxHeartbeats 8000000 in
theorem s5_keep_v5 (W : Valuation τ sig (Elt F)) :
    after (seg5 (F := F)) W (Proc.devRef .tc main_v5) = W (Proc.devRef .tc main_v5) := by
  unfold seg5
  after_results_simp <;> rfl

end Cert.Bridge

end
-- ==== Proof.Bridge.RefSeg6.lean ====
import proofs.«114553_j89962384982591_1_alg».proof.Proof.Bridge.RefSeg

/-!
# Segment 6 of the reference, folded

For each value that a later segment reads: what folding segment 6 over an incoming memory `W`
leaves in its buffer, given the values `W` holds in the buffers the segment reads; and that the
buffers the segment does not write keep what `W` held.
-/

noncomputable section

namespace Cert.Bridge

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
theorem s6_v111 (W : Valuation τ sig (Elt F)) (x0 : (⟨S250000x3, .i32⟩ : BufTy).Contents (Elt F)) (x1 : (⟨S100000x128, .f32⟩ : BufTy).Contents (Elt F)) (x2 : (⟨S500x128, .f32⟩ : BufTy).Contents (Elt F)) (x3 : (⟨S128x384, .f32⟩ : BufTy).Contents (Elt F)) (x4 : (⟨S128, .f32⟩ : BufTy).Contents (Elt F)) (x5 : (⟨S1x128, .f32⟩ : BufTy).Contents (Elt F)) (x6 : (⟨S1, .f32⟩ : BufTy).Contents (Elt F)) (x7 : (⟨S384, .f32⟩ : BufTy).Contents (Elt F)) (x8 : (⟨S384, .f32⟩ : BufTy).Contents (Elt F)) (x9 : (⟨S128, .f32⟩ : BufTy).Contents (Elt F)) (x10 : (⟨S128, .f32⟩ : BufTy).Contents (Elt F))
    (h0 : W (Proc.devRef .tc main_v97) = ReadP.val_main_v97 (F := F) x0 x1 x2 x3 x4 x5 x6 x7 x8 x9 x10)
    (h1 : W (Proc.devRef .tc main_v100) = ReadP.val_main_v100 (F := F) x0 x1 x2 x3 x4 x5 x6 x7 x8 x9 x10)
    (h2 : W (Proc.devRef .tc main_v98) = ReadP.val_main_v98 (F := F) x0) :
    after (seg6 (F := F)) W (Proc.devRef .tc main_v111) = ReadP.val_main_v111 (F := F) x0 x1 x2 x3 x4 x5 x6 x7 x8 x9 x10 := by
  unfold seg6
  after_results_simp
  rw [h0, h1, h2]
  rfl

set_option maxRecDepth 8192 in
set_option maxHeartbeats 8000000 in
theorem s6_v123 (W : Valuation τ sig (Elt F)) (x0 : (⟨S250000x3, .i32⟩ : BufTy).Contents (Elt F)) (x1 : (⟨S100000x128, .f32⟩ : BufTy).Contents (Elt F)) (x2 : (⟨S500x128, .f32⟩ : BufTy).Contents (Elt F)) (x3 : (⟨S128x384, .f32⟩ : BufTy).Contents (Elt F)) (x4 : (⟨S128, .f32⟩ : BufTy).Contents (Elt F)) (x5 : (⟨S1x128, .f32⟩ : BufTy).Contents (Elt F)) (x6 : (⟨S1, .f32⟩ : BufTy).Contents (Elt F)) (x7 : (⟨S384, .f32⟩ : BufTy).Contents (Elt F)) (x8 : (⟨S384, .f32⟩ : BufTy).Contents (Elt F)) (x9 : (⟨S128, .f32⟩ : BufTy).Contents (Elt F)) (x10 : (⟨S128, .f32⟩ : BufTy).Contents (Elt F))
    (h0 : W (Proc.devRef .tc main_v100) = ReadP.val_main_v100 (F := F) x0 x1 x2 x3 x4 x5 x6 x7 x8 x9 x10)
    (h1 : W (Proc.devRef .tc main_v5) = ReadP.val_main_v5 (F := F) x0) :
    after (seg6 (F := F)) W (Proc.devRef .tc main_v123) = ReadP.val_main_v123 (F := F) x0 x1 x2 x3 x4 x5 x6 x7 x8 x9 x10 := by
  unfold seg6
  after_results_simp
  rw [h0, h1]
  rfl

end Cert.Bridge

end
-- ==== Proof.Bridge.RefKept.lean ====
import proofs.«114553_j89962384982591_1_alg».proof.Proof.RefRunP
import proofs.«114553_j89962384982591_1_alg».proof.Proof.RefReadP

/-!
# No operation of the reference writes an argument

Folding all of the reference's operations over a memory leaves each of the eleven argument
buffers as it was.
-/

noncomputable section

namespace Cert.Bridge

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
theorem kept_arg0 (V : Valuation τ sig (Elt F)) :
    after (ValueP.ops (F := F)) V (Proc.devRef .tc main_arg0) = V (Proc.devRef .tc main_arg0) := by
  after_results_simp <;> rfl

set_option maxRecDepth 8192 in
set_option maxHeartbeats 8000000 in
theorem kept_arg1 (V : Valuation τ sig (Elt F)) :
    after (ValueP.ops (F := F)) V (Proc.devRef .tc main_arg1) = V (Proc.devRef .tc main_arg1) := by
  after_results_simp <;> rfl

set_option maxRecDepth 8192 in
set_option maxHeartbeats 8000000 in
theorem kept_arg2 (V : Valuation τ sig (Elt F)) :
    after (ValueP.ops (F := F)) V (Proc.devRef .tc main_arg2) = V (Proc.devRef .tc main_arg2) := by
  after_results_simp <;> rfl

set_option maxRecDepth 8192 in
set_option maxHeartbeats 8000000 in
theorem kept_arg3 (V : Valuation τ sig (Elt F)) :
    after (ValueP.ops (F := F)) V (Proc.devRef .tc main_arg3) = V (Proc.devRef .tc main_arg3) := by
  after_results_simp <;> rfl

set_option maxRecDepth 8192 in
set_option maxHeartbeats 8000000 in
theorem kept_arg4 (V : Valuation τ sig (Elt F)) :
    after (ValueP.ops (F := F)) V (Proc.devRef .tc main_arg4) = V (Proc.devRef .tc main_arg4) := by
  after_results_simp <;> rfl

set_option maxRecDepth 8192 in
set_option maxHeartbeats 8000000 in
theorem kept_arg5 (V : Valuation τ sig (Elt F)) :
    after (ValueP.ops (F := F)) V (Proc.devRef .tc main_arg5) = V (Proc.devRef .tc main_arg5) := by
  after_results_simp <;> rfl

set_option maxRecDepth 8192 in
set_option maxHeartbeats 8000000 in
theorem kept_arg6 (V : Valuation τ sig (Elt F)) :
    after (ValueP.ops (F := F)) V (Proc.devRef .tc main_arg6) = V (Proc.devRef .tc main_arg6) := by
  after_results_simp <;> rfl

set_option maxRecDepth 8192 in
set_option maxHeartbeats 8000000 in
theorem kept_arg7 (V : Valuation τ sig (Elt F)) :
    after (ValueP.ops (F := F)) V (Proc.devRef .tc main_arg7) = V (Proc.devRef .tc main_arg7) := by
  after_results_simp <;> rfl

set_option maxRecDepth 8192 in
set_option maxHeartbeats 8000000 in
theorem kept_arg8 (V : Valuation τ sig (Elt F)) :
    after (ValueP.ops (F := F)) V (Proc.devRef .tc main_arg8) = V (Proc.devRef .tc main_arg8) := by
  after_results_simp <;> rfl

set_option maxRecDepth 8192 in
set_option maxHeartbeats 8000000 in
theorem kept_arg9 (V : Valuation τ sig (Elt F)) :
    after (ValueP.ops (F := F)) V (Proc.devRef .tc main_arg9) = V (Proc.devRef .tc main_arg9) := by
  after_results_simp <;> rfl

set_option maxRecDepth 8192 in
set_option maxHeartbeats 8000000 in
theorem kept_arg10 (V : Valuation τ sig (Elt F)) :
    after (ValueP.ops (F := F)) V (Proc.devRef .tc main_arg10) = V (Proc.devRef .tc main_arg10) := by
  after_results_simp <;> rfl

end Cert.Bridge

end
-- ==== Proof.Bridge.RefRun.lean ====
import proofs.«114553_j89962384982591_1_alg».proof.Proof.Bridge.RefSeg1
import proofs.«114553_j89962384982591_1_alg».proof.Proof.Bridge.RefSeg2
import proofs.«114553_j89962384982591_1_alg».proof.Proof.Bridge.RefSeg3
import proofs.«114553_j89962384982591_1_alg».proof.Proof.Bridge.RefSeg4
import proofs.«114553_j89962384982591_1_alg».proof.Proof.Bridge.RefSeg5
import proofs.«114553_j89962384982591_1_alg».proof.Proof.Bridge.RefSeg6
import proofs.«114553_j89962384982591_1_alg».proof.Proof.Bridge.RefKept

/-!
# The reference's run

The reference is a straight line of host operations with no kernel launch, so every weakly fair
execution from a memory with zero counters terminates, and each buffer ends at the value the
operations, folded in program order over the starting contents, leave in it (`run_fold`). No
operation writes an argument buffer, so the arguments end unchanged (`frame_ref`). Folding the six
segments in turn, each fed the values the previous one left, gives the two results as the staged
functions of the arguments (`res_fold`), and with it the run that carries results and arguments
together (`run_ref`).
-/

noncomputable section

namespace Cert.Bridge

open Cert.ReferenceIdeal Cert.ReferenceIdeal.Gen Idealize.ShloMosaic Idealize.ShloMosaic.TcCoe Idealize.SL.Sem Idealize.ShloMosaic.StableHlo

variable {F : FTy → Type} [FloatOps F]

/-- Every weakly fair execution of the reference terminates with every buffer at the fold of its
    operations over the starting contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after (ValueP.ops (F := F)) (launchContents m d) (Proc.devRef .tc b) :=
  run_seq ValueP.scopedRefs_eq ValueP.scopedSems_eq defs main (fun _ => ValueP.ops) ValueP.main_eq
    (fun _ => ValueP.ops_sub) m ρ

/-- The reference runs and its argument arrays end unchanged. -/
theorem frame_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c)),
      (h c main_arg6).trans (kept_arg6 (launchContents m c)),
      (h c main_arg7).trans (kept_arg7 (launchContents m c)),
      (h c main_arg8).trans (kept_arg8 (launchContents m c)),
      (h c main_arg9).trans (kept_arg9 (launchContents m c)),
      (h c main_arg10).trans (kept_arg10 (launchContents m c))⟩)
    (run_fold m ρ)

/-- The two results of the fold of all operations, as the staged functions of the arguments. -/
theorem res_fold (V : Valuation τ sig (Elt F)) :
    after (ValueP.ops (F := F)) V (Proc.devRef .tc main_v111) = ReadP.val_main_v111 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))
    ∧ after (ValueP.ops (F := F)) V (Proc.devRef .tc main_v123) = ReadP.val_main_v123 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [after_ops]
  -- after the first segment
  have a30 := s1_v30 V
  have a1 := s1_v1 V
  have a3 := s1_v3 V
  have a5 := s1_v5 V
  have ka3 := s1_keep_arg3 V
  have ka4 := s1_keep_arg4 V
  have ka5 := s1_keep_arg5 V
  have ka6 := s1_keep_arg6 V
  have ka7 := s1_keep_arg7 V
  have ka8 := s1_keep_arg8 V
  have ka9 := s1_keep_arg9 V
  have ka10 := s1_keep_arg10 V
  -- after the second
  have b55 := s2_v55 (after seg1 V) _ _ _ _ _ a30 ka7 ka8
  have b56 := s2_v56 (after seg1 V) _ ka3
  have b1 := (s2_keep_v1 (after seg1 V)).trans a1
  have b3 := (s2_keep_v3 (after seg1 V)).trans a3
  have b5 := (s2_keep_v5 (after seg1 V)).trans a5
  have kb4 := (s2_keep_arg4 (after seg1 V)).trans ka4
  have kb5 := (s2_keep_arg5 (after seg1 V)).trans ka5
  have kb6 := (s2_keep_arg6 (after seg1 V)).trans ka6
  have kb9 := (s2_keep_arg9 (after seg1 V)).trans ka9
  have kb10 := (s2_keep_arg10 (after seg1 V)).trans ka10
  -- after the third
  have c60 := s3_v60 (after seg2 (after seg1 V)) _ _ _ _ _ _ _ b55 b56 kb4
  have c1 := (s3_keep_v1 (after seg2 (after seg1 V))).trans b1
  have c3 := (s3_keep_v3 (after seg2 (after seg1 V))).trans b3
  have c5 := (s3_keep_v5 (after seg2 (after seg1 V))).trans b5
  have kc5 := (s3_keep_arg5 (after seg2 (after seg1 V))).trans kb5
  have kc6 := (s3_keep_arg6 (after seg2 (after seg1 V))).trans kb6
  have kc9 := (s3_keep_arg9 (after seg2 (after seg1 V))).trans kb9
  have kc10 := (s3_keep_arg10 (after seg2 (after seg1 V))).trans kb10
  -- after the fourth
  have d85 := s4_v85 (after seg3 (after seg2 (after seg1 V))) _ _ _ _ _ _ _ _ _ c60 kc9 kc10
  have d86 := s4_v86 (after seg3 (after seg2 (after seg1 V))) _ kc5
  have d1 := (s4_keep_v1 (after seg3 (after seg2 (after seg1 V)))).trans c1
  have d3 := (s4_keep_v3 (after seg3 (after seg2 (after seg1 V)))).trans c3
  have d5 := (s4_keep_v5 (after seg3 (after seg2 (after seg1 V)))).trans c5
  have kd6 := (s4_keep_arg6 (after seg3 (after seg2 (after seg1 V)))).trans kc6
  -- after the fifth
  have e97 := s5_v97 (after seg4 (after seg3 (after seg2 (after seg1 V)))) _ _ _ _ _ _ _ _ _ _ _ d85 d86 kd6
  have e100 := s5_v100 (after seg4 (after seg3 (after seg2 (after seg1 V)))) _ _ _ _ _ _ _ _ _ _ _ d85 d86 kd6
  have e98 := s5_v98 (after seg4 (after seg3 (after seg2 (after seg1 V)))) _ _ d1 d3
  have e5 := (s5_keep_v5 (after seg4 (after seg3 (after seg2 (after seg1 V))))).trans d5
  -- the last
  exact ⟨s6_v111 (after seg5 (after seg4 (after seg3 (after seg2 (after seg1 V))))) _ _ _ _ _ _ _ _ _ _ _ e97 e100 e98,
    s6_v123 (after seg5 (after seg4 (after seg3 (after seg2 (after seg1 V))))) _ _ _ _ _ _ _ _ _ _ _ e100 e5⟩

/-- The reference runs; its two results end at the staged functions of the arguments and its
    argument arrays end unchanged. -/
theorem run_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v111) = ReadP.val_main_v111 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v123) = ReadP.val_main_v123 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨(h c main_v111).trans (res_fold (launchContents m c)).1,
      (h c main_v123).trans (res_fold (launchContents m c)).2,
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c)),
      (h c main_arg6).trans (kept_arg6 (launchContents m c)),
      (h c main_arg7).trans (kept_arg7 (launchContents m c)),
      (h c main_arg8).trans (kept_arg8 (launchContents m c)),
      (h c main_arg9).trans (kept_arg9 (launchContents m c)),
      (h c main_arg10).trans (kept_arg10 (launchContents m c))⟩)
    (run_fold m ρ)

end Cert.Bridge

end
-- ==== Proof.KI.Tail.lean ====
/-
  The last stretch of host operations, the same in both programs: from the attention factors (one per row), the scaled
  messages (128 per row) and the three index columns of the triplets it forms the per-entity sums of factors and of
  messages (scatter-additions at the head and tail indices), replaces a zero sum of factors by the word of 1e-12,
  divides; and the per-relation sums of the first 250000 rows' messages divided by the per-relation counts (at least
  one). Here it is one function of those five arrays; each program's result is that function of its own arrays.
-/
import proofs.«114553_j89962384982591_1_alg».proof.Proof.KI.Bnd
import proofs.«114553_j89962384982591_1_alg».proof.Proof.RefReadP

set_option maxRecDepth 16384

noncomputable section

namespace Cert.KernelIdeal.Tail

open Cert.KernelIdeal Cert.KernelIdeal.Gen Cert.KernelIdeal.Frame
open Idealize.ShloMosaic Idealize.ShloMosaic.TcCoe Idealize.SL.Sem Idealize.ShloMosaic.StableHlo

variable {F : FTy → Type} [FloatOps F]

/-- The head and tail index columns, one after the other: the segment of each of the 500000 rows. -/
def segIdx (i1 i3 : (⟨S250000, .i32⟩ : BufTy).Contents (Elt F)) : (⟨S500000x1, .i32⟩ : BufTy).Contents (Elt F) :=
  broadcastInDim S500000x1 ![0] bcast_S500000_S500000x1_0
    (concatenate S500000 0 [⟨S250000, i1⟩, ⟨S250000, i3⟩] concatenates_S250000_S250000_S500000_d0)

/-- The per-entity sums of the attention factors. -/
def entWeights (eb : (⟨S500000x1, .f32⟩ : BufTy).Contents (Elt F)) (i1 i3 : (⟨S250000, .i32⟩ : BufTy).Contents (Elt F)) :
    (⟨S100000x1, .f32⟩ : BufTy).Contents (Elt F) :=
  Host.scatterAdd scatter_S100000x1_S500000x1_S500000x1_1_0_0_1
    (broadcastInDim S100000x1 ![] bcast_S_S100000x1 (constant S_ .f32 0x00000000#32)) (segIdx i1 i3) eb

/-- The first result: per-entity sums of messages over per-entity sums of factors (a zero sum replaced). -/
def tailEnt (eb : (⟨S500000x1, .f32⟩ : BufTy).Contents (Elt F)) (t1 : (⟨S500000x128, .f32⟩ : BufTy).Contents (Elt F))
    (i1 i3 : (⟨S250000, .i32⟩ : BufTy).Contents (Elt F)) : (⟨S100000x128, .f32⟩ : BufTy).Contents (Elt F) :=
  Host.divf
    (Host.scatterAdd scatter_S100000x128_S500000x1_S500000x128_1_0_0_1
      (broadcastInDim S100000x128 ![] bcast_S_S100000x128 (constant S_ .f32 0x00000000#32)) (segIdx i1 i3) t1)
    (broadcastInDim S100000x128 ![0, 1] bcast_S100000x1_S100000x128_0_1
      (select (cmpf .oeq (entWeights eb i1 i3) (broadcastInDim S100000x1 ![] bcast_S_S100000x1 (constant S_ .f32 0x00000000#32)))
        (broadcastInDim S100000x1 ![] bcast_S_S100000x1 (id (constant S_ .f32 0x2B8CBCCC#32)))
        (entWeights eb i1 i3)))

/-- The second result: per-relation sums of the first half's messages over per-relation counts, at least one. -/
def tailRel (t1 : (⟨S500000x128, .f32⟩ : BufTy).Contents (Elt F)) (i5 : (⟨S250000, .i32⟩ : BufTy).Contents (Elt F)) :
    (⟨S500x128, .f32⟩ : BufTy).Contents (Elt F) :=
  Host.divf
    (Host.scatterAdd scatter_S500x128_S250000x1_S250000x128_1_0_0_1
      (broadcastInDim S500x128 ![] bcast_S_S500x128 (constant S_ .f32 0x00000000#32))
      (broadcastInDim S250000x1 ![0] bcast_S250000_S250000x1_0 i5)
      (extractStridedSlice S250000x128 ![0, 0] t1 slices_S500000x128_S250000x128_0_0))
    (broadcastInDim S500x128 ![0, 1] bcast_S500x1_S500x128_0_1
      (maximumf
        (Host.scatterAdd scatter_S500x1_S250000x1_S250000x1_1_0_0_1
          (broadcastInDim S500x1 ![] bcast_S_S500x1 (constant S_ .f32 0x00000000#32))
          (broadcastInDim S250000x1 ![0] bcast_S250000_S250000x1_0 i5)
          (broadcastInDim S250000x1 ![] bcast_S_S250000x1 (constant S_ .f32 0x3F800000#32)))
        (broadcastInDim S500x1 ![] bcast_S_S500x1 (constant S_ .f32 0x3F800000#32))))

variable (m : (ℓ : Loc nD τ sig) → Buf (Elt F) ℓ)

/-! ## The kernel's program ends at the tail of what its second Pallas call left -/

theorem ker_ent (c : Dev nD) :
    X7 m c main_v82 = tailEnt (X4 m c main_v70_1) (X4 m c main_v70_0) (X4 m c main_v1) (X4 m c main_v3) := by
  show StableHlo.after hostOps2_2 (StableHlo.after hostOps2_1 (StableHlo.after hostOps2 (X4 m c))) (Proc.devRef .tc main_v82) = _
  generalize X4 m c = W
  after_results_simp
  rfl

theorem ker_rel (c : Dev nD) :
    X7 m c main_v94 = tailRel (X4 m c main_v70_0) (X4 m c main_v5) := by
  show StableHlo.after hostOps2_2 (StableHlo.after hostOps2_1 (StableHlo.after hostOps2 (X4 m c))) (Proc.devRef .tc main_v94) = _
  generalize X4 m c = W
  after_results_simp
  rfl

/-! ## The reference's two results are the same tail of its own factors and messages -/

open Cert.ReferenceIdeal.ReadP in
theorem ref_ent (x0 : (⟨S250000x3, .i32⟩ : BufTy).Contents (Elt F)) (x1 : (⟨S100000x128, .f32⟩ : BufTy).Contents (Elt F))
    (x2 : (⟨S500x128, .f32⟩ : BufTy).Contents (Elt F)) (x3 : (⟨S128x384, .f32⟩ : BufTy).Contents (Elt F))
    (x4 : (⟨S128, .f32⟩ : BufTy).Contents (Elt F)) (x5 : (⟨S1x128, .f32⟩ : BufTy).Contents (Elt F))
    (x6 : (⟨S1, .f32⟩ : BufTy).Contents (Elt F)) (x7 x8 : (⟨S384, .f32⟩ : BufTy).Contents (Elt F))
    (x9 x10 : (⟨S128, .f32⟩ : BufTy).Contents (Elt F)) :
    val_main_v111 (F := F) x0 x1 x2 x3 x4 x5 x6 x7 x8 x9 x10
      = tailEnt (val_main_v97 (F := F) x0 x1 x2 x3 x4 x5 x6 x7 x8 x9 x10) (val_main_v100 (F := F) x0 x1 x2 x3 x4 x5 x6 x7 x8 x9 x10)
          (val_main_v1 (F := F) x0) (val_main_v3 (F := F) x0) := by
  unfold val_main_v111 val_main_v106 val_main_v110 val_main_v109 val_main_v108 val_main_v103 val_main_v105 val_main_v104
    val_main_v102 val_main_v101 val_main_v107 val_main_call1_v1 val_main_call1_v0 val_main_v98
    val_main_cst_16 val_main_cst_17 val_main_cst_18 val_main_cst_19
  rfl

open Cert.ReferenceIdeal.ReadP in
theorem ref_rel (x0 : (⟨S250000x3, .i32⟩ : BufTy).Contents (Elt F)) (x1 : (⟨S100000x128, .f32⟩ : BufTy).Contents (Elt F))
    (x2 : (⟨S500x128, .f32⟩ : BufTy).Contents (Elt F)) (x3 : (⟨S128x384, .f32⟩ : BufTy).Contents (Elt F))
    (x4 : (⟨S128, .f32⟩ : BufTy).Contents (Elt F)) (x5 : (⟨S1x128, .f32⟩ : BufTy).Contents (Elt F))
    (x6 : (⟨S1, .f32⟩ : BufTy).Contents (Elt F)) (x7 x8 : (⟨S384, .f32⟩ : BufTy).Contents (Elt F))
    (x9 x10 : (⟨S128, .f32⟩ : BufTy).Contents (Elt F)) :
    val_main_v123 (F := F) x0 x1 x2 x3 x4 x5 x6 x7 x8 x9 x10
      = tailRel (val_main_v100 (F := F) x0 x1 x2 x3 x4 x5 x6 x7 x8 x9 x10) (val_main_v5 (F := F) x0) := by
  unfold val_main_v123 val_main_v115 val_main_v122 val_main_v121 val_main_v120 val_main_v119 val_main_v118 val_main_v117
    val_main_v116 val_main_v114 val_main_v113 val_main_v112 val_main_cst_20 val_main_cst_21 val_main_cst_22 val_main_cst_23
  rfl

/-! ## Buffers no later segment writes pass through to the second Pallas call's exit -/

theorem X4_keeps (c : Dev nD) (b : Ref sig .tc) (h1 : ∀ w, Pipeline.arrRef spec1 w ≠ b) (h0 : ∀ w, Pipeline.arrRef spec0 w ≠ b)
    (hw : b ∉ Gen.hostOps1_W) : X4 m c b = Gen.V1 m c b := by
  rw [X4_of_ne m c b h1]
  show StableHlo.after hostOps1 (X2 m c) (Proc.devRef .tc b) = _
  rw [StableHlo.after_of_writes_sub hostOps1 (X2 m c) Gen.hostOps1_writes hw]
  exact X2_of_ne m c b h0

end Cert.KernelIdeal.Tail

end
-- ==== Proof.Bridge.Spec.lean ====
import Idealize.ShloMosaic.PureOps.Ideal.Laws
import Idealize.ShloMosaic.Lib.ValueIdx

/-!
# The folded batch-norm arrangement, index by index

Both programs compute, from the gathered row matrix `h` (500000 rows, 384 columns) and the
weights, the attention factor `eb` (one per row) and the scaled messages `temp1` (128 per row).
This module states that computation in the arrangement in which the batch norms are folded into a
per-column scale and shift, with each variance taken as the mean of squares minus the squared mean:

* `mean0 k  = (0 + Σ_r h r k) / n`,  `msq0 k = (0 + Σ_r h r k * h r k) / n`,
  `scale0 k = g0 k * rsqrt (msq0 k - mean0 k * mean0 k + eps)`,  `shift0 k = b0 k - mean0 k * scale0 k`;
* `cpre r j = (Σ_k (h r k * scale0 k + shift0 k) * W j k) + bias j`;
* `mean1 j = (0 + Σ_r cpre r j) / n`, `var1 j = (0 + Σ_r cpre r j * cpre r j) / n - mean1 j * mean1 j`,
  `scale1 j = g1 j * rsqrt (var1 j + eps)`, `shift1 j = b1 j - mean1 j * scale1 j`;
* `c r j = cpre r j * scale1 j + shift1 j`, `pre r = (0 + Σ_k c r k * w2 k) + bias2`,
  `eb r = exp (0 - (if pre r ≥ 0 then pre r else slope * pre r))`, `temp1 r j = eb r * c r j`.

Every operation is the exact one on extended reals; `n`, `eps`, `slope` and `0` are kept as the
binary32 words the programs carry (`n` is the word of 500000, `eps` of 1e-5, `slope` of 0.01).
All indices are built from coordinates of literal extent.
-/

noncomputable section

namespace Cert.Bridge

open Idealize.ShloMosaic Idealize.ShloMosaic.ValueIdx

/-- The binary32 word of `0`. -/
local notation "zeroW" => (Ideal.ofBits FTy.f32 0x00000000#32 : EReal)
/-- The binary32 word of the row count `500000`. -/
local notation "cntW" => (Ideal.ofBits FTy.f32 0x48F42400#32 : EReal)
/-- The binary32 word nearest `1e-5`. -/
local notation "epsW" => (Ideal.ofBits FTy.f32 0x3727C5AC#32 : EReal)
/-- The binary32 word nearest `0.01`. -/
local notation "slopeW" => (Ideal.ofBits FTy.f32 0x3C23D70A#32 : EReal)

/-- Row matrices and weight arrays as functions of a literal-shape index. -/
abbrev Arr2 (a b : Nat) : Type := (⟨2, ![a, b]⟩ : Shape).Idx → EReal
abbrev Arr1 (a : Nat) : Type := (⟨1, ![a]⟩ : Shape).Idx → EReal

section first
variable (h : Arr2 500000 384)

/-- Column mean of `h`. -/
def mean0 (k : Fin 384) : EReal :=
  Ideal.div (zeroW + ∑ r : Fin 500000, h (ix2 r k)) cntW

/-- Column mean of the squares of `h`. -/
def msq0 (k : Fin 384) : EReal :=
  Ideal.div (zeroW + ∑ r : Fin 500000, h (ix2 r k) * h (ix2 r k)) cntW

/-- Column variance as mean of squares minus squared mean. -/
def var0 (k : Fin 384) : EReal := msq0 h k - mean0 h k * mean0 h k

variable (g0 b0 : Arr1 384)

/-- The folded scale of the first batch norm. -/
def scale0 (k : Fin 384) : EReal := g0 (ix1 k) * Ideal.rsqrt (var0 h k + epsW)

/-- The folded shift of the first batch norm. -/
def shift0 (k : Fin 384) : EReal := b0 (ix1 k) - mean0 h k * scale0 h g0 k

variable (W : Arr2 128 384) (bias : Arr1 128)

/-- The linear layer applied to the normalised rows. -/
def cpre (r : Fin 500000) (j : Fin 128) : EReal :=
  (∑ k : Fin 384, (h (ix2 r k) * scale0 h g0 k + shift0 h g0 b0 k) * W (ix2 j k)) + bias (ix1 j)

/-- Column sums of `cpre`. -/
def sum1 (j : Fin 128) : EReal := zeroW + ∑ r : Fin 500000, cpre h g0 b0 W bias r j

/-- Column sums of the squares of `cpre`. -/
def sumsq1 (j : Fin 128) : EReal :=
  zeroW + ∑ r : Fin 500000, cpre h g0 b0 W bias r j * cpre h g0 b0 W bias r j

def mean1 (j : Fin 128) : EReal := Ideal.div (sum1 h g0 b0 W bias j) cntW

def var1 (j : Fin 128) : EReal :=
  Ideal.div (sumsq1 h g0 b0 W bias j) cntW - mean1 h g0 b0 W bias j * mean1 h g0 b0 W bias j

variable (g1 b1 : Arr1 128)

/-- The folded scale of the second batch norm. -/
def scale1 (j : Fin 128) : EReal := g1 (ix1 j) * Ideal.rsqrt (var1 h g0 b0 W bias j + epsW)

/-- The folded shift of the second batch norm. -/
def shift1 (j : Fin 128) : EReal :=
  b1 (ix1 j) - mean1 h g0 b0 W bias j * scale1 h g0 b0 W bias g1 j

/-- The normalised linear output. -/
def cK (r : Fin 500000) (j : Fin 128) : EReal :=
  cpre h g0 b0 W bias r j * scale1 h g0 b0 W bias g1 j + shift1 h g0 b0 W bias g1 b1 j

variable (w2 : Arr2 1 128) (bias2 : Arr1 1)

/-- The attention logit of a row. -/
def preB (r : Fin 500000) : EReal :=
  (zeroW + ∑ k : Fin 128, cK h g0 b0 W bias g1 b1 r k * w2 (ix2 0 k)) + bias2 (ix1 0)

/-- Leaky rectifier of the logit. -/
def lreluK (r : Fin 500000) : EReal :=
  Scalar.select (Ideal.cmp .oge (preB h g0 b0 W bias g1 b1 w2 bias2 r) zeroW)
    (preB h g0 b0 W bias g1 b1 w2 bias2 r) (slopeW * preB h g0 b0 W bias g1 b1 w2 bias2 r)

/-- The attention factor of a row. -/
def ebK (r : Fin 500000) : EReal := Ideal.exp (zeroW - lreluK h g0 b0 W bias g1 b1 w2 bias2 r)

/-- The scaled message of a row. -/
def temp1K (r : Fin 500000) (j : Fin 128) : EReal :=
  ebK h g0 b0 W bias g1 b1 w2 bias2 r * cK h g0 b0 W bias g1 b1 r j

end first

/-- The attention factors as a whole array. The arguments are, in order: the row matrix, the
    linear layer's weight and bias, the logit's weight and bias, the first norm's gain and offset,
    the second norm's gain and offset. -/
def ebSpec (h : Arr2 500000 384) (x3 : Arr2 128 384) (x4 : Arr1 128) (x5 : Arr2 1 128) (x6 : Arr1 1)
    (x7 x8 : Arr1 384) (x9 x10 : Arr1 128) : Arr2 500000 1 :=
  fun i => ebK h x7 x8 x3 x4 x9 x10 x5 x6 ⟨(i 0).val, (i 0).isLt⟩

/-- The scaled messages as a whole array (same argument order as `ebSpec`). -/
def temp1Spec (h : Arr2 500000 384) (x3 : Arr2 128 384) (x4 : Arr1 128) (x5 : Arr2 1 128) (x6 : Arr1 1)
    (x7 x8 : Arr1 384) (x9 x10 : Arr1 128) : Arr2 500000 128 :=
  fun i => temp1K h x7 x8 x3 x4 x9 x10 x5 x6 ⟨(i 0).val, (i 0).isLt⟩ ⟨(i 1).val, (i 1).isLt⟩

theorem ebSpec_ix2 (h : Arr2 500000 384) (x3 : Arr2 128 384) (x4 : Arr1 128) (x5 : Arr2 1 128) (x6 : Arr1 1)
    (x7 x8 : Arr1 384) (x9 x10 : Arr1 128) (r : Fin 500000) (q : Fin 1) :
    ebSpec h x3 x4 x5 x6 x7 x8 x9 x10 (ix2 r q) = ebK h x7 x8 x3 x4 x9 x10 x5 x6 r := rfl

theorem temp1Spec_ix2 (h : Arr2 500000 384) (x3 : Arr2 128 384) (x4 : Arr1 128) (x5 : Arr2 1 128) (x6 : Arr1 1)
    (x7 x8 : Arr1 384) (x9 x10 : Arr1 128) (r : Fin 500000) (j : Fin 128) :
    temp1Spec h x3 x4 x5 x6 x7 x8 x9 x10 (ix2 r j) = temp1K h x7 x8 x3 x4 x9 x10 x5 x6 r j := rfl

end Cert.Bridge

end
-- ==== Proof.Bridge.RefStages.lean ====
import proofs.«114553_j89962384982591_1_alg».proof.Proof.Bridge.Spec

/-!
# The same computation in the unfolded arrangement

Here each batch norm subtracts the column mean, takes the variance as the mean of the squared
deviations, multiplies by the reciprocal square root, then by the gain, and adds the offset:

* `dvar0 k = (0 + Σ_r (h r k - mean0 k)²) / n`,
  `norm0 r k = (h r k - mean0 k) * rsqrt (dvar0 k + eps) * g0 k + b0 k`;
* `lin r j = (Σ_k norm0 r k * W j k) + bias j`;
* `dmean1 j = (0 + Σ_r lin r j) / n`, `dvar1 j = (0 + Σ_r (lin r j - dmean1 j)²) / n`,
  `norm1 r j = (lin r j - dmean1 j) * rsqrt (dvar1 j + eps) * g1 j + b1 j`;
* `logit r = (Σ_k norm1 r k * w2 k) + bias2`,
  `att r = exp (-(if logit r ≥ 0 then logit r else slope * logit r))`, `msg r j = att r * norm1 r j`.
-/

noncomputable section

namespace Cert.Bridge

open Idealize.ShloMosaic Idealize.ShloMosaic.ValueIdx

local notation "zeroW" => (Ideal.ofBits FTy.f32 0x00000000#32 : EReal)
local notation "cntW" => (Ideal.ofBits FTy.f32 0x48F42400#32 : EReal)
local notation "epsW" => (Ideal.ofBits FTy.f32 0x3727C5AC#32 : EReal)
local notation "slopeW" => (Ideal.ofBits FTy.f32 0x3C23D70A#32 : EReal)

section stages
variable (h : Arr2 500000 384)

/-- Column variance of `h` as the mean of squared deviations. -/
def dvar0 (k : Fin 384) : EReal :=
  Ideal.div (zeroW + ∑ r : Fin 500000, (h (ix2 r k) - mean0 h k) * (h (ix2 r k) - mean0 h k)) cntW

variable (g0 b0 : Arr1 384)

/-- The first batch norm, entry by entry. -/
def norm0 (r : Fin 500000) (k : Fin 384) : EReal :=
  (h (ix2 r k) - mean0 h k) * Ideal.rsqrt (dvar0 h k + epsW) * g0 (ix1 k) + b0 (ix1 k)

variable (W : Arr2 128 384) (bias : Arr1 128)

/-- The linear layer on the normalised rows. -/
def lin (r : Fin 500000) (j : Fin 128) : EReal :=
  (∑ k : Fin 384, norm0 h g0 b0 r k * W (ix2 j k)) + bias (ix1 j)

def dmean1 (j : Fin 128) : EReal :=
  Ideal.div (zeroW + ∑ r : Fin 500000, lin h g0 b0 W bias r j) cntW

def dvar1 (j : Fin 128) : EReal :=
  Ideal.div (zeroW + ∑ r : Fin 500000,
    (lin h g0 b0 W bias r j - dmean1 h g0 b0 W bias j) * (lin h g0 b0 W bias r j - dmean1 h g0 b0 W bias j)) cntW

variable (g1 b1 : Arr1 128)

/-- The second batch norm, entry by entry. -/
def norm1 (r : Fin 500000) (j : Fin 128) : EReal :=
  (lin h g0 b0 W bias r j - dmean1 h g0 b0 W bias j) * Ideal.rsqrt (dvar1 h g0 b0 W bias j + epsW) * g1 (ix1 j)
    + b1 (ix1 j)

variable (w2 : Arr2 1 128) (bias2 : Arr1 1)

/-- The attention logit of a row. -/
def logit (r : Fin 500000) : EReal :=
  (∑ k : Fin 128, norm1 h g0 b0 W bias g1 b1 r k * w2 (ix2 0 k)) + bias2 (ix1 0)

/-- The attention factor of a row. -/
def att (r : Fin 500000) : EReal :=
  Ideal.exp (-(Scalar.select (Ideal.cmp .oge (logit h g0 b0 W bias g1 b1 w2 bias2 r) zeroW)
    (logit h g0 b0 W bias g1 b1 w2 bias2 r) (slopeW * logit h g0 b0 W bias g1 b1 w2 bias2 r)))

/-- The scaled message of a row. -/
def msg (r : Fin 500000) (j : Fin 128) : EReal :=
  att h g0 b0 W bias g1 b1 w2 bias2 r * norm1 h g0 b0 W bias g1 b1 r j

end stages

end Cert.Bridge

end
-- ==== Proof.Bridge.RefRead.lean ====
import proofs.«114553_j89962384982591_1_alg».proof.Proof.RefReadP
import proofs.«114553_j89962384982591_1_alg».proof.Proof.Bridge.RefStages

/-!
# The reference's stages, read at an index

Each stage of the reference between the gathered row matrix `h` (its stage 30) and its attention
factors (stage 97) and scaled messages (stage 100), read at an index built from coordinates, is the
corresponding function of `RefStages` applied to `h`. The row matrix itself is never opened. Each
proof rewrites with the generated read-at-an-index lemmas of the stage's operations, identifies the
composed index maps with the coordinate constructors, and cites the earlier stages.
-/

noncomputable section

namespace Cert.Bridge

open Cert.ReferenceIdeal Cert.ReferenceIdeal.ReadP Idealize.ShloMosaic Idealize.ShloMosaic.ValueIdx

/-! ## The composed index maps -/

theorem idx31 (k : Fin 384) (r : Fin 500000) : idx_main_v31 (ix1 k) r = ix2 r k :=
  funext fun a => Fin.ext (by match a with | ⟨0, _⟩ => rfl | ⟨1, _⟩ => rfl)
theorem idx38 (k : Fin 384) (r : Fin 500000) : idx_main_v38 (ix1 k) r = ix2 r k :=
  funext fun a => Fin.ext (by match a with | ⟨0, _⟩ => rfl | ⟨1, _⟩ => rfl)
theorem idx61 (j : Fin 128) (r : Fin 500000) : idx_main_v61 (ix1 j) r = ix2 r j :=
  funext fun a => Fin.ext (by match a with | ⟨0, _⟩ => rfl | ⟨1, _⟩ => rfl)
theorem idx68 (j : Fin 128) (r : Fin 500000) : idx_main_v68 (ix1 j) r = ix2 r j :=
  funext fun a => Fin.ext (by match a with | ⟨0, _⟩ => rfl | ⟨1, _⟩ => rfl)
theorem idx35_34 (r : Fin 500000) (k : Fin 384) : idx_main_v34 (idx_main_v35 (ix2 r k)) = ix1 k :=
  funext fun a => Fin.ext (by match a with | ⟨0, _⟩ => rfl)
theorem idx42_41 (r : Fin 500000) (k : Fin 384) : idx_main_v41 (idx_main_v42 (ix2 r k)) = ix1 k :=
  funext fun a => Fin.ext (by match a with | ⟨0, _⟩ => rfl)
theorem idx48_47 (r : Fin 500000) (k : Fin 384) : idx_main_v47 (idx_main_v48 (ix2 r k)) = ix1 k :=
  funext fun a => Fin.ext (by match a with | ⟨0, _⟩ => rfl)
theorem idx51_50 (r : Fin 500000) (k : Fin 384) : idx_main_v50 (idx_main_v51 (ix2 r k)) = ix1 k :=
  funext fun a => Fin.ext (by match a with | ⟨0, _⟩ => rfl)
theorem idx54_53 (r : Fin 500000) (k : Fin 384) : idx_main_v53 (idx_main_v54 (ix2 r k)) = ix1 k :=
  funext fun a => Fin.ext (by match a with | ⟨0, _⟩ => rfl)
theorem idx59_58 (r : Fin 500000) (k : Fin 128) : idx_main_v58 (idx_main_v59 (ix2 r k)) = ix1 k :=
  funext fun a => Fin.ext (by match a with | ⟨0, _⟩ => rfl)
theorem idx65_64 (r : Fin 500000) (k : Fin 128) : idx_main_v64 (idx_main_v65 (ix2 r k)) = ix1 k :=
  funext fun a => Fin.ext (by match a with | ⟨0, _⟩ => rfl)
theorem idx72_71 (r : Fin 500000) (k : Fin 128) : idx_main_v71 (idx_main_v72 (ix2 r k)) = ix1 k :=
  funext fun a => Fin.ext (by match a with | ⟨0, _⟩ => rfl)
theorem idx78_77 (r : Fin 500000) (k : Fin 128) : idx_main_v77 (idx_main_v78 (ix2 r k)) = ix1 k :=
  funext fun a => Fin.ext (by match a with | ⟨0, _⟩ => rfl)
theorem idx81_80 (r : Fin 500000) (k : Fin 128) : idx_main_v80 (idx_main_v81 (ix2 r k)) = ix1 k :=
  funext fun a => Fin.ext (by match a with | ⟨0, _⟩ => rfl)
theorem idx84_83 (r : Fin 500000) (k : Fin 128) : idx_main_v83 (idx_main_v84 (ix2 r k)) = ix1 k :=
  funext fun a => Fin.ext (by match a with | ⟨0, _⟩ => rfl)
theorem lidx57 (r : Fin 500000) (j : Fin 128) (k : Fin 384) : lidx_main_v57 (ix2 r j) k = ix2 r k :=
  funext fun a => Fin.ext (by match a with | ⟨0, _⟩ => rfl | ⟨1, _⟩ => rfl)
theorem ridx57 (r : Fin 500000) (j : Fin 128) (k : Fin 384) :
    idx_main_v56 (ridx_main_v57 (ix2 r j) k) = ix2 j k :=
  funext fun a => Fin.ext (by match a with | ⟨0, _⟩ => rfl | ⟨1, _⟩ => rfl)
theorem lidx87 (r : Fin 500000) (q : Fin 1) (k : Fin 128) : lidx_main_v87 (ix2 r q) k = ix2 r k :=
  funext fun a => Fin.ext (by match a with | ⟨0, _⟩ => rfl | ⟨1, _⟩ => rfl)
theorem ridx87 (r : Fin 500000) (q : Fin 1) (k : Fin 128) :
    idx_main_v86 (ridx_main_v87 (ix2 r q) k) = ix2 0 k :=
  funext fun a => Fin.ext (by
    match a with
    | ⟨0, _⟩ => have := q.isLt; show q.val = 0; omega
    | ⟨1, _⟩ => rfl)
theorem idx89_88 (r : Fin 500000) (q : Fin 1) : idx_main_v88 (idx_main_v89 (ix2 r q)) = ix1 0 :=
  funext fun a => Fin.ext (by match a with | ⟨0, _⟩ => rfl)
theorem idx99 (r : Fin 500000) (j : Fin 128) : idx_main_v99 (ix2 r j) = ix2 r 0 :=
  funext fun a => Fin.ext (by match a with | ⟨0, _⟩ => rfl | ⟨1, _⟩ => rfl)

/-! ## The stages -/

section stages
variable (x0 : (⟨S250000x3, .i32⟩ : BufTy).Contents (Elt Ideal))
  (x1 : (⟨S100000x128, .f32⟩ : BufTy).Contents (Elt Ideal))
  (x2 : (⟨S500x128, .f32⟩ : BufTy).Contents (Elt Ideal))
  (x3 : (⟨S128x384, .f32⟩ : BufTy).Contents (Elt Ideal))
  (x4 : (⟨S128, .f32⟩ : BufTy).Contents (Elt Ideal))
  (x5 : (⟨S1x128, .f32⟩ : BufTy).Contents (Elt Ideal))
  (x6 : (⟨S1, .f32⟩ : BufTy).Contents (Elt Ideal))
  (x7 x8 : (⟨S384, .f32⟩ : BufTy).Contents (Elt Ideal))
  (x9 x10 : (⟨S128, .f32⟩ : BufTy).Contents (Elt Ideal))

/-- Stage 33 is the column mean. -/
theorem read_mean0 (k : Fin 384) :
    val_main_v33 (F := Ideal) x0 x1 x2 (ix1 k) = mean0 (val_main_v30 (F := Ideal) x0 x1 x2) k := by
  rw [val_main_v33_apply, val_main_v31_apply, val_main_v32_apply, val_main_cst_apply, val_main_cst_5_apply]
  unfold mean0
  refine congrArg (fun s => Ideal.div (Ideal.ofBits .f32 0x00000000#32 + s) (Ideal.ofBits .f32 0x48F42400#32)) ?_
  refine Finset.sum_congr rfl fun r _ => ?_
  rw [idx31]

/-- Stage 36 is the deviation from the column mean. -/
theorem read_dev0 (r : Fin 500000) (k : Fin 384) :
    val_main_v36 (F := Ideal) x0 x1 x2 (ix2 r k) = (val_main_v30 (F := Ideal) x0 x1 x2) (ix2 r k) - mean0 (val_main_v30 (F := Ideal) x0 x1 x2) k := by
  rw [val_main_v36_apply, val_main_v35_apply, val_main_v34_apply, idx35_34, read_mean0]
  rfl

/-- Stage 40 is the column variance (mean of squared deviations). -/
theorem read_dvar0 (k : Fin 384) :
    val_main_v40 (F := Ideal) x0 x1 x2 (ix1 k) = dvar0 (val_main_v30 (F := Ideal) x0 x1 x2) k := by
  rw [val_main_v40_apply, val_main_v38_apply, val_main_v39_apply, val_main_cst_6_apply, val_main_cst_7_apply]
  unfold dvar0
  refine congrArg (fun s => Ideal.div (Ideal.ofBits .f32 0x00000000#32 + s) (Ideal.ofBits .f32 0x48F42400#32)) ?_
  refine Finset.sum_congr rfl fun r _ => ?_
  rw [idx38, val_main_v37_apply, read_dev0]
  rfl

/-- Stage 55 is the first batch norm. -/
theorem read_norm0 (r : Fin 500000) (k : Fin 384) :
    val_main_v55 (F := Ideal) x0 x1 x2 x7 x8 (ix2 r k) = norm0 (val_main_v30 (F := Ideal) x0 x1 x2) x7 x8 r k := by
  rw [val_main_v55_apply, val_main_v52_apply, val_main_v49_apply, val_main_v43_apply, val_main_v42_apply,
    val_main_v41_apply, val_main_v48_apply, val_main_v47_apply, val_main_v46_apply, val_main_v45_apply,
    val_main_v44_apply, val_main_cst_8_apply, val_main_v51_apply, val_main_v50_apply, val_main_v54_apply,
    val_main_v53_apply, idx42_41, idx48_47, idx51_50, idx54_53, read_mean0, read_dvar0]
  rfl

/-- Stage 60 is the linear layer. -/
theorem read_lin (r : Fin 500000) (j : Fin 128) :
    val_main_v60 (F := Ideal) x0 x1 x2 x3 x4 x7 x8 (ix2 r j) = lin (val_main_v30 (F := Ideal) x0 x1 x2) x7 x8 x3 x4 r j := by
  rw [val_main_v60_apply, val_main_v57_apply, val_main_v59_apply, val_main_v58_apply, idx59_58]
  unfold lin
  refine congrArg (fun s => s + x4 (ix1 j)) ?_
  refine Finset.sum_congr rfl fun k _ => ?_
  rw [lidx57, val_main_v56_apply, ridx57, read_norm0]

/-- Stage 63 is the column mean of the linear layer. -/
theorem read_dmean1 (j : Fin 128) :
    val_main_v63 (F := Ideal) x0 x1 x2 x3 x4 x7 x8 (ix1 j) = dmean1 (val_main_v30 (F := Ideal) x0 x1 x2) x7 x8 x3 x4 j := by
  rw [val_main_v63_apply, val_main_v61_apply, val_main_v62_apply, val_main_cst_9_apply, val_main_cst_10_apply]
  unfold dmean1
  refine congrArg (fun s => Ideal.div (Ideal.ofBits .f32 0x00000000#32 + s) (Ideal.ofBits .f32 0x48F42400#32)) ?_
  refine Finset.sum_congr rfl fun r _ => ?_
  rw [idx61, read_lin]

/-- Stage 66 is the deviation from that mean. -/
theorem read_dev1 (r : Fin 500000) (j : Fin 128) :
    val_main_v66 (F := Ideal) x0 x1 x2 x3 x4 x7 x8 (ix2 r j)
      = lin (val_main_v30 (F := Ideal) x0 x1 x2) x7 x8 x3 x4 r j - dmean1 (val_main_v30 (F := Ideal) x0 x1 x2) x7 x8 x3 x4 j := by
  rw [val_main_v66_apply, val_main_v65_apply, val_main_v64_apply, idx65_64, read_dmean1, read_lin]
  rfl

/-- Stage 70 is the column variance of the linear layer. -/
theorem read_dvar1 (j : Fin 128) :
    val_main_v70 (F := Ideal) x0 x1 x2 x3 x4 x7 x8 (ix1 j) = dvar1 (val_main_v30 (F := Ideal) x0 x1 x2) x7 x8 x3 x4 j := by
  rw [val_main_v70_apply, val_main_v68_apply, val_main_v69_apply, val_main_cst_11_apply, val_main_cst_12_apply]
  unfold dvar1
  refine congrArg (fun s => Ideal.div (Ideal.ofBits .f32 0x00000000#32 + s) (Ideal.ofBits .f32 0x48F42400#32)) ?_
  refine Finset.sum_congr rfl fun r _ => ?_
  rw [idx68, val_main_v67_apply, read_dev1]
  rfl

/-- Stage 85 is the second batch norm. -/
theorem read_norm1 (r : Fin 500000) (j : Fin 128) :
    val_main_v85 (F := Ideal) x0 x1 x2 x3 x4 x7 x8 x9 x10 (ix2 r j) = norm1 (val_main_v30 (F := Ideal) x0 x1 x2) x7 x8 x3 x4 x9 x10 r j := by
  rw [val_main_v85_apply, val_main_v82_apply, val_main_v79_apply, val_main_v73_apply, val_main_v72_apply,
    val_main_v71_apply, val_main_v78_apply, val_main_v77_apply, val_main_v76_apply, val_main_v75_apply,
    val_main_v74_apply, val_main_cst_13_apply, val_main_v81_apply, val_main_v80_apply, val_main_v84_apply,
    val_main_v83_apply, idx72_71, idx78_77, idx81_80, idx84_83, read_dmean1, read_dvar1, read_lin]
  rfl

/-- Stage 90 is the attention logit. -/
theorem read_logit (r : Fin 500000) (q : Fin 1) :
    val_main_v90 (F := Ideal) x0 x1 x2 x3 x4 x5 x6 x7 x8 x9 x10 (ix2 r q)
      = logit (val_main_v30 (F := Ideal) x0 x1 x2) x7 x8 x3 x4 x9 x10 x5 x6 r := by
  rw [val_main_v90_apply, val_main_v87_apply, val_main_v89_apply, val_main_v88_apply, idx89_88]
  unfold logit
  refine congrArg (fun s => s + x6 (ix1 0)) ?_
  refine Finset.sum_congr rfl fun k _ => ?_
  rw [lidx87, val_main_v86_apply, ridx87, read_norm1]

/-- Stage 97 is the attention factor. -/
theorem read_att (r : Fin 500000) (q : Fin 1) :
    val_main_v97 (F := Ideal) x0 x1 x2 x3 x4 x5 x6 x7 x8 x9 x10 (ix2 r q)
      = att (val_main_v30 (F := Ideal) x0 x1 x2) x7 x8 x3 x4 x9 x10 x5 x6 r := by
  rw [val_main_v97_apply, val_main_v96_apply, val_main_v95_apply, val_main_v92_apply, val_main_v94_apply,
    val_main_v91_apply, val_main_v93_apply, val_main_cst_14_apply, val_main_cst_15_apply, read_logit]
  rfl

/-- Stage 100 is the scaled message. -/
theorem read_msg (r : Fin 500000) (j : Fin 128) :
    val_main_v100 (F := Ideal) x0 x1 x2 x3 x4 x5 x6 x7 x8 x9 x10 (ix2 r j)
      = msg (val_main_v30 (F := Ideal) x0 x1 x2) x7 x8 x3 x4 x9 x10 x5 x6 r j := by
  rw [val_main_v100_apply, val_main_v99_apply, idx99, read_att, read_norm1]
  rfl

end stages

end Cert.Bridge

end
-- ==== Proof.Bridge.Algebra.lean ====
import Idealize.ShloMosaic.PureOps.Ideal.Laws

/-!
# Two identities of batch normalisation, over the reals and lifted to extended reals

Over a finite index type with `N` elements and real entries `x i`, with `m = (Σ x) / N`:

* the mean of the squared deviations is the mean of the squares minus the squared mean,
  `(Σ (x i - m)²) / N = (Σ (x i)²) / N - m²`;
* normalising then applying gain and offset is one multiplication and one addition,
  `(x - m) * ρ * g + b = x * (g * ρ) + (b - m * (g * ρ))`.

On extended reals neither holds in general (a product with an infinite factor does not
distribute), so the lifted statement asks for real entries and a positive real `e` added to the
variance, which makes the reciprocal square root a real number.
-/

noncomputable section

namespace Cert.Bridge.Alg

open Idealize.ShloMosaic

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Expanding the squared deviations from any centre `m`. -/
theorem sum_sq_dev {ι : Type*} [Fintype ι] (x : ι → ℝ) (m N : ℝ) (hN : (Fintype.card ι : ℝ) = N) :
    ∑ i, (x i - m) * (x i - m) = (∑ i, x i * x i) - 2 * m * (∑ i, x i) + N * (m * m) := by
  have e : ∀ i, (x i - m) * (x i - m) = x i * x i - 2 * m * x i + m * m := fun i => by ring
  simp only [e, Finset.sum_add_distrib, Finset.sum_sub_distrib, ← Finset.mul_sum, Finset.sum_const,
    Finset.card_univ, nsmul_eq_mul, hN]
  ring

/-- Mean of squared deviations from the mean = mean of squares − squared mean. -/
theorem var_identity {ι : Type*} [Fintype ι] (x : ι → ℝ) (N : ℝ) (hN : (Fintype.card ι : ℝ) = N)
    (hN0 : N ≠ 0) :
    (∑ i, (x i - (∑ i, x i) / N) * (x i - (∑ i, x i) / N)) / N
      = (∑ i, x i * x i) / N - ((∑ i, x i) / N) * ((∑ i, x i) / N) := by
  rw [sum_sq_dev x _ N hN]
  field_simp
  ring

/-- The mean of squared deviations is not negative. -/
theorem var_nonneg {ι : Type*} [Fintype ι] (x : ι → ℝ) (m N : ℝ) (hN : 0 < N) :
    0 ≤ (∑ i, (x i - m) * (x i - m)) / N :=
  div_nonneg (Finset.sum_nonneg fun i _ => mul_self_nonneg _) hN.le

/-- Normalise-then-affine as one multiply-add. -/
theorem affine_fold (x m ρ g b : ℝ) : (x - m) * ρ * g + b = x * (g * ρ) + (b - m * (g * ρ)) := by ring

/-- The exact quotient of two reals, the divisor not zero. -/
theorem div_coe_coe (a N : ℝ) (hN : N ≠ 0) :
    Ideal.div (a : EReal) (N : EReal) = ((a / N : ℝ) : EReal) := by
  rw [Ideal.div_coe hN, ← EReal.coe_mul]
  congr 1
  ring

/-- The reciprocal square root of a positive real. -/
theorem rsqrt_coe_pos (v : ℝ) (hv : 0 < v) :
    Ideal.rsqrt (v : EReal) = (((Real.sqrt v)⁻¹ : ℝ) : EReal) := by
  rw [Ideal.rsqrt_coe, if_neg (not_lt.2 hv.le), if_neg hv.ne']

/-- One column of a batch norm over real entries: the two arrangements give the same real number.
    `M` is the column mean, `Vr` the mean of squared deviations, `Vk` the mean of squares minus the
    squared mean; `N` is the number of rows and `e > 0`. -/
theorem bn_fold {ι : Type*} [Fintype ι] (x : ι → ℝ) (g b N e : ℝ) (hN : (Fintype.card ι : ℝ) = N)
    (hN0 : N ≠ 0) (he : 0 < e) (M Vr Vk : EReal)
    (hM : M = Ideal.div (∑ i, (x i : EReal)) (N : EReal))
    (hVr : Vr = Ideal.div (∑ i, ((x i : EReal) - M) * ((x i : EReal) - M)) (N : EReal))
    (hVk : Vk = Ideal.div (∑ i, (x i : EReal) * (x i : EReal)) (N : EReal) - M * M) (i : ι) :
    ∃ y : ℝ, ((x i : EReal) - M) * Ideal.rsqrt (Vr + (e : EReal)) * (g : EReal) + (b : EReal) = (y : EReal) ∧
      (x i : EReal) * ((g : EReal) * Ideal.rsqrt (Vk + (e : EReal)))
        + ((b : EReal) - M * ((g : EReal) * Ideal.rsqrt (Vk + (e : EReal)))) = (y : EReal) := by
  have hNpos : 0 < N := by
    rcases lt_or_gt_of_ne hN0 with h | h
    · exact absurd (hN ▸ Nat.cast_nonneg (α := ℝ) (Fintype.card ι)) (not_le.2 h)
    · exact h
  -- the mean is a real number
  have eM : M = (((∑ i, x i) / N : ℝ) : EReal) := by
    rw [hM, ← coe_sum, div_coe_coe _ _ hN0]
  set m : ℝ := (∑ i, x i) / N with hm
  -- so are the two variances, and they agree
  have eVr : Vr = (((∑ i, (x i - m) * (x i - m)) / N : ℝ) : EReal) := by
    rw [hVr, eM]
    simp only [← EReal.coe_sub, ← EReal.coe_mul]
    rw [← coe_sum, div_coe_coe _ _ hN0]
  have eVk : Vk = (((∑ i, x i * x i) / N - m * m : ℝ) : EReal) := by
    rw [hVk, eM]
    simp only [← EReal.coe_mul]
    rw [← coe_sum, div_coe_coe _ _ hN0, ← EReal.coe_sub]
  have evar : (∑ i, (x i - m) * (x i - m)) / N = (∑ i, x i * x i) / N - m * m := var_identity x N hN hN0
  have hpos : 0 < (∑ i, (x i - m) * (x i - m)) / N + e := add_pos_of_nonneg_of_pos (var_nonneg x m N hNpos) he
  refine ⟨(x i - m) * (Real.sqrt ((∑ i, (x i - m) * (x i - m)) / N + e))⁻¹ * g + b, ?_, ?_⟩
  · rw [eVr, eM, ← EReal.coe_add, rsqrt_coe_pos _ hpos]
    simp only [← EReal.coe_sub, ← EReal.coe_mul, ← EReal.coe_add]
  · rw [eVk, eM, ← evar, ← EReal.coe_add, rsqrt_coe_pos _ hpos]
    simp only [← EReal.coe_sub, ← EReal.coe_mul, ← EReal.coe_add]
    rw [affine_fold]

end Cert.Bridge.Alg

end
-- ==== Proof.Bridge.Words.lean ====
import Idealize.ShloMosaic.PureOps.Ideal.Laws

/-!
# The two binary32 words whose values matter

The row count `500000` is exactly representable, so its word denotes the real number `500000`;
the word nearest `1e-5` denotes a positive real (`10995116 * 2^(-40)`).
-/

noncomputable section

namespace Cert.Bridge.Words

open Idealize.ShloMosaic

/-- The word `0x48F42400` is `500000`: exponent field 145, fraction `7611392`,
    `(2^23 + 7611392) * 2^(145 - 127 - 23) = 16000000 / 32`. -/
theorem cnt_eq : (Ideal.ofBits .f32 0x48F42400#32 : EReal) = ((500000 : ℝ) : EReal) := by
  simp [Ideal.ofBits, Ideal.ieee]
  rw [← EReal.coe_mul]
  norm_num

/-- The word `0x3727C5AC` is a positive real. -/
theorem eps_pos : ∃ e : ℝ, 0 < e ∧ (Ideal.ofBits .f32 0x3727C5AC#32 : EReal) = (e : EReal) := by
  refine ⟨(10995116 : ℝ) * (2 : ℝ) ^ (-40 : ℤ), by positivity, ?_⟩
  simp [Ideal.ofBits, Ideal.ieee]

end Cert.Bridge.Words

end
-- ==== Proof.Bridge.Fold.lean ====
import proofs.«114553_j89962384982591_1_alg».proof.Proof.Bridge.Spec
import proofs.«114553_j89962384982591_1_alg».proof.Proof.Bridge.RefStages
import proofs.«114553_j89962384982591_1_alg».proof.Proof.Bridge.Algebra
import proofs.«114553_j89962384982591_1_alg».proof.Proof.Bridge.Words

/-!
# The unfolded arrangement equals the folded one when the entries are real

Column by column, each batch norm of `RefStages` is the scale-and-shift form of `Spec`: the column
entries are real numbers, the row count's word is the number of rows, and the word added to the
variance is positive, so `Alg.bn_fold` applies. The linear layers, the rectifier and the
exponential are the same operations on both sides; the only other differences are a leading `0 +`
on a sum and `0 - x` for `-x`.
-/

noncomputable section

namespace Cert.Bridge

open Idealize.ShloMosaic Idealize.ShloMosaic.ValueIdx

/-- Every entry of each array the two batch norms and the linear layer read is a real number. -/
structure RealEntries (h : Arr2 500000 384) (g0 b0 : Arr1 384) (W : Arr2 128 384) (bias : Arr1 128)
    (g1 b1 : Arr1 128) : Prop where
  h : ∀ i, ∃ r : ℝ, h i = (r : EReal)
  g0 : ∀ i, ∃ r : ℝ, g0 i = (r : EReal)
  b0 : ∀ i, ∃ r : ℝ, b0 i = (r : EReal)
  W : ∀ i, ∃ r : ℝ, W i = (r : EReal)
  bias : ∀ i, ∃ r : ℝ, bias i = (r : EReal)
  g1 : ∀ i, ∃ r : ℝ, g1 i = (r : EReal)
  b1 : ∀ i, ∃ r : ℝ, b1 i = (r : EReal)

variable {h : Arr2 500000 384} {g0 b0 : Arr1 384} {W : Arr2 128 384} {bias : Arr1 128} {g1 b1 : Arr1 128}

theorem card_rows : ((Fintype.card (Fin 500000) : ℕ) : ℝ) = 500000 := by
  rw [Fintype.card_fin]; norm_num

/-- First batch norm: both arrangements give the same real number at every entry. -/
theorem norm0_fold (fa : RealEntries h g0 b0 W bias g1 b1) (r : Fin 500000) (k : Fin 384) :
    ∃ y : ℝ, norm0 h g0 b0 r k = (y : EReal) ∧
      h (ix2 r k) * scale0 h g0 k + shift0 h g0 b0 k = (y : EReal) := by
  obtain ⟨e, he, hE⟩ := Words.eps_pos
  choose hR hhR using fa.h
  obtain ⟨g, hg⟩ := fa.g0 (ix1 k)
  obtain ⟨b, hb⟩ := fa.b0 (ix1 k)
  have key := Alg.bn_fold (fun r => hR (ix2 r k)) g b 500000 e card_rows (by norm_num) he
    (mean0 h k) (dvar0 h k) (var0 h k)
    (by unfold mean0; rw [Ideal.ofBits_zero_f32, zero_add, Words.cnt_eq]; simp only [hhR])
    (by unfold dvar0; rw [Ideal.ofBits_zero_f32, zero_add, Words.cnt_eq]; simp only [hhR])
    (by unfold var0 msq0; rw [Ideal.ofBits_zero_f32, zero_add, Words.cnt_eq]; simp only [hhR]) r
  unfold norm0 shift0 scale0
  rw [hhR (ix2 r k), hg, hb, hE]
  exact key

/-- The linear layer: the same real number in both arrangements. -/
theorem lin_fold (fa : RealEntries h g0 b0 W bias g1 b1) (r : Fin 500000) (j : Fin 128) :
    ∃ z : ℝ, lin h g0 b0 W bias r j = (z : EReal) ∧ cpre h g0 b0 W bias r j = (z : EReal) := by
  choose y hy1 hy2 using fun k => norm0_fold fa r k
  choose WR hWR using fa.W
  obtain ⟨c, hc⟩ := fa.bias (ix1 j)
  refine ⟨(∑ k, y k * WR (ix2 j k)) + c, ?_, ?_⟩
  · unfold lin
    simp only [hy1, hWR, hc, ← EReal.coe_mul]
    rw [← Alg.coe_sum, ← EReal.coe_add]
  · unfold cpre
    simp only [hy2, hWR, hc, ← EReal.coe_mul]
    rw [← Alg.coe_sum, ← EReal.coe_add]

/-- The column means of the linear layer agree. -/
theorem dmean1_eq (fa : RealEntries h g0 b0 W bias g1 b1) (j : Fin 128) :
    dmean1 h g0 b0 W bias j = mean1 h g0 b0 W bias j := by
  choose z hz1 hz2 using fun r => lin_fold fa r j
  unfold dmean1 mean1 sum1
  simp only [hz1, hz2]

/-- Second batch norm: both arrangements give the same real number at every entry. -/
theorem norm1_fold (fa : RealEntries h g0 b0 W bias g1 b1) (r : Fin 500000) (j : Fin 128) :
    ∃ c : ℝ, norm1 h g0 b0 W bias g1 b1 r j = (c : EReal) ∧ cK h g0 b0 W bias g1 b1 r j = (c : EReal) := by
  obtain ⟨e, he, hE⟩ := Words.eps_pos
  choose z hz1 hz2 using fun r => lin_fold fa r j
  obtain ⟨g, hg⟩ := fa.g1 (ix1 j)
  obtain ⟨b, hb⟩ := fa.b1 (ix1 j)
  have hm := dmean1_eq fa j
  have key := Alg.bn_fold z g b 500000 e card_rows (by norm_num) he
    (dmean1 h g0 b0 W bias j) (dvar1 h g0 b0 W bias j) (var1 h g0 b0 W bias j)
    (by unfold dmean1; rw [Ideal.ofBits_zero_f32, zero_add, Words.cnt_eq]; simp only [hz1])
    (by unfold dvar1; rw [Ideal.ofBits_zero_f32, zero_add, Words.cnt_eq]; simp only [hz1])
    (by unfold var1 sumsq1; rw [Ideal.ofBits_zero_f32, zero_add, Words.cnt_eq, ← hm]; simp only [hz2]) r
  unfold norm1 cK shift1 scale1
  rw [hz1 r, hz2 r, hg, hb, hE, ← hm]
  exact key

variable {w2 : Arr2 1 128} {bias2 : Arr1 1}

/-- The attention logits agree. -/
theorem logit_fold (fa : RealEntries h g0 b0 W bias g1 b1) (r : Fin 500000) :
    logit h g0 b0 W bias g1 b1 w2 bias2 r = preB h g0 b0 W bias g1 b1 w2 bias2 r := by
  unfold logit preB
  rw [Ideal.ofBits_zero_f32, zero_add]
  refine congrArg (· + bias2 (ix1 0)) (Finset.sum_congr rfl fun k _ => ?_)
  obtain ⟨c, h1, h2⟩ := norm1_fold fa r k
  rw [h1, h2]

/-- The attention factors agree. -/
theorem att_fold (fa : RealEntries h g0 b0 W bias g1 b1) (r : Fin 500000) :
    att h g0 b0 W bias g1 b1 w2 bias2 r = ebK h g0 b0 W bias g1 b1 w2 bias2 r := by
  unfold att ebK lreluK
  rw [logit_fold fa r, Ideal.ofBits_zero_f32, zero_sub]

/-- The scaled messages agree. -/
theorem msg_fold (fa : RealEntries h g0 b0 W bias g1 b1) (r : Fin 500000) (j : Fin 128) :
    msg h g0 b0 W bias g1 b1 w2 bias2 r j = temp1K h g0 b0 W bias g1 b1 w2 bias2 r j := by
  unfold msg temp1K
  obtain ⟨c, h1, h2⟩ := norm1_fold fa r j
  rw [att_fold fa r, h1, h2]

end Cert.Bridge

end
-- ==== Proof.Bridge.RefIsSpec.lean ====
import proofs.«114553_j89962384982591_1_alg».proof.Proof.Bridge.RefRead
import proofs.«114553_j89962384982591_1_alg».proof.Proof.Bridge.Fold

/-!
# The reference's attention factors and scaled messages are the folded arrangement

With every float entry the batch norms and the linear layer read a real number, the reference's
stage 97 (attention factors) and stage 100 (scaled messages) are `ebSpec` and `temp1Spec` of the
gathered row matrix: read each at an index (`RefRead`), then pass from the unfolded to the folded
arrangement (`Fold`).
-/

noncomputable section

namespace Cert.Bridge

open Cert.ReferenceIdeal Cert.ReferenceIdeal.ReadP Idealize.ShloMosaic Idealize.ShloMosaic.ValueIdx

section
variable (x0 : (⟨S250000x3, .i32⟩ : BufTy).Contents (Elt Ideal))
  (x1 : (⟨S100000x128, .f32⟩ : BufTy).Contents (Elt Ideal))
  (x2 : (⟨S500x128, .f32⟩ : BufTy).Contents (Elt Ideal))
  (x3 : (⟨S128x384, .f32⟩ : BufTy).Contents (Elt Ideal))
  (x4 : (⟨S128, .f32⟩ : BufTy).Contents (Elt Ideal))
  (x5 : (⟨S1x128, .f32⟩ : BufTy).Contents (Elt Ideal))
  (x6 : (⟨S1, .f32⟩ : BufTy).Contents (Elt Ideal))
  (x7 x8 : (⟨S384, .f32⟩ : BufTy).Contents (Elt Ideal))
  (x9 x10 : (⟨S128, .f32⟩ : BufTy).Contents (Elt Ideal))

/-- The attention factors. -/
theorem ref_eb
    (hh : ∀ i, ∃ r : ℝ, val_main_v30 (F := Ideal) x0 x1 x2 i = (r : EReal))
    (h3 : ∀ i, ∃ r : ℝ, x3 i = (r : EReal)) (h4 : ∀ i, ∃ r : ℝ, x4 i = (r : EReal))
    (h7 : ∀ i, ∃ r : ℝ, x7 i = (r : EReal)) (h8 : ∀ i, ∃ r : ℝ, x8 i = (r : EReal))
    (h9 : ∀ i, ∃ r : ℝ, x9 i = (r : EReal)) (h10 : ∀ i, ∃ r : ℝ, x10 i = (r : EReal)) :
    val_main_v97 (F := Ideal) x0 x1 x2 x3 x4 x5 x6 x7 x8 x9 x10
      = ebSpec (val_main_v30 (F := Ideal) x0 x1 x2) x3 x4 x5 x6 x7 x8 x9 x10 := by
  funext i
  obtain ⟨r, q, rfl⟩ : ∃ (r : Fin 500000) (q : Fin 1), i = ix2 r q := ⟨i 0, i 1, eq_ix2 i⟩
  rw [read_att, ebSpec_ix2]
  exact att_fold ⟨hh, h7, h8, h3, h4, h9, h10⟩ r

/-- The scaled messages. -/
theorem ref_temp1
    (hh : ∀ i, ∃ r : ℝ, val_main_v30 (F := Ideal) x0 x1 x2 i = (r : EReal))
    (h3 : ∀ i, ∃ r : ℝ, x3 i = (r : EReal)) (h4 : ∀ i, ∃ r : ℝ, x4 i = (r : EReal))
    (h7 : ∀ i, ∃ r : ℝ, x7 i = (r : EReal)) (h8 : ∀ i, ∃ r : ℝ, x8 i = (r : EReal))
    (h9 : ∀ i, ∃ r : ℝ, x9 i = (r : EReal)) (h10 : ∀ i, ∃ r : ℝ, x10 i = (r : EReal)) :
    val_main_v100 (F := Ideal) x0 x1 x2 x3 x4 x5 x6 x7 x8 x9 x10
      = temp1Spec (val_main_v30 (F := Ideal) x0 x1 x2) x3 x4 x5 x6 x7 x8 x9 x10 := by
  funext i
  obtain ⟨r, j, rfl⟩ : ∃ (r : Fin 500000) (j : Fin 128), i = ix2 r j := ⟨i 0, i 1, eq_ix2 i⟩
  rw [read_msg, temp1Spec_ix2]
  exact msg_fold ⟨hh, h7, h8, h3, h4, h9, h10⟩ r j

end

end Cert.Bridge

end
-- ==== Proof.Bridge.Finite.lean ====
import proofs.«114553_j89962384982591_1_alg».proof.Pre_finite_inputs
import Idealize.ShloMosaic.Lib.ReduceAll
import Idealize.ShloMosaic.Lib.Pipeline.Value
import Idealize.ShloMosaic.Lib.ValueIdx
import Idealize.ShloMosaic.PureOps.Ideal.Laws

/-!
# Finite inputs are arrays of real numbers

The precondition is a conjunction, one conjunct per float argument: *every* entry `x` of the array
satisfies `|x| < +∞`, written as an `and`-reduction of the comparison of `max x (-x)` with the
word `0x7F800000` (`+∞`). An extended real with `max x (-x) < ⊤` is neither `⊤` nor `⊥`, so it
is a real number.
-/

noncomputable section

namespace Cert.Bridge

open Idealize.ShloMosaic Idealize.ShloMosaic.ValueIdx

/-- The scalar shape has one index. -/
instance subsingleton_scalar_idx : Subsingleton (⟨0, ![]⟩ : Shape).Idx :=
  ⟨fun a b => funext fun d => d.elim0⟩

/-- `max x (-x) < +∞` forces `x` to be a real number. -/
theorem real_of_abs_lt_inf (x : EReal)
    (h : Ideal.cmp .olt (max x (-x)) (Ideal.ofBits .f32 0x7F800000#32) = 1#1) :
    ∃ r : ℝ, x = (r : EReal) := by
  have hinf : Ideal.ofBits .f32 0x7F800000#32 = (⊤ : EReal) := by simp [Ideal.ofBits, Ideal.ieee]
  rw [hinf] at h
  induction x using EReal.rec
  · exfalso; simp [Ideal.cmp] at h
  · exact ⟨_, rfl⟩
  · exfalso; simp [Ideal.cmp] at h

/-- One conjunct of the precondition: if the `and` over all entries of `|x| < +∞` is true, every
    entry of `x` is real. -/
theorem entries_real {s : Shape} {axes : List (Fin s.rank)} (x : FVec Ideal s .f32)
    (hb : (⟨0, ![]⟩ : Shape).BroadcastsInDim s (![] : Fin 0 → Fin s.rank))
    (hr : s.ReducesTo axes ⟨0, ![]⟩) (h0 : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) hr h0 ix0 = 1#1) :
    ∀ i, ∃ r : ℝ, x i = (r : EReal) := by
  intro i
  have h1 := Host.reduce_andi_all _ _ hr h0 ix0 e i
  rw [cmpf_apply, broadcastInDim_apply _ hb _ i ix0 (fun a => a.elim0)] at h1
  exact real_of_abs_lt_inf (x i) h1

open Cert.Pre_finite_inputs in
/-- Under the precondition every float argument is an array of real numbers. -/
theorem real_of_finite_inputs [Cert.Pre_finite_inputs.Facts]
    (x0 : IVec S250000x3 32) (x1 : FVec Ideal S100000x128 .f32) (x2 : FVec Ideal S500x128 .f32)
    (x3 : FVec Ideal S128x384 .f32) (x4 : FVec Ideal S128 .f32) (x5 : FVec Ideal S1x128 .f32)
    (x6 : FVec Ideal S1 .f32) (x7 x8 : FVec Ideal S384 .f32) (x9 x10 : FVec Ideal S128 .f32)
    (hpre : Cert.Pre_finite_inputs.fn (F := Ideal) x0 x1 x2 x3 x4 x5 x6 x7 x8 x9 x10 = fun _ => 1#1) :
    (∀ i, ∃ r : ℝ, x1 i = (r : EReal)) ∧ (∀ i, ∃ r : ℝ, x2 i = (r : EReal)) ∧
    (∀ i, ∃ r : ℝ, x3 i = (r : EReal)) ∧ (∀ i, ∃ r : ℝ, x4 i = (r : EReal)) ∧
    (∀ i, ∃ r : ℝ, x5 i = (r : EReal)) ∧ (∀ i, ∃ r : ℝ, x6 i = (r : EReal)) ∧
    (∀ i, ∃ r : ℝ, x7 i = (r : EReal)) ∧ (∀ i, ∃ r : ℝ, x8 i = (r : EReal)) ∧
    (∀ i, ∃ r : ℝ, x9 i = (r : EReal)) ∧ (∀ i, ∃ r : ℝ, x10 i = (r : EReal)) := by
  have h := congrFun hpre ix0
  dsimp only [Cert.Pre_finite_inputs.fn, Cert.Pre_finite_inputs.fn_part1, Cert.Pre_finite_inputs.fn_part2] at h
  obtain ⟨h, e10⟩ := IntOp.andi_eq_one.1 h
  obtain ⟨h, e9⟩ := IntOp.andi_eq_one.1 h
  obtain ⟨h, e8⟩ := IntOp.andi_eq_one.1 h
  obtain ⟨h, e7⟩ := IntOp.andi_eq_one.1 h
  obtain ⟨h, e6⟩ := IntOp.andi_eq_one.1 h
  obtain ⟨h, e5⟩ := IntOp.andi_eq_one.1 h
  obtain ⟨h, e4⟩ := IntOp.andi_eq_one.1 h
  obtain ⟨h, e3⟩ := IntOp.andi_eq_one.1 h
  obtain ⟨e1, e2⟩ := IntOp.andi_eq_one.1 h
  exact ⟨entries_real x1 _ _ _ e1, entries_real x2 _ _ _ e2, entries_real x3 _ _ _ e3,
    entries_real x4 _ _ _ e4, entries_real x5 _ _ _ e5, entries_real x6 _ _ _ e6,
    entries_real x7 _ _ _ e7, entries_real x8 _ _ _ e8, entries_real x9 _ _ _ e9,
    entries_real x10 _ _ _ e10⟩

end Cert.Bridge

end
-- ==== Proof.Bridge.Pieces.lean ====
import Idealize.ShloMosaic.PureOps.Ideal.Laws
import Idealize.ShloMosaic.Lib.ValueIdx

/-!
# Entries of a gather, a concatenation and a negation

A gathered array reads each of its entries from the operand; a concatenation reads each of its
entries from one of its pieces; so a property of every entry of the operands is a property of
every entry of the result. The negation of a real number is a real number.
-/

noncomputable section

namespace Cert.Bridge

open Idealize.ShloMosaic

/-- Every entry of a gather is an entry of its operand. -/
theorem gather_all {α : Type} {s si t : Shape} {w : Nat} (d : GatherDims s si t) (x : s.Idx → α)
    (idx : IVec si w) (P : α → Prop) (hP : ∀ i, P (x i)) (j : t.Idx) : P (Host.gather d x idx j) :=
  hP _

/-- Every entry of a concatenation is an entry of one of its pieces. -/
theorem concatenate_all {α : Type} {t : Shape} (a : Fin t.rank) (xs : List ((s : Shape) × (s.Idx → α)))
    (h : Shape.Concatenates (xs.map (·.1)) t a) (P : α → Prop) (hP : ∀ p ∈ xs, ∀ i, P (p.2 i))
    (j : t.Idx) : P (concatenate t a xs h j) := by
  unfold concatenate
  exact hP _ (List.getElem_mem _) _

/-- The negation of a real number is a real number. -/
theorem neg_real (y : EReal) (h : ∃ r : ℝ, y = (r : EReal)) : ∃ r : ℝ, -y = (r : EReal) := by
  obtain ⟨r, rfl⟩ := h
  exact ⟨-r, (EReal.coe_neg r).symm⟩

end Cert.Bridge

end
-- ==== Proof.Bridge.FiniteH.lean ====
import proofs.«114553_j89962384982591_1_alg».proof.Proof.RefReadP
import proofs.«114553_j89962384982591_1_alg».proof.Proof.Bridge.Pieces

/-!
# The gathered row matrix has real entries

The row matrix (the reference's stage 30) is two row blocks, each three column blocks, each a
gather of rows of one of the two embedding tables, one of them negated. So each of its entries is
an entry of a table or the negation of one, and is a real number when the tables' entries are.
-/

noncomputable section

namespace Cert.Bridge

open Cert.ReferenceIdeal Cert.ReferenceIdeal.ReadP Idealize.ShloMosaic

section
variable (x0 : (⟨S250000x3, .i32⟩ : BufTy).Contents (Elt Ideal))
  (x1 : (⟨S100000x128, .f32⟩ : BufTy).Contents (Elt Ideal))
  (x2 : (⟨S500x128, .f32⟩ : BufTy).Contents (Elt Ideal))

/-- Every entry of the gathered row matrix is a real number. -/
theorem rows_real (h1 : ∀ i, ∃ r : ℝ, x1 i = (r : EReal)) (h2 : ∀ i, ∃ r : ℝ, x2 i = (r : EReal)) :
    ∀ i, ∃ r : ℝ, val_main_v30 (F := Ideal) x0 x1 x2 i = (r : EReal) := by
  have p12 : ∀ i, ∃ r : ℝ, val_main_v12 (F := Ideal) x0 x1 i = (r : EReal) := fun i => by
    unfold val_main_v12; exact gather_all _ _ _ (fun y => ∃ r : ℝ, y = (r : EReal)) h1 i
  have p19 : ∀ i, ∃ r : ℝ, val_main_v19 (F := Ideal) x0 x1 i = (r : EReal) := fun i => by
    unfold val_main_v19; exact gather_all _ _ _ (fun y => ∃ r : ℝ, y = (r : EReal)) h1 i
  have p26 : ∀ i, ∃ r : ℝ, val_main_v26 (F := Ideal) x0 x2 i = (r : EReal) := fun i => by
    unfold val_main_v26; exact gather_all _ _ _ (fun y => ∃ r : ℝ, y = (r : EReal)) h2 i
  have p28 : ∀ i, ∃ r : ℝ, val_main_v28 (F := Ideal) x0 x2 i = (r : EReal) := fun i => by
    unfold val_main_v28; exact neg_real _ (p26 i)
  have p27 : ∀ i, ∃ r : ℝ, val_main_v27 (F := Ideal) x0 x1 x2 i = (r : EReal) := fun i => by
    unfold val_main_v27
    refine concatenate_all _ _ _ (fun y => ∃ r : ℝ, y = (r : EReal)) (fun p hp => ?_) i
    simp only [List.mem_cons, List.not_mem_nil, or_false] at hp
    rcases hp with rfl | rfl | rfl
    · exact p12
    · exact p19
    · exact p26
  have p29 : ∀ i, ∃ r : ℝ, val_main_v29 (F := Ideal) x0 x1 x2 i = (r : EReal) := fun i => by
    unfold val_main_v29
    refine concatenate_all _ _ _ (fun y => ∃ r : ℝ, y = (r : EReal)) (fun p hp => ?_) i
    simp only [List.mem_cons, List.not_mem_nil, or_false] at hp
    rcases hp with rfl | rfl | rfl
    · exact p19
    · exact p12
    · exact p28
  intro i
  unfold val_main_v30
  refine concatenate_all _ _ _ (fun y => ∃ r : ℝ, y = (r : EReal)) (fun p hp => ?_) i
  simp only [List.mem_cons, List.not_mem_nil, or_false] at hp
  rcases hp with rfl | rfl
  · exact p27
  · exact p29

end

end Cert.Bridge

end
-- ==== Proof.KH.Pre.lean ====
import proofs.«114553_j89962384982591_1_alg».proof.Proof.Gen.KernelIdeal.Regions
import proofs.«114553_j89962384982591_1_alg».proof.Proof.RefReadP
import proofs.«114553_j89962384982591_1_alg».proof.Proof.Bridge.Spec

/-!
# The first stretch of host operations, read at an index

The kernel's program begins with the same thirty-seven operations as the reference (three index
columns, three gathers, the concatenations into the row matrix `h`), so what they leave is the
reference's own term. The remaining twenty-six operations compute, from `h` and the first norm's
gain and offset, the folded scale and shift of the first batch norm, and lay out the operands of
the first Pallas call: `h` and the transposed weight narrowed to bfloat16 (the identity on
extended reals), the bias, scale and shift as one-row matrices. Each of these operands is read
here at an index built from coordinates. The row matrix is never opened: the last twenty-six
operations are run over an arbitrary valuation, and `h` enters as what that valuation holds.
-/

set_option maxRecDepth 16384

noncomputable section

namespace Cert.KernelIdeal.KHost

open Cert.KernelIdeal Cert.KernelIdeal.Gen
open Idealize.ShloMosaic Idealize.ShloMosaic.TcCoe Idealize.ShloMosaic.ValueIdx
open Idealize.SL.Sem Idealize.ShloMosaic.StableHlo

/-- The binary32 word of `0`. -/
local notation "zeroW" => (Ideal.ofBits FTy.f32 0x00000000#32 : EReal)
/-- The binary32 word of the row count `500000`. -/
local notation "cntW" => (Ideal.ofBits FTy.f32 0x48F42400#32 : EReal)
/-- The binary32 word nearest `1e-5`. -/
local notation "epsW" => (Ideal.ofBits FTy.f32 0x3727C5AC#32 : EReal)

variable {F : FTy → Type} [FloatOps F]

/-! ## The launch contents of the arguments and the row matrix -/

section names
variable (m : (ℓ : Loc nD τ sig) → Buf (Elt Ideal) ℓ) (c : Dev nD)

abbrev x0 : (⟨S250000x3, .i32⟩ : BufTy).Contents (Elt Ideal) := m ((c : Thread nD τ).loc main_arg0)
abbrev x1 : (⟨S100000x128, .f32⟩ : BufTy).Contents (Elt Ideal) := m ((c : Thread nD τ).loc main_arg1)
abbrev x2 : (⟨S500x128, .f32⟩ : BufTy).Contents (Elt Ideal) := m ((c : Thread nD τ).loc main_arg2)
abbrev x3 : (⟨S128x384, .f32⟩ : BufTy).Contents (Elt Ideal) := m ((c : Thread nD τ).loc main_arg3)
abbrev x4 : (⟨S128, .f32⟩ : BufTy).Contents (Elt Ideal) := m ((c : Thread nD τ).loc main_arg4)
abbrev x5 : (⟨S1x128, .f32⟩ : BufTy).Contents (Elt Ideal) := m ((c : Thread nD τ).loc main_arg5)
abbrev x6 : (⟨S1, .f32⟩ : BufTy).Contents (Elt Ideal) := m ((c : Thread nD τ).loc main_arg6)
abbrev x7 : (⟨S384, .f32⟩ : BufTy).Contents (Elt Ideal) := m ((c : Thread nD τ).loc main_arg7)
abbrev x8 : (⟨S384, .f32⟩ : BufTy).Contents (Elt Ideal) := m ((c : Thread nD τ).loc main_arg8)
abbrev x9 : (⟨S128, .f32⟩ : BufTy).Contents (Elt Ideal) := m ((c : Thread nD τ).loc main_arg9)
abbrev x10 : (⟨S128, .f32⟩ : BufTy).Contents (Elt Ideal) := m ((c : Thread nD τ).loc main_arg10)

/-- The gathered row matrix: what the first stretch leaves in its thirty-first result. Kept folded. -/
def hK : Cert.Bridge.Arr2 500000 384 := Gen.V1 m c main_v30
theorem hK_def : hK m c = Gen.V1 m c main_v30 := rfl

end names

/-! ## The first thirty-seven operations are the reference's -/

section same
variable (m : (ℓ : Loc nD τ sig) → Buf (Elt Ideal) ℓ) (c : Dev nD)

/-- The row matrix is the reference's stage 30 of the same three arguments. -/
theorem V1_v30 :
    Gen.V1 m c main_v30 = Cert.ReferenceIdeal.ReadP.val_main_v30 (F := Ideal) (x0 m c) (x1 m c) (x2 m c) := by
  show StableHlo.after hostOps0 (fun b => m (c, b)) (Proc.devRef .tc main_v30) = _
  after_results_simp
  rfl

theorem hK_eq :
    hK m c = Cert.ReferenceIdeal.ReadP.val_main_v30 (F := Ideal) (x0 m c) (x1 m c) (x2 m c) := V1_v30 m c

/-- The three index columns are the reference's stages 1, 3 and 5. -/
theorem V1_v1 : Gen.V1 m c main_v1 = Cert.ReferenceIdeal.ReadP.val_main_v1 (F := Ideal) (x0 m c) := by
  show StableHlo.after hostOps0 (fun b => m (c, b)) (Proc.devRef .tc main_v1) = _
  after_results_simp
  rfl
theorem V1_v3 : Gen.V1 m c main_v3 = Cert.ReferenceIdeal.ReadP.val_main_v3 (F := Ideal) (x0 m c) := by
  show StableHlo.after hostOps0 (fun b => m (c, b)) (Proc.devRef .tc main_v3) = _
  after_results_simp
  rfl
theorem V1_v5 : Gen.V1 m c main_v5 = Cert.ReferenceIdeal.ReadP.val_main_v5 (F := Ideal) (x0 m c) := by
  show StableHlo.after hostOps0 (fun b => m (c, b)) (Proc.devRef .tc main_v5) = _
  after_results_simp
  rfl

end same

/-! ## The last twenty-six operations, over an arbitrary valuation -/

/-- The operations after the row matrix: the column statistics, the folded scale and shift, and the
    layout of the first Pallas call's operands. -/
abbrev tail0 : List (HloOp τ sig (Elt F)) :=
  [ StableHlo.nullary main_cst (constant S_ .f32 0x00000000#32),
    StableHlo.binary main_v30 main_cst main_v31 ((fun x v => Host.reduceAdd x v reducesTo_S500000x384_S384_d0 h_S_) : (⟨S500000x384, .f32⟩ : BufTy).Contents (Elt F) → (⟨S_, .f32⟩ : BufTy).Contents (Elt F) → (⟨S384, .f32⟩ : BufTy).Contents (Elt F)),
    StableHlo.nullary main_cst_5 (constant S_ .f32 0x48F42400#32),
    StableHlo.unary main_cst_5 main_v32 (broadcastInDim S384 ![] bcast_S_S384 : (⟨S_, .f32⟩ : BufTy).Contents (Elt F) → (⟨S384, .f32⟩ : BufTy).Contents (Elt F)),
    StableHlo.binary main_v31 main_v32 main_v33 (Host.divf : (⟨S384, .f32⟩ : BufTy).Contents (Elt F) → (⟨S384, .f32⟩ : BufTy).Contents (Elt F) → (⟨S384, .f32⟩ : BufTy).Contents (Elt F)),
    StableHlo.binary main_v30 main_v30 main_v34 (mulf : (⟨S500000x384, .f32⟩ : BufTy).Contents (Elt F) → (⟨S500000x384, .f32⟩ : BufTy).Contents (Elt F) → (⟨S500000x384, .f32⟩ : BufTy).Contents (Elt F)),
    StableHlo.nullary main_cst_6 (constant S_ .f32 0x00000000#32),
    StableHlo.binary main_v34 main_cst_6 main_v35 ((fun x v => Host.reduceAdd x v reducesTo_S500000x384_S384_d0 h_S_) : (⟨S500000x384, .f32⟩ : BufTy).Contents (Elt F) → (⟨S_, .f32⟩ : BufTy).Contents (Elt F) → (⟨S384, .f32⟩ : BufTy).Contents (Elt F)),
    StableHlo.nullary main_cst_7 (constant S_ .f32 0x48F42400#32),
    StableHlo.unary main_cst_7 main_v36 (broadcastInDim S384 ![] bcast_S_S384 : (⟨S_, .f32⟩ : BufTy).Contents (Elt F) → (⟨S384, .f32⟩ : BufTy).Contents (Elt F)),
    StableHlo.binary main_v35 main_v36 main_v37 (Host.divf : (⟨S384, .f32⟩ : BufTy).Contents (Elt F) → (⟨S384, .f32⟩ : BufTy).Contents (Elt F) → (⟨S384, .f32⟩ : BufTy).Contents (Elt F)),
    StableHlo.binary main_v33 main_v33 main_v38 (mulf : (⟨S384, .f32⟩ : BufTy).Contents (Elt F) → (⟨S384, .f32⟩ : BufTy).Contents (Elt F) → (⟨S384, .f32⟩ : BufTy).Contents (Elt F)),
    StableHlo.binary main_v37 main_v38 main_v39 (subf : (⟨S384, .f32⟩ : BufTy).Contents (Elt F) → (⟨S384, .f32⟩ : BufTy).Contents (Elt F) → (⟨S384, .f32⟩ : BufTy).Contents (Elt F)),
    StableHlo.nullary main_cst_8 (constant S_ .f32 0x3727C5AC#32),
    StableHlo.unary main_cst_8 main_v40 (broadcastInDim S384 ![] bcast_S_S384 : (⟨S_, .f32⟩ : BufTy).Contents (Elt F) → (⟨S384, .f32⟩ : BufTy).Contents (Elt F)),
    StableHlo.binary main_v39 main_v40 main_v41 (addf : (⟨S384, .f32⟩ : BufTy).Contents (Elt F) → (⟨S384, .f32⟩ : BufTy).Contents (Elt F) → (⟨S384, .f32⟩ : BufTy).Contents (Elt F)),
    StableHlo.unary main_v41 main_v42 (Host.rsqrt : (⟨S384, .f32⟩ : BufTy).Contents (Elt F) → (⟨S384, .f32⟩ : BufTy).Contents (Elt F)),
    StableHlo.binary main_arg7 main_v42 main_v43 (mulf : (⟨S384, .f32⟩ : BufTy).Contents (Elt F) → (⟨S384, .f32⟩ : BufTy).Contents (Elt F) → (⟨S384, .f32⟩ : BufTy).Contents (Elt F)),
    StableHlo.binary main_v33 main_v43 main_v44 (mulf : (⟨S384, .f32⟩ : BufTy).Contents (Elt F) → (⟨S384, .f32⟩ : BufTy).Contents (Elt F) → (⟨S384, .f32⟩ : BufTy).Contents (Elt F)),
    StableHlo.binary main_arg8 main_v44 main_v45 (subf : (⟨S384, .f32⟩ : BufTy).Contents (Elt F) → (⟨S384, .f32⟩ : BufTy).Contents (Elt F) → (⟨S384, .f32⟩ : BufTy).Contents (Elt F)),
    StableHlo.unary main_v30 main_v46 ((truncf .bf16 · bitsLt_bf16_f32) : (⟨S500000x384, .f32⟩ : BufTy).Contents (Elt F) → (⟨S500000x384, .bf16⟩ : BufTy).Contents (Elt F)),
    StableHlo.unary main_arg3 main_v47 ((transpose S384x128 [1, 0] · transposes_S128x384_S384x128_1_0) : (⟨S128x384, .f32⟩ : BufTy).Contents (Elt F) → (⟨S384x128, .f32⟩ : BufTy).Contents (Elt F)),
    StableHlo.unary main_v47 main_v48 ((truncf .bf16 · bitsLt_bf16_f32) : (⟨S384x128, .f32⟩ : BufTy).Contents (Elt F) → (⟨S384x128, .bf16⟩ : BufTy).Contents (Elt F)),
    StableHlo.reshape main_arg4 main_v49 rfl shapeCasts_S128_S1x128,
    StableHlo.reshape main_v43 main_v50 rfl shapeCasts_S384_S1x384,
    StableHlo.reshape main_v45 main_v51 rfl shapeCasts_S384_S1x384 ]
/-- The operations up to the row matrix. -/
abbrev head0 : List (HloOp τ sig (Elt F)) := (hostOps0 (F := F)).take 37

theorem hostOps0_split : (hostOps0 : List (HloOp τ sig (Elt F))) = head0 ++ tail0 := rfl

section split
variable (m : (ℓ : Loc nD τ sig) → Buf (Elt F) ℓ) (c : Dev nD)

/-- What the first thirty-seven operations leave. Never unfolded. -/
def W0 : Valuation τ sig (Elt F) := StableHlo.after head0 (Gen.V0 m c)

theorem V1_eq : Gen.V1 m c = StableHlo.after tail0 (W0 m c) :=
  (congrArg (fun l => StableHlo.after l (Gen.V0 m c)) hostOps0_split).trans
    (StableHlo.after_append head0 tail0 (Gen.V0 m c))

end split

/-! ## The column statistics and the folded scale and shift, as functions of the row matrix -/

section chain
variable (h : (⟨S500000x384, .f32⟩ : BufTy).Contents (Elt F))
  (g0 b0 : (⟨S384, .f32⟩ : BufTy).Contents (Elt F))
  (w : (⟨S128x384, .f32⟩ : BufTy).Contents (Elt F)) (b : (⟨S128, .f32⟩ : BufTy).Contents (Elt F))

/-- The zero word, the row count and epsilon as scalars, the latter two spread over the columns. -/
def kcZ : (⟨S_, .f32⟩ : BufTy).Contents (Elt F) := constant S_ .f32 0x00000000#32
def kcN : (⟨S_, .f32⟩ : BufTy).Contents (Elt F) := constant S_ .f32 0x48F42400#32
def kcE : (⟨S_, .f32⟩ : BufTy).Contents (Elt F) := constant S_ .f32 0x3727C5AC#32
def kbN : (⟨S384, .f32⟩ : BufTy).Contents (Elt F) := broadcastInDim S384 ![] bcast_S_S384 (kcN (F := F))
def kbE : (⟨S384, .f32⟩ : BufTy).Contents (Elt F) := broadcastInDim S384 ![] bcast_S_S384 (kcE (F := F))
/-- Column sums from the zero word. -/
def k31 : (⟨S384, .f32⟩ : BufTy).Contents (Elt F) :=
  Host.reduceAdd h (kcZ (F := F)) reducesTo_S500000x384_S384_d0 h_S_
/-- Column means. -/
def k33 : (⟨S384, .f32⟩ : BufTy).Contents (Elt F) := Host.divf (k31 h) (kbN (F := F))
/-- Squares. -/
def k34 : (⟨S500000x384, .f32⟩ : BufTy).Contents (Elt F) := mulf h h
/-- Column sums of squares from the zero word. -/
def k35 : (⟨S384, .f32⟩ : BufTy).Contents (Elt F) :=
  Host.reduceAdd (k34 h) (kcZ (F := F)) reducesTo_S500000x384_S384_d0 h_S_
/-- Column means of squares. -/
def k37 : (⟨S384, .f32⟩ : BufTy).Contents (Elt F) := Host.divf (k35 h) (kbN (F := F))
def k38 : (⟨S384, .f32⟩ : BufTy).Contents (Elt F) := mulf (k33 h) (k33 h)
/-- Column variances: mean of squares minus squared mean. -/
def k39 : (⟨S384, .f32⟩ : BufTy).Contents (Elt F) := subf (k37 h) (k38 h)
def k41 : (⟨S384, .f32⟩ : BufTy).Contents (Elt F) := addf (k39 h) (kbE (F := F))
def k42 : (⟨S384, .f32⟩ : BufTy).Contents (Elt F) := Host.rsqrt (k41 h)
/-- The folded scale: gain times the reciprocal root of variance plus epsilon. -/
def k43 : (⟨S384, .f32⟩ : BufTy).Contents (Elt F) := mulf g0 (k42 h)
def k44 : (⟨S384, .f32⟩ : BufTy).Contents (Elt F) := mulf (k33 h) (k43 h g0)
/-- The folded shift: offset minus mean times scale. -/
def k45 : (⟨S384, .f32⟩ : BufTy).Contents (Elt F) := subf b0 (k44 h g0)
/-- The row matrix narrowed to bfloat16. -/
def k46 : (⟨S500000x384, .bf16⟩ : BufTy).Contents (Elt F) := truncf .bf16 h bitsLt_bf16_f32
/-- The weight transposed, then narrowed to bfloat16. -/
def k47 : (⟨S384x128, .f32⟩ : BufTy).Contents (Elt F) := transpose S384x128 [1, 0] w transposes_S128x384_S384x128_1_0
def k48 : (⟨S384x128, .bf16⟩ : BufTy).Contents (Elt F) := truncf .bf16 (k47 w) bitsLt_bf16_f32
/-- The bias, the scale and the shift as one-row matrices. -/
def k49 : (⟨S1x128, .f32⟩ : BufTy).Contents (Elt F) := shapeCast _ b shapeCasts_S128_S1x128
def k50 : (⟨S1x384, .f32⟩ : BufTy).Contents (Elt F) := shapeCast _ (k43 h g0) shapeCasts_S384_S1x384
def k51 : (⟨S1x384, .f32⟩ : BufTy).Contents (Elt F) := shapeCast _ (k45 h g0 b0) shapeCasts_S384_S1x384

end chain

/-! ## The same, read at an index on extended reals -/

section chainIdeal
variable (h : (⟨S500000x384, .f32⟩ : BufTy).Contents (Elt Ideal))
  (g0 b0 : (⟨S384, .f32⟩ : BufTy).Contents (Elt Ideal))
  (w : (⟨S128x384, .f32⟩ : BufTy).Contents (Elt Ideal)) (b : (⟨S128, .f32⟩ : BufTy).Contents (Elt Ideal))

/-- A sum over the rows from the zero word, read at a column. -/
theorem reduceRows_apply (y : (⟨S500000x384, .f32⟩ : BufTy).Contents (Elt Ideal)) (k : Fin 384) :
    Host.reduceAdd (F := Ideal) y (kcZ (F := Ideal)) reducesTo_S500000x384_S384_d0 h_S_ (ix1 k)
      = zeroW + ∑ r : Fin 500000, y (ix2 r k) := by
  simp only [Host.reduceAdd, Ideal.hostReduceAdd_def]
  rw [Ideal.hostReduceAdd_single reducesTo_S500000x384_S384_d0 (by decide)]
  refine congrArg (zeroW + ·) (Finset.sum_congr rfl fun r _ => ?_)
  exact congrArg y (funext fun a => Fin.ext (by match a with | ⟨0, _⟩ => rfl | ⟨1, _⟩ => rfl))

theorem k33_apply (k : Fin 384) : k33 (F := Ideal) h (ix1 k) = Cert.Bridge.mean0 h k := by
  unfold k33 k31 Cert.Bridge.mean0
  show Ideal.div (Host.reduceAdd (F := Ideal) h (kcZ (F := Ideal)) reducesTo_S500000x384_S384_d0 h_S_ (ix1 k)) cntW = _
  rw [reduceRows_apply]

theorem k37_apply (k : Fin 384) : k37 (F := Ideal) h (ix1 k) = Cert.Bridge.msq0 h k := by
  unfold k37 k35 Cert.Bridge.msq0
  show Ideal.div (Host.reduceAdd (F := Ideal) (k34 (F := Ideal) h) (kcZ (F := Ideal)) reducesTo_S500000x384_S384_d0 h_S_ (ix1 k)) cntW = _
  rw [reduceRows_apply]
  rfl

theorem k43_apply (k : Fin 384) : k43 (F := Ideal) h g0 (ix1 k) = Cert.Bridge.scale0 h g0 k := by
  unfold k43 k42 k41 k39 k38 Cert.Bridge.scale0 Cert.Bridge.var0
  show g0 (ix1 k) * Ideal.rsqrt ((k37 (F := Ideal) h (ix1 k) - k33 (F := Ideal) h (ix1 k) * k33 (F := Ideal) h (ix1 k)) + epsW) = _
  rw [k37_apply, k33_apply]

theorem k45_apply (k : Fin 384) : k45 (F := Ideal) h g0 b0 (ix1 k) = Cert.Bridge.shift0 h g0 b0 k := by
  unfold k45 k44 Cert.Bridge.shift0
  show b0 (ix1 k) - k33 (F := Ideal) h (ix1 k) * k43 (F := Ideal) h g0 (ix1 k) = _
  rw [k33_apply, k43_apply]

/-- A 384-vector as a one-row matrix. -/
theorem row384_apply (y : (⟨S384, .f32⟩ : BufTy).Contents (Elt Ideal)) (k : Fin 384) :
    shapeCast S1x384 y shapeCasts_S384_S1x384 (ix2 (0 : Fin 1) k) = y (ix1 k) :=
  shapeCast_apply y shapeCasts_S384_S1x384 (ix2 (0 : Fin 1) k) (ix1 k)
    (by rewrite [Shape.rowMajor_val_two, Shape.rowMajor_val_one]; show k.val = 0 * 384 + k.val; omega)

/-- A 128-vector as a one-row matrix. -/
theorem row128_apply (y : (⟨S128, .f32⟩ : BufTy).Contents (Elt Ideal)) (j : Fin 128) :
    shapeCast S1x128 y shapeCasts_S128_S1x128 (ix2 (0 : Fin 1) j) = y (ix1 j) :=
  shapeCast_apply y shapeCasts_S128_S1x128 (ix2 (0 : Fin 1) j) (ix1 j)
    (by rewrite [Shape.rowMajor_val_two, Shape.rowMajor_val_one]; show j.val = 0 * 128 + j.val; omega)

theorem k46_apply (r : Fin 500000) (k : Fin 384) : k46 (F := Ideal) h (ix2 r k) = h (ix2 r k) := rfl

theorem k48_apply (k : Fin 384) (j : Fin 128) : k48 (F := Ideal) w (ix2 k j) = w (ix2 j k) := by
  unfold k48 k47
  show transpose S384x128 [1, 0] w transposes_S128x384_S384x128_1_0 (ix2 k j) = _
  exact transpose_apply [1, 0] w transposes_S128x384_S384x128_1_0 (ix2 k j) (ix2 j k) (fun b => match b with
    | ⟨0, _⟩ => rfl
    | ⟨1, _⟩ => rfl)

theorem k49_apply (j : Fin 128) : k49 (F := Ideal) b (ix2 (0 : Fin 1) j) = b (ix1 j) := by
  unfold k49; exact row128_apply b j

theorem k50_apply (k : Fin 384) : k50 (F := Ideal) h g0 (ix2 (0 : Fin 1) k) = Cert.Bridge.scale0 h g0 k := by
  unfold k50; rw [row384_apply, k43_apply]

theorem k51_apply (k : Fin 384) : k51 (F := Ideal) h g0 b0 (ix2 (0 : Fin 1) k) = Cert.Bridge.shift0 h g0 b0 k := by
  unfold k51; rw [row384_apply, k45_apply]

end chainIdeal

/-! ## The first Pallas call's operands, as whole arrays -/

section operandsF
variable (m : (ℓ : Loc nD τ sig) → Buf (Elt F) ℓ) (c : Dev nD)

theorem V1_v46_eq : Gen.V1 m c main_v46 = k46 (F := F) (Gen.V1 m c main_v30) := by
  rw [V1_eq m c]
  generalize W0 m c = W
  after_results_simp
  rfl

theorem V1_v48_eq : Gen.V1 m c main_v48 = k48 (F := F) (Gen.V1 m c main_arg3) := by
  rw [V1_eq m c]
  generalize W0 m c = W
  after_results_simp
  rfl

theorem V1_v49_eq : Gen.V1 m c main_v49 = k49 (F := F) (Gen.V1 m c main_arg4) := by
  rw [V1_eq m c]
  generalize W0 m c = W
  after_results_simp
  rfl

theorem V1_v50_eq : Gen.V1 m c main_v50 = k50 (F := F) (Gen.V1 m c main_v30) (Gen.V1 m c main_arg7) := by
  rw [V1_eq m c]
  generalize W0 m c = W
  after_results_simp
  rfl

theorem V1_v51_eq :
    Gen.V1 m c main_v51 = k51 (F := F) (Gen.V1 m c main_v30) (Gen.V1 m c main_arg7) (Gen.V1 m c main_arg8) := by
  rw [V1_eq m c]
  generalize W0 m c = W
  after_results_simp
  rfl

end operandsF

/-! ## The first Pallas call's operands at an index -/

section operands
variable (m : (ℓ : Loc nD τ sig) → Buf (Elt Ideal) ℓ) (c : Dev nD)

theorem V1_arg3 : Gen.V1 m c main_arg3 = x3 m c := (Gen.V1_of m c main_arg3 (by decide)).trans rfl
theorem V1_arg4 : Gen.V1 m c main_arg4 = x4 m c := (Gen.V1_of m c main_arg4 (by decide)).trans rfl
theorem V1_arg7 : Gen.V1 m c main_arg7 = x7 m c := (Gen.V1_of m c main_arg7 (by decide)).trans rfl
theorem V1_arg8 : Gen.V1 m c main_arg8 = x8 m c := (Gen.V1_of m c main_arg8 (by decide)).trans rfl

/-- The row matrix narrowed to bfloat16 is the row matrix. -/
theorem V1_v46_apply (r : Fin 500000) (k : Fin 384) :
    Gen.V1 m c main_v46 (ix2 r k) = hK m c (ix2 r k) :=
  congrFun (V1_v46_eq m c) (ix2 r k)

/-- The scale operand is the folded scale of the first batch norm. -/
theorem V1_v50_apply (k : Fin 384) :
    Gen.V1 m c main_v50 (ix2 (0 : Fin 1) k) = Cert.Bridge.scale0 (hK m c) (x7 m c) k := by
  refine (congrFun (V1_v50_eq m c) (ix2 (0 : Fin 1) k)).trans ?_
  rw [V1_arg7]
  exact k50_apply (Gen.V1 m c main_v30) (x7 m c) k

/-- The shift operand is the folded shift of the first batch norm. -/
theorem V1_v51_apply (k : Fin 384) :
    Gen.V1 m c main_v51 (ix2 (0 : Fin 1) k) = Cert.Bridge.shift0 (hK m c) (x7 m c) (x8 m c) k := by
  refine (congrFun (V1_v51_eq m c) (ix2 (0 : Fin 1) k)).trans ?_
  rw [V1_arg7, V1_arg8]
  exact k51_apply (Gen.V1 m c main_v30) (x7 m c) (x8 m c) k

/-- The weight operand is the linear layer's weight transposed. -/
theorem V1_v48_apply (k : Fin 384) (j : Fin 128) :
    Gen.V1 m c main_v48 (ix2 k j) = x3 m c (ix2 j k) := by
  refine (congrFun (V1_v48_eq m c) (ix2 k j)).trans ?_
  rw [V1_arg3]
  exact k48_apply (x3 m c) k j

/-- The bias operand is the linear layer's bias as a row. -/
theorem V1_v49_apply (j : Fin 128) :
    Gen.V1 m c main_v49 (ix2 (0 : Fin 1) j) = x4 m c (ix1 j) := by
  refine (congrFun (V1_v49_eq m c) (ix2 (0 : Fin 1) j)).trans ?_
  rw [V1_arg4]
  exact k49_apply (x4 m c) j

end operands

end Cert.KernelIdeal.KHost

end
-- ==== Proof.KH.Mid.lean ====
import proofs.«114553_j89962384982591_1_alg».proof.Proof.KI.Bnd
import proofs.«114553_j89962384982591_1_alg».proof.Proof.KH.Pre

/-!
# The second stretch of host operations, read at an index

Between the two Pallas calls the program turns the first call's column sums `S` and column sums of
squares `Q` (two one-row matrices) into the folded scale and shift of the second batch norm:
mean `S / n`, variance `Q / n - mean * mean`, scale `g1 * rsqrt (variance + eps)`, shift
`b1 - mean * scale`, and lays them, with the logit bias, out as the second call's operands. The
twenty operations are run over an arbitrary valuation, and each operand is read at an index built
from coordinates. The first call's main result and the logit weights pass through untouched.
-/

set_option maxRecDepth 16384

noncomputable section

namespace Cert.KernelIdeal.KHost

open Cert.KernelIdeal Cert.KernelIdeal.Gen Cert.KernelIdeal.Frame
open Idealize.ShloMosaic Idealize.ShloMosaic.TcCoe Idealize.ShloMosaic.ValueIdx
open Idealize.SL.Sem Idealize.ShloMosaic.StableHlo

/-- The binary32 word of the row count `500000`. -/
local notation "cntW" => (Ideal.ofBits FTy.f32 0x48F42400#32 : EReal)
/-- The binary32 word nearest `1e-5`. -/
local notation "epsW" => (Ideal.ofBits FTy.f32 0x3727C5AC#32 : EReal)

variable {F : FTy → Type} [FloatOps F]

/-! ## The second norm's folded scale and shift, as functions of the two sums -/

section chain
variable (s q : (⟨S1x128, .f32⟩ : BufTy).Contents (Elt F))
  (g1 b1 : (⟨S128, .f32⟩ : BufTy).Contents (Elt F)) (b2 : (⟨S1, .f32⟩ : BufTy).Contents (Elt F))

/-- The row count and epsilon spread over the 128 columns. -/
def jbN : (⟨S128, .f32⟩ : BufTy).Contents (Elt F) := broadcastInDim S128 ![] bcast_S_S128 (kcN (F := F))
def jbE : (⟨S128, .f32⟩ : BufTy).Contents (Elt F) := broadcastInDim S128 ![] bcast_S_S128 (kcE (F := F))
/-- The sums as vectors. -/
def j53 : (⟨S128, .f32⟩ : BufTy).Contents (Elt F) := shapeCast _ s shapeCasts_S1x128_S128
def j56 : (⟨S128, .f32⟩ : BufTy).Contents (Elt F) := shapeCast _ q shapeCasts_S1x128_S128
/-- Column means. -/
def j55 : (⟨S128, .f32⟩ : BufTy).Contents (Elt F) := Host.divf (j53 s) (jbN (F := F))
/-- Column means of squares. -/
def j58 : (⟨S128, .f32⟩ : BufTy).Contents (Elt F) := Host.divf (j56 q) (jbN (F := F))
def j59 : (⟨S128, .f32⟩ : BufTy).Contents (Elt F) := mulf (j55 s) (j55 s)
/-- Column variances: mean of squares minus squared mean. -/
def j60 : (⟨S128, .f32⟩ : BufTy).Contents (Elt F) := subf (j58 q) (j59 s)
def j62 : (⟨S128, .f32⟩ : BufTy).Contents (Elt F) := addf (j60 s q) (jbE (F := F))
def j63 : (⟨S128, .f32⟩ : BufTy).Contents (Elt F) := Host.rsqrt (j62 s q)
/-- The folded scale. -/
def j64 : (⟨S128, .f32⟩ : BufTy).Contents (Elt F) := mulf g1 (j63 s q)
def j65 : (⟨S128, .f32⟩ : BufTy).Contents (Elt F) := mulf (j55 s) (j64 s q g1)
/-- The folded shift. -/
def j66 : (⟨S128, .f32⟩ : BufTy).Contents (Elt F) := subf b1 (j65 s q g1)
/-- The logit bias as a one-by-one matrix, the scale and the shift as one-row matrices. -/
def j67 : (⟨S1x1, .f32⟩ : BufTy).Contents (Elt F) := shapeCast _ b2 shapeCasts_S1_S1x1
def j68 : (⟨S1x128, .f32⟩ : BufTy).Contents (Elt F) := shapeCast _ (j64 s q g1) shapeCasts_S128_S1x128
def j69 : (⟨S1x128, .f32⟩ : BufTy).Contents (Elt F) := shapeCast _ (j66 s q g1 b1) shapeCasts_S128_S1x128

end chain

/-! ## The same, read at an index on extended reals -/

section chainIdeal
variable (s q : (⟨S1x128, .f32⟩ : BufTy).Contents (Elt Ideal))
  (g1 b1 : (⟨S128, .f32⟩ : BufTy).Contents (Elt Ideal)) (b2 : (⟨S1, .f32⟩ : BufTy).Contents (Elt Ideal))

/-- A one-row matrix as a 128-vector. -/
theorem col128_apply (y : (⟨S1x128, .f32⟩ : BufTy).Contents (Elt Ideal)) (j : Fin 128) :
    shapeCast S128 y shapeCasts_S1x128_S128 (ix1 j) = y (ix2 (0 : Fin 1) j) :=
  shapeCast_apply y shapeCasts_S1x128_S128 (ix1 j) (ix2 (0 : Fin 1) j)
    (by rewrite [Shape.rowMajor_val_two, Shape.rowMajor_val_one]; show 0 * 128 + j.val = j.val; omega)

/-- A 1-vector as a one-by-one matrix. -/
theorem one11_apply (y : (⟨S1, .f32⟩ : BufTy).Contents (Elt Ideal)) :
    shapeCast S1x1 y shapeCasts_S1_S1x1 (ix2 (0 : Fin 1) (0 : Fin 1)) = y (ix1 (0 : Fin 1)) :=
  shapeCast_apply y shapeCasts_S1_S1x1 (ix2 (0 : Fin 1) (0 : Fin 1)) (ix1 (0 : Fin 1))
    (by rewrite [Shape.rowMajor_val_two, Shape.rowMajor_val_one]; show (0 : ℕ) = 0 * 1 + 0; omega)

theorem j55_apply (j : Fin 128) : j55 (F := Ideal) s (ix1 j) = Ideal.div (s (ix2 (0 : Fin 1) j)) cntW := by
  unfold j55 j53
  show Ideal.div (shapeCast S128 s shapeCasts_S1x128_S128 (ix1 j)) cntW = _
  rw [col128_apply]

theorem j64_apply (j : Fin 128) :
    j64 (F := Ideal) s q g1 (ix1 j)
      = g1 (ix1 j) * Ideal.rsqrt ((Ideal.div (q (ix2 (0 : Fin 1) j)) cntW
          - Ideal.div (s (ix2 (0 : Fin 1) j)) cntW * Ideal.div (s (ix2 (0 : Fin 1) j)) cntW) + epsW) := by
  unfold j64 j63 j62 j60 j59 j58 j56
  show g1 (ix1 j) * Ideal.rsqrt ((Ideal.div (shapeCast S128 q shapeCasts_S1x128_S128 (ix1 j)) cntW
      - j55 (F := Ideal) s (ix1 j) * j55 (F := Ideal) s (ix1 j)) + epsW) = _
  rw [col128_apply, j55_apply]

theorem j66_apply (j : Fin 128) :
    j66 (F := Ideal) s q g1 b1 (ix1 j)
      = b1 (ix1 j) - Ideal.div (s (ix2 (0 : Fin 1) j)) cntW * j64 (F := Ideal) s q g1 (ix1 j) := by
  unfold j66 j65
  show b1 (ix1 j) - j55 (F := Ideal) s (ix1 j) * j64 (F := Ideal) s q g1 (ix1 j) = _
  rw [j55_apply]

theorem j67_apply : j67 (F := Ideal) b2 (ix2 (0 : Fin 1) (0 : Fin 1)) = b2 (ix1 (0 : Fin 1)) := by
  unfold j67; exact one11_apply b2

theorem j68_apply (j : Fin 128) : j68 (F := Ideal) s q g1 (ix2 (0 : Fin 1) j) = j64 (F := Ideal) s q g1 (ix1 j) := by
  unfold j68; exact row128_apply _ j

theorem j69_apply (j : Fin 128) :
    j69 (F := Ideal) s q g1 b1 (ix2 (0 : Fin 1) j) = j66 (F := Ideal) s q g1 b1 (ix1 j) := by
  unfold j69; exact row128_apply _ j

end chainIdeal

/-! ## The second Pallas call's operands, as whole arrays -/

section operandsF
variable (m : (ℓ : Loc nD τ sig) → Buf (Elt F) ℓ) (c : Dev nD)

/-- A buffer the second stretch does not write keeps what the first call left. -/
theorem X3_keep (r : Ref sig .tc) (h : r ∉ hostOps1_W) : X3 m c r = X2 m c r :=
  StableHlo.after_of_writes_sub hostOps1 _ hostOps1_writes h

theorem X3_v67_eq : X3 m c main_v67 = j67 (F := F) (X2 m c main_arg6) := by
  show StableHlo.after hostOps1 (X2 m c) (Proc.devRef .tc main_v67) = _
  generalize X2 m c = W
  after_results_simp
  rfl

theorem X3_v68_eq :
    X3 m c main_v68 = j68 (F := F) (X2 m c main_v52_1) (X2 m c main_v52_2) (X2 m c main_arg9) := by
  show StableHlo.after hostOps1 (X2 m c) (Proc.devRef .tc main_v68) = _
  generalize X2 m c = W
  after_results_simp
  rfl

theorem X3_v69_eq :
    X3 m c main_v69
      = j69 (F := F) (X2 m c main_v52_1) (X2 m c main_v52_2) (X2 m c main_arg9) (X2 m c main_arg10) := by
  show StableHlo.after hostOps1 (X2 m c) (Proc.devRef .tc main_v69) = _
  generalize X2 m c = W
  after_results_simp
  rfl

/-- The first call's main result and the logit weights pass through. -/
theorem X3_v52_0 : X3 m c main_v52_0 = X2 m c main_v52_0 := X3_keep m c main_v52_0 (by decide)

end operandsF

/-! ## The second Pallas call's operands at an index -/

section operands
variable (m : (ℓ : Loc nD τ sig) → Buf (Elt Ideal) ℓ) (c : Dev nD)

/-- The first call's column sums and column sums of squares, as it left them. -/
abbrev S1K : Cert.Bridge.Arr2 1 128 := X2 m c main_v52_1
abbrev Q1K : Cert.Bridge.Arr2 1 128 := X2 m c main_v52_2
/-- The first call's main result, as it left it. -/
abbrev C1K : Cert.Bridge.Arr2 500000 128 := X2 m c main_v52_0

theorem X2_arg5 : X2 m c main_arg5 = x5 m c :=
  (X2_of_ne m c main_arg5 (by decide)).trans ((Gen.V1_of m c main_arg5 (by decide)).trans rfl)
theorem X2_arg6 : X2 m c main_arg6 = x6 m c :=
  (X2_of_ne m c main_arg6 (by decide)).trans ((Gen.V1_of m c main_arg6 (by decide)).trans rfl)
theorem X2_arg9 : X2 m c main_arg9 = x9 m c :=
  (X2_of_ne m c main_arg9 (by decide)).trans ((Gen.V1_of m c main_arg9 (by decide)).trans rfl)
theorem X2_arg10 : X2 m c main_arg10 = x10 m c :=
  (X2_of_ne m c main_arg10 (by decide)).trans ((Gen.V1_of m c main_arg10 (by decide)).trans rfl)

theorem X3_arg5 : X3 m c main_arg5 = x5 m c := (X3_keep m c main_arg5 (by decide)).trans (X2_arg5 m c)

/-- The scale operand. -/
theorem X3_v68_apply (j : Fin 128) :
    X3 m c main_v68 (ix2 (0 : Fin 1) j)
      = x9 m c (ix1 j) * Ideal.rsqrt ((Ideal.div (Q1K m c (ix2 (0 : Fin 1) j)) cntW
          - Ideal.div (S1K m c (ix2 (0 : Fin 1) j)) cntW * Ideal.div (S1K m c (ix2 (0 : Fin 1) j)) cntW) + epsW) := by
  refine (congrFun (X3_v68_eq m c) (ix2 (0 : Fin 1) j)).trans ?_
  rw [X2_arg9, j68_apply, j64_apply]

/-- The shift operand. -/
theorem X3_v69_apply (j : Fin 128) :
    X3 m c main_v69 (ix2 (0 : Fin 1) j)
      = x10 m c (ix1 j) - Ideal.div (S1K m c (ix2 (0 : Fin 1) j)) cntW
          * (x9 m c (ix1 j) * Ideal.rsqrt ((Ideal.div (Q1K m c (ix2 (0 : Fin 1) j)) cntW
              - Ideal.div (S1K m c (ix2 (0 : Fin 1) j)) cntW * Ideal.div (S1K m c (ix2 (0 : Fin 1) j)) cntW) + epsW)) := by
  refine (congrFun (X3_v69_eq m c) (ix2 (0 : Fin 1) j)).trans ?_
  rw [X2_arg9, X2_arg10, j69_apply, j66_apply, j64_apply]

/-- The logit-bias operand. -/
theorem X3_v67_apply : X3 m c main_v67 (ix2 (0 : Fin 1) (0 : Fin 1)) = x6 m c (ix1 (0 : Fin 1)) := by
  refine (congrFun (X3_v67_eq m c) (ix2 (0 : Fin 1) (0 : Fin 1))).trans ?_
  rw [X2_arg6, j67_apply]

/-! ## With the first call's sums identified, the operands are the second norm's folded scale and shift -/

theorem X3_v68_spec
    (hS : ∀ j : Fin 128, S1K m c (ix2 (0 : Fin 1) j) = Cert.Bridge.sum1 (hK m c) (x7 m c) (x8 m c) (x3 m c) (x4 m c) j)
    (hQ : ∀ j : Fin 128, Q1K m c (ix2 (0 : Fin 1) j) = Cert.Bridge.sumsq1 (hK m c) (x7 m c) (x8 m c) (x3 m c) (x4 m c) j)
    (j : Fin 128) :
    X3 m c main_v68 (ix2 (0 : Fin 1) j)
      = Cert.Bridge.scale1 (hK m c) (x7 m c) (x8 m c) (x3 m c) (x4 m c) (x9 m c) j := by
  rw [X3_v68_apply, hS, hQ]
  rfl

theorem X3_v69_spec
    (hS : ∀ j : Fin 128, S1K m c (ix2 (0 : Fin 1) j) = Cert.Bridge.sum1 (hK m c) (x7 m c) (x8 m c) (x3 m c) (x4 m c) j)
    (hQ : ∀ j : Fin 128, Q1K m c (ix2 (0 : Fin 1) j) = Cert.Bridge.sumsq1 (hK m c) (x7 m c) (x8 m c) (x3 m c) (x4 m c) j)
    (j : Fin 128) :
    X3 m c main_v69 (ix2 (0 : Fin 1) j)
      = Cert.Bridge.shift1 (hK m c) (x7 m c) (x8 m c) (x3 m c) (x4 m c) (x9 m c) (x10 m c) j := by
  rw [X3_v69_apply, hS, hQ]
  rfl

end operands

end Cert.KernelIdeal.KHost

end
-- ==== Proof.KV.Pay0.lean ====
/-
  The first Pallas call's stored values. Part one, for any float values: what each of the body's two runs leaves in
  the three output buffers is the stored payload of the loaded blocks — the projected block; the running column sums
  (started from the zero row at the first point, from what the buffer held at a later point) plus the block's column
  sums; the same for the squares. Part two, on the extended reals, entry by entry: the projected block at (r, j) is
  the sum over the 384 features of the normalised feature times the projection weight, plus the bias; a running row
  at lane j is what it started from plus the sum over the block's 4000 rows.
-/
import proofs.«114553_j89962384982591_1_alg».proof.Proof.KI.Reg0
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.KVal

open Cert.KernelIdeal Cert.KernelIdeal.Gen Cert.KernelIdeal.Frame
open Idealize.ShloMosaic Idealize.ShloMosaic.ValueIdx Idealize.ShloMosaic.Tactic

/-- The two zero offsets of a whole-buffer rectangle, as the constant function. -/
theorem hz2' : (![0, 0] : Fin 2 → Nat) = fun _ => 0 := funext fun a => by fin_cases a <;> rfl

section AnyValues
variable {F : FTy → Type} [FloatOps F]

/-! ## The first point's run -/

theorem first5 (c : Dev nD) (i : grid0.Coords) (arg1 : Memref sig .tc .vmem S4000x384 .bf16) (harg1 : arg1.IsWhole) (arg2 : Memref sig .tc .vmem S1x384 .f32) (harg2 : arg2.IsWhole) (arg3 : Memref sig .tc .vmem S1x384 .f32) (harg3 : arg3.IsWhole) (arg4 : Memref sig .tc .vmem S384x128 .bf16) (harg4 : arg4.IsWhole) (arg5 : Memref sig .tc .vmem S1x128 .f32) (harg5 : arg5.IsWhole) (arg6 : Memref sig .tc .vmem S4000x128 .f32) (harg6 : arg6.IsWhole) (arg7 : Memref sig .tc .vmem S1x128 .f32) (harg7 : arg7.IsWhole) (arg8 : Memref sig .tc .vmem S1x128 .f32) (harg8 : arg8.IsWhole) (hc : first0 i)
    (x0 : Vec F S4000x384 .bf16) (x1 x2 : Vec F S1x384 .f32) (x3 : Vec F S384x128 .bf16) (x4 : Vec F S1x128 .f32) :
    View.canon (run0_first c i arg1 harg1 arg2 harg2 arg3 harg3 arg4 harg4 arg5 harg5 arg6 harg6 arg7 harg7 arg8 harg8 hc x0 x1 x2 x3 x4).1 = k0_pay4 x0 x1 x2 x3 x4 := by
  unfold run0_first
  dsimp only
  try sl_unfold_words
  rw [View.canon_cons_unit_zero (S := S4000x128) hz2']
  simp only [View.readAt_eq_ld, harg1.read_unread, harg2.read_unread, harg3.read_unread, harg4.read_unread, harg5.read_unread, View.ld_unit_zero (S := S4000x384) hz2', View.ld_unit_zero (S := S1x384) hz2', View.ld_unit_zero (S := S384x128) hz2', View.ld_unit_zero (S := S1x128) hz2']

theorem first6 (c : Dev nD) (i : grid0.Coords) (arg1 : Memref sig .tc .vmem S4000x384 .bf16) (harg1 : arg1.IsWhole) (arg2 : Memref sig .tc .vmem S1x384 .f32) (harg2 : arg2.IsWhole) (arg3 : Memref sig .tc .vmem S1x384 .f32) (harg3 : arg3.IsWhole) (arg4 : Memref sig .tc .vmem S384x128 .bf16) (harg4 : arg4.IsWhole) (arg5 : Memref sig .tc .vmem S1x128 .f32) (harg5 : arg5.IsWhole) (arg6 : Memref sig .tc .vmem S4000x128 .f32) (harg6 : arg6.IsWhole) (arg7 : Memref sig .tc .vmem S1x128 .f32) (harg7 : arg7.IsWhole) (arg8 : Memref sig .tc .vmem S1x128 .f32) (harg8 : arg8.IsWhole) (hc : first0 i)
    (x0 : Vec F S4000x384 .bf16) (x1 x2 : Vec F S1x384 .f32) (x3 : Vec F S384x128 .bf16) (x4 : Vec F S1x128 .f32) :
    View.canon (run0_first c i arg1 harg1 arg2 harg2 arg3 harg3 arg4 harg4 arg5 harg5 arg6 harg6 arg7 harg7 arg8 harg8 hc x0 x1 x2 x3 x4).2.1 = k0_pay5 x0 x1 x2 x3 x4 (k0_pay2 (F := F)) := by
  unfold run0_first
  dsimp only
  sl_unfold_words
  rw [View.canon_cons_unit_zero (S := S1x128) hz2', View.readCov_unit_zero (S := S1x128) _ hz2']
  simp only [View.readAt_eq_ld, harg1.read_unread, harg2.read_unread, harg3.read_unread, harg4.read_unread, harg5.read_unread, View.ld_unit_zero (S := S4000x384) hz2', View.ld_unit_zero (S := S1x384) hz2', View.ld_unit_zero (S := S384x128) hz2', View.ld_unit_zero (S := S1x128) hz2']

theorem first7 (c : Dev nD) (i : grid0.Coords) (arg1 : Memref sig .tc .vmem S4000x384 .bf16) (harg1 : arg1.IsWhole) (arg2 : Memref sig .tc .vmem S1x384 .f32) (harg2 : arg2.IsWhole) (arg3 : Memref sig .tc .vmem S1x384 .f32) (harg3 : arg3.IsWhole) (arg4 : Memref sig .tc .vmem S384x128 .bf16) (harg4 : arg4.IsWhole) (arg5 : Memref sig .tc .vmem S1x128 .f32) (harg5 : arg5.IsWhole) (arg6 : Memref sig .tc .vmem S4000x128 .f32) (harg6 : arg6.IsWhole) (arg7 : Memref sig .tc .vmem S1x128 .f32) (harg7 : arg7.IsWhole) (arg8 : Memref sig .tc .vmem S1x128 .f32) (harg8 : arg8.IsWhole) (hc : first0 i)
    (x0 : Vec F S4000x384 .bf16) (x1 x2 : Vec F S1x384 .f32) (x3 : Vec F S384x128 .bf16) (x4 : Vec F S1x128 .f32) :
    View.canon (run0_first c i arg1 harg1 arg2 harg2 arg3 harg3 arg4 harg4 arg5 harg5 arg6 harg6 arg7 harg7 arg8 harg8 hc x0 x1 x2 x3 x4).2.2.1 = k0_pay1 (k0_pay6 (k0_pay3 (F := F))) (k0_pay7 x0 x1 x2 x3 x4) := by
  unfold run0_first
  dsimp only
  sl_unfold_words
  rw [View.canon_cons_unit_zero (S := S1x128) hz2', View.readCov_unit_zero (S := S1x128) _ hz2']
  simp only [View.readAt_eq_ld, harg1.read_unread, harg2.read_unread, harg3.read_unread, harg4.read_unread, harg5.read_unread, View.ld_unit_zero (S := S4000x384) hz2', View.ld_unit_zero (S := S1x384) hz2', View.ld_unit_zero (S := S384x128) hz2', View.ld_unit_zero (S := S1x128) hz2']

/-! ## A later point's run -/

theorem later5 (c : Dev nD) (i : grid0.Coords) (arg1 : Memref sig .tc .vmem S4000x384 .bf16) (harg1 : arg1.IsWhole) (arg2 : Memref sig .tc .vmem S1x384 .f32) (harg2 : arg2.IsWhole) (arg3 : Memref sig .tc .vmem S1x384 .f32) (harg3 : arg3.IsWhole) (arg4 : Memref sig .tc .vmem S384x128 .bf16) (harg4 : arg4.IsWhole) (arg5 : Memref sig .tc .vmem S1x128 .f32) (harg5 : arg5.IsWhole) (arg6 : Memref sig .tc .vmem S4000x128 .f32) (harg6 : arg6.IsWhole) (arg7 : Memref sig .tc .vmem S1x128 .f32) (harg7 : arg7.IsWhole) (arg8 : Memref sig .tc .vmem S1x128 .f32) (harg8 : arg8.IsWhole) (hc : ¬first0 i)
    (x0 : Vec F S4000x384 .bf16) (x1 x2 : Vec F S1x384 .f32) (x3 : Vec F S384x128 .bf16) (x4 : Vec F S1x128 .f32) (s q : Vec F S1x128 .f32) :
    View.canon (run0_later c i arg1 harg1 arg2 harg2 arg3 harg3 arg4 harg4 arg5 harg5 arg6 harg6 arg7 harg7 arg8 harg8 hc x0 x1 x2 x3 x4 s q).1 = k0_pay4 x0 x1 x2 x3 x4 := by
  unfold run0_later
  dsimp only
  try sl_unfold_words
  rw [View.canon_cons_unit_zero (S := S4000x128) hz2']
  simp only [View.readAt_eq_ld, harg1.read_unread, harg2.read_unread, harg3.read_unread, harg4.read_unread, harg5.read_unread, View.ld_unit_zero (S := S4000x384) hz2', View.ld_unit_zero (S := S1x384) hz2', View.ld_unit_zero (S := S384x128) hz2', View.ld_unit_zero (S := S1x128) hz2']

theorem later6 (c : Dev nD) (i : grid0.Coords) (arg1 : Memref sig .tc .vmem S4000x384 .bf16) (harg1 : arg1.IsWhole) (arg2 : Memref sig .tc .vmem S1x384 .f32) (harg2 : arg2.IsWhole) (arg3 : Memref sig .tc .vmem S1x384 .f32) (harg3 : arg3.IsWhole) (arg4 : Memref sig .tc .vmem S384x128 .bf16) (harg4 : arg4.IsWhole) (arg5 : Memref sig .tc .vmem S1x128 .f32) (harg5 : arg5.IsWhole) (arg6 : Memref sig .tc .vmem S4000x128 .f32) (harg6 : arg6.IsWhole) (arg7 : Memref sig .tc .vmem S1x128 .f32) (harg7 : arg7.IsWhole) (arg8 : Memref sig .tc .vmem S1x128 .f32) (harg8 : arg8.IsWhole) (hc : ¬first0 i)
    (x0 : Vec F S4000x384 .bf16) (x1 x2 : Vec F S1x384 .f32) (x3 : Vec F S384x128 .bf16) (x4 : Vec F S1x128 .f32) (s q : Vec F S1x128 .f32) :
    View.canon (run0_later c i arg1 harg1 arg2 harg2 arg3 harg3 arg4 harg4 arg5 harg5 arg6 harg6 arg7 harg7 arg8 harg8 hc x0 x1 x2 x3 x4 s q).2.1 = k0_pay5 x0 x1 x2 x3 x4 s := by
  unfold run0_later
  dsimp only
  try sl_unfold_words
  rw [View.canon_cons_unit_zero (S := S1x128) hz2']
  simp only [View.readAt_eq_ld, harg1.read_unread, harg2.read_unread, harg3.read_unread, harg4.read_unread, harg5.read_unread, View.ld_unit_zero (S := S4000x384) hz2', View.ld_unit_zero (S := S1x384) hz2', View.ld_unit_zero (S := S384x128) hz2', View.ld_unit_zero (S := S1x128) hz2', harg7.read_unread]

theorem later7 (c : Dev nD) (i : grid0.Coords) (arg1 : Memref sig .tc .vmem S4000x384 .bf16) (harg1 : arg1.IsWhole) (arg2 : Memref sig .tc .vmem S1x384 .f32) (harg2 : arg2.IsWhole) (arg3 : Memref sig .tc .vmem S1x384 .f32) (harg3 : arg3.IsWhole) (arg4 : Memref sig .tc .vmem S384x128 .bf16) (harg4 : arg4.IsWhole) (arg5 : Memref sig .tc .vmem S1x128 .f32) (harg5 : arg5.IsWhole) (arg6 : Memref sig .tc .vmem S4000x128 .f32) (harg6 : arg6.IsWhole) (arg7 : Memref sig .tc .vmem S1x128 .f32) (harg7 : arg7.IsWhole) (arg8 : Memref sig .tc .vmem S1x128 .f32) (harg8 : arg8.IsWhole) (hc : ¬first0 i)
    (x0 : Vec F S4000x384 .bf16) (x1 x2 : Vec F S1x384 .f32) (x3 : Vec F S384x128 .bf16) (x4 : Vec F S1x128 .f32) (s q : Vec F S1x128 .f32) :
    View.canon (run0_later c i arg1 harg1 arg2 harg2 arg3 harg3 arg4 harg4 arg5 harg5 arg6 harg6 arg7 harg7 arg8 harg8 hc x0 x1 x2 x3 x4 s q).2.2.1 = k0_pay1 (k0_pay6 q) (k0_pay7 x0 x1 x2 x3 x4) := by
  unfold run0_later
  dsimp only
  try sl_unfold_words
  rw [View.canon_cons_unit_zero (S := S1x128) hz2']
  simp only [View.readAt_eq_ld, harg1.read_unread, harg2.read_unread, harg3.read_unread, harg4.read_unread, harg5.read_unread, View.ld_unit_zero (S := S4000x384) hz2', View.ld_unit_zero (S := S1x384) hz2', View.ld_unit_zero (S := S384x128) hz2', View.ld_unit_zero (S := S1x128) hz2', harg8.read_unread]

end AnyValues

/-! ## On the extended reals, entry by entry -/

/-- The projected entry of a row: the sum over the 384 features of the normalised feature (the feature times its
    column's scale plus its column's shift) times the projection weight, plus the bias. For a row matrix of any height. -/
def cpreRow {n : Nat} (x0 : (⟨2, ![n, 384]⟩ : Shape).Idx → EReal) (x1 x2 : (⟨2, ![1, 384]⟩ : Shape).Idx → EReal)
    (x3 : (⟨2, ![384, 128]⟩ : Shape).Idx → EReal) (x4 : (⟨2, ![1, 128]⟩ : Shape).Idx → EReal) (r : Fin n) (j : Fin 128) : EReal :=
  (∑ k : Fin 384, (x0 (ix2 r k) * x1 (ix2 (0 : Fin 1) k) + x2 (ix2 (0 : Fin 1) k)) * x3 (ix2 k j)) + x4 (ix2 (0 : Fin 1) j)

/-- A row's projected entries depend on that row only. -/
theorem cpreRow_congr {n n' : Nat} (x0 : (⟨2, ![n, 384]⟩ : Shape).Idx → EReal) (y0 : (⟨2, ![n', 384]⟩ : Shape).Idx → EReal)
    (x1 x2 : (⟨2, ![1, 384]⟩ : Shape).Idx → EReal) (x3 : (⟨2, ![384, 128]⟩ : Shape).Idx → EReal)
    (x4 : (⟨2, ![1, 128]⟩ : Shape).Idx → EReal) (r : Fin n) (r' : Fin n')
    (h : ∀ k : Fin 384, x0 (ix2 r k) = y0 (ix2 r' k)) (j : Fin 128) :
    cpreRow x0 x1 x2 x3 x4 r j = cpreRow y0 x1 x2 x3 x4 r' j := by
  unfold cpreRow
  rw [Finset.sum_congr rfl fun k _ => by rw [h k]]

/-! The matrix product's operand indices: the output's row and the contracted feature on the left, the contracted
    feature and the output's column on the right. -/

theorem lhs0_0 (i : S4000x128.Idx) (q : dot_S4000x384_S384x128_S4000x128_1_0_0_1_n_n.contr.Idx) :
    (dot_S4000x384_S384x128_S4000x128_1_0_0_1_n_n.lhsIdx i q 0).val = (i 0).val := by
  unfold DotDims.lhsIdx
  rw [dif_neg (show ¬(0 : Fin S4000x384.rank) ∈ dot_S4000x384_S384x128_S4000x128_1_0_0_1_n_n.lhsBatch by decide), dif_pos (show (0 : Fin S4000x384.rank) ∈ dot_S4000x384_S384x128_S4000x128_1_0_0_1_n_n.lhsNonContracting by decide)]
  rfl
theorem lhs0_1 (i : S4000x128.Idx) (q : dot_S4000x384_S384x128_S4000x128_1_0_0_1_n_n.contr.Idx) :
    (dot_S4000x384_S384x128_S4000x128_1_0_0_1_n_n.lhsIdx i q 1).val = (q ⟨0, by decide⟩).val :=
  dot_S4000x384_S384x128_S4000x128_1_0_0_1_n_n.lhsIdx_val_of_single rfl i q
theorem rhs0_0 (i : S4000x128.Idx) (q : dot_S4000x384_S384x128_S4000x128_1_0_0_1_n_n.contr.Idx) :
    (dot_S4000x384_S384x128_S4000x128_1_0_0_1_n_n.rhsIdx i q 0).val = (q ⟨0, by decide⟩).val :=
  dot_S4000x384_S384x128_S4000x128_1_0_0_1_n_n.rhsIdx_val_of_single rfl i q
theorem rhs0_1 (i : S4000x128.Idx) (q : dot_S4000x384_S384x128_S4000x128_1_0_0_1_n_n.contr.Idx) :
    (dot_S4000x384_S384x128_S4000x128_1_0_0_1_n_n.rhsIdx i q 1).val = (i 1).val := by
  unfold DotDims.rhsIdx
  rw [dif_neg (show ¬(1 : Fin S384x128.rank) ∈ dot_S4000x384_S384x128_S4000x128_1_0_0_1_n_n.rhsBatch by decide), dif_pos (show (1 : Fin S384x128.rank) ∈ dot_S4000x384_S384x128_S4000x128_1_0_0_1_n_n.rhsNonContracting by decide)]
  rfl

/-- The projected block at `(r, j)`. -/
theorem k0pay4_apply (x0 : Vec Ideal S4000x384 .bf16) (x1 x2 : Vec Ideal S1x384 .f32) (x3 : Vec Ideal S384x128 .bf16)
    (x4 : Vec Ideal S1x128 .f32) (r : Fin 4000) (j : Fin 128) :
    k0_pay4 x0 x1 x2 x3 x4 (ix2 r j) = cpreRow x0 x1 x2 x3 x4 r j := by
  unfold k0_pay4 cpreRow
  simp only [shapeCast_self]
  show matmul (F := Ideal) dot_S4000x384_S384x128_S4000x128_1_0_0_1_n_n none
        (truncf .bf16 (addf (mulf (extf .f32 x0 bitsLt_bf16_f32) (broadcastTo S4000x384 x1 broadcasts_S1x384_S4000x384))
          (broadcastTo S4000x384 x2 broadcasts_S1x384_S4000x384)) bitsLt_bf16_f32) x3
        (constant (F := Ideal) S4000x128 .f32 0x00000000#32) (ix2 r j)
      + broadcastTo S4000x128 x4 broadcasts_S1x128_S4000x128 (ix2 r j) = _
  refine congrArg₂ (· + ·) ?_ (broadcastTo_1b_ab_apply x4 broadcasts_S1x128_S4000x128 r j)
  refine (Ideal.matmul_constant_zero_apply (φ₁ := .bf16) (φ₂ := .bf16) dot_S4000x384_S384x128_S4000x128_1_0_0_1_n_n none _ _ (ix2 r j)).trans ?_
  rw [← Equiv.sum_comp (contrEquiv1 dot_S4000x384_S384x128_S4000x128_1_0_0_1_n_n 384 rfl rfl).symm]
  refine Finset.sum_congr rfl fun k _ => ?_
  have hk := contrEquiv1_symm_val dot_S4000x384_S384x128_S4000x128_1_0_0_1_n_n 384 rfl rfl k
  have el : dot_S4000x384_S384x128_S4000x128_1_0_0_1_n_n.lhsIdx (ix2 r j) ((contrEquiv1 dot_S4000x384_S384x128_S4000x128_1_0_0_1_n_n 384 rfl rfl).symm k) = ix2 r k := funext fun a => Fin.ext (by
    match a with
    | ⟨0, _⟩ => exact lhs0_0 _ _
    | ⟨1, _⟩ => exact (lhs0_1 _ _).trans hk)
  have er : dot_S4000x384_S384x128_S4000x128_1_0_0_1_n_n.rhsIdx (ix2 r j) ((contrEquiv1 dot_S4000x384_S384x128_S4000x128_1_0_0_1_n_n 384 rfl rfl).symm k) = ix2 k j := funext fun a => Fin.ext (by
    match a with
    | ⟨0, _⟩ => exact (rhs0_0 _ _).trans hk
    | ⟨1, _⟩ => exact rhs0_1 _ _)
  rw [el, er]
  show (x0 (ix2 r k) * broadcastTo S4000x384 x1 broadcasts_S1x384_S4000x384 (ix2 r k)
      + broadcastTo S4000x384 x2 broadcasts_S1x384_S4000x384 (ix2 r k)) * x3 (ix2 k j) = _
  rw [broadcastTo_1b_ab_apply, broadcastTo_1b_ab_apply]

/-- A column sum over the block's 4000 rows: the reduction along the rows, at lane `j`. -/
theorem colSum_apply (v : FVec Ideal S4000x128 .f32) (j : Fin 128) :
    multiReduction (F := Ideal) .add [0] S128 v 0x00000000#32 reduces_S4000x128_S128 (.inl rfl) rfl (ix1 j)
      = ∑ r : Fin 4000, v (ix2 r j) := by
  refine (Ideal.multiReduction_add_single _ _ reduces_S4000x128_S128 _ _ (ix1 j)).trans ?_
  show ∑ k : Fin 4000, v (reduces_S4000x128_S128.lift (ix1 j) k) = _
  refine Finset.sum_congr rfl fun k _ => ?_
  have e : reduces_S4000x128_S128.lift (ix1 j) k = ix2 k j := by
    funext a; apply Fin.ext
    match a with
    | ⟨0, _⟩ => rfl
    | ⟨1, _⟩ => rfl
  rw [e]

/-- The running column sums after the body, at lane `j`: what they started from plus the block's column sum. -/
theorem k0pay5_apply (x0 : Vec Ideal S4000x384 .bf16) (x1 x2 : Vec Ideal S1x384 .f32) (x3 : Vec Ideal S384x128 .bf16)
    (x4 : Vec Ideal S1x128 .f32) (s : Vec Ideal S1x128 .f32) (u : Fin 1) (j : Fin 128) :
    k0_pay5 x0 x1 x2 x3 x4 s (ix2 u j) = s (ix2 u j) + ∑ r : Fin 4000, cpreRow x0 x1 x2 x3 x4 r j := by
  unfold k0_pay5
  simp only [shapeCast_self]
  show s (ix2 u j) + shapeCast S1x128 (multiReduction (F := Ideal) .add [0] S128 (k0_pay4 x0 x1 x2 x3 x4) 0x00000000#32
      reduces_S4000x128_S128 (.inl rfl) rfl) shapeCasts_S128_S1x128 (ix2 u j) = _
  rw [shapeCast_a_1a_apply, colSum_apply]
  exact congrArg (s (ix2 u j) + ·) (Finset.sum_congr rfl fun r _ => k0pay4_apply x0 x1 x2 x3 x4 r j)

/-- The running column sums of squares after the body, at lane `j`. -/
theorem k0pay17_apply (x0 : Vec Ideal S4000x384 .bf16) (x1 x2 : Vec Ideal S1x384 .f32) (x3 : Vec Ideal S384x128 .bf16)
    (x4 : Vec Ideal S1x128 .f32) (q : Vec Ideal S1x128 .f32) (u : Fin 1) (j : Fin 128) :
    k0_pay1 (k0_pay6 q) (k0_pay7 x0 x1 x2 x3 x4) (ix2 u j)
      = q (ix2 u j) + ∑ r : Fin 4000, cpreRow x0 x1 x2 x3 x4 r j * cpreRow x0 x1 x2 x3 x4 r j := by
  unfold k0_pay1 k0_pay6 k0_pay7
  simp only [shapeCast_self]
  show q (ix2 u j) + shapeCast S1x128 (multiReduction (F := Ideal) .add [0] S128
      (mulf (k0_pay4 x0 x1 x2 x3 x4) (k0_pay4 x0 x1 x2 x3 x4)) 0x00000000#32
      reduces_S4000x128_S128 (.inl rfl) rfl) shapeCasts_S128_S1x128 (ix2 u j) = _
  rw [shapeCast_a_1a_apply, colSum_apply]
  refine congrArg (q (ix2 u j) + ·) (Finset.sum_congr rfl fun r _ => ?_)
  show k0_pay4 x0 x1 x2 x3 x4 (ix2 r j) * k0_pay4 x0 x1 x2 x3 x4 (ix2 r j) = _
  rw [k0pay4_apply]

/-- The row the first point resets each running row to: the zero word in every lane. -/
theorem k0pay2_apply (i : S1x128.Idx) : k0_pay2 (F := Ideal) i = Ideal.ofBits .f32 0x00000000#32 := rfl
theorem k0pay3_apply (i : S1x128.Idx) : k0_pay3 (F := Ideal) i = Ideal.ofBits .f32 0x00000000#32 := rfl

/-! ## The two runs' buffers, entry by entry -/

theorem first5_apply (c : Dev nD) (i : grid0.Coords) (arg1 : Memref sig .tc .vmem S4000x384 .bf16) (harg1 : arg1.IsWhole) (arg2 : Memref sig .tc .vmem S1x384 .f32) (harg2 : arg2.IsWhole) (arg3 : Memref sig .tc .vmem S1x384 .f32) (harg3 : arg3.IsWhole) (arg4 : Memref sig .tc .vmem S384x128 .bf16) (harg4 : arg4.IsWhole) (arg5 : Memref sig .tc .vmem S1x128 .f32) (harg5 : arg5.IsWhole) (arg6 : Memref sig .tc .vmem S4000x128 .f32) (harg6 : arg6.IsWhole) (arg7 : Memref sig .tc .vmem S1x128 .f32) (harg7 : arg7.IsWhole) (arg8 : Memref sig .tc .vmem S1x128 .f32) (harg8 : arg8.IsWhole) (hc : first0 i)
    (x0 : Vec Ideal S4000x384 .bf16) (x1 x2 : Vec Ideal S1x384 .f32) (x3 : Vec Ideal S384x128 .bf16) (x4 : Vec Ideal S1x128 .f32) (r : Fin 4000) (j : Fin 128) :
    View.canon (run0_first (F := Ideal) c i arg1 harg1 arg2 harg2 arg3 harg3 arg4 harg4 arg5 harg5 arg6 harg6 arg7 harg7 arg8 harg8 hc x0 x1 x2 x3 x4).1 (ix2 r j) = cpreRow x0 x1 x2 x3 x4 r j :=
  (congrFun (first5 c i arg1 harg1 arg2 harg2 arg3 harg3 arg4 harg4 arg5 harg5 arg6 harg6 arg7 harg7 arg8 harg8 hc x0 x1 x2 x3 x4) (ix2 r j)).trans (k0pay4_apply x0 x1 x2 x3 x4 r j)

/-- After the first point the running column sums are the zero word plus the first block's column sums. -/
theorem first6_apply (c : Dev nD) (i : grid0.Coords) (arg1 : Memref sig .tc .vmem S4000x384 .bf16) (harg1 : arg1.IsWhole) (arg2 : Memref sig .tc .vmem S1x384 .f32) (harg2 : arg2.IsWhole) (arg3 : Memref sig .tc .vmem S1x384 .f32) (harg3 : arg3.IsWhole) (arg4 : Memref sig .tc .vmem S384x128 .bf16) (harg4 : arg4.IsWhole) (arg5 : Memref sig .tc .vmem S1x128 .f32) (harg5 : arg5.IsWhole) (arg6 : Memref sig .tc .vmem S4000x128 .f32) (harg6 : arg6.IsWhole) (arg7 : Memref sig .tc .vmem S1x128 .f32) (harg7 : arg7.IsWhole) (arg8 : Memref sig .tc .vmem S1x128 .f32) (harg8 : arg8.IsWhole) (hc : first0 i)
    (x0 : Vec Ideal S4000x384 .bf16) (x1 x2 : Vec Ideal S1x384 .f32) (x3 : Vec Ideal S384x128 .bf16) (x4 : Vec Ideal S1x128 .f32) (u : Fin 1) (j : Fin 128) :
    View.canon (run0_first (F := Ideal) c i arg1 harg1 arg2 harg2 arg3 harg3 arg4 harg4 arg5 harg5 arg6 harg6 arg7 harg7 arg8 harg8 hc x0 x1 x2 x3 x4).2.1 (ix2 u j)
      = Ideal.ofBits .f32 0x00000000#32 + ∑ r : Fin 4000, cpreRow x0 x1 x2 x3 x4 r j :=
  (congrFun (first6 c i arg1 harg1 arg2 harg2 arg3 harg3 arg4 harg4 arg5 harg5 arg6 harg6 arg7 harg7 arg8 harg8 hc x0 x1 x2 x3 x4) (ix2 u j)).trans (k0pay5_apply x0 x1 x2 x3 x4 (k0_pay2 (F := Ideal)) u j)

theorem first7_apply (c : Dev nD) (i : grid0.Coords) (arg1 : Memref sig .tc .vmem S4000x384 .bf16) (harg1 : arg1.IsWhole) (arg2 : Memref sig .tc .vmem S1x384 .f32) (harg2 : arg2.IsWhole) (arg3 : Memref sig .tc .vmem S1x384 .f32) (harg3 : arg3.IsWhole) (arg4 : Memref sig .tc .vmem S384x128 .bf16) (harg4 : arg4.IsWhole) (arg5 : Memref sig .tc .vmem S1x128 .f32) (harg5 : arg5.IsWhole) (arg6 : Memref sig .tc .vmem S4000x128 .f32) (harg6 : arg6.IsWhole) (arg7 : Memref sig .tc .vmem S1x128 .f32) (harg7 : arg7.IsWhole) (arg8 : Memref sig .tc .vmem S1x128 .f32) (harg8 : arg8.IsWhole) (hc : first0 i)
    (x0 : Vec Ideal S4000x384 .bf16) (x1 x2 : Vec Ideal S1x384 .f32) (x3 : Vec Ideal S384x128 .bf16) (x4 : Vec Ideal S1x128 .f32) (u : Fin 1) (j : Fin 128) :
    View.canon (run0_first (F := Ideal) c i arg1 harg1 arg2 harg2 arg3 harg3 arg4 harg4 arg5 harg5 arg6 harg6 arg7 harg7 arg8 harg8 hc x0 x1 x2 x3 x4).2.2.1 (ix2 u j)
      = Ideal.ofBits .f32 0x00000000#32 + ∑ r : Fin 4000, cpreRow x0 x1 x2 x3 x4 r j * cpreRow x0 x1 x2 x3 x4 r j :=
  (congrFun (first7 c i arg1 harg1 arg2 harg2 arg3 harg3 arg4 harg4 arg5 harg5 arg6 harg6 arg7 harg7 arg8 harg8 hc x0 x1 x2 x3 x4) (ix2 u j)).trans (k0pay17_apply x0 x1 x2 x3 x4 (k0_pay3 (F := Ideal)) u j)

theorem later5_apply (c : Dev nD) (i : grid0.Coords) (arg1 : Memref sig .tc .vmem S4000x384 .bf16) (harg1 : arg1.IsWhole) (arg2 : Memref sig .tc .vmem S1x384 .f32) (harg2 : arg2.IsWhole) (arg3 : Memref sig .tc .vmem S1x384 .f32) (harg3 : arg3.IsWhole) (arg4 : Memref sig .tc .vmem S384x128 .bf16) (harg4 : arg4.IsWhole) (arg5 : Memref sig .tc .vmem S1x128 .f32) (harg5 : arg5.IsWhole) (arg6 : Memref sig .tc .vmem S4000x128 .f32) (harg6 : arg6.IsWhole) (arg7 : Memref sig .tc .vmem S1x128 .f32) (harg7 : arg7.IsWhole) (arg8 : Memref sig .tc .vmem S1x128 .f32) (harg8 : arg8.IsWhole) (hc : ¬first0 i)
    (x0 : Vec Ideal S4000x384 .bf16) (x1 x2 : Vec Ideal S1x384 .f32) (x3 : Vec Ideal S384x128 .bf16) (x4 : Vec Ideal S1x128 .f32) (s q : Vec Ideal S1x128 .f32) (r : Fin 4000) (j : Fin 128) :
    View.canon (run0_later (F := Ideal) c i arg1 harg1 arg2 harg2 arg3 harg3 arg4 harg4 arg5 harg5 arg6 harg6 arg7 harg7 arg8 harg8 hc x0 x1 x2 x3 x4 s q).1 (ix2 r j) = cpreRow x0 x1 x2 x3 x4 r j :=
  (congrFun (later5 c i arg1 harg1 arg2 harg2 arg3 harg3 arg4 harg4 arg5 harg5 arg6 harg6 arg7 harg7 arg8 harg8 hc x0 x1 x2 x3 x4 s q) (ix2 r j)).trans (k0pay4_apply x0 x1 x2 x3 x4 r j)

/-- After a later point the running column sums are what the point found plus its block's column sums. -/
theorem later6_apply (c : Dev nD) (i : grid0.Coords) (arg1 : Memref sig .tc .vmem S4000x384 .bf16) (harg1 : arg1.IsWhole) (arg2 : Memref sig .tc .vmem S1x384 .f32) (harg2 : arg2.IsWhole) (arg3 : Memref sig .tc .vmem S1x384 .f32) (harg3 : arg3.IsWhole) (arg4 : Memref sig .tc .vmem S384x128 .bf16) (harg4 : arg4.IsWhole) (arg5 : Memref sig .tc .vmem S1x128 .f32) (harg5 : arg5.IsWhole) (arg6 : Memref sig .tc .vmem S4000x128 .f32) (harg6 : arg6.IsWhole) (arg7 : Memref sig .tc .vmem S1x128 .f32) (harg7 : arg7.IsWhole) (arg8 : Memref sig .tc .vmem S1x128 .f32) (harg8 : arg8.IsWhole) (hc : ¬first0 i)
    (x0 : Vec Ideal S4000x384 .bf16) (x1 x2 : Vec Ideal S1x384 .f32) (x3 : Vec Ideal S384x128 .bf16) (x4 : Vec Ideal S1x128 .f32) (s q : Vec Ideal S1x128 .f32) (u : Fin 1) (j : Fin 128) :
    View.canon (run0_later (F := Ideal) c i arg1 harg1 arg2 harg2 arg3 harg3 arg4 harg4 arg5 harg5 arg6 harg6 arg7 harg7 arg8 harg8 hc x0 x1 x2 x3 x4 s q).2.1 (ix2 u j)
      = s (ix2 u j) + ∑ r : Fin 4000, cpreRow x0 x1 x2 x3 x4 r j :=
  (congrFun (later6 c i arg1 harg1 arg2 harg2 arg3 harg3 arg4 harg4 arg5 harg5 arg6 harg6 arg7 harg7 arg8 harg8 hc x0 x1 x2 x3 x4 s q) (ix2 u j)).trans (k0pay5_apply x0 x1 x2 x3 x4 s u j)

theorem later7_apply (c : Dev nD) (i : grid0.Coords) (arg1 : Memref sig .tc .vmem S4000x384 .bf16) (harg1 : arg1.IsWhole) (arg2 : Memref sig .tc .vmem S1x384 .f32) (harg2 : arg2.IsWhole) (arg3 : Memref sig .tc .vmem S1x384 .f32) (harg3 : arg3.IsWhole) (arg4 : Memref sig .tc .vmem S384x128 .bf16) (harg4 : arg4.IsWhole) (arg5 : Memref sig .tc .vmem S1x128 .f32) (harg5 : arg5.IsWhole) (arg6 : Memref sig .tc .vmem S4000x128 .f32) (harg6 : arg6.IsWhole) (arg7 : Memref sig .tc .vmem S1x128 .f32) (harg7 : arg7.IsWhole) (arg8 : Memref sig .tc .vmem S1x128 .f32) (harg8 : arg8.IsWhole) (hc : ¬first0 i)
    (x0 : Vec Ideal S4000x384 .bf16) (x1 x2 : Vec Ideal S1x384 .f32) (x3 : Vec Ideal S384x128 .bf16) (x4 : Vec Ideal S1x128 .f32) (s q : Vec Ideal S1x128 .f32) (u : Fin 1) (j : Fin 128) :
    View.canon (run0_later (F := Ideal) c i arg1 harg1 arg2 harg2 arg3 harg3 arg4 harg4 arg5 harg5 arg6 harg6 arg7 harg7 arg8 harg8 hc x0 x1 x2 x3 x4 s q).2.2.1 (ix2 u j)
      = q (ix2 u j) + ∑ r : Fin 4000, cpreRow x0 x1 x2 x3 x4 r j * cpreRow x0 x1 x2 x3 x4 r j :=
  (congrFun (later7 c i arg1 harg1 arg2 harg2 arg3 harg3 arg4 harg4 arg5 harg5 arg6 harg6 arg7 harg7 arg8 harg8 hc x0 x1 x2 x3 x4 s q) (ix2 u j)).trans (k0pay17_apply x0 x1 x2 x3 x4 q u j)

end Cert.KernelIdeal.KVal

end
-- ==== Proof.KV.Pay1.lean ====
/-
  The second Pallas call's stored values, read entry by entry on the extended reals. A row of the normalised block is
  c r j = x r j * scale j + shift j; the row's logit is the lane sum of c r j * w j plus the bias; the weight of the
  row is exp(0 - leaky_relu(logit)), with leaky_relu(p) = p where p ≥ 0 and slope * p elsewhere; the weighted row is
  the weight times the normalised row. The formulas are stated for a row matrix of any number of rows, so that the
  same terms read a 4000-row block and the whole 500000-row array; a row's values depend on that row only.
-/
import proofs.«114553_j89962384982591_1_alg».proof.Proof.KI.Reg1
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.KVal

open Cert.KernelIdeal Cert.KernelIdeal.Gen Cert.KernelIdeal.Frame
open Idealize.ShloMosaic Idealize.ShloMosaic.ValueIdx

/-- The two zero offsets of a whole-buffer rectangle, as the constant function. -/
theorem hz2 : (![0, 0] : Fin 2 → Nat) = fun _ => 0 := funext fun a => by fin_cases a <;> rfl

/-! ## The formulas, for a row matrix of any height -/

section Rows
variable {n : Nat}

/-- The normalised entry: the entry times its column's scale plus its column's shift. -/
def cRow (x0 : (⟨2, ![n, 128]⟩ : Shape).Idx → EReal) (x1 x2 : (⟨2, ![1, 128]⟩ : Shape).Idx → EReal)
    (r : Fin n) (j : Fin 128) : EReal :=
  x0 (ix2 r j) * x1 (ix2 (0 : Fin 1) j) + x2 (ix2 (0 : Fin 1) j)

/-- The row's logit: the zero word plus the lane sum of the normalised row against the logit weights, plus the bias. -/
def preRow (x0 : (⟨2, ![n, 128]⟩ : Shape).Idx → EReal) (x1 x2 x3 : (⟨2, ![1, 128]⟩ : Shape).Idx → EReal)
    (x4 : (⟨2, ![1, 1]⟩ : Shape).Idx → EReal) (r : Fin n) : EReal :=
  (Ideal.ofBits .f32 0x00000000#32 + ∑ j : Fin 128, cRow x0 x1 x2 r j * x3 (ix2 (0 : Fin 1) j))
    + x4 (ix2 (0 : Fin 1) (0 : Fin 1))

/-- The leaky rectifier of the logit: the logit where it is at least zero, the slope word times it elsewhere. -/
def lreluRow (x0 : (⟨2, ![n, 128]⟩ : Shape).Idx → EReal) (x1 x2 x3 : (⟨2, ![1, 128]⟩ : Shape).Idx → EReal)
    (x4 : (⟨2, ![1, 1]⟩ : Shape).Idx → EReal) (r : Fin n) : EReal :=
  Scalar.select (Ideal.cmp .oge (preRow x0 x1 x2 x3 x4 r) (Ideal.ofBits .f32 0x00000000#32))
    (preRow x0 x1 x2 x3 x4 r) (Ideal.ofBits .f32 0x3C23D70A#32 * preRow x0 x1 x2 x3 x4 r)

/-- The row's weight: the exponential of zero minus the rectified logit. -/
def ebRow (x0 : (⟨2, ![n, 128]⟩ : Shape).Idx → EReal) (x1 x2 x3 : (⟨2, ![1, 128]⟩ : Shape).Idx → EReal)
    (x4 : (⟨2, ![1, 1]⟩ : Shape).Idx → EReal) (r : Fin n) : EReal :=
  Ideal.exp (Ideal.ofBits .f32 0x00000000#32 - lreluRow x0 x1 x2 x3 x4 r)

/-- The weighted entry: the row's weight times the normalised entry. -/
def temp1Row (x0 : (⟨2, ![n, 128]⟩ : Shape).Idx → EReal) (x1 x2 x3 : (⟨2, ![1, 128]⟩ : Shape).Idx → EReal)
    (x4 : (⟨2, ![1, 1]⟩ : Shape).Idx → EReal) (r : Fin n) (j : Fin 128) : EReal :=
  ebRow x0 x1 x2 x3 x4 r * cRow x0 x1 x2 r j

/-! A row's values depend on that row only: two matrices that agree on a row (of each) give it the same values. -/

variable {n' : Nat}

theorem cRow_congr (x0 : (⟨2, ![n, 128]⟩ : Shape).Idx → EReal) (y0 : (⟨2, ![n', 128]⟩ : Shape).Idx → EReal)
    (x1 x2 : (⟨2, ![1, 128]⟩ : Shape).Idx → EReal) (r : Fin n) (r' : Fin n')
    (h : ∀ j : Fin 128, x0 (ix2 r j) = y0 (ix2 r' j)) (j : Fin 128) : cRow x0 x1 x2 r j = cRow y0 x1 x2 r' j := by
  unfold cRow; rw [h j]

theorem preRow_congr (x0 : (⟨2, ![n, 128]⟩ : Shape).Idx → EReal) (y0 : (⟨2, ![n', 128]⟩ : Shape).Idx → EReal)
    (x1 x2 x3 : (⟨2, ![1, 128]⟩ : Shape).Idx → EReal) (x4 : (⟨2, ![1, 1]⟩ : Shape).Idx → EReal) (r : Fin n) (r' : Fin n')
    (h : ∀ j : Fin 128, x0 (ix2 r j) = y0 (ix2 r' j)) : preRow x0 x1 x2 x3 x4 r = preRow y0 x1 x2 x3 x4 r' := by
  unfold preRow
  rw [Finset.sum_congr rfl fun j _ => congrArg (· * x3 (ix2 (0 : Fin 1) j)) (cRow_congr x0 y0 x1 x2 r r' h j)]

theorem ebRow_congr (x0 : (⟨2, ![n, 128]⟩ : Shape).Idx → EReal) (y0 : (⟨2, ![n', 128]⟩ : Shape).Idx → EReal)
    (x1 x2 x3 : (⟨2, ![1, 128]⟩ : Shape).Idx → EReal) (x4 : (⟨2, ![1, 1]⟩ : Shape).Idx → EReal) (r : Fin n) (r' : Fin n')
    (h : ∀ j : Fin 128, x0 (ix2 r j) = y0 (ix2 r' j)) : ebRow x0 x1 x2 x3 x4 r = ebRow y0 x1 x2 x3 x4 r' := by
  unfold ebRow lreluRow
  rw [preRow_congr x0 y0 x1 x2 x3 x4 r r' h]

theorem temp1Row_congr (x0 : (⟨2, ![n, 128]⟩ : Shape).Idx → EReal) (y0 : (⟨2, ![n', 128]⟩ : Shape).Idx → EReal)
    (x1 x2 x3 : (⟨2, ![1, 128]⟩ : Shape).Idx → EReal) (x4 : (⟨2, ![1, 1]⟩ : Shape).Idx → EReal) (r : Fin n) (r' : Fin n')
    (h : ∀ j : Fin 128, x0 (ix2 r j) = y0 (ix2 r' j)) (j : Fin 128) :
    temp1Row x0 x1 x2 x3 x4 r j = temp1Row y0 x1 x2 x3 x4 r' j := by
  unfold temp1Row
  rw [ebRow_congr x0 y0 x1 x2 x3 x4 r r' h, cRow_congr x0 y0 x1 x2 r r' h j]

end Rows

/-! ## Two layout operations read at an index by coordinates -/

/-- A vector cast to a one-column matrix reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast along its rows reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The payloads at an index -/

/-- The normalised block at `(r, j)`. -/
theorem pay1_apply (x0 : Vec Ideal S4000x128 .f32) (x1 x2 : Vec Ideal S1x128 .f32) (r : Fin 4000) (j : Fin 128) :
    k1_pay1 x0 x1 x2 (ix2 r j) = cRow x0 x1 x2 r j := by
  unfold k1_pay1 cRow
  simp only [shapeCast_self]
  show x0 (ix2 r j) * broadcastTo S4000x128 x1 broadcasts_S1x128_S4000x128 (ix2 r j)
      + broadcastTo S4000x128 x2 broadcasts_S1x128_S4000x128 (ix2 r j) = _
  rw [broadcastTo_1b_ab_apply, broadcastTo_1b_ab_apply]

/-- The lane sum the logit starts from, at row `r`: the sum over the 128 lanes of the normalised entry times the
    logit weight. -/
theorem laneSum_apply (x0 : Vec Ideal S4000x128 .f32) (x1 x2 x3 : Vec Ideal S1x128 .f32) (r : Fin 4000) :
    multiReduction (F := Ideal) .add [1] S4000
        (mulf (k1_pay1 x0 x1 x2) (broadcastTo S4000x128 x3 broadcasts_S1x128_S4000x128)) 0x00000000#32
        reduces_S4000x128_S4000 (.inl rfl) rfl (ix1 r)
      = ∑ j : Fin 128, cRow x0 x1 x2 r j * x3 (ix2 (0 : Fin 1) j) := by
  refine (Ideal.multiReduction_add_single _ _ reduces_S4000x128_S4000 _ _ (ix1 r)).trans ?_
  show ∑ k : Fin 128, mulf (k1_pay1 x0 x1 x2) (broadcastTo S4000x128 x3 broadcasts_S1x128_S4000x128)
      (reduces_S4000x128_S4000.lift (ix1 r) k) = _
  refine Finset.sum_congr rfl fun k _ => ?_
  have e : reduces_S4000x128_S4000.lift (ix1 r) k = ix2 r k := by
    funext a; apply Fin.ext
    match a with
    | ⟨0, _⟩ => rfl
    | ⟨1, _⟩ => rfl
  rw [e]
  show k1_pay1 x0 x1 x2 (ix2 r k) * broadcastTo S4000x128 x3 broadcasts_S1x128_S4000x128 (ix2 r k) = _
  rw [pay1_apply, broadcastTo_1b_ab_apply]

/-- The weights' payload at `(r, q)` is the row's weight. -/
theorem pay2_apply (x0 : Vec Ideal S4000x128 .f32) (x1 x2 x3 : Vec Ideal S1x128 .f32) (x4 : Vec Ideal S1x1 .f32)
    (r : Fin 4000) (q : Fin 1) :
    k1_pay2 x0 x1 x2 x3 x4 (ix2 r q) = ebRow x0 x1 x2 x3 x4 r := by
  have hq : q = (0 : Fin 1) := Subsingleton.elim _ _
  subst hq
  -- the logit at the row, as the payload builds it
  have hpre : (addf (shapeCast S4000x1 (multiReduction (F := Ideal) .add [1] S4000
        (mulf (k1_pay1 x0 x1 x2) (broadcastTo S4000x128 x3 broadcasts_S1x128_S4000x128)) 0x00000000#32
        reduces_S4000x128_S4000 (.inl rfl) rfl) shapeCasts_S4000_S4000x1)
      (broadcastTo S4000x1 (shapeCast S1x1 x4 shapeCasts_S1x1_S1x1) broadcasts_S1x1_S4000x1) : FVec Ideal S4000x1 .f32)
        (ix2 r (0 : Fin 1)) = preRow x0 x1 x2 x3 x4 r := by
    show shapeCast S4000x1 _ shapeCasts_S4000_S4000x1 (ix2 r (0 : Fin 1))
      + broadcastTo S4000x1 (shapeCast S1x1 x4 shapeCasts_S1x1_S1x1) broadcasts_S1x1_S4000x1 (ix2 r (0 : Fin 1)) = _
    rw [shapeCast_a_a1_apply, laneSum_apply, broadcastTo_1b_ab_apply, shapeCast_self]
    unfold preRow
    rw [Ideal.ofBits_zero_f32, zero_add]
  unfold ebRow lreluRow
  rw [← hpre]
  rfl

/-- The weighted rows' payload at `(r, j)` is the row's weight times the normalised entry. -/
theorem pay3_apply (x0 : Vec Ideal S4000x128 .f32) (x1 x2 x3 : Vec Ideal S1x128 .f32) (x4 : Vec Ideal S1x1 .f32)
    (r : Fin 4000) (j : Fin 128) :
    k1_pay3 x0 x1 x2 x3 x4 (ix2 r j) = temp1Row x0 x1 x2 x3 x4 r j := by
  unfold k1_pay3 temp1Row
  show broadcastTo S4000x128 (k1_pay2 x0 x1 x2 x3 x4) broadcasts_S4000x1_S4000x128 (ix2 r j) * k1_pay1 x0 x1 x2 (ix2 r j) = _
  rw [broadcastTo_a1_ab_apply, pay2_apply, pay1_apply]

/-! ## What the body leaves in the two output buffers, entry by entry -/

/-- The weights' buffer after the body, at `(r, q)`. -/
theorem wts1_apply (x0 : Vec Ideal S4000x128 .f32) (x1 x2 x3 : Vec Ideal S1x128 .f32) (x4 : Vec Ideal S1x1 .f32)
    (r : Fin 4000) (q : Fin 1) :
    wts1 x0 x1 x2 x3 x4 (ix2 r q) = ebRow x0 x1 x2 x3 x4 r := by
  unfold wts1
  rw [View.canon_unit_zero hz2]
  simp only [View.ld_unit_zero (S := S4000x128) hz2, View.ld_unit_zero (S := S1x128) hz2, View.ld_unit_zero (S := S1x1) hz2]
  exact pay2_apply x0 x1 x2 x3 x4 r q

/-- The weighted rows' buffer after the body, at `(r, j)`. -/
theorem wrows1_apply (x0 : Vec Ideal S4000x128 .f32) (x1 x2 x3 : Vec Ideal S1x128 .f32) (x4 : Vec Ideal S1x1 .f32)
    (r : Fin 4000) (j : Fin 128) :
    wrows1 x0 x1 x2 x3 x4 (ix2 r j) = temp1Row x0 x1 x2 x3 x4 r j := by
  unfold wrows1
  rw [View.canon_unit_zero hz2]
  simp only [View.ld_unit_zero (S := S4000x128) hz2, View.ld_unit_zero (S := S1x128) hz2, View.ld_unit_zero (S := S1x1) hz2]
  exact pay3_apply x0 x1 x2 x3 x4 r j

end Cert.KernelIdeal.KVal

end
-- ==== Proof.KV.Arr1.lean ====
/-
  The second Pallas call's two result arrays after all 125 grid points. Point t reads rows 4000·t … 4000·t+3999 of
  the pre-activation array and the four small arrays whole, and writes the same rows of the weights (one column) and
  of the weighted rows. A row's results depend on that row only, so what point t writes back is block t of one
  function of the arrays as the call finds them; row r lies in the block of point r / 4000, so the blocks cover both
  result arrays, which therefore end holding that function.
-/
import proofs.«114553_j89962384982591_1_alg».proof.Proof.KV.Pay1

set_option maxRecDepth 16384

noncomputable section

namespace Cert.KernelIdeal.KVal

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The two result arrays as functions of the arrays the call finds -/

/-- The weights, row by row, from the pre-activation array, the second normalisation's scale and shift, the logit
    weights and the logit bias. -/
def ebArr (c : Dev nD) : S500000x1.Idx → EReal := fun i =>
  ebRow (V c main_v52_0 : S500000x128.Idx → EReal) (V c main_v68 : S1x128.Idx → EReal) (V c main_v69 : S1x128.Idx → EReal)
    (V c main_arg5 : S1x128.Idx → EReal) (V c main_v67 : S1x1.Idx → EReal) (⟨(i 0).val, idx2_lt0 i⟩ : Fin 500000)

/-- The weighted rows, entry by entry, from the same arrays. -/
def temp1Arr (c : Dev nD) : S500000x128.Idx → EReal := fun i =>
  temp1Row (V c main_v52_0 : S500000x128.Idx → EReal) (V c main_v68 : S1x128.Idx → EReal) (V c main_v69 : S1x128.Idx → EReal)
    (V c main_arg5 : S1x128.Idx → EReal) (V c main_v67 : S1x1.Idx → EReal) (⟨(i 0).val, idx2_lt0 i⟩ : Fin 500000)
    (⟨(i 1).val, idx2_lt1 i⟩ : Fin 128)

/-! ## The index maps over the grid -/

/-- The row windows (0, 5, 6) sit at block row `t`, column block 0; the four small windows at block (0, 0). -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-! ## The input blocks read off their arrays -/

/-- The block of the pre-activation array at point `t`, at `(r, j)`, is the array at row `4000·t + r`. -/
theorem iblk1_0_apply (c : Dev nD) (t : Fin cfg1.N) (r : Fin 4000) (j : Fin 128) (k : Fin 500000)
    (hk : k.val = t.val * 4000 + r.val) :
    (iblk1 V c 0 t : S4000x128.Idx → EReal) (ix2 r j) = (V c main_v52_0 : S500000x128.Idx → EReal) (ix2 k j) := by
  obtain ⟨e0, e1, -⟩ := idx1 t
  unfold iblk1
  rw [View.read_apply]
  show (V c main_v52_0 : S500000x128.Idx → EReal) (((cfg1.win 0).blk t).view.emb (ix2 r j)) = _
  refine congrArg (V c main_v52_0 : S500000x128.Idx → EReal) (funext fun a => Fin.ext ?_)
  match a with
  | ⟨0, _⟩ => show win1_0.index t (0 : Fin 2) * 4000 + 1 * r.val = k.val; rw [e0, hk]; omega
  | ⟨1, _⟩ => show win1_0.index t (1 : Fin 2) * 128 + 1 * j.val = j.val; rw [e1]; omega

/-- The four small windows' blocks are their whole arrays. -/
theorem iblk1_1_eq (c : Dev nD) (t : Fin cfg1.N) :
    (iblk1 V c 1 t : S1x128.Idx → EReal) = (V c main_v68 : S1x128.Idx → EReal) := by
  obtain ⟨-, -, e0, e1, -⟩ := idx1 t
  funext y
  unfold iblk1
  rw [View.read_apply]
  show (V c main_v68 : S1x128.Idx → EReal) (((cfg1.win 1).blk t).view.emb y) = _
  refine congrArg (V c main_v68 : S1x128.Idx → EReal) (funext fun a => Fin.ext ?_)
  match a with
  | ⟨0, _⟩ => show win1_1.index t (0 : Fin 2) * 1 + 1 * (y 0).val = (y 0).val; rw [e0]; omega
  | ⟨1, _⟩ => show win1_1.index t (1 : Fin 2) * 128 + 1 * (y 1).val = (y 1).val; rw [e1]; omega

theorem iblk1_2_eq (c : Dev nD) (t : Fin cfg1.N) :
    (iblk1 V c 2 t : S1x128.Idx → EReal) = (V c main_v69 : S1x128.Idx → EReal) := by
  obtain ⟨-, -, -, -, e0, e1, -⟩ := idx1 t
  funext y
  unfold iblk1
  rw [View.read_apply]
  show (V c main_v69 : S1x128.Idx → EReal) (((cfg1.win 2).blk t).view.emb y) = _
  refine congrArg (V c main_v69 : S1x128.Idx → EReal) (funext fun a => Fin.ext ?_)
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

theorem iblk1_3_eq (c : Dev nD) (t : Fin cfg1.N) :
    (iblk1 V c 3 t : S1x128.Idx → EReal) = (V c main_arg5 : S1x128.Idx → EReal) := by
  obtain ⟨-, -, -, -, -, -, e0, e1, -⟩ := idx1 t
  funext y
  unfold iblk1
  rw [View.read_apply]
  show (V c main_arg5 : S1x128.Idx → EReal) (((cfg1.win 3).blk t).view.emb y) = _
  refine congrArg (V c main_arg5 : S1x128.Idx → EReal) (funext fun a => Fin.ext ?_)
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

theorem iblk1_4_eq (c : Dev nD) (t : Fin cfg1.N) :
    (iblk1 V c 4 t : S1x1.Idx → EReal) = (V c main_v67 : S1x1.Idx → EReal) := by
  obtain ⟨-, -, -, -, -, -, -, -, e0, e1, -⟩ := idx1 t
  funext y
  unfold iblk1
  rw [View.read_apply]
  show (V c main_v67 : S1x1.Idx → EReal) (((cfg1.win 4).blk t).view.emb y) = _
  refine congrArg (V c main_v67 : S1x1.Idx → EReal) (funext fun a => Fin.ext ?_)
  match a with
  | ⟨0, _⟩ => show win1_4.index t (0 : Fin 2) * 1 + 1 * (y 0).val = (y 0).val; rw [e0]; omega
  | ⟨1, _⟩ => show win1_4.index t (1 : Fin 2) * 1 + 1 * (y 1).val = (y 1).val; rw [e1]; omega

/-! ## What each point writes back is its block of the whole-array function -/

theorem flushed6_eq (c : Dev nD) (t : Fin cfg1.N) :
    (dat1 V c).flushed 6 t = ((cfg1.win 6).blk t).view.read (Elt Ideal) (ebArr V c) := by
  show (cfg1.win 6).cut (grid1.coords t) ((dat1 V c).after 6 t) = _
  rw [after1_6]
  obtain ⟨-, -, -, -, -, -, -, -, -, -, -, -, e0, e1⟩ := idx1 t
  funext y
  obtain ⟨r, q, rfl⟩ : ∃ (r : Fin 4000) (q : Fin 1), y = ix2 r q := ⟨y 0, y 1, eq_ix2 y⟩
  show wts1 (iblk1 V c 0 t) (iblk1 V c 1 t) (iblk1 V c 2 t) (iblk1 V c 3 t) (iblk1 V c 4 t) (ix2 r q)
    = ebArr V c (((cfg1.win 6).blk t).view.emb (ix2 r q))
  refine (wts1_apply (iblk1 V c 0 t) (iblk1 V c 1 t) (iblk1 V c 2 t) (iblk1 V c 3 t) (iblk1 V c 4 t) r q).trans ?_
  rw [iblk1_1_eq V c t, iblk1_2_eq V c t, iblk1_3_eq V c t, iblk1_4_eq V c t]
  unfold ebArr
  refine ebRow_congr _ _ _ _ _ _ r _ fun j => ?_
  refine iblk1_0_apply V c t r j _ ?_
  show (((cfg1.win 6).blk t).view.emb (ix2 r q) (0 : Fin 2)).val = t.val * 4000 + r.val
  show win1_6.index t (0 : Fin 2) * 4000 + 1 * r.val = t.val * 4000 + r.val
  rw [e0]; omega

theorem flushed5_eq (c : Dev nD) (t : Fin cfg1.N) :
    (dat1 V c).flushed 5 t = ((cfg1.win 5).blk t).view.read (Elt Ideal) (temp1Arr V c) := by
  show (cfg1.win 5).cut (grid1.coords t) ((dat1 V c).after 5 t) = _
  rw [after1_5]
  obtain ⟨-, -, -, -, -, -, -, -, -, -, e0, e1, -⟩ := idx1 t
  funext y
  obtain ⟨r, j, rfl⟩ : ∃ (r : Fin 4000) (j : Fin 128), y = ix2 r j := ⟨y 0, y 1, eq_ix2 y⟩
  show wrows1 (iblk1 V c 0 t) (iblk1 V c 1 t) (iblk1 V c 2 t) (iblk1 V c 3 t) (iblk1 V c 4 t) (ix2 r j)
    = temp1Arr V c (((cfg1.win 5).blk t).view.emb (ix2 r j))
  refine (wrows1_apply (iblk1 V c 0 t) (iblk1 V c 1 t) (iblk1 V c 2 t) (iblk1 V c 3 t) (iblk1 V c 4 t) r j).trans ?_
  rw [iblk1_1_eq V c t, iblk1_2_eq V c t, iblk1_3_eq V c t, iblk1_4_eq V c t]
  unfold temp1Arr
  have hj : (⟨(((cfg1.win 5).blk t).view.emb (ix2 r j) (1 : Fin 2)).val, idx2_lt1 _⟩ : Fin 128) = j := by
    apply Fin.ext
    show win1_5.index t (1 : Fin 2) * 128 + 1 * j.val = j.val
    rw [e1]; omega
  rw [hj]
  refine temp1Row_congr _ _ _ _ _ _ r _ (fun j' => ?_) j
  refine iblk1_0_apply V c t r j' _ ?_
  show win1_5.index t (0 : Fin 2) * 4000 + 1 * r.val = t.val * 4000 + r.val
  rw [e0]; omega

/-! ## The blocks cover the arrays -/

/-- An index of the weights' array is in point `t`'s block iff each coordinate is in the block's range. -/
theorem mem_blk6 (t : Fin cfg1.N) (i : S500000x1.Idx) :
    i ∈ ((cfg1.win 6).blk t).view.set ↔ ∀ a : Fin 2, win1_6.index t a * S4000x1.size a ≤ (i a).val
      ∧ (i a).val < win1_6.index t a * S4000x1.size a + S4000x1.size a := by
  show i ∈ ((View.whole main_v70_1).slice (win1_6.rect t)).set ↔ _
  rw [View.set_slice_whole, Rect.mem_set_unit]
  exact Iff.rfl

theorem mem_blk5 (t : Fin cfg1.N) (i : S500000x128.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole main_v70_0).slice (win1_5.rect t)).set ↔ _
  rw [View.set_slice_whole, Rect.mem_set_unit]
  exact Iff.rfl

/-- Row `r` is in the block of point `r / 4000`. -/
theorem cover6 (i : S500000x1.Idx) :
    ∃ t : Fin cfg1.N, (cfg1.win 6).flush t = true ∧ i ∈ ((cfg1.win 6).blk t).view.set := by
  have hi0 : (i 0).val < 500000 := idx2_lt0 i
  have hi1 : (i 1).val < 1 := idx2_lt1 i
  have hN : cfg1.N = 125 := N_1
  have ht : (i 0).val / 4000 < cfg1.N := by rw [hN]; omega
  obtain ⟨-, -, -, -, -, -, -, -, -, -, -, -, e0, e1⟩ := idx1 ⟨(i 0).val / 4000, ht⟩
  refine ⟨⟨(i 0).val / 4000, ht⟩, flush1_6 _, ?_⟩
  rw [mem_blk6]
  intro a
  match a with
  | ⟨0, _⟩ =>
    show win1_6.index ⟨(i 0).val / 4000, ht⟩ (0 : Fin 2) * 4000 ≤ (i 0).val
      ∧ (i 0).val < win1_6.index ⟨(i 0).val / 4000, ht⟩ (0 : Fin 2) * 4000 + 4000
    rw [e0]; dsimp only; omega
  | ⟨1, _⟩ =>
    show win1_6.index ⟨(i 0).val / 4000, ht⟩ (1 : Fin 2) * 1 ≤ (i 1).val
      ∧ (i 1).val < win1_6.index ⟨(i 0).val / 4000, ht⟩ (1 : Fin 2) * 1 + 1
    rw [e1]; omega

theorem cover5 (i : S500000x128.Idx) :
    ∃ t : Fin cfg1.N, (cfg1.win 5).flush t = true ∧ i ∈ ((cfg1.win 5).blk t).view.set := by
  have hi0 : (i 0).val < 500000 := idx2_lt0 i
  have hi1 : (i 1).val < 128 := idx2_lt1 i
  have hN : cfg1.N = 125 := N_1
  have ht : (i 0).val / 4000 < cfg1.N := by rw [hN]; omega
  obtain ⟨-, -, -, -, -, -, -, -, -, -, e0, e1, -⟩ := idx1 ⟨(i 0).val / 4000, ht⟩
  refine ⟨⟨(i 0).val / 4000, ht⟩, flush1_5 _, ?_⟩
  rw [mem_blk5]
  intro a
  match a with
  | ⟨0, _⟩ =>
    show win1_5.index ⟨(i 0).val / 4000, ht⟩ (0 : Fin 2) * 4000 ≤ (i 0).val
      ∧ (i 0).val < win1_5.index ⟨(i 0).val / 4000, ht⟩ (0 : Fin 2) * 4000 + 4000
    rw [e0]; dsimp only; omega
  | ⟨1, _⟩ =>
    show win1_5.index ⟨(i 0).val / 4000, ht⟩ (1 : Fin 2) * 128 ≤ (i 1).val
      ∧ (i 1).val < win1_5.index ⟨(i 0).val / 4000, ht⟩ (1 : Fin 2) * 128 + 128
    rw [e1]; omega

/-! ## The result arrays after the call -/

/-- The weights' array ends holding the weights of the rows of the pre-activation array. -/
theorem final6 (c : Dev nD) : (dat1 V c).arrAt 6 cfg1.N = ebArr V c :=
  (dat1 V c).arrAt_eq_of_cover 6 (ebArr V c) (fun t _ => flushed6_eq V c t) cover6

/-- The weighted rows' array ends holding each row of the normalised array times its weight. -/
theorem final5 (c : Dev nD) : (dat1 V c).arrAt 5 cfg1.N = temp1Arr V c :=
  (dat1 V c).arrAt_eq_of_cover 5 (temp1Arr V c) (fun t _ => flushed5_eq V c t) cover5

end Cert.KernelIdeal.KVal

end
-- ==== Proof.KH.Glue.lean ====
import proofs.«114553_j89962384982591_1_alg».proof.Proof.KH.Mid
import proofs.«114553_j89962384982591_1_alg».proof.Proof.KV.Pay0
import proofs.«114553_j89962384982591_1_alg».proof.Proof.KV.Arr1

/-!
# The two Pallas calls' results are the folded arrangement

The first call's row formula, applied to the operands the first stretch of host operations lays
out, is the linear layer of the folded arrangement; the second call's row formulas, applied to the
first call's main result and the operands the second stretch lays out, are the attention factor
and the scaled message. Each row formula depends on its operand arrays only through the entries it
reads, so the identification is entry by entry. With the first call's three results identified
(its main result as the linear layer, its two one-row results as the column sums and the column
sums of squares), the second call's two result arrays are the specification's arrays.
-/

set_option maxRecDepth 16384

noncomputable section

namespace Cert.KernelIdeal.KHost

open Cert.KernelIdeal Cert.KernelIdeal.Gen Cert.KernelIdeal.Frame
open Idealize.ShloMosaic Idealize.ShloMosaic.TcCoe Idealize.ShloMosaic.ValueIdx
open Idealize.SL.Sem Idealize.ShloMosaic.StableHlo
open Cert.Bridge (Arr1 Arr2)

/-- The binary32 word of `0`. -/
local notation "zeroW" => (Ideal.ofBits FTy.f32 0x00000000#32 : EReal)

/-! ## The row formulas on identified operands -/

section rows
variable (h : Arr2 500000 384) (g0 b0 : Arr1 384) (W : Arr2 128 384) (bias : Arr1 128)
  (g1 b1 : Arr1 128) (w2 : Arr2 1 128) (bias2 : Arr1 1)

/-- The first call's row formula on the row matrix, the folded scale and shift, the transposed
    weight and the bias row is the linear layer. -/
theorem cpreRow_spec (a0 : Arr2 500000 384) (a1 a2 : Arr2 1 384) (a3 : Arr2 384 128) (a4 : Arr2 1 128)
    (h0 : ∀ (r : Fin 500000) (k : Fin 384), a0 (ix2 r k) = h (ix2 r k))
    (h1 : ∀ k : Fin 384, a1 (ix2 (0 : Fin 1) k) = Cert.Bridge.scale0 h g0 k)
    (h2 : ∀ k : Fin 384, a2 (ix2 (0 : Fin 1) k) = Cert.Bridge.shift0 h g0 b0 k)
    (h3 : ∀ (k : Fin 384) (j : Fin 128), a3 (ix2 k j) = W (ix2 j k))
    (h4 : ∀ j : Fin 128, a4 (ix2 (0 : Fin 1) j) = bias (ix1 j))
    (r : Fin 500000) (j : Fin 128) :
    KVal.cpreRow a0 a1 a2 a3 a4 r j = Cert.Bridge.cpre h g0 b0 W bias r j := by
  unfold KVal.cpreRow Cert.Bridge.cpre
  rw [h4 j]
  refine congrArg (· + bias (ix1 j)) (Finset.sum_congr rfl fun k _ => ?_)
  rw [h0 r k, h1 k, h2 k, h3 k j]

section second
variable (a0 : Arr2 500000 128) (a1 a2 a3 : Arr2 1 128) (a4 : Arr2 1 1)
  (hc : ∀ (r : Fin 500000) (j : Fin 128), a0 (ix2 r j) = Cert.Bridge.cpre h g0 b0 W bias r j)
  (h1 : ∀ j : Fin 128, a1 (ix2 (0 : Fin 1) j) = Cert.Bridge.scale1 h g0 b0 W bias g1 j)
  (h2 : ∀ j : Fin 128, a2 (ix2 (0 : Fin 1) j) = Cert.Bridge.shift1 h g0 b0 W bias g1 b1 j)
  (h3 : ∀ k : Fin 128, a3 (ix2 (0 : Fin 1) k) = w2 (ix2 (0 : Fin 1) k))
  (h4 : a4 (ix2 (0 : Fin 1) (0 : Fin 1)) = bias2 (ix1 (0 : Fin 1)))

include hc h1 h2 in
/-- The normalised entry. -/
theorem cRow_spec (r : Fin 500000) (j : Fin 128) :
    KVal.cRow a0 a1 a2 r j = Cert.Bridge.cK h g0 b0 W bias g1 b1 r j := by
  unfold KVal.cRow Cert.Bridge.cK
  rw [hc r j, h1 j, h2 j]

include hc h1 h2 h3 h4 in
/-- The attention logit. -/
theorem preRow_spec (r : Fin 500000) :
    KVal.preRow a0 a1 a2 a3 a4 r = Cert.Bridge.preB h g0 b0 W bias g1 b1 w2 bias2 r := by
  unfold KVal.preRow Cert.Bridge.preB
  rw [h4]
  refine congrArg (fun s => (zeroW + s) + bias2 (ix1 (0 : Fin 1))) (Finset.sum_congr rfl fun k _ => ?_)
  rw [cRow_spec h g0 b0 W bias g1 b1 a0 a1 a2 hc h1 h2 r k, h3 k]

include hc h1 h2 h3 h4 in
/-- The attention factor. -/
theorem ebRow_spec (r : Fin 500000) :
    KVal.ebRow a0 a1 a2 a3 a4 r = Cert.Bridge.ebK h g0 b0 W bias g1 b1 w2 bias2 r := by
  unfold KVal.ebRow KVal.lreluRow Cert.Bridge.ebK Cert.Bridge.lreluK
  rw [preRow_spec h g0 b0 W bias g1 b1 w2 bias2 a0 a1 a2 a3 a4 hc h1 h2 h3 h4 r]

include hc h1 h2 h3 h4 in
/-- The scaled message. -/
theorem temp1Row_spec (r : Fin 500000) (j : Fin 128) :
    KVal.temp1Row a0 a1 a2 a3 a4 r j = Cert.Bridge.temp1K h g0 b0 W bias g1 b1 w2 bias2 r j := by
  unfold KVal.temp1Row Cert.Bridge.temp1K
  rw [ebRow_spec h g0 b0 W bias g1 b1 w2 bias2 a0 a1 a2 a3 a4 hc h1 h2 h3 h4 r,
    cRow_spec h g0 b0 W bias g1 b1 a0 a1 a2 hc h1 h2 r j]

end second

end rows

/-! ## The first call's row formula on the operands the first stretch lays out -/

section first
variable (m : (ℓ : Loc nD τ sig) → Buf (Elt Ideal) ℓ) (c : Dev nD)

/-- On the first call's five operand arrays the row formula is the linear layer of the row matrix. -/
theorem cpreRow_V1 (r : Fin 500000) (j : Fin 128) :
    KVal.cpreRow (Gen.V1 m c main_v46 : Arr2 500000 384) (Gen.V1 m c main_v50 : Arr2 1 384)
        (Gen.V1 m c main_v51 : Arr2 1 384) (Gen.V1 m c main_v48 : Arr2 384 128) (Gen.V1 m c main_v49 : Arr2 1 128) r j
      = Cert.Bridge.cpre (hK m c) (x7 m c) (x8 m c) (x3 m c) (x4 m c) r j :=
  cpreRow_spec (hK m c) (x7 m c) (x8 m c) (x3 m c) (x4 m c) _ _ _ _ _
    (V1_v46_apply m c) (V1_v50_apply m c) (V1_v51_apply m c) (V1_v48_apply m c) (V1_v49_apply m c) r j

/-- The column sums of that formula over all rows are the specification's column sums … -/
theorem sum_cpreRow_V1 (j : Fin 128) :
    zeroW + ∑ r : Fin 500000, KVal.cpreRow (Gen.V1 m c main_v46 : Arr2 500000 384) (Gen.V1 m c main_v50 : Arr2 1 384)
        (Gen.V1 m c main_v51 : Arr2 1 384) (Gen.V1 m c main_v48 : Arr2 384 128) (Gen.V1 m c main_v49 : Arr2 1 128) r j
      = Cert.Bridge.sum1 (hK m c) (x7 m c) (x8 m c) (x3 m c) (x4 m c) j := by
  unfold Cert.Bridge.sum1
  exact congrArg (zeroW + ·) (Finset.sum_congr rfl fun r _ => cpreRow_V1 m c r j)

/-- … and likewise the column sums of its squares. -/
theorem sumsq_cpreRow_V1 (j : Fin 128) :
    zeroW + ∑ r : Fin 500000,
        KVal.cpreRow (Gen.V1 m c main_v46 : Arr2 500000 384) (Gen.V1 m c main_v50 : Arr2 1 384)
          (Gen.V1 m c main_v51 : Arr2 1 384) (Gen.V1 m c main_v48 : Arr2 384 128) (Gen.V1 m c main_v49 : Arr2 1 128) r j
        * KVal.cpreRow (Gen.V1 m c main_v46 : Arr2 500000 384) (Gen.V1 m c main_v50 : Arr2 1 384)
          (Gen.V1 m c main_v51 : Arr2 1 384) (Gen.V1 m c main_v48 : Arr2 384 128) (Gen.V1 m c main_v49 : Arr2 1 128) r j
      = Cert.Bridge.sumsq1 (hK m c) (x7 m c) (x8 m c) (x3 m c) (x4 m c) j := by
  unfold Cert.Bridge.sumsq1
  exact congrArg (zeroW + ·) (Finset.sum_congr rfl fun r _ => by rw [cpreRow_V1 m c r j])

end first

/-! ## The second call's two result arrays -/

section final
variable (m : (ℓ : Loc nD τ sig) → Buf (Elt Ideal) ℓ) (c : Dev nD)
  (hC : ∀ (r : Fin 500000) (j : Fin 128),
    C1K m c (ix2 r j) = Cert.Bridge.cpre (hK m c) (x7 m c) (x8 m c) (x3 m c) (x4 m c) r j)
  (hS : ∀ j : Fin 128, S1K m c (ix2 (0 : Fin 1) j) = Cert.Bridge.sum1 (hK m c) (x7 m c) (x8 m c) (x3 m c) (x4 m c) j)
  (hQ : ∀ j : Fin 128, Q1K m c (ix2 (0 : Fin 1) j) = Cert.Bridge.sumsq1 (hK m c) (x7 m c) (x8 m c) (x3 m c) (x4 m c) j)

include hC in
theorem X3_v52_0_apply (r : Fin 500000) (j : Fin 128) :
    X3 m c main_v52_0 (ix2 r j) = Cert.Bridge.cpre (hK m c) (x7 m c) (x8 m c) (x3 m c) (x4 m c) r j :=
  (congrFun (X3_v52_0 m c) (ix2 r j)).trans (hC r j)

include hC hS hQ in
/-- The attention factors the second call leaves are the specification's. -/
theorem X4_v70_1 :
    X4 m c main_v70_1
      = Cert.Bridge.ebSpec (hK m c) (x3 m c) (x4 m c) (x5 m c) (x6 m c) (x7 m c) (x8 m c) (x9 m c) (x10 m c) := by
  refine (X4_arr m c 6).trans ((KVal.final6 (E3 m) c).trans ?_)
  funext i
  obtain ⟨r, q, rfl⟩ : ∃ (r : Fin 500000) (q : Fin 1), i = ix2 r q := ⟨i 0, i 1, eq_ix2 i⟩
  rw [Cert.Bridge.ebSpec_ix2]
  exact ebRow_spec (hK m c) (x7 m c) (x8 m c) (x3 m c) (x4 m c) (x9 m c) (x10 m c) (x5 m c) (x6 m c)
    (X3 m c main_v52_0) (X3 m c main_v68) (X3 m c main_v69) (X3 m c main_arg5) (X3 m c main_v67)
    (X3_v52_0_apply m c hC) (X3_v68_spec m c hS hQ) (X3_v69_spec m c hS hQ)
    (fun k => congrFun (X3_arg5 m c) (ix2 (0 : Fin 1) k)) (X3_v67_apply m c) r

include hC hS hQ in
/-- The scaled messages the second call leaves are the specification's. -/
theorem X4_v70_0 :
    X4 m c main_v70_0
      = Cert.Bridge.temp1Spec (hK m c) (x3 m c) (x4 m c) (x5 m c) (x6 m c) (x7 m c) (x8 m c) (x9 m c) (x10 m c) := by
  refine (X4_arr m c 5).trans ((KVal.final5 (E3 m) c).trans ?_)
  funext i
  obtain ⟨r, j, rfl⟩ : ∃ (r : Fin 500000) (j : Fin 128), i = ix2 r j := ⟨i 0, i 1, eq_ix2 i⟩
  rw [Cert.Bridge.temp1Spec_ix2]
  exact temp1Row_spec (hK m c) (x7 m c) (x8 m c) (x3 m c) (x4 m c) (x9 m c) (x10 m c) (x5 m c) (x6 m c)
    (X3 m c main_v52_0) (X3 m c main_v68) (X3 m c main_v69) (X3 m c main_arg5) (X3 m c main_v67)
    (X3_v52_0_apply m c hC) (X3_v68_spec m c hS hQ) (X3_v69_spec m c hS hQ)
    (fun k => congrFun (X3_arg5 m c) (ix2 (0 : Fin 1) k)) (X3_v67_apply m c) r j

end final

end Cert.KernelIdeal.KHost

end
-- ==== Proof.KV.Arr0.lean ====
/-
  The first Pallas call's three result arrays after all 125 grid points. Point t reads rows 4000·t … 4000·t+3999 of
  the gathered features and the four small arrays whole; it writes the same rows of the projected array, and adds the
  block's column sums (and column sums of squares) to two running rows, set to zero at the first point and written
  back after the last. A row's projection depends on that row only, so the projected array ends as one function of
  the arrays the call finds. A running row after point n is the zero word plus the sum of the first 4000·(n+1) rows of
  that function (by induction on the point; extended-real addition is associative), so after the last point it is
  the zero word plus the sum over all 500000 rows.
-/
import proofs.«114553_j89962384982591_1_alg».proof.Proof.KI.Reg0Data
import proofs.«114553_j89962384982591_1_alg».proof.Proof.KV.Pay0

set_option maxRecDepth 16384

noncomputable section

namespace Cert.KernelIdeal.KVal

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The projected array, entry by entry, from the gathered features, the first normalisation's scale and shift, the
    transposed projection matrix and the projection bias. -/
def cpreArr (c : Dev nD) : S500000x128.Idx → EReal := fun i =>
  cpreRow (V c main_v46 : S500000x384.Idx → EReal) (V c main_v50 : S1x384.Idx → EReal) (V c main_v51 : S1x384.Idx → EReal) (V c main_v48 : S384x128.Idx → EReal) (V c main_v49 : S1x128.Idx → EReal) (⟨(i 0).val, idx2_lt0 i⟩ : Fin 500000) (⟨(i 1).val, idx2_lt1 i⟩ : Fin 128)

/-! ## The index maps over the grid -/

/-- The row windows (0 and 5) sit at block row `t`, column block 0; every other window at block (0, 0). -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## The input blocks read off their arrays -/

/-- The block of the gathered features at point `t`, at `(r, k)`, is the array at row `4000·t + r`. -/
theorem iblk0_0_apply (c : Dev nD) (t : Fin cfg0.N) (r : Fin 4000) (k : Fin 384) (r' : Fin 500000)
    (hr : r'.val = t.val * 4000 + r.val) :
    (iblk0 V c 0 t : S4000x384.Idx → EReal) (ix2 r k) = (V c main_v46 : S500000x384.Idx → EReal) (ix2 r' k) := by
  obtain ⟨e0, e1, -⟩ := idx0 t
  unfold iblk0
  rw [View.read_apply]
  show (V c main_v46 : S500000x384.Idx → EReal) (((cfg0.win 0).blk t).view.emb (ix2 r k)) = _
  refine congrArg (V c main_v46 : S500000x384.Idx → EReal) (funext fun a => Fin.ext ?_)
  match a with
  | ⟨0, _⟩ => show win0_0.index t (0 : Fin 2) * 4000 + 1 * r.val = r'.val; rw [e0, hr]; omega
  | ⟨1, _⟩ => show win0_0.index t (1 : Fin 2) * 384 + 1 * k.val = k.val; rw [e1]; omega

/-- The four small windows' blocks are their whole arrays. -/
theorem iblk0_1_eq (c : Dev nD) (t : Fin cfg0.N) :
    (iblk0 V c 1 t : S1x384.Idx → EReal) = (V c main_v50 : S1x384.Idx → EReal) := by
  obtain ⟨-, -, e0, e1, -⟩ := idx0 t
  funext y
  unfold iblk0
  rw [View.read_apply]
  show (V c main_v50 : S1x384.Idx → EReal) (((cfg0.win 1).blk t).view.emb y) = _
  refine congrArg (V c main_v50 : S1x384.Idx → EReal) (funext fun a => Fin.ext ?_)
  match a with
  | ⟨0, _⟩ => show win0_1.index t (0 : Fin 2) * 1 + 1 * (y 0).val = (y 0).val; rw [e0]; omega
  | ⟨1, _⟩ => show win0_1.index t (1 : Fin 2) * 384 + 1 * (y 1).val = (y 1).val; rw [e1]; omega

theorem iblk0_2_eq (c : Dev nD) (t : Fin cfg0.N) :
    (iblk0 V c 2 t : S1x384.Idx → EReal) = (V c main_v51 : S1x384.Idx → EReal) := by
  obtain ⟨-, -, -, -, e0, e1, -⟩ := idx0 t
  funext y
  unfold iblk0
  rw [View.read_apply]
  show (V c main_v51 : S1x384.Idx → EReal) (((cfg0.win 2).blk t).view.emb y) = _
  refine congrArg (V c main_v51 : S1x384.Idx → EReal) (funext fun a => Fin.ext ?_)
  match a with
  | ⟨0, _⟩ => show win0_2.index t (0 : Fin 2) * 1 + 1 * (y 0).val = (y 0).val; rw [e0]; omega
  | ⟨1, _⟩ => show win0_2.index t (1 : Fin 2) * 384 + 1 * (y 1).val = (y 1).val; rw [e1]; omega

theorem iblk0_3_eq (c : Dev nD) (t : Fin cfg0.N) :
    (iblk0 V c 3 t : S384x128.Idx → EReal) = (V c main_v48 : S384x128.Idx → EReal) := by
  obtain ⟨-, -, -, -, -, -, e0, e1, -⟩ := idx0 t
  funext y
  unfold iblk0
  rw [View.read_apply]
  show (V c main_v48 : S384x128.Idx → EReal) (((cfg0.win 3).blk t).view.emb y) = _
  refine congrArg (V c main_v48 : S384x128.Idx → EReal) (funext fun a => Fin.ext ?_)
  match a with
  | ⟨0, _⟩ => show win0_3.index t (0 : Fin 2) * 384 + 1 * (y 0).val = (y 0).val; rw [e0]; omega
  | ⟨1, _⟩ => show win0_3.index t (1 : Fin 2) * 128 + 1 * (y 1).val = (y 1).val; rw [e1]; omega

theorem iblk0_4_eq (c : Dev nD) (t : Fin cfg0.N) :
    (iblk0 V c 4 t : S1x128.Idx → EReal) = (V c main_v49 : S1x128.Idx → EReal) := by
  obtain ⟨-, -, -, -, -, -, -, -, e0, e1, -⟩ := idx0 t
  funext y
  unfold iblk0
  rw [View.read_apply]
  show (V c main_v49 : S1x128.Idx → EReal) (((cfg0.win 4).blk t).view.emb y) = _
  refine congrArg (V c main_v49 : S1x128.Idx → EReal) (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-! ## The projected array -/

/-- What the body leaves in the projected block's buffer at any point: the projection of the point's blocks. -/
theorem blk5_eq (c : Dev nD) (t : Fin cfg0.N) :
    (outs0 V c t.val t.isLt).1 = k0_pay4 (iblk0 V c 0 t) (iblk0 V c 1 t) (iblk0 V c 2 t) (iblk0 V c 3 t) (iblk0 V c 4 t) := by
  by_cases h : t.val = 0
  · rw [outs0_first V c t h]
    dsimp only
    exact first5 c (grid0.coords t) (mem0_0 t) (whole0_0 t) (mem0_1 t) (whole0_1 t) (mem0_2 t) (whole0_2 t) (mem0_3 t) (whole0_3 t) (mem0_4 t) (whole0_4 t) (mem0_5 t) (whole0_5 t) (mem0_6 t) (whole0_6 t) (mem0_7 t) (whole0_7 t) ((first0_iff t).mpr h) (iblk0 V c 0 t) (iblk0 V c 1 t) (iblk0 V c 2 t) (iblk0 V c 3 t) (iblk0 V c 4 t)
  · rw [outs0_later V c t h]
    dsimp only
    exact later5 c (grid0.coords t) (mem0_0 t) (whole0_0 t) (mem0_1 t) (whole0_1 t) (mem0_2 t) (whole0_2 t) (mem0_3 t) (whole0_3 t) (mem0_4 t) (whole0_4 t) (mem0_5 t) (whole0_5 t) (mem0_6 t) (whole0_6 t) (mem0_7 t) (whole0_7 t) (fun hh => h ((first0_iff t).mp hh)) (iblk0 V c 0 t) (iblk0 V c 1 t) (iblk0 V c 2 t) (iblk0 V c 3 t) (iblk0 V c 4 t) (outs0 V c (t.val - 1) (Nat.lt_of_le_of_lt (Nat.sub_le _ _) t.isLt)).2.1 (outs0 V c (t.val - 1) (Nat.lt_of_le_of_lt (Nat.sub_le _ _) t.isLt)).2.2

theorem flushed0_5_eq (c : Dev nD) (t : Fin cfg0.N) :
    (dat0 V c).flushed 5 t = ((cfg0.win 5).blk t).view.read (Elt Ideal) (cpreArr V c) := by
  show (cfg0.win 5).cut (grid0.coords t) ((dat0 V c).after 5 t) = _
  rw [after0_5, blk5_eq]
  obtain ⟨-, -, -, -, -, -, -, -, -, -, e0, e1, -⟩ := idx0 t
  funext y
  obtain ⟨r, j, rfl⟩ : ∃ (r : Fin 4000) (j : Fin 128), y = ix2 r j := ⟨y 0, y 1, eq_ix2 y⟩
  show k0_pay4 (iblk0 V c 0 t) (iblk0 V c 1 t) (iblk0 V c 2 t) (iblk0 V c 3 t) (iblk0 V c 4 t) (ix2 r j) = cpreArr V c (((cfg0.win 5).blk t).view.emb (ix2 r j))
  refine (k0pay4_apply (iblk0 V c 0 t) (iblk0 V c 1 t) (iblk0 V c 2 t) (iblk0 V c 3 t) (iblk0 V c 4 t) r j).trans ?_
  rw [iblk0_1_eq V c t, iblk0_2_eq V c t, iblk0_3_eq V c t, iblk0_4_eq V c t]
  unfold cpreArr
  have hj : (⟨(((cfg0.win 5).blk t).view.emb (ix2 r j) (1 : Fin 2)).val, idx2_lt1 _⟩ : Fin 128) = j := by
    apply Fin.ext
    show win0_5.index t (1 : Fin 2) * 128 + 1 * j.val = j.val
    rw [e1]; omega
  rw [hj]
  refine cpreRow_congr _ _ _ _ _ _ r _ (fun k => ?_) j
  refine iblk0_0_apply V c t r k _ ?_
  show win0_5.index t (0 : Fin 2) * 4000 + 1 * r.val = t.val * 4000 + r.val
  rw [e0]; omega

theorem mem_blk0_5 (t : Fin cfg0.N) (i : S500000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v52_0).slice (win0_5.rect t)).set ↔ _
  rw [View.set_slice_whole, Rect.mem_set_unit]
  exact Iff.rfl

/-- Row `r` is in the block of point `r / 4000`. -/
theorem cover0_5 (i : S500000x128.Idx) :
    ∃ t : Fin cfg0.N, (cfg0.win 5).flush t = true ∧ i ∈ ((cfg0.win 5).blk t).view.set := by
  have hi0 : (i 0).val < 500000 := idx2_lt0 i
  have hi1 : (i 1).val < 128 := idx2_lt1 i
  have hN : cfg0.N = 125 := N_0
  have ht : (i 0).val / 4000 < cfg0.N := by rw [hN]; omega
  obtain ⟨-, -, -, -, -, -, -, -, -, -, e0, e1, -⟩ := idx0 ⟨(i 0).val / 4000, ht⟩
  refine ⟨⟨(i 0).val / 4000, ht⟩, flush0_5 _, ?_⟩
  rw [mem_blk0_5]
  intro a
  match a with
  | ⟨0, _⟩ =>
    show win0_5.index ⟨(i 0).val / 4000, ht⟩ (0 : Fin 2) * 4000 ≤ (i 0).val
      ∧ (i 0).val < win0_5.index ⟨(i 0).val / 4000, ht⟩ (0 : Fin 2) * 4000 + 4000
    rw [e0]; dsimp only; omega
  | ⟨1, _⟩ =>
    show win0_5.index ⟨(i 0).val / 4000, ht⟩ (1 : Fin 2) * 128 ≤ (i 1).val
      ∧ (i 1).val < win0_5.index ⟨(i 0).val / 4000, ht⟩ (1 : Fin 2) * 128 + 128
    rw [e1]; omega

/-- The projected array ends holding the projection of every row of the gathered features. -/
theorem final0_5 (c : Dev nD) : (dat0 V c).arrAt 5 cfg0.N = cpreArr V c :=
  (dat0 V c).arrAt_eq_of_cover 5 (cpreArr V c) (fun t _ => flushed0_5_eq V c t) cover0_5

/-! ## The running column sums -/

/-- The projected array's entry in column `j` at a row number, zero past the last row: the summand of the
    running sums, as a function of a natural number. -/
def cpreNat (c : Dev nD) (j : Fin 128) (x : ℕ) : EReal :=
  if h : x < 500000 then cpreRow (V c main_v46 : S500000x384.Idx → EReal) (V c main_v50 : S1x384.Idx → EReal) (V c main_v51 : S1x384.Idx → EReal) (V c main_v48 : S384x128.Idx → EReal) (V c main_v49 : S1x128.Idx → EReal) (⟨x, h⟩ : Fin 500000) j else 0

/-- The column sum of the block at point `t` is the sum of the array's rows `4000·t … 4000·t + 3999`. -/
theorem blockSum6_eq (c : Dev nD) (t : Fin cfg0.N) (j : Fin 128) :
    ∑ r : Fin 4000, cpreRow (iblk0 V c 0 t) (iblk0 V c 1 t) (iblk0 V c 2 t) (iblk0 V c 3 t) (iblk0 V c 4 t) r j
      = ∑ x ∈ Finset.range 4000, cpreNat V c j (4000 * t.val + x) := by
  rw [← Fin.sum_univ_eq_sum_range (fun x => cpreNat V c j (4000 * t.val + x)) 4000]
  refine Finset.sum_congr rfl fun r _ => ?_
  have hN : t.val < 125 := lt_of_lt_of_eq t.isLt N_0
  have hlt : 4000 * t.val + r.val < 500000 := by have := r.isLt; omega
  unfold cpreNat
  rw [dif_pos hlt, iblk0_1_eq V c t, iblk0_2_eq V c t, iblk0_3_eq V c t, iblk0_4_eq V c t]
  have e := cpreRow_congr (iblk0 V c 0 t : S4000x384.Idx → EReal) (V c main_v46 : S500000x384.Idx → EReal)
    (V c main_v50 : S1x384.Idx → EReal) (V c main_v51 : S1x384.Idx → EReal) (V c main_v48 : S384x128.Idx → EReal)
    (V c main_v49 : S1x128.Idx → EReal) r (⟨4000 * t.val + r.val, hlt⟩ : Fin 500000)
    (fun k => iblk0_0_apply V c t r k ⟨4000 * t.val + r.val, hlt⟩ (by show 4000 * t.val + r.val = t.val * 4000 + r.val; omega)) j
  rw [e]

/-- The running row after the first point: the zero word plus the first block's sums. -/
theorem outs6_first (c : Dev nD) (t : Fin cfg0.N) (h : t.val = 0) (u : Fin 1) (j : Fin 128) :
    ((outs0 V c t.val t.isLt).2.1 : S1x128.Idx → EReal) (ix2 u j)
      = Ideal.ofBits .f32 0x00000000#32 + ∑ r : Fin 4000, cpreRow (iblk0 V c 0 t) (iblk0 V c 1 t) (iblk0 V c 2 t) (iblk0 V c 3 t) (iblk0 V c 4 t) r j := by
  rw [outs0_first V c t h]
  dsimp only
  exact first6_apply c (grid0.coords t) (mem0_0 t) (whole0_0 t) (mem0_1 t) (whole0_1 t) (mem0_2 t) (whole0_2 t) (mem0_3 t) (whole0_3 t) (mem0_4 t) (whole0_4 t) (mem0_5 t) (whole0_5 t) (mem0_6 t) (whole0_6 t) (mem0_7 t) (whole0_7 t) ((first0_iff t).mpr h) (iblk0 V c 0 t) (iblk0 V c 1 t) (iblk0 V c 2 t) (iblk0 V c 3 t) (iblk0 V c 4 t) u j

/-- The running row after a later point: what the point before left plus the block's sums. -/
theorem outs6_later (c : Dev nD) (t : Fin cfg0.N) (h : t.val ≠ 0) (u : Fin 1) (j : Fin 128) :
    ((outs0 V c t.val t.isLt).2.1 : S1x128.Idx → EReal) (ix2 u j)
      = ((outs0 V c (t.val - 1) (Nat.lt_of_le_of_lt (Nat.sub_le _ _) t.isLt)).2.1 : S1x128.Idx → EReal) (ix2 u j)
        + ∑ r : Fin 4000, cpreRow (iblk0 V c 0 t) (iblk0 V c 1 t) (iblk0 V c 2 t) (iblk0 V c 3 t) (iblk0 V c 4 t) r j := by
  rw [outs0_later V c t h]
  dsimp only
  exact later6_apply c (grid0.coords t) (mem0_0 t) (whole0_0 t) (mem0_1 t) (whole0_1 t) (mem0_2 t) (whole0_2 t) (mem0_3 t) (whole0_3 t) (mem0_4 t) (whole0_4 t) (mem0_5 t) (whole0_5 t) (mem0_6 t) (whole0_6 t) (mem0_7 t) (whole0_7 t) (fun hh => h ((first0_iff t).mp hh)) (iblk0 V c 0 t) (iblk0 V c 1 t) (iblk0 V c 2 t) (iblk0 V c 3 t) (iblk0 V c 4 t) (outs0 V c (t.val - 1) (Nat.lt_of_le_of_lt (Nat.sub_le _ _) t.isLt)).2.1 (outs0 V c (t.val - 1) (Nat.lt_of_le_of_lt (Nat.sub_le _ _) t.isLt)).2.2 u j

/-- After point `n` the running row holds the zero word plus the sum of the array's first `4000·(n+1)` rows: by
    induction on the point. -/
theorem run6 (c : Dev nD) : ∀ (n : ℕ) (h : n < cfg0.N) (u : Fin 1) (j : Fin 128),
    ((outs0 V c n h).2.1 : S1x128.Idx → EReal) (ix2 u j)
      = Ideal.ofBits .f32 0x00000000#32 + ∑ x ∈ Finset.range (4000 * (n + 1)), cpreNat V c j x
  | 0, h, u, j => by
    refine (outs6_first V c ⟨0, h⟩ rfl u j).trans ?_
    rw [blockSum6_eq V c ⟨0, h⟩ j]
    show _ + ∑ x ∈ Finset.range 4000, cpreNat V c j (4000 * 0 + x) = _ + ∑ x ∈ Finset.range (4000 * (0 + 1)), cpreNat V c j x
    simp only [Nat.mul_zero, Nat.zero_add, Nat.mul_one]
  | n + 1, h, u, j => by
    refine (outs6_later V c ⟨n + 1, h⟩ (Nat.succ_ne_zero n) u j).trans ?_
    have ih := run6 c n (Nat.lt_of_succ_lt h) u j
    refine (congrArg₂ (· + ·) ih (blockSum6_eq V c ⟨n + 1, h⟩ j)).trans ?_
    show _ + _ + ∑ x ∈ Finset.range 4000, cpreNat V c j (4000 * (n + 1) + x) = _
    rw [add_assoc, ← Finset.sum_range_add, show 4000 * (n + 1) + 4000 = 4000 * (n + 1 + 1) by omega]

/-- After the last point: the zero word plus the sum over all 500000 rows. -/
theorem out6_last (c : Dev nD) (t : Fin cfg0.N) (h124 : t.val = 124) (u : Fin 1) (j : Fin 128) :
    ((outs0 V c t.val t.isLt).2.1 : S1x128.Idx → EReal) (ix2 u j)
      = Ideal.ofBits .f32 0x00000000#32 + ∑ r : Fin 500000, cpreRow (V c main_v46 : S500000x384.Idx → EReal) (V c main_v50 : S1x384.Idx → EReal) (V c main_v51 : S1x384.Idx → EReal) (V c main_v48 : S384x128.Idx → EReal) (V c main_v49 : S1x128.Idx → EReal) r j := by
  refine (run6 V c t.val t.isLt u j).trans ?_
  rw [h124]
  show _ + ∑ x ∈ Finset.range 500000, cpreNat V c j x = _
  rw [← Fin.sum_univ_eq_sum_range (fun x => cpreNat V c j x) 500000]
  refine congrArg (Ideal.ofBits .f32 0x00000000#32 + ·) (Finset.sum_congr rfl fun r _ => ?_)
  unfold cpreNat
  rw [dif_pos r.isLt]

/-- The column sums of the projected array, as the contents of the one-row result array. -/
def sumArr (c : Dev nD) : S1x128.Idx → EReal := fun i =>
  Ideal.ofBits .f32 0x00000000#32 + ∑ r : Fin 500000, cpreRow (V c main_v46 : S500000x384.Idx → EReal) (V c main_v50 : S1x384.Idx → EReal) (V c main_v51 : S1x384.Idx → EReal) (V c main_v48 : S384x128.Idx → EReal) (V c main_v49 : S1x128.Idx → EReal) r (⟨(i 1).val, idx2_lt1 i⟩ : Fin 128)

/-- The one write-back, at the last point, writes that row: the window's block is the whole array. -/
theorem flushed0_6_eq (c : Dev nD) (t : Fin cfg0.N) (hf : (cfg0.win 6).flush t = true) :
    (dat0 V c).flushed 6 t = ((cfg0.win 6).blk t).view.read (Elt Ideal) (sumArr V c) := by
  have h2 : t.val < 125 := lt_of_lt_of_eq t.isLt N_0
  have h124 : t.val = 124 := by have h1 := (flush0_6 t).mp hf; omega
  show (cfg0.win 6).cut (grid0.coords t) ((dat0 V c).after 6 t) = _
  rw [after0_6]
  obtain ⟨-, -, -, -, -, -, -, -, -, -, -, -, e0, e1, -⟩ := idx0 t
  funext y
  obtain ⟨u, j, rfl⟩ : ∃ (u : Fin 1) (j : Fin 128), y = ix2 u j := ⟨y 0, y 1, eq_ix2 y⟩
  show ((outs0 V c t.val t.isLt).2.1 : S1x128.Idx → EReal) (ix2 u j) = sumArr V c (((cfg0.win 6).blk t).view.emb (ix2 u j))
  refine (out6_last V c t h124 u j).trans ?_
  unfold sumArr
  have hj : (⟨(((cfg0.win 6).blk t).view.emb (ix2 u j) (1 : Fin 2)).val, idx2_lt1 _⟩ : Fin 128) = j := by
    apply Fin.ext
    show win0_6.index t (1 : Fin 2) * 128 + 1 * j.val = j.val
    rw [e1]; omega
  rw [hj]

theorem mem_blk0_6 (t : Fin cfg0.N) (i : S1x128.Idx) :
    i ∈ ((cfg0.win 6).blk t).view.set ↔ ∀ a : Fin 2, win0_6.index t a * S1x128.size a ≤ (i a).val
      ∧ (i a).val < win0_6.index t a * S1x128.size a + S1x128.size a := by
  show i ∈ ((View.whole main_v52_1).slice (win0_6.rect t)).set ↔ _
  rw [View.set_slice_whole, Rect.mem_set_unit]
  exact Iff.rfl

/-- The last point's block is the whole one-row array. -/
theorem cover0_6 (i : S1x128.Idx) :
    ∃ t : Fin cfg0.N, (cfg0.win 6).flush t = true ∧ i ∈ ((cfg0.win 6).blk t).view.set := by
  have hi0 : (i 0).val < 1 := idx2_lt0 i
  have hi1 : (i 1).val < 128 := idx2_lt1 i
  have hN : cfg0.N = 125 := N_0
  have hlt : 124 < cfg0.N := by rw [hN]; omega
  obtain ⟨-, -, -, -, -, -, -, -, -, -, -, -, e0, e1, -⟩ := idx0 ⟨124, hlt⟩
  refine ⟨⟨124, hlt⟩, (flush0_6 ⟨124, hlt⟩).mpr rfl, ?_⟩
  rw [mem_blk0_6]
  intro a
  match a with
  | ⟨0, _⟩ =>
    show win0_6.index ⟨124, hlt⟩ (0 : Fin 2) * 1 ≤ (i 0).val ∧ (i 0).val < win0_6.index ⟨124, hlt⟩ (0 : Fin 2) * 1 + 1
    rw [e0]; omega
  | ⟨1, _⟩ =>
    show win0_6.index ⟨124, hlt⟩ (1 : Fin 2) * 128 ≤ (i 1).val ∧ (i 1).val < win0_6.index ⟨124, hlt⟩ (1 : Fin 2) * 128 + 128
    rw [e1]; omega

/-- The result array ends holding the column sums of the projected array. -/
theorem final0_6 (c : Dev nD) : (dat0 V c).arrAt 6 cfg0.N = sumArr V c :=
  (dat0 V c).arrAt_eq_of_cover 6 (sumArr V c) (flushed0_6_eq V c) cover0_6

/-! ## The running column sums of squares -/

/-- The projected array's entry squared in column `j` at a row number, zero past the last row: the summand of the
    running sums, as a function of a natural number. -/
def cpreSqNat (c : Dev nD) (j : Fin 128) (x : ℕ) : EReal :=
  if h : x < 500000 then cpreRow (V c main_v46 : S500000x384.Idx → EReal) (V c main_v50 : S1x384.Idx → EReal) (V c main_v51 : S1x384.Idx → EReal) (V c main_v48 : S384x128.Idx → EReal) (V c main_v49 : S1x128.Idx → EReal) (⟨x, h⟩ : Fin 500000) j * cpreRow (V c main_v46 : S500000x384.Idx → EReal) (V c main_v50 : S1x384.Idx → EReal) (V c main_v51 : S1x384.Idx → EReal) (V c main_v48 : S384x128.Idx → EReal) (V c main_v49 : S1x128.Idx → EReal) (⟨x, h⟩ : Fin 500000) j else 0

/-- The column sum of squares of the block at point `t` is the sum of the array's rows `4000·t … 4000·t + 3999`. -/
theorem blockSum7_eq (c : Dev nD) (t : Fin cfg0.N) (j : Fin 128) :
    ∑ r : Fin 4000, cpreRow (iblk0 V c 0 t) (iblk0 V c 1 t) (iblk0 V c 2 t) (iblk0 V c 3 t) (iblk0 V c 4 t) r j * cpreRow (iblk0 V c 0 t) (iblk0 V c 1 t) (iblk0 V c 2 t) (iblk0 V c 3 t) (iblk0 V c 4 t) r j
      = ∑ x ∈ Finset.range 4000, cpreSqNat V c j (4000 * t.val + x) := by
  rw [← Fin.sum_univ_eq_sum_range (fun x => cpreSqNat V c j (4000 * t.val + x)) 4000]
  refine Finset.sum_congr rfl fun r _ => ?_
  have hN : t.val < 125 := lt_of_lt_of_eq t.isLt N_0
  have hlt : 4000 * t.val + r.val < 500000 := by have := r.isLt; omega
  unfold cpreSqNat
  rw [dif_pos hlt, iblk0_1_eq V c t, iblk0_2_eq V c t, iblk0_3_eq V c t, iblk0_4_eq V c t]
  have e := cpreRow_congr (iblk0 V c 0 t : S4000x384.Idx → EReal) (V c main_v46 : S500000x384.Idx → EReal)
    (V c main_v50 : S1x384.Idx → EReal) (V c main_v51 : S1x384.Idx → EReal) (V c main_v48 : S384x128.Idx → EReal)
    (V c main_v49 : S1x128.Idx → EReal) r (⟨4000 * t.val + r.val, hlt⟩ : Fin 500000)
    (fun k => iblk0_0_apply V c t r k ⟨4000 * t.val + r.val, hlt⟩ (by show 4000 * t.val + r.val = t.val * 4000 + r.val; omega)) j
  rw [e]

/-- The running row after the first point: the zero word plus the first block's sums. -/
theorem outs7_first (c : Dev nD) (t : Fin cfg0.N) (h : t.val = 0) (u : Fin 1) (j : Fin 128) :
    ((outs0 V c t.val t.isLt).2.2 : S1x128.Idx → EReal) (ix2 u j)
      = Ideal.ofBits .f32 0x00000000#32 + ∑ r : Fin 4000, cpreRow (iblk0 V c 0 t) (iblk0 V c 1 t) (iblk0 V c 2 t) (iblk0 V c 3 t) (iblk0 V c 4 t) r j * cpreRow (iblk0 V c 0 t) (iblk0 V c 1 t) (iblk0 V c 2 t) (iblk0 V c 3 t) (iblk0 V c 4 t) r j := by
  rw [outs0_first V c t h]
  dsimp only
  exact first7_apply c (grid0.coords t) (mem0_0 t) (whole0_0 t) (mem0_1 t) (whole0_1 t) (mem0_2 t) (whole0_2 t) (mem0_3 t) (whole0_3 t) (mem0_4 t) (whole0_4 t) (mem0_5 t) (whole0_5 t) (mem0_6 t) (whole0_6 t) (mem0_7 t) (whole0_7 t) ((first0_iff t).mpr h) (iblk0 V c 0 t) (iblk0 V c 1 t) (iblk0 V c 2 t) (iblk0 V c 3 t) (iblk0 V c 4 t) u j

/-- The running row after a later point: what the point before left plus the block's sums. -/
theorem outs7_later (c : Dev nD) (t : Fin cfg0.N) (h : t.val ≠ 0) (u : Fin 1) (j : Fin 128) :
    ((outs0 V c t.val t.isLt).2.2 : S1x128.Idx → EReal) (ix2 u j)
      = ((outs0 V c (t.val - 1) (Nat.lt_of_le_of_lt (Nat.sub_le _ _) t.isLt)).2.2 : S1x128.Idx → EReal) (ix2 u j)
        + ∑ r : Fin 4000, cpreRow (iblk0 V c 0 t) (iblk0 V c 1 t) (iblk0 V c 2 t) (iblk0 V c 3 t) (iblk0 V c 4 t) r j * cpreRow (iblk0 V c 0 t) (iblk0 V c 1 t) (iblk0 V c 2 t) (iblk0 V c 3 t) (iblk0 V c 4 t) r j := by
  rw [outs0_later V c t h]
  dsimp only
  exact later7_apply c (grid0.coords t) (mem0_0 t) (whole0_0 t) (mem0_1 t) (whole0_1 t) (mem0_2 t) (whole0_2 t) (mem0_3 t) (whole0_3 t) (mem0_4 t) (whole0_4 t) (mem0_5 t) (whole0_5 t) (mem0_6 t) (whole0_6 t) (mem0_7 t) (whole0_7 t) (fun hh => h ((first0_iff t).mp hh)) (iblk0 V c 0 t) (iblk0 V c 1 t) (iblk0 V c 2 t) (iblk0 V c 3 t) (iblk0 V c 4 t) (outs0 V c (t.val - 1) (Nat.lt_of_le_of_lt (Nat.sub_le _ _) t.isLt)).2.1 (outs0 V c (t.val - 1) (Nat.lt_of_le_of_lt (Nat.sub_le _ _) t.isLt)).2.2 u j

/-- After point `n` the running row holds the zero word plus the sum of the array's first `4000·(n+1)` rows: by
    induction on the point. -/
theorem run7 (c : Dev nD) : ∀ (n : ℕ) (h : n < cfg0.N) (u : Fin 1) (j : Fin 128),
    ((outs0 V c n h).2.2 : S1x128.Idx → EReal) (ix2 u j)
      = Ideal.ofBits .f32 0x00000000#32 + ∑ x ∈ Finset.range (4000 * (n + 1)), cpreSqNat V c j x
  | 0, h, u, j => by
    refine (outs7_first V c ⟨0, h⟩ rfl u j).trans ?_
    rw [blockSum7_eq V c ⟨0, h⟩ j]
    show _ + ∑ x ∈ Finset.range 4000, cpreSqNat V c j (4000 * 0 + x) = _ + ∑ x ∈ Finset.range (4000 * (0 + 1)), cpreSqNat V c j x
    simp only [Nat.mul_zero, Nat.zero_add, Nat.mul_one]
  | n + 1, h, u, j => by
    refine (outs7_later V c ⟨n + 1, h⟩ (Nat.succ_ne_zero n) u j).trans ?_
    have ih := run7 c n (Nat.lt_of_succ_lt h) u j
    refine (congrArg₂ (· + ·) ih (blockSum7_eq V c ⟨n + 1, h⟩ j)).trans ?_
    show _ + _ + ∑ x ∈ Finset.range 4000, cpreSqNat V c j (4000 * (n + 1) + x) = _
    rw [add_assoc, ← Finset.sum_range_add, show 4000 * (n + 1) + 4000 = 4000 * (n + 1 + 1) by omega]

/-- After the last point: the zero word plus the sum over all 500000 rows. -/
theorem out7_last (c : Dev nD) (t : Fin cfg0.N) (h124 : t.val = 124) (u : Fin 1) (j : Fin 128) :
    ((outs0 V c t.val t.isLt).2.2 : S1x128.Idx → EReal) (ix2 u j)
      = Ideal.ofBits .f32 0x00000000#32 + ∑ r : Fin 500000, cpreRow (V c main_v46 : S500000x384.Idx → EReal) (V c main_v50 : S1x384.Idx → EReal) (V c main_v51 : S1x384.Idx → EReal) (V c main_v48 : S384x128.Idx → EReal) (V c main_v49 : S1x128.Idx → EReal) r j * cpreRow (V c main_v46 : S500000x384.Idx → EReal) (V c main_v50 : S1x384.Idx → EReal) (V c main_v51 : S1x384.Idx → EReal) (V c main_v48 : S384x128.Idx → EReal) (V c main_v49 : S1x128.Idx → EReal) r j := by
  refine (run7 V c t.val t.isLt u j).trans ?_
  rw [h124]
  show _ + ∑ x ∈ Finset.range 500000, cpreSqNat V c j x = _
  rw [← Fin.sum_univ_eq_sum_range (fun x => cpreSqNat V c j x) 500000]
  refine congrArg (Ideal.ofBits .f32 0x00000000#32 + ·) (Finset.sum_congr rfl fun r _ => ?_)
  unfold cpreSqNat
  rw [dif_pos r.isLt]

/-- The column sums of squares of the projected array, as the contents of the one-row result array. -/
def sumsqArr (c : Dev nD) : S1x128.Idx → EReal := fun i =>
  Ideal.ofBits .f32 0x00000000#32 + ∑ r : Fin 500000, cpreRow (V c main_v46 : S500000x384.Idx → EReal) (V c main_v50 : S1x384.Idx → EReal) (V c main_v51 : S1x384.Idx → EReal) (V c main_v48 : S384x128.Idx → EReal) (V c main_v49 : S1x128.Idx → EReal) r (⟨(i 1).val, idx2_lt1 i⟩ : Fin 128) * cpreRow (V c main_v46 : S500000x384.Idx → EReal) (V c main_v50 : S1x384.Idx → EReal) (V c main_v51 : S1x384.Idx → EReal) (V c main_v48 : S384x128.Idx → EReal) (V c main_v49 : S1x128.Idx → EReal) r (⟨(i 1).val, idx2_lt1 i⟩ : Fin 128)

/-- The one write-back, at the last point, writes that row: the window's block is the whole array. -/
theorem flushed0_7_eq (c : Dev nD) (t : Fin cfg0.N) (hf : (cfg0.win 7).flush t = true) :
    (dat0 V c).flushed 7 t = ((cfg0.win 7).blk t).view.read (Elt Ideal) (sumsqArr V c) := by
  have h2 : t.val < 125 := lt_of_lt_of_eq t.isLt N_0
  have h124 : t.val = 124 := by have h1 := (flush0_7 t).mp hf; omega
  show (cfg0.win 7).cut (grid0.coords t) ((dat0 V c).after 7 t) = _
  rw [after0_7]
  obtain ⟨-, -, -, -, -, -, -, -, -, -, -, -, -, -, e0, e1⟩ := idx0 t
  funext y
  obtain ⟨u, j, rfl⟩ : ∃ (u : Fin 1) (j : Fin 128), y = ix2 u j := ⟨y 0, y 1, eq_ix2 y⟩
  show ((outs0 V c t.val t.isLt).2.2 : S1x128.Idx → EReal) (ix2 u j) = sumsqArr V c (((cfg0.win 7).blk t).view.emb (ix2 u j))
  refine (out7_last V c t h124 u j).trans ?_
  unfold sumsqArr
  have hj : (⟨(((cfg0.win 7).blk t).view.emb (ix2 u j) (1 : Fin 2)).val, idx2_lt1 _⟩ : Fin 128) = j := by
    apply Fin.ext
    show win0_7.index t (1 : Fin 2) * 128 + 1 * j.val = j.val
    rw [e1]; omega
  rw [hj]

theorem mem_blk0_7 (t : Fin cfg0.N) (i : S1x128.Idx) :
    i ∈ ((cfg0.win 7).blk t).view.set ↔ ∀ a : Fin 2, win0_7.index t a * S1x128.size a ≤ (i a).val
      ∧ (i a).val < win0_7.index t a * S1x128.size a + S1x128.size a := by
  show i ∈ ((View.whole main_v52_2).slice (win0_7.rect t)).set ↔ _
  rw [View.set_slice_whole, Rect.mem_set_unit]
  exact Iff.rfl

/-- The last point's block is the whole one-row array. -/
theorem cover0_7 (i : S1x128.Idx) :
    ∃ t : Fin cfg0.N, (cfg0.win 7).flush t = true ∧ i ∈ ((cfg0.win 7).blk t).view.set := by
  have hi0 : (i 0).val < 1 := idx2_lt0 i
  have hi1 : (i 1).val < 128 := idx2_lt1 i
  have hN : cfg0.N = 125 := N_0
  have hlt : 124 < cfg0.N := by rw [hN]; omega
  obtain ⟨-, -, -, -, -, -, -, -, -, -, -, -, -, -, e0, e1⟩ := idx0 ⟨124, hlt⟩
  refine ⟨⟨124, hlt⟩, (flush0_7 ⟨124, hlt⟩).mpr rfl, ?_⟩
  rw [mem_blk0_7]
  intro a
  match a with
  | ⟨0, _⟩ =>
    show win0_7.index ⟨124, hlt⟩ (0 : Fin 2) * 1 ≤ (i 0).val ∧ (i 0).val < win0_7.index ⟨124, hlt⟩ (0 : Fin 2) * 1 + 1
    rw [e0]; omega
  | ⟨1, _⟩ =>
    show win0_7.index ⟨124, hlt⟩ (1 : Fin 2) * 128 ≤ (i 1).val ∧ (i 1).val < win0_7.index ⟨124, hlt⟩ (1 : Fin 2) * 128 + 128
    rw [e1]; omega

/-- The result array ends holding the column sums of squares of the projected array. -/
theorem final0_7 (c : Dev nD) : (dat0 V c).arrAt 7 cfg0.N = sumsqArr V c :=
  (dat0 V c).arrAt_eq_of_cover 7 (sumsqArr V c) (flushed0_7_eq V c) cover0_7

end Cert.KernelIdeal.KVal

end
-- ==== Proof.KH.Final.lean ====
import proofs.«114553_j89962384982591_1_alg».proof.Proof.KH.Glue
import proofs.«114553_j89962384982591_1_alg».proof.Proof.KV.Arr0

/-!
# The two Pallas calls' results, with nothing assumed

The first call leaves, in its three result arrays, its row formula over the operands it found: the
formula itself row by row, its column sums from the zero word, and the column sums of its squares.
On the operands the first stretch of host operations lays out that formula is the linear layer of
the folded arrangement, so the three arrays are the linear layer, its column sums and its column
sums of squares; the second call's results are then the specification's attention factors and
scaled messages.
-/

set_option maxRecDepth 16384

noncomputable section

namespace Cert.KernelIdeal.KHost

open Cert.KernelIdeal Cert.KernelIdeal.Gen Cert.KernelIdeal.Frame
open Idealize.ShloMosaic Idealize.ShloMosaic.TcCoe Idealize.ShloMosaic.ValueIdx
open Idealize.SL.Sem Idealize.ShloMosaic.StableHlo
open Cert.Bridge (Arr1 Arr2)

variable (m : (ℓ : Loc nD τ sig) → Buf (Elt Ideal) ℓ) (c : Dev nD)

/-- The first call's main result is the linear layer. -/
theorem C1K_apply (r : Fin 500000) (j : Fin 128) :
    C1K m c (ix2 r j) = Cert.Bridge.cpre (hK m c) (x7 m c) (x8 m c) (x3 m c) (x4 m c) r j := by
  have e : X2 m c main_v52_0 = KVal.cpreArr (E1 m) c := (X2_arr m c 5).trans (KVal.final0_5 (E1 m) c)
  refine (congrFun e (ix2 r j)).trans ?_
  exact cpreRow_V1 m c r j

/-- Its second result is the linear layer's column sums. -/
theorem S1K_apply (j : Fin 128) :
    S1K m c (ix2 (0 : Fin 1) j) = Cert.Bridge.sum1 (hK m c) (x7 m c) (x8 m c) (x3 m c) (x4 m c) j := by
  have e : X2 m c main_v52_1 = KVal.sumArr (E1 m) c := (X2_arr m c 6).trans (KVal.final0_6 (E1 m) c)
  refine (congrFun e (ix2 (0 : Fin 1) j)).trans ?_
  exact sum_cpreRow_V1 m c j

/-- Its third result is the column sums of the linear layer's squares. -/
theorem Q1K_apply (j : Fin 128) :
    Q1K m c (ix2 (0 : Fin 1) j) = Cert.Bridge.sumsq1 (hK m c) (x7 m c) (x8 m c) (x3 m c) (x4 m c) j := by
  have e : X2 m c main_v52_2 = KVal.sumsqArr (E1 m) c := (X2_arr m c 7).trans (KVal.final0_7 (E1 m) c)
  refine (congrFun e (ix2 (0 : Fin 1) j)).trans ?_
  exact sumsq_cpreRow_V1 m c j

/-- The attention factors the second call leaves are the specification's. -/
theorem X4_v70_1_eq :
    X4 m c main_v70_1
      = Cert.Bridge.ebSpec (hK m c) (x3 m c) (x4 m c) (x5 m c) (x6 m c) (x7 m c) (x8 m c) (x9 m c) (x10 m c) :=
  X4_v70_1 m c (C1K_apply m c) (S1K_apply m c) (Q1K_apply m c)

/-- The scaled messages the second call leaves are the specification's. -/
theorem X4_v70_0_eq :
    X4 m c main_v70_0
      = Cert.Bridge.temp1Spec (hK m c) (x3 m c) (x4 m c) (x5 m c) (x6 m c) (x7 m c) (x8 m c) (x9 m c) (x10 m c) :=
  X4_v70_0 m c (C1K_apply m c) (S1K_apply m c) (Q1K_apply m c)

end Cert.KernelIdeal.KHost

end
-- ==== Proof.Alg.lean ====
/-
  The value claim. On each core the kernel's program ends with its two results at the shared last stretch of host
  operations applied to what its second Pallas call left — the attention factors and the scaled messages, which are the
  folded batch-normalisation arrangement of the gathered rows h — and the reference's program ends at the same
  stretch applied to its own factors and messages, which for finite inputs are that same arrangement of the same h.
-/
import proofs.«114553_j89962384982591_1_alg».proof.Defs
import proofs.«114553_j89962384982591_1_alg».proof.Proof.Gen.Pre_finite_inputs
import proofs.«114553_j89962384982591_1_alg».proof.Proof.KI.Run
import proofs.«114553_j89962384982591_1_alg».proof.Proof.KI.Tail
import proofs.«114553_j89962384982591_1_alg».proof.Proof.Bridge.RefIsSpec
import proofs.«114553_j89962384982591_1_alg».proof.Proof.Bridge.RefRun
import proofs.«114553_j89962384982591_1_alg».proof.Proof.Bridge.Finite
import proofs.«114553_j89962384982591_1_alg».proof.Proof.Bridge.FiniteH
import proofs.«114553_j89962384982591_1_alg».proof.Proof.KH.Final

set_option maxRecDepth 16384

noncomputable section

namespace Cert.Alg

open Cert.KernelIdeal Cert.KernelIdeal.Gen Cert.KernelIdeal.Frame Cert.KernelIdeal.Tail
open Idealize.ShloMosaic Idealize.ShloMosaic.TcCoe Idealize.SL.Sem
open Cert.ReferenceIdeal.ReadP (val_main_v1 val_main_v3 val_main_v5 val_main_v30 val_main_v97 val_main_v100 val_main_v111 val_main_v123)

/-- The precondition's stated side conditions, as the certificate witnesses them. -/
local instance : Cert.Pre_finite_inputs.Facts := Cert.Pre_finite_inputs.Gen.facts

/-- What the kernel's side owes: its gathered rows and index columns are the reference's own terms of the
    arguments, and its second Pallas call leaves the folded arrangement of those rows. -/
structure KernelSide : Prop where
  rows : ∀ (m : (ℓ : Loc nD τ sig) → Buf (Elt Ideal) ℓ) (c : Dev nD),
    Gen.V1 m c main_v30 = val_main_v30 (F := Ideal) (m ((c.tc : Thread nD τ).loc main_arg0)) (m ((c.tc : Thread nD τ).loc main_arg1)) (m ((c.tc : Thread nD τ).loc main_arg2))
  idx1 : ∀ (m : (ℓ : Loc nD τ sig) → Buf (Elt Ideal) ℓ) (c : Dev nD), Gen.V1 m c main_v1 = val_main_v1 (F := Ideal) (m ((c.tc : Thread nD τ).loc main_arg0))
  idx3 : ∀ (m : (ℓ : Loc nD τ sig) → Buf (Elt Ideal) ℓ) (c : Dev nD), Gen.V1 m c main_v3 = val_main_v3 (F := Ideal) (m ((c.tc : Thread nD τ).loc main_arg0))
  idx5 : ∀ (m : (ℓ : Loc nD τ sig) → Buf (Elt Ideal) ℓ) (c : Dev nD), Gen.V1 m c main_v5 = val_main_v5 (F := Ideal) (m ((c.tc : Thread nD τ).loc main_arg0))
  eb : ∀ (m : (ℓ : Loc nD τ sig) → Buf (Elt Ideal) ℓ) (c : Dev nD),
    X4 m c main_v70_1 = Cert.Bridge.ebSpec (Gen.V1 m c main_v30) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
  t1 : ∀ (m : (ℓ : Loc nD τ sig) → Buf (Elt Ideal) ℓ) (c : Dev nD),
    X4 m c main_v70_0 = Cert.Bridge.temp1Spec (Gen.V1 m c main_v30) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

section
variable (K : KernelSide) (m : (ℓ : Loc nD τ sig) → Buf (Elt Ideal) ℓ) (c : Dev nD)
  (hp : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) = fun _ => 1#1)

include K hp in
/-- The first result: the kernel's is the reference's term of the same arguments. -/
theorem key_ent : X7 m c main_v82 = val_main_v111 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  obtain ⟨r1, r2, r3, r4, r5, r6, r7, r8, r9, r10⟩ := Cert.Bridge.real_of_finite_inputs _ _ _ _ _ _ _ _ _ _ _ hp
  have hh := Cert.Bridge.rows_real (m ((c.tc : Thread nD τ).loc main_arg0)) (m ((c.tc : Thread nD τ).loc main_arg1)) (m ((c.tc : Thread nD τ).loc main_arg2)) r1 r2
  rw [ker_ent, K.eb, K.t1, X4_keeps m c main_v1 (by decide) (by decide) (by decide), X4_keeps m c main_v3 (by decide) (by decide) (by decide),
    K.idx1, K.idx3, K.rows, ref_ent,
    Cert.Bridge.ref_eb _ _ _ _ _ _ _ _ _ _ _ hh r3 r4 r7 r8 r9 r10, Cert.Bridge.ref_temp1 _ _ _ _ _ _ _ _ _ _ _ hh r3 r4 r7 r8 r9 r10]

include K hp in
/-- The second result likewise. -/
theorem key_rel : X7 m c main_v94 = val_main_v123 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  obtain ⟨r1, r2, r3, r4, r5, r6, r7, r8, r9, r10⟩ := Cert.Bridge.real_of_finite_inputs _ _ _ _ _ _ _ _ _ _ _ hp
  have hh := Cert.Bridge.rows_real (m ((c.tc : Thread nD τ).loc main_arg0)) (m ((c.tc : Thread nD τ).loc main_arg1)) (m ((c.tc : Thread nD τ).loc main_arg2)) r1 r2
  rw [ker_rel, K.t1, X4_keeps m c main_v5 (by decide) (by decide) (by decide), K.idx5, K.rows, ref_rel,
    Cert.Bridge.ref_temp1 _ _ _ _ _ _ _ _ _ _ _ hh r3 r4 r7 r8 r9 r10]
end

/-- What the reference's side owes: one run ending with the two results at the reference's own terms of the
    arguments and with the arguments unchanged. -/
def RefSide : Prop :=
  ∀ (m' : (ℓ : Loc Cert.ReferenceIdeal.nD Cert.ReferenceIdeal.τ Cert.ReferenceIdeal.sig) → Buf (Elt Ideal) ℓ) (ρ' : Dev Cert.ReferenceIdeal.nD → PrngReg),
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v111) = val_main_v111 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))
      ∧ r.2.mem ((c.tc : Thread Cert.ReferenceIdeal.nD Cert.ReferenceIdeal.τ).loc Cert.ReferenceIdeal.main_v123) = val_main_v123 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

/-- The value claim, given the two sides. -/
theorem algebraic_of (K : KernelSide) (R : RefSide) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' hpre hagree
  refine ⟨fun c => X7 m c main_v82, fun c => X7 m c main_v94, ?_, ?_⟩
  · exact (θ_run (Cert.KernelIdeal.defs (F := Ideal)) _ _).mono (fun r h c => ⟨h c _ (mem_uc main_v82 (by decide)), h c _ (mem_uc main_v94 (by decide)),
      (h c _ (mem_uc main_arg0 (by decide))).trans (X7_arg m c main_arg0 (Gen.V7_main_arg0 m (outs m) c)),
      (h c _ (mem_uc main_arg1 (by decide))).trans (X7_arg m c main_arg1 (Gen.V7_main_arg1 m (outs m) c)),
      (h c _ (mem_uc main_arg2 (by decide))).trans (X7_arg m c main_arg2 (Gen.V7_main_arg2 m (outs m) c)),
      (h c _ (mem_uc main_arg3 (by decide))).trans (X7_arg m c main_arg3 (Gen.V7_main_arg3 m (outs m) c)),
      (h c _ (mem_uc main_arg4 (by decide))).trans (X7_arg m c main_arg4 (Gen.V7_main_arg4 m (outs m) c)),
      (h c _ (mem_uc main_arg5 (by decide))).trans (X7_arg m c main_arg5 (Gen.V7_main_arg5 m (outs m) c)),
      (h c _ (mem_uc main_arg6 (by decide))).trans (X7_arg m c main_arg6 (Gen.V7_main_arg6 m (outs m) c)),
      (h c _ (mem_uc main_arg7 (by decide))).trans (X7_arg m c main_arg7 (Gen.V7_main_arg7 m (outs m) c)),
      (h c _ (mem_uc main_arg8 (by decide))).trans (X7_arg m c main_arg8 (Gen.V7_main_arg8 m (outs m) c)),
      (h c _ (mem_uc main_arg9 (by decide))).trans (X7_arg m c main_arg9 (Gen.V7_main_arg9 m (outs m) c)),
      (h c _ (mem_uc main_arg10 (by decide))).trans (X7_arg m c main_arg10 (Gen.V7_main_arg10 m (outs m) c))⟩) (run_all m ρ)
  · refine (θ_run (Cert.ReferenceIdeal.defs (F := Ideal)) _ _).mono (fun r h c => ?_) (R m' ρ')
    obtain ⟨h111, h123, a0, a1, a2, a3, a4, a5, a6, a7, a8, a9, a10⟩ := h c
    obtain ⟨e0, e1, e2, e3, e4, e5, e6, e7, e8, e9, e10⟩ := hagree c
    refine ⟨h111.trans ?_, h123.trans ?_, a0, a1, a2, a3, a4, a5, a6, a7, a8, a9, a10⟩
    · rw [e0, e1, e2, e3, e4, e5, e6, e7, e8, e9, e10]; exact (key_ent K m c (hpre c)).symm
    · rw [e0, e1, e2, e3, e4, e5, e6, e7, e8, e9, e10]; exact (key_rel K m c (hpre c)).symm

/-- The kernel's side holds: its opening host operations are the reference's, and its two Pallas calls and the host
    operations between them compute the folded arrangement. -/
theorem kernelSide : KernelSide :=
  ⟨fun m c => Cert.KernelIdeal.KHost.V1_v30 m c, fun m c => Cert.KernelIdeal.KHost.V1_v1 m c, fun m c => Cert.KernelIdeal.KHost.V1_v3 m c,
   fun m c => Cert.KernelIdeal.KHost.V1_v5 m c, fun m c => Cert.KernelIdeal.KHost.X4_v70_1_eq m c, fun m c => Cert.KernelIdeal.KHost.X4_v70_0_eq m c⟩

theorem algebraic :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) :=
  algebraic_of kernelSide fun m' ρ' => Cert.Bridge.run_ref (F := Ideal) m' ρ'

end Cert.Alg

end
-- ==== Proof.lean ====
/-
  The certificate's five claims for the two-call message-passing kernel against its jnp reference.
  Frames: the kernel's program (at the word level and at the exact-arithmetic instance) is run as a chain of
  segments — host operations, the first Pallas call, host operations, the second Pallas call, host operations — each
  Pallas call by its pipeline's proof data (the body run once per case of its one branch); no segment writes an
  argument. The reference's program is a straight line of host operations, run as the fold of its operations.
  The idealization rewrote nothing, so the fourth claim is trivial.
  Values: both programs gather the same rows h, and end in the same stretch of host operations applied to the
  attention factors and the scaled messages; the kernel computes those with each batch normalisation folded into a
  per-column scale and shift and each variance as the mean of squares minus the squared mean, the reference with the
  centred form. For finite inputs every intermediate is a real number and the two arrangements agree.
-/
import proofs.«114553_j89962384982591_1_alg».proof.Defs
import proofs.«114553_j89962384982591_1_alg».proof.Proof.Gen.Kernel
import proofs.«114553_j89962384982591_1_alg».proof.Proof.Gen.KernelIdeal
import proofs.«114553_j89962384982591_1_alg».proof.Proof.Gen.ReferenceIdeal
import proofs.«114553_j89962384982591_1_alg».proof.Proof.Gen.Pre_finite_inputs
import proofs.«114553_j89962384982591_1_alg».proof.Proof.K.Run
import proofs.«114553_j89962384982591_1_alg».proof.Proof.KI.Run
import proofs.«114553_j89962384982591_1_alg».proof.Proof.Bridge.RefRun
import proofs.«114553_j89962384982591_1_alg».proof.Proof.Alg
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Frame.frame_all (F := Bits) m ρ

theorem frame_ki : Cert.frame_KernelIdeal (hKernelIdeal := Cert.KernelIdeal.Gen.facts) (hPre_finite_inputs := Cert.Pre_finite_inputs.Gen.facts) :=
  fun m ρ _ => Cert.KernelIdeal.Frame.frame_all (F := Ideal) m ρ

theorem frame_ri : Cert.frame_ReferenceIdeal (hReferenceIdeal := Cert.ReferenceIdeal.Gen.facts) (hPre_finite_inputs := Cert.Pre_finite_inputs.Gen.facts) :=
  fun m ρ _ => Cert.Bridge.frame_ref (F := Ideal) m ρ

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Alg.algebraic⟩

end Cert.Proof

end
